-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S116x122 : Shape := ⟨2, ![116, 122]⟩
abbrev S6670x5 : Shape := ⟨2, ![6670, 5]⟩
abbrev S2x6670 : Shape := ⟨2, ![2, 6670]⟩
abbrev S122x64 : Shape := ⟨2, ![122, 64]⟩
abbrev S64 : Shape := ⟨1, ![64]⟩
abbrev S64x64 : Shape := ⟨2, ![64, 64]⟩
abbrev S1x5 : Shape := ⟨2, ![1, 5]⟩
abbrev S5x5 : Shape := ⟨2, ![5, 5]⟩
abbrev S5 : Shape := ⟨1, ![5]⟩
abbrev S1x64 : Shape := ⟨2, ![1, 64]⟩
abbrev S64x4 : Shape := ⟨2, ![64, 4]⟩
abbrev S4 : Shape := ⟨1, ![4]⟩
abbrev S_ : Shape := ⟨0, ![]⟩

class Facts : Prop where
  bcast_S_S116x122 : S_.BroadcastsInDim S116x122 (![] : Fin 0 → Fin S116x122.rank)
  reducesTo_S116x122_S_d0_1 : S116x122.ReducesTo [0, 1] S_
  h_S_ : 0 < S_.numel
  bcast_S_S6670x5 : S_.BroadcastsInDim S6670x5 (![] : Fin 0 → Fin S6670x5.rank)
  reducesTo_S6670x5_S_d0_1 : S6670x5.ReducesTo [0, 1] S_
  bcast_S_S122x64 : S_.BroadcastsInDim S122x64 (![] : Fin 0 → Fin S122x64.rank)
  reducesTo_S122x64_S_d0_1 : S122x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x5 : S_.BroadcastsInDim S1x5 (![] : Fin 0 → Fin S1x5.rank)
  reducesTo_S1x5_S_d0_1 : S1x5.ReducesTo [0, 1] S_
  bcast_S_S5x5 : S_.BroadcastsInDim S5x5 (![] : Fin 0 → Fin S5x5.rank)
  reducesTo_S5x5_S_d0_1 : S5x5.ReducesTo [0, 1] S_
  bcast_S_S5 : S_.BroadcastsInDim S5 (![] : Fin 0 → Fin S5.rank)
  reducesTo_S5_S_d0 : S5.ReducesTo [0] S_
  bcast_S_S1x64 : S_.BroadcastsInDim S1x64 (![] : Fin 0 → Fin S1x64.rank)
  reducesTo_S1x64_S_d0_1 : S1x64.ReducesTo [0, 1] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part4 {F : FTy → Type} [FloatOps F] (main_arg15 : FVec F S4 .f32) (main_v63 : IVec S_ 1) (main_v67 : IVec S_ 1) : IVec S_ 1 :=
  let main_v68 : IVec S_ 1 := andi main_v63 main_v67
  let main_v69 : FVec F S4 .f32 := Host.absf main_arg15
  let main_cst_26 : FVec F S_ .f32 := constant S_ .f32 0x7F800000#32
  let main_v70 : FVec F S4 .f32 := broadcastInDim S4 ![] bcast_S_S4 main_cst_26
  let main_v71 : IVec S4 1 := cmpf .olt main_v69 main_v70
  let main_c_27 : IVec S_ 1 := constantI S_ 1 1#1
  let main_v72 : IVec S_ 1 := (fun x v => Host.reduce IntOp.andi x v reducesTo_S4_S_d0 h_S_) main_v71 main_c_27
  let main_v73 : IVec S_ 1 := andi main_v68 main_v72
  main_v73

def fn_part3 {F : FTy → Type} [FloatOps F] (main_arg12 : FVec F S64 .f32) (main_arg13 : FVec F S1x5 .f32) (main_arg14 : FVec F S64x4 .f32) (main_arg15 : FVec F S4 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S1x5 .f32 := Host.absf main_arg13
  let main_cst_22 : FVec F S_ .f32 := constant S_ .f32 0x7F800000#32
  let main_v60 : FVec F S1x5 .f32 := broadcastInDim S1x5 ![] bcast_S_S1x5 main_cst_22
  let main_v61 : IVec S1x5 1 := cmpf .olt main_v59 main_v60
  let main_c_23 : IVec S_ 1 := constantI S_ 1 1#1
  let main_v62 : IVec S_ 1 := (fun x v => Host.reduce IntOp.andi x v reducesTo_S1x5_S_d0_1 h_S_) main_v61 main_c_23
  let main_v63 : IVec S_ 1 := andi main_v58 main_v62
  let main_v64 : FVec F S64x4 .f32 := Host.absf main_arg14
  let main_cst_24 : FVec F S_ .f32 := constant S_ .f32 0x7F800000#32
  let main_v65 : FVec F S64x4 .f32 := broadcastInDim S64x4 ![] bcast_S_S64x4 main_cst_24
  let main_v66 : IVec S64x4 1 := cmpf .olt main_v64 main_v65
  let main_c_25 : IVec S_ 1 := constantI S_ 1 1#1
  let main_v67 : IVec S_ 1 := (fun x v => Host.reduce IntOp.andi x v reducesTo_S64x4_S_d0_1 h_S_) main_v66 main_c_25
  fn_part4 (F := F) main_arg15 main_v63 main_v67

def fn_part2 {F : FTy → Type} [FloatOps F] (main_arg8 : FVec F S5x5 .f32) (main_arg9 : FVec F S5 .f32) (main_arg10 : FVec F S1x64 .f32) (main_arg11 : FVec F S64x64 .f32) (main_arg12 : FVec F S64 .f32) (main_arg13 : FVec F S1x5 .f32) (main_arg14 : FVec F S64x4 .f32) (main_arg15 : FVec F S4 .f32) (main_v33 : IVec S_ 1) : IVec S_ 1 :=
  let main_v34 : FVec F S5x5 .f32 := Host.absf main_arg8
  let main_cst_12 : FVec F S_ .f32 := constant S_ .f32 0x7F800000#32
  let main_v35 : FVec F S5x5 .f32 := broadcastInDim S5x5 ![] bcast_S_S5x5 main_cst_12
  let main_v36 : IVec S5x5 1 := cmpf .olt main_v34 main_v35
  let main_c_13 : IVec S_ 1 := constantI S_ 1 1#1
  let main_v37 : IVec S_ 1 := (fun x v => Host.reduce IntOp.andi x v reducesTo_S5x5_S_d0_1 h_S_) main_v36 main_c_13
  let main_v38 : IVec S_ 1 := andi main_v33 main_v37
  let main_v39 : FVec F S5 .f32 := Host.absf main_arg9
  let main_cst_14 : FVec F S_ .f32 := constant S_ .f32 0x7F800000#32
  let main_v40 : FVec F S5 .f32 := broadcastInDim S5 ![] bcast_S_S5 main_cst_14
  let main_v41 : IVec S5 1 := cmpf .olt main_v39 main_v40
  let main_c_15 : IVec S_ 1 := constantI S_ 1 1#1
  let main_v42 : IVec S_ 1 := (fun x v => Host.reduce IntOp.andi x v reducesTo_S5_S_d0 h_S_) main_v41 main_c_15
  let main_v43 : IVec S_ 1 := andi main_v38 main_v42
  let main_v44 : FVec F S1x64 .f32 := Host.absf main_arg10
  let main_cst_16 : FVec F S_ .f32 := constant S_ .f32 0x7F800000#32
  let main_v45 : FVec F S1x64 .f32 := broadcastInDim S1x64 ![] bcast_S_S1x64 main_cst_16
  let main_v46 : IVec S1x64 1 := cmpf .olt main_v44 main_v45
  let main_c_17 : IVec S_ 1 := constantI S_ 1 1#1
  let main_v47 : IVec S_ 1 := (fun x v => Host.reduce IntOp.andi x v reducesTo_S1x64_S_d0_1 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_v48 main_v49 main_v50

def fn_part1 {F : FTy → Type} [FloatOps F] (main_arg5 : FVec F S64x64 .f32) (main_arg6 : FVec F S64 .f32) (main_arg7 : FVec F S1x5 .f32) (main_arg8 : FVec F S5x5 .f32) (main_arg9 : FVec F S5 .f32) (main_arg10 : FVec F S1x64 .f32) (main_arg11 : FVec F S64x64 .f32) (main_arg12 : FVec F S64 .f32) (main_arg13 : FVec F S1x5 .f32) (main_arg14 : FVec F S64x4 .f32) (main_arg15 : FVec F S4 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1x5 .f32 := Host.absf main_arg7
  let main_cst_10 : FVec F S_ .f32 := constant S_ .f32 0x7F800000#32
  let main_v30 : FVec F S1x5 .f32 := broadcastInDim S1x5 ![] bcast_S_S1x5 main_cst_10
  let main_v31 : IVec S1x5 1 := cmpf .olt main_v29 main_v30
  let main_c_11 : IVec S_ 1 := constantI S_ 1 1#1
  let main_v32 : IVec S_ 1 := (fun x v => Host.reduce IntOp.andi x v reducesTo_S1x5_S_d0_1 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S116x122 .f32) (main_arg1 : FVec F S6670x5 .f32) (main_arg2 : IVec S2x6670 32) (main_arg3 : FVec F S122x64 .f32) (main_arg4 : FVec F S64 .f32) (main_arg5 : FVec F S64x64 .f32) (main_arg6 : FVec F S64 .f32) (main_arg7 : FVec F S1x5 .f32) (main_arg8 : FVec F S5x5 .f32) (main_arg9 : FVec F S5 .f32) (main_arg10 : FVec F S1x64 .f32) (main_arg11 : FVec F S64x64 .f32) (main_arg12 : FVec F S64 .f32) (main_arg13 : FVec F S1x5 .f32) (main_arg14 : FVec F S64x4 .f32) (main_arg15 : FVec F S4 .f32) : IVec S_ 1 :=
  let main_v0 : FVec F S116x122 .f32 := Host.absf main_arg0
  let main_cst : FVec F S_ .f32 := constant S_ .f32 0x7F800000#32
  let main_v1 : FVec F S116x122 .f32 := broadcastInDim S116x122 ![] bcast_S_S116x122 main_cst
  let main_v2 : IVec S116x122 1 := cmpf .olt main_v0 main_v1
  let main_c : IVec S_ 1 := constantI S_ 1 1#1
  let main_v3 : IVec S_ 1 := (fun x v => Host.reduce IntOp.andi x v reducesTo_S116x122_S_d0_1 h_S_) main_v2 main_c
  let main_v4 : FVec F S6670x5 .f32 := Host.absf main_arg1
  let main_cst_0 : FVec F S_ .f32 := constant S_ .f32 0x7F800000#32
  let main_v5 : FVec F S6670x5 .f32 := broadcastInDim S6670x5 ![] bcast_S_S6670x5 main_cst_0
  let main_v6 : IVec S6670x5 1 := cmpf .olt main_v4 main_v5
  let main_c_1 : IVec S_ 1 := constantI S_ 1 1#1
  let main_v7 : IVec S_ 1 := (fun x v => Host.reduce IntOp.andi x v reducesTo_S6670x5_S_d0_1 h_S_) main_v6 main_c_1
  let main_v8 : IVec S_ 1 := andi main_v3 main_v7
  let main_v9 : FVec F S122x64 .f32 := Host.absf main_arg3
  let main_cst_2 : FVec F S_ .f32 := constant S_ .f32 0x7F800000#32
  let main_v10 : FVec F S122x64 .f32 := broadcastInDim S122x64 ![] bcast_S_S122x64 main_cst_2
  let main_v11 : IVec S122x64 1 := cmpf .olt main_v9 main_v10
  let main_c_3 : IVec S_ 1 := constantI S_ 1 1#1
  let main_v12 : IVec S_ 1 := (fun x v => Host.reduce IntOp.andi x v reducesTo_S122x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S116x122 : Shape := ⟨2, ![116, 122]⟩
abbrev S6670x5 : Shape := ⟨2, ![6670, 5]⟩
abbrev S2x6670 : Shape := ⟨2, ![2, 6670]⟩
abbrev S122x64 : Shape := ⟨2, ![122, 64]⟩
abbrev S64 : Shape := ⟨1, ![64]⟩
abbrev S64x64 : Shape := ⟨2, ![64, 64]⟩
abbrev S1x5 : Shape := ⟨2, ![1, 5]⟩
abbrev S5x5 : Shape := ⟨2, ![5, 5]⟩
abbrev S5 : Shape := ⟨1, ![5]⟩
abbrev S1x64 : Shape := ⟨2, ![1, 64]⟩
abbrev S64x4 : Shape := ⟨2, ![64, 4]⟩
abbrev S4 : Shape := ⟨1, ![4]⟩
abbrev S6670 : Shape := ⟨1, ![6670]⟩
abbrev S_ : Shape := ⟨0, ![]⟩
abbrev S116x6670 : Shape := ⟨2, ![116, 6670]⟩
abbrev S1x6670 : Shape := ⟨2, ![1, 6670]⟩
abbrev S6670x1 : Shape := ⟨2, ![6670, 1]⟩
abbrev S6670x2 : Shape := ⟨2, ![6670, 2]⟩
abbrev S116x7168 : Shape := ⟨2, ![116, 7168]⟩
abbrev S116x64 : Shape := ⟨2, ![116, 64]⟩
abbrev S116x116 : Shape := ⟨2, ![116, 116]⟩
abbrev S64x1 : Shape := ⟨2, ![64, 1]⟩
abbrev S116x1 : Shape := ⟨2, ![116, 1]⟩
abbrev S7168x5 : Shape := ⟨2, ![7168, 5]⟩
abbrev S1x7168 : Shape := ⟨2, ![1, 7168]⟩
abbrev S116x512 : Shape := ⟨2, ![116, 512]⟩
abbrev S1x512 : Shape := ⟨2, ![1, 512]⟩
abbrev S512x512 : Shape := ⟨2, ![512, 512]⟩
abbrev S512 : Shape := ⟨1, ![512]⟩
abbrev S512x5 : Shape := ⟨2, ![512, 5]⟩
abbrev S1x4 : Shape := ⟨2, ![1, 4]⟩

abbrev nBuf : Space → Nat
  | .hbm => 105
  | .vmem => 35
  | .smem => 0
  | _ => 0

abbrev bufTy : (tb : Table) → Fin (tcTables nBuf tb) → BufTy
  | .hbm, ⟨0, _⟩ => ⟨S116x122, .f32⟩
  | .hbm, ⟨1, _⟩ => ⟨S6670x5, .f32⟩
  | .hbm, ⟨2, _⟩ => ⟨S2x6670, .i32⟩
  | .hbm, ⟨3, _⟩ => ⟨S122x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x5, .f32⟩
  | .hbm, ⟨8, _⟩ => ⟨S5x5, .f32⟩
  | .hbm, ⟨9, _⟩ => ⟨S5, .f32⟩
  | .hbm, ⟨10, _⟩ => ⟨S1x64, .f32⟩
  | .hbm, ⟨11, _⟩ => ⟨S64x64, .f32⟩
  | .hbm, ⟨12, _⟩ => ⟨S64, .f32⟩
  | .hbm, ⟨13, _⟩ => ⟨S1x5, .f32⟩
  | .hbm, ⟨14, _⟩ => ⟨S64x4, .f32⟩
  | .hbm, ⟨15, _⟩ => ⟨S4, .f32⟩
  | .hbm, ⟨16, _⟩ => ⟨S6670, .i32⟩
  | .hbm, ⟨17, _⟩ => ⟨S_, .f32⟩
  | .hbm, ⟨18, _⟩ => ⟨S116x6670, .f32⟩
  | .hbm, ⟨19, _⟩ => ⟨S1x6670, .i32⟩
  | .hbm, ⟨20, _⟩ => ⟨S6670, .i32⟩
  | .hbm, ⟨21, _⟩ => ⟨S_, .i32⟩
  | .hbm, ⟨22, _⟩ => ⟨S6670, .i32⟩
  | .hbm, ⟨23, _⟩ => ⟨S6670, .i1⟩
  | .hbm, ⟨24, _⟩ => ⟨S_, .i32⟩
  | .hbm, ⟨25, _⟩ => ⟨S6670, .i32⟩
  | .hbm, ⟨26, _⟩ => ⟨S6670, .i32⟩
  | .hbm, ⟨27, _⟩ => ⟨S6670, .i32⟩
  | .hbm, ⟨28, _⟩ => ⟨S_, .i32⟩
  | .hbm, ⟨29, _⟩ => ⟨S6670, .i32⟩
  | .hbm, ⟨30, _⟩ => ⟨S6670, .i1⟩
  | .hbm, ⟨31, _⟩ => ⟨S_, .i32⟩
  | .hbm, ⟨32, _⟩ => ⟨S6670, .i32⟩
  | .hbm, ⟨33, _⟩ => ⟨S6670, .i32⟩
  | .hbm, ⟨34, _⟩ => ⟨S6670, .i32⟩
  | .hbm, ⟨35, _⟩ => ⟨S6670x1, .i32⟩
  | .hbm, ⟨36, _⟩ => ⟨S6670x1, .i32⟩
  | .hbm, ⟨37, _⟩ => ⟨S6670x2, .i32⟩
  | .hbm, ⟨38, _⟩ => ⟨S_, .f32⟩
  | .hbm, ⟨39, _⟩ => ⟨S6670, .f32⟩
  | .hbm, ⟨40, _⟩ => ⟨S116x6670, .f32⟩
  | .hbm, ⟨41, _⟩ => ⟨S1x6670, .i32⟩
  | .hbm, ⟨42, _⟩ => ⟨S6670, .i32⟩
  | .hbm, ⟨43, _⟩ => ⟨S_, .i32⟩
  | .hbm, ⟨44, _⟩ => ⟨S6670, .i32⟩
  | .hbm, ⟨45, _⟩ => ⟨S6670, .i1⟩
  | .hbm, ⟨46, _⟩ => ⟨S_, .i32⟩
  | .hbm, ⟨47, _⟩ => ⟨S6670, .i32⟩
  | .hbm, ⟨48, _⟩ => ⟨S6670, .i32⟩
  | .hbm, ⟨49, _⟩ => ⟨S6670, .i32⟩
  | .hbm, ⟨50, _⟩ => ⟨S_, .i32⟩
  | .hbm, ⟨51, _⟩ => ⟨S6670, .i32⟩
  | .hbm, ⟨52, _⟩ => ⟨S6670, .i1⟩
  | .hbm, ⟨53, _⟩ => ⟨S_, .i32⟩
  | .hbm, ⟨54, _⟩ => ⟨S6670, .i32⟩
  | .hbm, ⟨55, _⟩ => ⟨S6670, .i32⟩
  | .hbm, ⟨56, _⟩ => ⟨S6670, .i32⟩
  | .hbm, ⟨57, _⟩ => ⟨S6670x1, .i32⟩
  | .hbm, ⟨58, _⟩ => ⟨S6670x1, .i32⟩
  | .hbm, ⟨59, _⟩ => ⟨S6670x2, .i32⟩
  | .hbm, ⟨60, _⟩ => ⟨S_, .f32⟩
  | .hbm, ⟨61, _⟩ => ⟨S6670, .f32⟩
  | .hbm, ⟨62, _⟩ => ⟨S116x6670, .f32⟩
  | .hbm, ⟨63, _⟩ => ⟨S_, .i32⟩
  | .hbm, ⟨64, _⟩ => ⟨S_, .f32⟩
  | .hbm, ⟨65, _⟩ => ⟨S116x7168, .f32⟩
  | .hbm, ⟨66, _⟩ => ⟨S1x64, .f32⟩
  | .hbm, ⟨67, _⟩ => ⟨S1x64, .f32⟩
  | .hbm, ⟨68, _⟩ => ⟨S1x5, .f32⟩
  | .hbm, ⟨69, _⟩ => ⟨S116x64, .f32⟩
  | .hbm, ⟨70, _⟩ => ⟨S1x64, .f32⟩
  | .hbm, ⟨71, _⟩ => ⟨S116x64, .f32⟩
  | .hbm, ⟨72, _⟩ => ⟨S116x64, .f32⟩
  | .hbm, ⟨73, _⟩ => ⟨S116x64, .f32⟩
  | .hbm, ⟨74, _⟩ => ⟨S_, .f32⟩
  | .hbm, ⟨75, _⟩ => ⟨S116x64, .f32⟩
  | .hbm, ⟨76, _⟩ => ⟨S116x64, .f32⟩
  | .hbm, ⟨77, _⟩ => ⟨S_, .f32⟩
  | .hbm, ⟨78, _⟩ => ⟨S6670x5, .f32⟩
  | .hbm, ⟨79, _⟩ => ⟨S6670x5, .f32⟩
  | .hbm, ⟨80, _⟩ => ⟨S64x1, .f32⟩
  | .hbm, ⟨81, _⟩ => ⟨S116x1, .f32⟩
  | .hbm, ⟨82, _⟩ => ⟨S_, .i32⟩
  | .hbm, ⟨83, _⟩ => ⟨S_, .f32⟩
  | .hbm, ⟨84, _⟩ => ⟨S7168x5, .f32⟩
  | .hbm, ⟨85, _⟩ => ⟨S7168x5, .f32⟩
  | .hbm, ⟨86, _⟩ => ⟨S1x7168, .f32⟩
  | .hbm, ⟨87, _⟩ => ⟨S7168x5, .f32⟩
  | .hbm, ⟨88, _⟩ => ⟨S6670x5, .f32⟩
  | .hbm, ⟨89, _⟩ => ⟨S_, .f32⟩
  | .hbm, ⟨90, _⟩ => ⟨S6670x5, .f32⟩
  | .hbm, ⟨91, _⟩ => ⟨S6670x5, .f32⟩
  | .hbm, ⟨92, _⟩ => ⟨S_, .f32⟩
  | .hbm, ⟨93, _⟩ => ⟨S116x64, .f32⟩
  | .hbm, ⟨94, _⟩ => ⟨S116x64, .f32⟩
  | .hbm, ⟨95, _⟩ => ⟨S116x64, .f32⟩
  | .hbm, ⟨96, _⟩ => ⟨S_, .f32⟩
  | .hbm, ⟨97, _⟩ => ⟨S64, .f32⟩
  | .hbm, ⟨98, _⟩ => ⟨S1x64, .f32⟩
  | .hbm, ⟨99, _⟩ => ⟨S_, .f32⟩
  | .hbm, ⟨100, _⟩ => ⟨S1x64, .f32⟩
  | .hbm, ⟨101, _⟩ => ⟨S1x64, .f32⟩
  | .hbm, ⟨102, _⟩ => ⟨S1x4, .f32⟩
  | .hbm, ⟨103, _⟩ => ⟨S1x4, .f32⟩
  | .hbm, ⟨104, _⟩ => ⟨S1x4, .f32⟩
  | .local _ .vmem, ⟨0, _⟩ => ⟨S116x6670, .f32⟩
  | .local _ .vmem, ⟨1, _⟩ => ⟨S6670x5, .f32⟩
  | .local _ .vmem, ⟨2, _⟩ => ⟨S116x64, .f32⟩
  | .local _ .vmem, ⟨3, _⟩ => ⟨S1x5, .f32⟩
  | .local _ .vmem, ⟨4, _⟩ => ⟨S64x64, .f32⟩
  | .local _ .vmem, ⟨5, _⟩ => ⟨S1x64, .f32⟩
  | .local _ .vmem, ⟨6, _⟩ => ⟨S116x64, .f32⟩
  | .local _ .vmem, ⟨7, _⟩ => ⟨S116x512, .f32⟩
  | .local _ .vmem, ⟨8, _⟩ => ⟨S116x512, .f32⟩
  | .local _ .vmem, ⟨9, _⟩ => ⟨S116x512, .f32⟩
  | .local _ .vmem, ⟨10, _⟩ => ⟨S116x512, .f32⟩
  | .local _ .vmem, ⟨11, _⟩ => ⟨S116x1, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S116x512, .f32⟩
  | .local _ .vmem, ⟨16, _⟩ => ⟨S116x512, .f32⟩
  | .local _ .vmem, ⟨17, _⟩ => ⟨S116x512, .f32⟩
  | .local _ .vmem, ⟨18, _⟩ => ⟨S116x512, .f32⟩
  | .local _ .vmem, ⟨19, _⟩ => ⟨S116x1, .f32⟩
  | .local _ .vmem, ⟨20, _⟩ => ⟨S1x512, .f32⟩
  | .local _ .vmem, ⟨21, _⟩ => ⟨S1x512, .f32⟩
  | .local _ .vmem, ⟨22, _⟩ => ⟨S512x5, .f32⟩
  | .local _ .vmem, ⟨23, _⟩ => ⟨S512x5, .f32⟩
  | .local _ .vmem, ⟨24, _⟩ => ⟨S1x5, .f32⟩
  | .local _ .vmem, ⟨25, _⟩ => ⟨S512x5, .f32⟩
  | .local _ .vmem, ⟨26, _⟩ => ⟨S512x5, .f32⟩
  | .local _ .vmem, ⟨27, _⟩ => ⟨S512x5, .f32⟩
  | .local _ .vmem, ⟨28, _⟩ => ⟨S116x6670, .f32⟩
  | .local _ .vmem, ⟨29, _⟩ => ⟨S6670x5, .f32⟩
  | .local _ .vmem, ⟨30, _⟩ => ⟨S116x64, .f32⟩
  | .local _ .vmem, ⟨31, _⟩ => ⟨S1x5, .f32⟩
  | .local _ .vmem, ⟨32, _⟩ => ⟨S64x64, .f32⟩
  | .local _ .vmem, ⟨33, _⟩ => ⟨S1x64, .f32⟩
  | .local _ .vmem, ⟨34, _⟩ => ⟨S116x64, .f32⟩
  | _, _ => ⟨S116x122, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c_1 : Ref sig .tc := ⟨.hbm, 28, rfl⟩
abbrev main_v9 : Ref sig .tc := ⟨.hbm, 29, rfl⟩
abbrev main_v10 : Ref sig .tc := ⟨.hbm, 30, rfl⟩
abbrev main_c_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_c_7 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_8 : Ref sig .tc := ⟨.hbm, 60, rfl⟩
abbrev main_v34 : Ref sig .tc := ⟨.hbm, 61, rfl⟩
abbrev main_v35 : Ref sig .tc := ⟨.hbm, 62, rfl⟩
abbrev main_c_9 : Ref sig .tc := ⟨.hbm, 63, rfl⟩
abbrev main_call0_v0 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_call1_cst : Ref sig .tc := ⟨.hbm, 74, rfl⟩
abbrev main_call1_v0 : Ref sig .tc := ⟨.hbm, 75, rfl⟩
abbrev main_v45 : Ref sig .tc := ⟨.hbm, 76, rfl⟩
abbrev main_call2_cst : Ref sig .tc := ⟨.hbm, 77, rfl⟩
abbrev main_call2_v0 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_10 : Ref sig .tc := ⟨.hbm, 82, rfl⟩
abbrev main_call3_v0 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_call4_cst : Ref sig .tc := ⟨.hbm, 89, rfl⟩
abbrev main_call4_v0 : Ref sig .tc := ⟨.hbm, 90, rfl⟩
abbrev main_v54 : Ref sig .tc := ⟨.hbm, 91, rfl⟩
abbrev main_call5_cst : Ref sig .tc := ⟨.hbm, 92, rfl⟩
abbrev main_call5_v0 : Ref sig .tc := ⟨.hbm, 93, rfl⟩
abbrev main_v55 : Ref sig .tc := ⟨.hbm, 94, rfl⟩
abbrev main_v56 : Ref sig .tc := ⟨.hbm, 95, rfl⟩
abbrev main_cst_11 : Ref sig .tc := ⟨.hbm, 96, rfl⟩
abbrev main_v57 : Ref sig .tc := ⟨.hbm, 97, rfl⟩
abbrev main_v58 : Ref sig .tc := ⟨.hbm, 98, rfl⟩
abbrev main_cst_12 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc2_scratch0 : Ref sig .tc := ⟨.vmem, 27, rfl⟩
abbrev cc3_stg0_0 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc2_sem4_0 : DmaSem sig := 21
abbrev cc2_sem4_1 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S116x6670 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S6670x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S116x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S116x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨2, ![14, 14], ![false, false]⟩

def k1_cond2 (i : grid1.Coords) : BitVec 1 :=
  let arg1 : BitVec 32 := BitVec.ofNat 32 (i 1).val
  let c13_i32 : BitVec 32 := 13#32
  let v36 : BitVec 1 := Scalar.cmpi .eq arg1 c13_i32
  let v37 : BitVec 32 := Scalar.extui v36
  let c0_i32_14 : BitVec 32 := 0#32
  let v38 : BitVec 1 := Scalar.cmpi .ne v37 c0_i32_14
  v38

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S116x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S116x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S116x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![14, 14], ![false, false]⟩

def k2_cond2 (i : grid2.Coords) : BitVec 1 :=
  let arg1 : BitVec 32 := BitVec.ofNat 32 (i 1).val
  let c13_i32 : BitVec 32 := 13#32
  let v45 : BitVec 1 := Scalar.cmpi .eq arg1 c13_i32
  let v46 : BitVec 32 := Scalar.extui v45
  let c0_i32_19 : BitVec 32 := 0#32
  let v47 : BitVec 1 := Scalar.cmpi .ne v46 c0_i32_19
  v47

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S116x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S116x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S116x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S512x5 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 1 → Memref sig .tc .vmem S1x5 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S512x5 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S116x6670 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S6670x5 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S116x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x5 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S116x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  bcast_S_S116x6670 : S_.BroadcastsInDim S116x6670 (![] : Fin 0 → Fin S116x6670.rank)
  slices_S2x6670_S1x6670_0_0 : S2x6670.Slices ![0, 0] S1x6670
  shapeCasts_S1x6670_S6670 : S1x6670.ShapeCasts S6670
  bcast_S_S6670 : S_.BroadcastsInDim S6670 (![] : Fin 0 → Fin S6670.rank)
  bcast_S6670_S6670x1_0 : S6670.BroadcastsInDim S6670x1 (![0] : Fin 1 → Fin S6670x1.rank)
  concatenates_S6670x1_S6670x1_S6670x2_d1 : Shape.Concatenates [S6670x1, S6670x1] S6670x2 1
  slices_S2x6670_S1x6670_1_0 : S2x6670.Slices ![1, 0] S1x6670
  pads_S116x6670_S116x7168_000_04980 : S116x6670.Pads (![0, 0] : Fin 2 → Nat) ![0, 498] ![0, 0] S116x7168
  h_S_ : 0 < S_.numel
  bcast_S64_S1x64_1 : S64.BroadcastsInDim S1x64 (![1] : Fin 1 → Fin S1x64.rank)
  bcast_S5_S1x5_1 : S5.BroadcastsInDim S1x5 (![1] : Fin 1 → Fin S1x5.rank)
  bcast_S1x64_S116x64_0_1 : S1x64.BroadcastsInDim S116x64 (![0, 1] : Fin 2 → Fin S116x64.rank)
  inb_S116x6670_S116x6670_0_0 : ∀ a, (![0, 0] : Fin 2 → Nat) a + S116x6670.size a ≤ S116x6670.size a
  h_S116x6670 : 0 < S116x6670.numel
  shapeCasts_S116x6670_S116x6670 : S116x6670.ShapeCasts S116x6670
  inb_S6670x5_S6670x5_0_0 : ∀ a, (![0, 0] : Fin 2 → Nat) a + S6670x5.size a ≤ S6670x5.size a
  h_S6670x5 : 0 < S6670x5.numel
  inb_S116x64_S116x64_0_0 : ∀ a, (![0, 0] : Fin 2 → Nat) a + S116x64.size a ≤ S116x64.size a
  h_S116x64 : 0 < S116x64.numel
  shapeCasts_S116x64_S116x64 : S116x64.ShapeCasts S116x64
  inb_S1x5_S1x5_0_0 : ∀ a, (![0, 0] : Fin 2 → Nat) a + S1x5.size a ≤ S1x5.size a
  h_S1x5 : 0 < S1x5.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  bitsLt_bf16_f32 : FTy.bits .bf16 < FTy.bits .f32
  broadcasts_S1x6670_S116x6670 : S1x6670.Broadcasts S116x6670
  iota_S116x116_d0_w32 : S116x116.Iotas .tc 32 [0]
  iota_S116x116_d1_w32 : S116x116.Iotas .tc 32 [1]
  natLt_1_32 : 1 < 32
  broadcasts_S1x64_S116x64 : S1x64.Broadcasts S116x64
  bcast_S_S116x64 : S_.BroadcastsInDim S116x64 (![] : Fin 0 → Fin S116x64.rank)
  bcast_S_S6670x5 : S_.BroadcastsInDim S6670x5 (![] : Fin 0 → Fin S6670x5.rank)
  transposes_S1x64_S64x1_1_0 : S1x64.Transposes [1, 0] S64x1
  pads_S6670x5_S7168x5_04980_000 : S6670x5.Pads (![0, 0] : Fin 2 → Nat) ![498, 0] ![0, 0] S7168x5
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S116x512_S116x512_0_0 : ∀ a, (![0, 0] : Fin 2 → Nat) a + S116x512.size a ≤ S116x512.size a
  h_S116x512 : 0 < S116x512.numel
  shapeCasts_S116x512_S116x512 : S116x512.ShapeCasts S116x512
  inb_S116x1_S116x1_0_0 : ∀ a, (![0, 0] : Fin 2 → Nat) a + S116x1.size a ≤ S116x1.size a
  h_S116x1 : 0 < S116x1.numel
  shapeCasts_S116x1_S116x1 : S116x1.ShapeCasts S116x1
  broadcasts_S116x1_S116x512 : S116x1.Broadcasts S116x512
  iota_S512x512_d0_w32 : S512x512.Iotas .tc 32 [0]
  iota_S512x512_d1_w32 : S512x512.Iotas .tc 32 [1]
  reduces_S512x512_S512 : S512x512.Reduces [0] S512
  shapeCasts_S512_S1x512 : S512.ShapeCasts S1x512
  inb_S512x5_S512x5_0_0 : ∀ a, (![0, 0] : Fin 2 → Nat) a + S512x5.size a ≤ S512x5.size a
  h_S512x5 : 0 < S512x5.numel
  shapeCasts_S512x5_S512x5 : S512x5.ShapeCasts S512x5
  broadcasts_S1x512_S512x512 : S1x512.Broadcasts S512x512
  shapeCasts_S1x5_S1x5 : S1x5.ShapeCasts S1x5
  broadcasts_S1x5_S512x5 : S1x5.Broadcasts S512x5
  slices_S7168x5_S6670x5_0_0 : S7168x5.Slices ![0, 0] S6670x5
  shapeCasts_S6670x5_S6670x5 : S6670x5.ShapeCasts S6670x5
  reducesTo_S116x64_S64_d0 : S116x64.ReducesTo [0] S64
  bcast_S_S1x64 : S_.BroadcastsInDim S1x64 (![] : Fin 0 → Fin S1x64.rank)
  bcast_S4_S1x4_1 : S4.BroadcastsInDim S1x4 (![1] : Fin 1 → Fin S1x4.rank)
  scatter_S116x6670_S6670x2_S6670_n_01_01_1_wf : ScatterDims.WF S116x6670 S6670x2 S6670 [] [0, 1] [0, 1] 1
  dot_S116x122_S122x64_S116x64_1_0_0_1_n_n_wf : DotDims.WF S116x122 S122x64 S116x64 [1] [0] [0] [1] [] []
  dot_S1x5_S6670x5_S1x6670_1_1_0_0_n_n_wf : DotDims.WF S1x5 S6670x5 S1x6670 [1] [1] [0] [0] [] []
  dot_S116x6670_S116x6670_S116x116_1_1_0_0_n_n_wf : DotDims.WF S116x6670 S116x6670 S116x116 [1] [1] [0] [0] [] []
  dot_S116x64_S64x64_S116x64_1_0_0_1_n_n_wf : DotDims.WF S116x64 S64x64 S116x64 [1] [0] [0] [1] [] []
  dot_S116x116_S116x64_S116x64_1_0_0_1_n_n_wf : DotDims.WF S116x116 S116x64 S116x64 [1] [0] [0] [1] [] []
  dot_S116x64_S64x1_S116x1_1_0_0_1_n_n_wf : DotDims.WF S116x64 S64x1 S116x1 [1] [0] [0] [1] [] []
  dot_S7168x5_S5x5_S7168x5_1_0_0_1_n_n_wf : DotDims.WF S7168x5 S5x5 S7168x5 [1] [0] [0] [1] [] []
  dot_S116x512_S116x512_S512x512_0_0_1_1_n_n_wf : DotDims.WF S116x512 S116x512 S512x512 [0] [0] [1] [1] [] []
  dot_S512x512_S512x5_S512x5_1_0_0_1_n_n_wf : DotDims.WF S512x512 S512x5 S512x5 [1] [0] [0] [1] [] []
  dot_S1x64_S64x4_S1x4_1_0_0_1_n_n_wf : DotDims.WF S1x64 S64x4 S1x4 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S116x6670.size a ≤ S116x6670.size a
  hwx0_0 : ∀ i : grid0.Coords, EltTy.bits .f32 = 32 ∨ (Rect.block (s := S116x6670) S116x6670.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6670x5.size a ≤ S6670x5.size a
  hwx0_1 : ∀ i : grid0.Coords, EltTy.bits .f32 = 32 ∨ (Rect.block (s := S6670x5) S6670x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S116x64.size a ≤ S116x64.size a
  hwx0_2 : ∀ i : grid0.Coords, EltTy.bits .f32 = 32 ∨ (Rect.block (s := S116x64) S116x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x5.size a ≤ S1x5.size a
  hwx0_3 : ∀ i : grid0.Coords, EltTy.bits .f32 = 32 ∨ (Rect.block (s := S1x5) S1x5.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S116x64.size a ≤ S116x64.size a
  hwx0_6 : ∀ i : grid0.Coords, EltTy.bits .f32 = 32 ∨ (Rect.block (s := S116x64) S116x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S116x512.size a ≤ S116x7168.size a
  hwx1_0 : ∀ i : grid1.Coords, EltTy.bits .f32 = 32 ∨ (Rect.block (s := S116x7168) S116x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S116x512.size a ≤ S116x7168.size a
  hwx1_1 : ∀ i : grid1.Coords, EltTy.bits .f32 = 32 ∨ (Rect.block (s := S116x7168) S116x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S116x1.size a ≤ S116x1.size a
  hwx1_2 : ∀ i : grid1.Coords, EltTy.bits .f32 = 32 ∨ (Rect.block (s := S116x1) S116x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x7168.size a
  hwx1_3 : ∀ i : grid1.Coords, EltTy.bits .f32 = 32 ∨ (Rect.block (s := S1x7168) S1x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S116x512.size a ≤ S116x7168.size a
  hwx2_0 : ∀ i : grid2.Coords, EltTy.bits .f32 = 32 ∨ (Rect.block (s := S116x7168) S116x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S116x512.size a ≤ S116x7168.size a
  hwx2_1 : ∀ i : grid2.Coords, EltTy.bits .f32 = 32 ∨ (Rect.block (s := S116x7168) S116x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S116x1.size a ≤ S116x1.size a
  hwx2_2 : ∀ i : grid2.Coords, EltTy.bits .f32 = 32 ∨ (Rect.block (s := S116x1) S116x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x7168.size a
  hwx2_3 : ∀ i : grid2.Coords, EltTy.bits .f32 = 32 ∨ (Rect.block (s := S1x7168) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x5.size a ≤ S7168x5.size a
  hwx2_4 : ∀ i : grid2.Coords, EltTy.bits .f32 = 32 ∨ (Rect.block (s := S7168x5) S512x5.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x5.size a ≤ S1x5.size a
  hwx2_5 : ∀ i : grid2.Coords, EltTy.bits .f32 = 32 ∨ (Rect.block (s := S1x5) S1x5.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x5.size a ≤ S7168x5.size a
  hwx2_6 : ∀ i : grid2.Coords, EltTy.bits .f32 = 32 ∨ (Rect.block (s := S7168x5) S512x5.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S116x6670.size a ≤ S116x6670.size a
  hwx3_0 : ∀ i : grid3.Coords, EltTy.bits .f32 = 32 ∨ (Rect.block (s := S116x6670) S116x6670.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S6670x5.size a ≤ S6670x5.size a
  hwx3_1 : ∀ i : grid3.Coords, EltTy.bits .f32 = 32 ∨ (Rect.block (s := S6670x5) S6670x5.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S116x64.size a ≤ S116x64.size a
  hwx3_2 : ∀ i : grid3.Coords, EltTy.bits .f32 = 32 ∨ (Rect.block (s := S116x64) S116x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x5.size a ≤ S1x5.size a
  hwx3_3 : ∀ i : grid3.Coords, EltTy.bits .f32 = 32 ∨ (Rect.block (s := S1x5) S1x5.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S116x64.size a ≤ S116x64.size a
  hwx3_6 : ∀ i : grid3.Coords, EltTy.bits .f32 = 32 ∨ (Rect.block (s := S116x64) S116x64.size (cc3_transform_6 i) (hinb3_6 i)).WholeWords (EltTy.packing .f32)

variable [Facts₀]

def scatter_S116x6670_S6670x2_S6670_n_01_01_1 : ScatterDims S116x6670 S6670x2 S6670 where
  updateWindowDims := []
  insertedWindowDims := [0, 1]
  scatterDimsToOperandDims := [0, 1]
  indexVectorDim := 1
  wf := scatter_S116x6670_S6670x2_S6670_n_01_01_1_wf
def dot_S116x122_S122x64_S116x64_1_0_0_1_n_n : DotDims S116x122 S122x64 S116x64 where
  lhsContracting := [1]
  rhsContracting := [0]
  lhsNonContracting := [0]
  rhsNonContracting := [1]
  lhsBatch := []
  rhsBatch := []
  wf := dot_S116x122_S122x64_S116x64_1_0_0_1_n_n_wf
def dot_S1x5_S6670x5_S1x6670_1_1_0_0_n_n : DotDims S1x5 S6670x5 S1x6670 where
  lhsContracting := [1]
  rhsContracting := [1]
  lhsNonContracting := [0]
  rhsNonContracting := [0]
  lhsBatch := []
  rhsBatch := []
  wf := dot_S1x5_S6670x5_S1x6670_1_1_0_0_n_n_wf
def dot_S116x6670_S116x6670_S116x116_1_1_0_0_n_n : DotDims S116x6670 S116x6670 S116x116 where
  lhsContracting := [1]
  rhsContracting := [1]
  lhsNonContracting := [0]
  rhsNonContracting := [0]
  lhsBatch := []
  rhsBatch := []
  wf := dot_S116x6670_S116x6670_S116x116_1_1_0_0_n_n_wf
def dot_S116x64_S64x64_S116x64_1_0_0_1_n_n : DotDims S116x64 S64x64 S116x64 where
  lhsContracting := [1]
  rhsContracting := [0]
  lhsNonContracting := [0]
  rhsNonContracting := [1]
  lhsBatch := []
  rhsBatch := []
  wf := dot_S116x64_S64x64_S116x64_1_0_0_1_n_n_wf
def dot_S116x116_S116x64_S116x64_1_0_0_1_n_n : DotDims S116x116 S116x64 S116x64 where
  lhsContracting := [1]
  rhsContracting := [0]
  lhsNonContracting := [0]
  rhsNonContracting := [1]
  lhsBatch := []
  rhsBatch := []
  wf := dot_S116x116_S116x64_S116x64_1_0_0_1_n_n_wf
def dot_S116x64_S64x1_S116x1_1_0_0_1_n_n : DotDims S116x64 S64x1 S116x1 where
  lhsContracting := [1]
  rhsContracting := [0]
  lhsNonContracting := [0]
  rhsNonContracting := [1]
  lhsBatch := []
  rhsBatch := []
  wf := dot_S116x64_S64x1_S116x1_1_0_0_1_n_n_wf
def dot_S7168x5_S5x5_S7168x5_1_0_0_1_n_n : DotDims S7168x5 S5x5 S7168x5 where
  lhsContracting := [1]
  rhsContracting := [0]
  lhsNonContracting := [0]
  rhsNonContracting := [1]
  lhsBatch := []
  rhsBatch := []
  wf := dot_S7168x5_S5x5_S7168x5_1_0_0_1_n_n_wf
def dot_S116x512_S116x512_S512x512_0_0_1_1_n_n : DotDims S116x512 S116x512 S512x512 where
  lhsContracting := [0]
  rhsContracting := [0]
  lhsNonContracting := [1]
  rhsNonContracting := [1]
  lhsBatch := []
  rhsBatch := []
  wf := dot_S116x512_S116x512_S512x512_0_0_1_1_n_n_wf
def dot_S512x512_S512x5_S512x5_1_0_0_1_n_n : DotDims S512x512 S512x5 S512x5 where
  lhsContracting := [1]
  rhsContracting := [0]
  lhsNonContracting := [0]
  rhsNonContracting := [1]
  lhsBatch := []
  rhsBatch := []
  wf := dot_S512x512_S512x5_S512x5_1_0_0_1_n_n_wf
def dot_S1x64_S64x4_S1x4_1_0_0_1_n_n : DotDims S1x64 S64x4 S1x4 where
  lhsContracting := [1]
  rhsContracting := [0]
  lhsNonContracting := [0]
  rhsNonContracting := [1]
  lhsBatch := []
  rhsBatch := []
  wf := dot_S1x64_S64x4_S1x4_1_0_0_1_n_n_wf

abbrev win0_0 : Pipeline.Window sig grid0 :=
  Pipeline.Window.ofSpec (Memref.whole main_v35) S116x6670.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6670x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S116x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S1x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S116x64.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S116x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S116x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S116x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v36) S116x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S116x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S116x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v50) S512x5.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v39) S1x5.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52) S512x5.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v35) S116x6670.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v54) S6670x5.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S116x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S1x5.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v38) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v56) S116x64.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S116x122 : Shape := ⟨2, ![116, 122]⟩
abbrev S6670x5 : Shape := ⟨2, ![6670, 5]⟩
abbrev S2x6670 : Shape := ⟨2, ![2, 6670]⟩
abbrev S122x64 : Shape := ⟨2, ![122, 64]⟩
abbrev S64 : Shape := ⟨1, ![64]⟩
abbrev S64x64 : Shape := ⟨2, ![64, 64]⟩
abbrev S1x5 : Shape := ⟨2, ![1, 5]⟩
abbrev S5x5 : Shape := ⟨2, ![5, 5]⟩
abbrev S5 : Shape := ⟨1, ![5]⟩
abbrev S1x64 : Shape := ⟨2, ![1, 64]⟩
abbrev S64x4 : Shape := ⟨2, ![64, 4]⟩
abbrev S4 : Shape := ⟨1, ![4]⟩
abbrev S116x116 : Shape := ⟨2, ![116, 116]⟩
abbrev S_ : Shape := ⟨0, ![]⟩
abbrev S6670x6670 : Shape := ⟨2, ![6670, 6670]⟩
abbrev S6670 : Shape := ⟨1, ![6670]⟩
abbrev S116x6670 : Shape := ⟨2, ![116, 6670]⟩
abbrev S1x6670 : Shape := ⟨2, ![1, 6670]⟩
abbrev S6670x1 : Shape := ⟨2, ![6670, 1]⟩
abbrev S6670x2 : Shape := ⟨2, ![6670, 2]⟩
abbrev S116x64 : Shape := ⟨2, ![116, 64]⟩
abbrev S5x1 : Shape := ⟨2, ![5, 1]⟩
abbrev S6670x116 : Shape := ⟨2, ![6670, 116]⟩
abbrev S64x1 : Shape := ⟨2, ![64, 1]⟩
abbrev S116x1 : Shape := ⟨2, ![116, 1]⟩
abbrev S116 : Shape := ⟨1, ![116]⟩
abbrev S1x4 : Shape := ⟨2, ![1, 4]⟩

abbrev nBuf : Space → Nat
  | .hbm => 158
  | .vmem => 0
  | .smem => 0
  | _ => 0

abbrev hbmTy0_0 (i : Nat) : BufTy := match i % 128 with
  | 0 => ⟨S116x122, .f32⟩
  | 1 => ⟨S6670x5, .f32⟩
  | 2 => ⟨S2x6670, .i32⟩
  | 3 => ⟨S122x64, .f32⟩
  | 4 => ⟨S64, .f32⟩
  | 5 => ⟨S64x64, .f32⟩
  | 6 => ⟨S64, .f32⟩
  | 7 => ⟨S1x5, .f32⟩
  | 8 => ⟨S5x5, .f32⟩
  | 9 => ⟨S5, .f32⟩
  | 10 => ⟨S1x64, .f32⟩
  | 11 => ⟨S64x64, .f32⟩
  | 12 => ⟨S64, .f32⟩
  | 13 => ⟨S1x5, .f32⟩
  | 14 => ⟨S64x4, .f32⟩
  | 15 => ⟨S4, .f32⟩
  | 16 => ⟨S116x116, .i32⟩
  | 17 => ⟨S116x116, .i32⟩
  | 18 => ⟨S_, .i32⟩
  | 19 => ⟨S116x116, .i32⟩
  | 20 => ⟨S116x116, .i32⟩
  | 21 => ⟨S116x116, .i1⟩
  | 22 => ⟨S116x116, .f32⟩
  | 23 => ⟨S6670x6670, .i32⟩
  | 24 => ⟨S6670x6670, .i32⟩
  | 25 => ⟨S_, .i32⟩
  | 26 => ⟨S6670x6670, .i32⟩
  | 27 => ⟨S6670x6670, .i32⟩
  | 28 => ⟨S6670x6670, .i1⟩
  | 29 => ⟨S6670x6670, .f32⟩
  | 30 => ⟨S_, .f32⟩
  | 31 => ⟨S116x116, .f32⟩
  | 32 => ⟨S116x116, .f32⟩
  | 33 => ⟨S_, .f32⟩
  | 34 => ⟨S6670x6670, .f32⟩
  | 35 => ⟨S6670x6670, .f32⟩
  | 36 => ⟨S6670, .i32⟩
  | 37 => ⟨S_, .f32⟩
  | 38 => ⟨S116x6670, .f32⟩
  | 39 => ⟨S1x6670, .i32⟩
  | 40 => ⟨S6670, .i32⟩
  | 41 => ⟨S_, .i32⟩
  | 42 => ⟨S6670, .i32⟩
  | 43 => ⟨S6670, .i1⟩
  | 44 => ⟨S_, .i32⟩
  | 45 => ⟨S6670, .i32⟩
  | 46 => ⟨S6670, .i32⟩
  | 47 => ⟨S6670, .i32⟩
  | 48 => ⟨S_, .i32⟩
  | 49 => ⟨S6670, .i32⟩
  | 50 => ⟨S6670, .i1⟩
  | 51 => ⟨S_, .i32⟩
  | 52 => ⟨S6670, .i32⟩
  | 53 => ⟨S6670, .i32⟩
  | 54 => ⟨S6670, .i32⟩
  | 55 => ⟨S6670x1, .i32⟩
  | 56 => ⟨S6670x1, .i32⟩
  | 57 => ⟨S6670x2, .i32⟩
  | 58 => ⟨S_, .f32⟩
  | 59 => ⟨S6670, .f32⟩
  | 60 => ⟨S116x6670, .f32⟩
  | 61 => ⟨S1x6670, .i32⟩
  | 62 => ⟨S6670, .i32⟩
  | 63 => ⟨S_, .i32⟩
  | 64 => ⟨S6670, .i32⟩
  | 65 => ⟨S6670, .i1⟩
  | 66 => ⟨S_, .i32⟩
  | 67 => ⟨S6670, .i32⟩
  | 68 => ⟨S6670, .i32⟩
  | 69 => ⟨S6670, .i32⟩
  | 70 => ⟨S_, .i32⟩
  | 71 => ⟨S6670, .i32⟩
  | 72 => ⟨S6670, .i1⟩
  | 73 => ⟨S_, .i32⟩
  | 74 => ⟨S6670, .i32⟩
  | 75 => ⟨S6670, .i32⟩
  | 76 => ⟨S6670, .i32⟩
  | 77 => ⟨S6670x1, .i32⟩
  | 78 => ⟨S6670x1, .i32⟩
  | 79 => ⟨S6670x2, .i32⟩
  | 80 => ⟨S_, .f32⟩
  | 81 => ⟨S6670, .f32⟩
  | 82 => ⟨S116x6670, .f32⟩
  | 83 => ⟨S116x64, .f32⟩
  | 84 => ⟨S1x64, .f32⟩
  | 85 => ⟨S116x64, .f32⟩
  | 86 => ⟨S116x64, .f32⟩
  | 87 => ⟨S5x1, .f32⟩
  | 88 => ⟨S6670x1, .f32⟩
  | 89 => ⟨S6670, .f32⟩
  | 90 => ⟨S1x6670, .f32⟩
  | 91 => ⟨S116x6670, .f32⟩
  | 92 => ⟨S116x6670, .f32⟩
  | 93 => ⟨S6670x116, .f32⟩
  | 94 => ⟨S116x116, .f32⟩
  | 95 => ⟨S116x116, .f32⟩
  | 96 => ⟨S116x64, .f32⟩
  | 97 => ⟨S116x64, .f32⟩
  | 98 => ⟨S1x64, .f32⟩
  | 99 => ⟨S116x64, .f32⟩
  | 100 => ⟨S116x64, .f32⟩
  | 101 => ⟨S_, .f32⟩
  | 102 => ⟨S116x64, .f32⟩
  | 103 => ⟨S116x64, .f32⟩
  | 104 => ⟨S_, .f32⟩
  | 105 => ⟨S6670x5, .f32⟩
  | 106 => ⟨S6670x5, .f32⟩
  | 107 => ⟨S64x1, .f32⟩
  | 108 => ⟨S116x1, .f32⟩
  | 109 => ⟨S116, .f32⟩
  | 110 => ⟨S6670x116, .f32⟩
  | 111 => ⟨S116x1, .f32⟩
  | 112 => ⟨S116x6670, .f32⟩
  | 113 => ⟨S116x6670, .f32⟩
  | 114 => ⟨S6670x6670, .f32⟩
  | 115 => ⟨S6670x6670, .f32⟩
  | 116 => ⟨S_, .f32⟩
  | 117 => ⟨S6670, .f32⟩
  | 118 => ⟨S1x6670, .f32⟩
  | 119 => ⟨S_, .f32⟩
  | 120 => ⟨S1x6670, .f32⟩
  | 121 => ⟨S1x6670, .f32⟩
  | 122 => ⟨S6670x6670, .f32⟩
  | 123 => ⟨S6670x6670, .f32⟩
  | 124 => ⟨S6670x5, .f32⟩
  | 125 => ⟨S6670x5, .f32⟩
  | 126 => ⟨S1x5, .f32⟩
  | 127 => ⟨S6670x5, .f32⟩
  | _ => ⟨S116x122, .f32⟩

abbrev hbmTy0_1 (i : Nat) : BufTy := match i % 128 with
  | 0 => ⟨S6670x5, .f32⟩
  | 1 => ⟨S_, .f32⟩
  | 2 => ⟨S6670x5, .f32⟩
  | 3 => ⟨S6670x5, .f32⟩
  | 4 => ⟨S_, .f32⟩
  | 5 => ⟨S116x64, .f32⟩
  | 6 => ⟨S116x64, .f32⟩
  | 7 => ⟨S5x1, .f32⟩
  | 8 => ⟨S6670x1, .f32⟩
  | 9 => ⟨S6670, .f32⟩
  | 10 => ⟨S1x6670, .f32⟩
  | 11 => ⟨S116x6670, .f32⟩
  | 12 => ⟨S116x6670, .f32⟩
  | 13 => ⟨S6670x116, .f32⟩
  | 14 => ⟨S116x116, .f32⟩
  | 15 => ⟨S116x116, .f32⟩
  | 16 => ⟨S116x64, .f32⟩
  | 17 => ⟨S116x64, .f32⟩
  | 18 => ⟨S1x64, .f32⟩
  | 19 => ⟨S116x64, .f32⟩
  | 20 => ⟨S116x64, .f32⟩
  | 21 => ⟨S_, .f32⟩
  | 22 => ⟨S64, .f32⟩
  | 23 => ⟨S1x64, .f32⟩
  | 24 => ⟨S_, .f32⟩
  | 25 => ⟨S1x64, .f32⟩
  | 26 => ⟨S1x64, .f32⟩
  | 27 => ⟨S1x4, .f32⟩
  | 28 => ⟨S1x4, .f32⟩
  | 29 => ⟨S1x4, .f32⟩
  | _ => ⟨S116x122, .f32⟩

abbrev hbmTy (i : Nat) : BufTy := match i / 128 with
  | 0 => hbmTy0_0 i
  | 1 => hbmTy0_1 i
  | _ => ⟨S116x122, .f32⟩

abbrev bufTy : (tb : Table) → Fin (tcTables nBuf tb) → BufTy
  | .hbm, ⟨i, _⟩ => hbmTy i
  | _, _ => ⟨S116x122, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_c_9 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_10 : Ref sig .tc := ⟨.hbm, 70, rfl⟩
abbrev main_v42 : Ref sig .tc := ⟨.hbm, 71, rfl⟩
abbrev main_v43 : Ref sig .tc := ⟨.hbm, 72, rfl⟩
abbrev main_c_11 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_12 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_call0_cst : Ref sig .tc := ⟨.hbm, 101, rfl⟩
abbrev main_call0_v0 : Ref sig .tc := ⟨.hbm, 102, rfl⟩
abbrev main_v70 : Ref sig .tc := ⟨.hbm, 103, rfl⟩
abbrev main_call1_cst : Ref sig .tc := ⟨.hbm, 104, rfl⟩
abbrev main_call1_v0 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_13 : Ref sig .tc := ⟨.hbm, 116, rfl⟩
abbrev main_v81 : Ref sig .tc := ⟨.hbm, 117, rfl⟩
abbrev main_v82 : Ref sig .tc := ⟨.hbm, 118, rfl⟩
abbrev main_cst_14 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_call2_cst : Ref sig .tc := ⟨.hbm, 129, rfl⟩
abbrev main_call2_v0 : Ref sig .tc := ⟨.hbm, 130, rfl⟩
abbrev main_v92 : Ref sig .tc := ⟨.hbm, 131, rfl⟩
abbrev main_call3_cst : Ref sig .tc := ⟨.hbm, 132, rfl⟩
abbrev main_call3_v0 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_cst_15 : Ref sig .tc := ⟨.hbm, 149, rfl⟩
abbrev main_v108 : Ref sig .tc := ⟨.hbm, 150, rfl⟩
abbrev main_v109 : Ref sig .tc := ⟨.hbm, 151, rfl⟩
abbrev main_cst_16 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩

abbrev nD : Nat := 1
abbrev τ : Topo := Topo.v7x

variable {F : FTy → Type} [FloatOps F]

class Facts₀ : Prop where
  bcast_S_S116x116 : S_.BroadcastsInDim S116x116 (![] : Fin 0 → Fin S116x116.rank)
  bcast_S_S6670x6670 : S_.BroadcastsInDim S6670x6670 (![] : Fin 0 → Fin S6670x6670.rank)
  bcast_S_S116x6670 : S_.BroadcastsInDim S116x6670 (![] : Fin 0 → Fin S116x6670.rank)
  slices_S2x6670_S1x6670_0_0 : S2x6670.Slices ![0, 0] S1x6670
  shapeCasts_S1x6670_S6670 : S1x6670.ShapeCasts S6670
  bcast_S_S6670 : S_.BroadcastsInDim S6670 (![] : Fin 0 → Fin S6670.rank)
  bcast_S6670_S6670x1_0 : S6670.BroadcastsInDim S6670x1 (![0] : Fin 1 → Fin S6670x1.rank)
  concatenates_S6670x1_S6670x1_S6670x2_d1 : Shape.Concatenates [S6670x1, S6670x1] S6670x2 1
  slices_S2x6670_S1x6670_1_0 : S2x6670.Slices ![1, 0] S1x6670
  bcast_S64_S1x64_1 : S64.BroadcastsInDim S1x64 (![1] : Fin 1 → Fin S1x64.rank)
  bcast_S1x64_S116x64_0_1 : S1x64.BroadcastsInDim S116x64 (![0, 1] : Fin 2 → Fin S116x64.rank)
  transposes_S1x5_S5x1_1_0 : S1x5.Transposes [1, 0] S5x1
  shapeCasts_S6670x1_S6670 : S6670x1.ShapeCasts S6670
  bcast_S6670_S1x6670_1 : S6670.BroadcastsInDim S1x6670 (![1] : Fin 1 → Fin S1x6670.rank)
  bcast_S1x6670_S116x6670_0_1 : S1x6670.BroadcastsInDim S116x6670 (![0, 1] : Fin 2 → Fin S116x6670.rank)
  transposes_S116x6670_S6670x116_1_0 : S116x6670.Transposes [1, 0] S6670x116
  bcast_S_S116x64 : S_.BroadcastsInDim S116x64 (![] : Fin 0 → Fin S116x64.rank)
  bcast_S_S6670x5 : S_.BroadcastsInDim S6670x5 (![] : Fin 0 → Fin S6670x5.rank)
  transposes_S1x64_S64x1_1_0 : S1x64.Transposes [1, 0] S64x1
  shapeCasts_S116x1_S116 : S116x1.ShapeCasts S116
  bcast_S116_S116x1_0 : S116.BroadcastsInDim S116x1 (![0] : Fin 1 → Fin S116x1.rank)
  bcast_S116x1_S116x6670_0_1 : S116x1.BroadcastsInDim S116x6670 (![0, 1] : Fin 2 → Fin S116x6670.rank)
  reducesTo_S6670x6670_S6670_d0 : S6670x6670.ReducesTo [0] S6670
  h_S_ : 0 < S_.numel
  bcast_S_S1x6670 : S_.BroadcastsInDim S1x6670 (![] : Fin 0 → Fin S1x6670.rank)
  bcast_S1x6670_S6670x6670_0_1 : S1x6670.BroadcastsInDim S6670x6670 (![0, 1] : Fin 2 → Fin S6670x6670.rank)
  bcast_S5_S1x5_1 : S5.BroadcastsInDim S1x5 (![1] : Fin 1 → Fin S1x5.rank)
  bcast_S1x5_S6670x5_0_1 : S1x5.BroadcastsInDim S6670x5 (![0, 1] : Fin 2 → Fin S6670x5.rank)
  reducesTo_S116x64_S64_d0 : S116x64.ReducesTo [0] S64
  bcast_S_S1x64 : S_.BroadcastsInDim S1x64 (![] : Fin 0 → Fin S1x64.rank)
  bcast_S4_S1x4_1 : S4.BroadcastsInDim S1x4 (![1] : Fin 1 → Fin S1x4.rank)
  scatter_S116x6670_S6670x2_S6670_n_01_01_1_wf : ScatterDims.WF S116x6670 S6670x2 S6670 [] [0, 1] [0, 1] 1
  dot_S116x122_S122x64_S116x64_1_0_0_1_n_n_wf : DotDims.WF S116x122 S122x64 S116x64 [1] [0] [0] [1] [] []
  dot_S6670x5_S5x1_S6670x1_1_0_0_1_n_n_wf : DotDims.WF S6670x5 S5x1 S6670x1 [1] [0] [0] [1] [] []
  dot_S116x6670_S6670x116_S116x116_1_0_0_1_n_n_wf : DotDims.WF S116x6670 S6670x116 S116x116 [1] [0] [0] [1] [] []
  dot_S116x64_S64x64_S116x64_1_0_0_1_n_n_wf : DotDims.WF S116x64 S64x64 S116x64 [1] [0] [0] [1] [] []
  dot_S116x116_S116x64_S116x64_1_0_0_1_n_n_wf : DotDims.WF S116x116 S116x64 S116x64 [1] [0] [0] [1] [] []
  dot_S116x64_S64x1_S116x1_1_0_0_1_n_n_wf : DotDims.WF S116x64 S64x1 S116x1 [1] [0] [0] [1] [] []
  dot_S6670x116_S116x6670_S6670x6670_1_0_0_1_n_n_wf : DotDims.WF S6670x116 S116x6670 S6670x6670 [1] [0] [0] [1] [] []
  dot_S6670x5_S5x5_S6670x5_1_0_0_1_n_n_wf : DotDims.WF S6670x5 S5x5 S6670x5 [1] [0] [0] [1] [] []
  dot_S6670x6670_S6670x5_S6670x5_1_0_0_1_n_n_wf : DotDims.WF S6670x6670 S6670x5 S6670x5 [1] [0] [0] [1] [] []
  dot_S1x64_S64x4_S1x4_1_0_0_1_n_n_wf : DotDims.WF S1x64 S64x4 S1x4 [1] [0] [0] [1] [] []

variable [Facts₀]

def scatter_S116x6670_S6670x2_S6670_n_01_01_1 : ScatterDims S116x6670 S6670x2 S6670 where
  updateWindowDims := []
  insertedWindowDims := [0, 1]
  scatterDimsToOperandDims := [0, 1]
  indexVectorDim := 1
  wf := scatter_S116x6670_S6670x2_S6670_n_01_01_1_wf
def dot_S116x122_S122x64_S116x64_1_0_0_1_n_n : DotDims S116x122 S122x64 S116x64 where
  lhsContracting := [1]
  rhsContracting := [0]
  lhsNonContracting := [0]
  rhsNonContracting := [1]
  lhsBatch := []
  rhsBatch := []
  wf := dot_S116x122_S122x64_S116x64_1_0_0_1_n_n_wf
def dot_S6670x5_S5x1_S6670x1_1_0_0_1_n_n : DotDims S6670x5 S5x1 S6670x1 where
  lhsContracting := [1]
  rhsContracting := [0]
  lhsNonContracting := [0]
  rhsNonContracting := [1]
  lhsBatch := []
  rhsBatch := []
  wf := dot_S6670x5_S5x1_S6670x1_1_0_0_1_n_n_wf
def dot_S116x6670_S6670x116_S116x116_1_0_0_1_n_n : DotDims S116x6670 S6670x116 S116x116 where
  lhsContracting := [1]
  rhsContracting := [0]
  lhsNonContracting := [0]
  rhsNonContracting := [1]
  lhsBatch := []
  rhsBatch := []
  wf := dot_S116x6670_S6670x116_S116x116_1_0_0_1_n_n_wf
def dot_S116x64_S64x64_S116x64_1_0_0_1_n_n : DotDims S116x64 S64x64 S116x64 where
  lhsContracting := [1]
  rhsContracting := [0]
  lhsNonContracting := [0]
  rhsNonContracting := [1]
  lhsBatch := []
  rhsBatch := []
  wf := dot_S116x64_S64x64_S116x64_1_0_0_1_n_n_wf
def dot_S116x116_S116x64_S116x64_1_0_0_1_n_n : DotDims S116x116 S116x64 S116x64 where
  lhsContracting := [1]
  rhsContracting := [0]
  lhsNonContracting := [0]
  rhsNonContracting := [1]
  lhsBatch := []
  rhsBatch := []
  wf := dot_S116x116_S116x64_S116x64_1_0_0_1_n_n_wf
def dot_S116x64_S64x1_S116x1_1_0_0_1_n_n : DotDims S116x64 S64x1 S116x1 where
  lhsContracting := [1]
  rhsContracting := [0]
  lhsNonContracting := [0]
  rhsNonContracting := [1]
  lhsBatch := []
  rhsBatch := []
  wf := dot_S116x64_S64x1_S116x1_1_0_0_1_n_n_wf
def dot_S6670x116_S116x6670_S6670x6670_1_0_0_1_n_n : DotDims S6670x116 S116x6670 S6670x6670 where
  lhsContracting := [1]
  rhsContracting := [0]
  lhsNonContracting := [0]
  rhsNonContracting := [1]
  lhsBatch := []
  rhsBatch := []
  wf := dot_S6670x116_S116x6670_S6670x6670_1_0_0_1_n_n_wf
def dot_S6670x5_S5x5_S6670x5_1_0_0_1_n_n : DotDims S6670x5 S5x5 S6670x5 where
  lhsContracting := [1]
  rhsContracting := [0]
  lhsNonContracting := [0]
  rhsNonContracting := [1]
  lhsBatch := []
  rhsBatch := []
  wf := dot_S6670x5_S5x5_S6670x5_1_0_0_1_n_n_wf
def dot_S6670x6670_S6670x5_S6670x5_1_0_0_1_n_n : DotDims S6670x6670 S6670x5 S6670x5 where
  lhsContracting := [1]
  rhsContracting := [0]
  lhsNonContracting := [0]
  rhsNonContracting := [1]
  lhsBatch := []
  rhsBatch := []
  wf := dot_S6670x6670_S6670x5_S6670x5_1_0_0_1_n_n_wf
def dot_S1x64_S64x4_S1x4_1_0_0_1_n_n : DotDims S1x64 S64x4 S1x4 where
  lhsContracting := [1]
  rhsContracting := [0]
  lhsNonContracting := [0]
  rhsNonContracting := [1]
  lhsBatch := []
  rhsBatch := []
  wf := dot_S1x64_S64x4_S1x4_1_0_0_1_n_n_wf

class Facts : Prop extends Facts₀ where

variable [Facts]
-- ==== Proof.FrameKernel.Region0Dat.lean ====
import proofs.«143417_j3152505995417_1_alg».proof.Proof.Gen.Kernel.Launch
import proofs.«143417_j3152505995417_1_alg».proof.Proof.Gen.Kernel.Skeleton
import proofs.«143417_j3152505995417_1_alg».proof.Proof.Gen.Kernel.Points
import Idealize.ShloMosaic.Lib.Pipeline.FrameBody
import Idealize.ShloMosaic.Lib.Ring
import Idealize.ShloMosaic.Lib.Tactic

-- membership in a rectangle of large extents is decided by a structural recursion, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! # Region 0: the node convolution on a one-point grid, at the entry contents `V` -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: an unfetched point has not moved the block
    index, the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: an unfetched point has not moved the block
    index, the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: an unfetched point has not moved the block
    index, the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: an unfetched point has not moved the block
    index, the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: an unfetched point has not moved the block
    index, the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place: an unfetched point has not moved the block
    index, the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole buffer -/

abbrev r0_0 : Rect S116x6670 := Rect.unit (s := S116x6670) ![0, 0] S116x6670.size inb_S116x6670_S116x6670_0_0
abbrev r0_1 : Rect S6670x5 := Rect.unit (s := S6670x5) ![0, 0] S6670x5.size inb_S6670x5_S6670x5_0_0
abbrev r0_2 : Rect S116x64 := Rect.unit (s := S116x64) ![0, 0] S116x64.size inb_S116x64_S116x64_0_0
abbrev r0_3 : Rect S1x5 := Rect.unit (s := S1x5) ![0, 0] S1x5.size inb_S1x5_S1x5_0_0
abbrev r0_4 : Rect S64x64 := Rect.unit (s := S64x64) ![0, 0] S64x64.size inb_S64x64_S64x64_0_0
abbrev r0_5 : Rect S1x64 := Rect.unit (s := S1x64) ![0, 0] S1x64.size inb_S1x64_S1x64_0_0
abbrev r0_6 : Rect S116x64 := Rect.unit (s := S116x64) ![0, 0] S116x64.size inb_S116x64_S116x64_0_0

/-! ## What the body leaves in the output window's buffer -/

/-- Window 6's staging buffer after the body, from the six input blocks: the one store, whose value is the
    convolution of the six loaded vectors, laid over the whole buffer. -/
def out0_6 (x0 : Vec F S116x6670 .f32) (x1 : Vec F S6670x5 .f32) (x2 : Vec F S116x64 .f32) (x3 : Vec F S1x5 .f32)
    (x4 : Vec F S64x64 .f32) (x5 : Vec F S1x64 .f32) : Vec F S116x64 .f32 :=
  View.canon [⟨r0_6, k0_pay1 (View.ld x0 r0_0) (View.ld x1 r0_1) (View.ld x2 r0_2) (View.ld x3 r0_3) (View.ld x4 r0_4) (View.ld x5 r0_5)⟩]

/-- The one store's rectangle is the whole buffer, so it covers it. -/
theorem cover0_6 (p0 : Vec F S116x64 .f32) (y : S116x64.Idx) :
    ∃ pc ∈ ([⟨r0_6, p0⟩] : List (View.Piece (Elt F) S116x64 .f32)), y ∈ pc.1.set :=
  View.cover_of_tiled [⟨r0_6, p0⟩] S116x64.size (by rfl) y

/-! ## The proof data -/

/-- The proof data of the region's pipeline on core `c`: the arrays as the region finds them; after the body each
    input's buffer at its block and the output's at `out0_6` of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- Nothing is owed at any point. -/
theorem owed0 (c : Dev nD) (t) : (dat0 V c).owed t = 0 := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

end Region

end Cert.Kernel.Hand

end
-- ==== Proof.FrameKernel.Region0Body.lean ====
import proofs.«143417_j3152505995417_1_alg».proof.Proof.FrameKernel.Region0Dat

-- membership in a rectangle of large extents is decided by a structural recursion, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the body's triple -/

set_option maxHeartbeats 1000000 in
/-- The node convolution on whole staging memrefs, the inputs' at read contents `xW` and the output's at anything,
    runs to the continuation holding the inputs' as they were and the output's at `out0_6` of the inputs': the
    printed function is its skeleton of seven whole loads (the last, of the output buffer, unused) and one whole
    store: each load reads its buffer's contents, and the store leaves its value over the whole output buffer. -/
theorem sound_kernel0 (c : Dev nD) (E : Set ℕ) (i : grid0.Coords) (arg1 : Memref sig .tc .vmem S116x6670 .f32) (harg1 : arg1.IsWhole) (arg2 : Memref sig .tc .vmem S6670x5 .f32) (harg2 : arg2.IsWhole) (arg3 : Memref sig .tc .vmem S116x64 .f32) (harg3 : arg3.IsWhole) (arg4 : Memref sig .tc .vmem S1x5 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S116x64 .f32) (harg7 : arg7.IsWhole)
    (x0 : Vec F S116x6670 .f32) (x1 : Vec F S6670x5 .f32) (x2 : Vec F S116x64 .f32) (x3 : Vec F S1x5 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__node_conv_kernel i arg1 harg1 arg2 harg2 arg3 harg3 arg4 harg4 arg5 harg5 arg6 harg6 arg7 harg7) K := by
  simp only [cc0__node_conv_kernel_eq_skeleton]; unfold cc0__node_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

end Cert.Kernel.Hand

end
-- ==== Proof.FrameKernel.Region0.lean ====
import proofs.«143417_j3152505995417_1_alg».proof.Proof.FrameKernel.Region0Dat
import proofs.«143417_j3152505995417_1_alg».proof.Proof.FrameKernel.Region0Body

-- membership in a rectangle of large extents is decided by a structural recursion, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! # Region 0: the body obligation, at a generic point -/

/-- What the body is called with at point `t`: the invariant, what is owed, and the windows' current staging buffers one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.FrameKernel.Region1Runs.lean ====
import proofs.«143417_j3152505995417_1_alg».proof.Proof.Gen.Kernel.Launch
import proofs.«143417_j3152505995417_1_alg».proof.Proof.Gen.Kernel.Skeleton
import proofs.«143417_j3152505995417_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # Region 1 (the column-maximum call): what its per-case runs share

Everything is stated at a parameter `V`: the TensorCore's buffer contents when the region is entered. -/

section Region1
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the row-tile operand, fetched at every point) holds its block at every point, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the column-tile operand, fetched when the inner coordinate is 0) holds its block at every point:
    where it is not fetched its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the scaling column, fetched at the first point only) holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions on the grid coordinates -/

/-- The first conditional's condition (the inner coordinate is 0: the scratch is reset), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 14). -/
theorem hcond1_0 : ∀ t : Fin cfg1.N, cond1_0 (grid1.coords t) ↔ t.val % 14 = 0 :=
  (by decide +kernel : ∀ t : Fin grid1.N, cond1_0 (grid1.coords t) ↔ t.val % 14 = 0)

/-- The second conditional's condition (the inner coordinate is 13: the output block is stored). -/
abbrev cond1_1 (i : grid1.Coords) : Prop := k1_cond2 i = 1#1
/-- It holds at the points ≡ 13 (mod 14). -/
theorem hcond1_1 : ∀ t : Fin cfg1.N, cond1_1 (grid1.coords t) ↔ t.val % 14 = 13 :=
  (by decide +kernel : ∀ t : Fin grid1.N, cond1_1 (grid1.coords t) ↔ t.val % 14 = 13)

/-! ## Where the output window is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where the output block is not stored the output window is idle, -/
theorem idleAt1_3 : ∀ t : Fin cfg1.N, ¬cond1_1 (grid1.coords t) → cfg1.idle 3 (grid1.coords t) = true := by decide +kernel
/-- and not written back; -/
theorem noFlush1_3 : ∀ t : Fin cfg1.N, ¬cond1_1 (grid1.coords t) → (cfg1.win 3).flush t = false := by decide +kernel
/-- where it is stored the window is live. -/
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S1x512 .f32 := (Memref.whole cc1_stg3_0 : Memref sig .tc .vmem S1x512 .f32).view
abbrev ms1_0 (t : Fin cfg1.N) : Memref sig .tc .vmem S116x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S116x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S116x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
/-- The scratch operand: a whole scoped buffer of the call's own, carried between points. -/
abbrev scM1_0 : Memref sig .tc .vmem S1x512 .f32 := Memref.whole cc1_scratch0
abbrev VS1_0 : View sig .tc .vmem S1x512 .f32 := scM1_0.view

/-- The class's invariant with the scratch as a memref owned at some contents, the other scoped buffers unopened. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.Kernel.Hand

end
-- ==== Proof.FrameKernel.Region1RunA.lean ====
import proofs.«143417_j3152505995417_1_alg».proof.Proof.FrameKernel.Region1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The body in case A (the inner coordinate is 0: the scratch is reset, then updated; the output block is not
    stored): on whole memrefs — the three inputs at their contents, the output's buffer at contents handed back
    untouched, the scratch at anything — it runs to the continuation holding the inputs as they were and the scratch
    with its pieces written. The pieces are the witness the run finds. -/
noncomputable def kernelRun1_A (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : cond1_0 i) (hc1 : ¬cond1_1 i)
    (x0 : Vec F S116x512 .f32) (x1 : Vec F S116x512 .f32) (x2 : Vec F S116x1 .f32) :
    Σ' (L3 : List (View.Piece (Elt F) S1x512 .f32)), { LS0 : List (View.Piece (Elt F) S1x512 .f32) //
      ∀ (xi3 : Vec F S1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__colmax_kernel i arg2 harg2 arg3 harg3 arg4 harg4 arg5 harg5 arg6 harg6) K } := by
  refine ⟨[], ?_, fun xi3 E K => ?run⟩
  case run =>
    simp only [cc1__colmax_kernel_eq_skeleton]; unfold cc1__colmax_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.FrameKernel.Region1RunB.lean ====
import proofs.«143417_j3152505995417_1_alg».proof.Proof.FrameKernel.Region1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The body in case B (the inner coordinate is neither 0 nor 13: the scratch is updated; the output block is not
    stored): the scratch at what the point before left. -/
noncomputable def kernelRun1_B (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : ¬cond1_0 i) (hc1 : ¬cond1_1 i)
    (x0 : Vec F S116x512 .f32) (x1 : Vec F S116x512 .f32) (x2 : Vec F S116x1 .f32) (xs0 : Vec F S1x512 .f32) :
    Σ' (L3 : List (View.Piece (Elt F) S1x512 .f32)), { LS0 : List (View.Piece (Elt F) S1x512 .f32) //
      ∀ (xi3 : Vec F S1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__colmax_kernel i arg2 harg2 arg3 harg3 arg4 harg4 arg5 harg5 arg6 harg6) K } := by
  refine ⟨[], ?_, fun xi3 E K => ?run⟩
  case run =>
    simp only [cc1__colmax_kernel_eq_skeleton]; unfold cc1__colmax_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.FrameKernel.Region1RunC.lean ====
import proofs.«143417_j3152505995417_1_alg».proof.Proof.FrameKernel.Region1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The body in case C (the inner coordinate is 13: the scratch is updated, then the output block stored from it):
    the output's buffer at anything, the scratch at what the point before left. -/
noncomputable def kernelRun1_C (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : ¬cond1_0 i) (hc1 : cond1_1 i)
    (x0 : Vec F S116x512 .f32) (x1 : Vec F S116x512 .f32) (x2 : Vec F S116x1 .f32) (xs0 : Vec F S1x512 .f32) :
    Σ' (L3 : List (View.Piece (Elt F) S1x512 .f32)), { LS0 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__colmax_kernel i arg2 harg2 arg3 harg3 arg4 harg4 arg5 harg5 arg6 harg6) K } := by
  refine ⟨?_, ?_, fun E K => ?run⟩
  case run =>
    simp only [cc1__colmax_kernel_eq_skeleton]; unfold cc1__colmax_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.FrameKernel.Region1Defs.lean ====
import proofs.«143417_j3152505995417_1_alg».proof.Proof.FrameKernel.Region1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # Region 1: what each case leaves, point by point, and the proof data -/

/-- Case A stores nothing into the output's buffer (the window is idle at its points and not written back there): a
    placeholder that nothing consults. -/
def out1_A_3 (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : cond1_0 i) (hc1 : ¬cond1_1 i)
    (x0 : Vec F S116x512 .f32) (x1 : Vec F S116x512 .f32) (x2 : Vec F S116x1 .f32) : Vec F S1x512 .f32 :=
  VO1_3.read (Elt F) (VO1_3.writes (Elt F) VO1_3.junk (kernelRun1_A c i arg2 harg2 arg3 harg3 arg4 harg4 arg5 harg5 arg6 harg6 hc0 hc1 x0 x1 x2).1)

/-- Case A's stores into the scratch cover it. -/
theorem scover1_A_0 (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : cond1_0 i) (hc1 : ¬cond1_1 i)
    (x0 : Vec F S116x512 .f32) (x1 : Vec F S116x512 .f32) (x2 : Vec F S116x1 .f32) (y : S1x512.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1x512.size (by sl_kernel_rfl) y

/-- What case A leaves in the scratch: its pieces read back. -/
def sout1_A_0 (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : cond1_0 i) (hc1 : ¬cond1_1 i)
    (x0 : Vec F S116x512 .f32) (x1 : Vec F S116x512 .f32) (x2 : Vec F S116x1 .f32) : Vec F S1x512 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into the output's buffer (the window is idle at its points and not written back there): a
    placeholder that nothing consults. -/
def out1_B_3 (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : ¬cond1_0 i) (hc1 : ¬cond1_1 i)
    (x0 : Vec F S116x512 .f32) (x1 : Vec F S116x512 .f32) (x2 : Vec F S116x1 .f32) (xs0 : Vec F S1x512 .f32) : Vec F S1x512 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's stores into the scratch cover it. -/
theorem scover1_B_0 (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : ¬cond1_0 i) (hc1 : ¬cond1_1 i)
    (x0 : Vec F S116x512 .f32) (x1 : Vec F S116x512 .f32) (x2 : Vec F S116x1 .f32) (xs0 : Vec F S1x512 .f32) (y : S1x512.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1x512.size (by sl_kernel_rfl) y

/-- What case B leaves in the scratch: its pieces read back. -/
def sout1_B_0 (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : ¬cond1_0 i) (hc1 : ¬cond1_1 i)
    (x0 : Vec F S116x512 .f32) (x1 : Vec F S116x512 .f32) (x2 : Vec F S116x1 .f32) (xs0 : Vec F S1x512 .f32) : Vec F S1x512 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's one store into the output's buffer covers it. -/
theorem cover1_C_3 (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : ¬cond1_0 i) (hc1 : cond1_1 i)
    (x0 : Vec F S116x512 .f32) (x1 : Vec F S116x512 .f32) (x2 : Vec F S116x1 .f32) (xs0 : Vec F S1x512 .f32) (y : S1x512.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1x512.size (by sl_kernel_rfl) y

/-- What case C leaves in the output's buffer: its pieces read back. -/
def out1_C_3 (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : ¬cond1_0 i) (hc1 : cond1_1 i)
    (x0 : Vec F S116x512 .f32) (x1 : Vec F S116x512 .f32) (x2 : Vec F S116x1 .f32) (xs0 : Vec F S1x512 .f32) : Vec F S1x512 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's stores into the scratch cover it. -/
theorem scover1_C_0 (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : ¬cond1_0 i) (hc1 : cond1_1 i)
    (x0 : Vec F S116x512 .f32) (x1 : Vec F S116x512 .f32) (x2 : Vec F S116x1 .f32) (xs0 : Vec F S1x512 .f32) (y : S1x512.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1x512.size (by sl_kernel_rfl) y

/-- What case C leaves in the scratch: its pieces read back. -/
def sout1_C_0 (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : ¬cond1_0 i) (hc1 : cond1_1 i)
    (x0 : Vec F S116x512 .f32) (x1 : Vec F S116x512 .f32) (x2 : Vec F S116x1 .f32) (xs0 : Vec F S1x512 .f32) : Vec F S1x512 .f32 :=
  VS1_0.read (Elt F) (VS1_0.writes (Elt F) VS1_0.junk (kernelRun1_C c i arg2 harg2 arg3 harg3 arg4 harg4 arg5 harg5 arg6 harg6 hc0 hc1 x0 x1 x2 xs0).2.1)

section Region1
variable (V : (c : Dev nD) → (b : Ref sig .tc) → Buf (Elt F) ((c : Thread nD τ).loc b))

/-! ## What the output's buffer and the scratch hold after each point -/

/-- What the output's staging buffer (first component) and the scratch (second component) hold after the body at
    position `n`: the case the closed forms select at `n`, run at the point's memrefs and input blocks, the scratch at
    what the point before left (in case A it is reset, so nothing of the point before is read). -/
def outsAt1 (c : Dev nD) : (n : ℕ) → n < cfg1.N → Vec F S1x512 .f32 × Vec F S1x512 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 14 = 0 then
      if h1 : (n + 1) % 14 = 13 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 14 = 13 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 14 = 0) (h1 : ¬t.val % 14 = 13) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left in the scratch. -/
theorem outsAt1_B (c : Dev nD) (t : Fin cfg1.N) (h0 : ¬t.val % 14 = 0) (h1 : ¬t.val % 14 = 13) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left in the scratch. -/
theorem outsAt1_C (c : Dev nD) (t : Fin cfg1.N) (h0 : ¬t.val % 14 = 0) (h1 : t.val % 14 = 13) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The scoped buffers of the region other than its scratch, unopened. -/
abbrev rest1 (c : Dev nD) : sProp 𝕄 :=
  Pipeline.scopedRestBut (Ix := Unit) (Name := ℕ) (U := UR sig nD τ) (Lvl := ℕ) (Val := Elt F) spec1 c [cc1_scratch0]

/-- The region invariant before position `n`: before the first point the class's (every scoped buffer at anything);
    afterwards the scratch at what the point before left in it, the other scoped buffers unopened, and the generator
    register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 c) ∗ (∃ r, prngReg c r)) := by
  cases n with
  | zero => exact absurd rfl hz
  | succ n => rfl

/-! ## The proof data -/

/-- The proof data of region 1 on core `c`: the arrays as the region finds them (`V`); after the body at point `t`
    each input's buffer at its block and the output's at `outsAt1`; the invariant `PhiS1`; nothing owed; the two
    windows that read one array hold a half of it each, every other window its array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem owed1 (c : Dev nD) (t) : (dat1 V c).owed t = 0 := rfl

theorem q1_0 (c : Dev nD) : (dat1 V c).q 0 = fullShare.left := rfl
theorem q1_1 (c : Dev nD) : (dat1 V c).q 1 = fullShare.right := rfl
theorem q1_2 (c : Dev nD) : (dat1 V c).q 2 = fullShare := rfl
theorem q1_3 (c : Dev nD) : (dat1 V c).q 3 = fullShare := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 196 := N_1; omega)

end Region1

end Cert.Kernel.Hand

end
-- ==== Proof.FrameKernel.Region1.lean ====
import proofs.«143417_j3152505995417_1_alg».proof.Proof.FrameKernel.Region1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # Region 1: the body obligation -/

section Region1
variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The inputs' buffers are left at their blocks (their windows are never idle). -/
theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (c : Dev nD) (t : Fin cfg1.N) :
    (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]

set_option maxHeartbeats 4800000 in
/-- The body at any point: the inputs' memrefs hold their blocks; the closed forms say which case the point is in;
    the invariant hands the body the scratch at what the point before left (at anything at the first point) and
    takes it back at this point's contents; where the output block is not stored its buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 196 := lt_of_lt_of_eq t.isLt (show cfg1.N = 196 from N_1)
  by_cases h0 : t.val % 14 = 0
  · by_cases h1 : t.val % 14 = 13
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 14 = 13
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.FrameKernel.Region2Base.lean ====
import proofs.«143417_j3152505995417_1_alg».proof.Proof.Gen.Kernel.Launch
import proofs.«143417_j3152505995417_1_alg».proof.Proof.Gen.Kernel.Skeleton
import proofs.«143417_j3152505995417_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 (the accumulation over column tiles), at the contents `V` the region is entered with

What the three control cases of the body share: each window's block at a point, the closed forms of the two
conditions over the grid, where the output window is idle, the staging memrefs the body is called with, and the
region invariant with the accumulator scratch split off. -/

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: an
    unfetched input's block index has not moved, the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: an
    unfetched input's block index has not moved, the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: an
    unfetched input's block index has not moved, the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: an
    unfetched input's block index has not moved, the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: an
    unfetched input's block index has not moved, the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: an
    unfetched input's block index has not moved, the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The two conditions of the body, in closed form over the grid -/

/-- The first condition (the inner coordinate is 0: the accumulator is reset), from the grid coordinates. -/
abbrev cond2_0 (i : grid2.Coords) : Prop := (Scalar.cmpi .ne (Scalar.extui (Scalar.cmpi .eq (BitVec.ofNat 32 (i 1).val) 0#32)) 0#32) = 1#1
/-- It holds exactly at the points ≡ 0 (mod 14). -/
theorem hcond2_0 : ∀ t : Fin cfg2.N, cond2_0 (grid2.coords t) ↔ t.val % 14 = 0 :=
  (by decide +kernel : ∀ t : Fin grid2.N, cond2_0 (grid2.coords t) ↔ t.val % 14 = 0)

/-- The second condition (the inner coordinate is 13: the output block is stored). -/
abbrev cond2_1 (i : grid2.Coords) : Prop := k2_cond2 i = 1#1
/-- It holds exactly at the points ≡ 13 (mod 14). -/
theorem hcond2_1 : ∀ t : Fin cfg2.N, cond2_1 (grid2.coords t) ↔ t.val % 14 = 13 :=
  (by decide +kernel : ∀ t : Fin grid2.N, cond2_1 (grid2.coords t) ↔ t.val % 14 = 13)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
/-- Away from the storing points the output window is idle, -/
theorem idleAt2_6 : ∀ t : Fin cfg2.N, ¬cond2_1 (grid2.coords t) → cfg2.idle 6 (grid2.coords t) = true := by decide +kernel
/-- and its block is not written back there. -/
theorem noFlush2_6 : ∀ t : Fin cfg2.N, ¬cond2_1 (grid2.coords t) → (cfg2.win 6).flush t = false := by decide +kernel
/-- At the storing points it is live. -/
theorem liveAt2_6_C : ∀ t : Fin cfg2.N, cond2_1 (grid2.coords t) → cfg2.idle 6 (grid2.coords t) = false := by decide +kernel

/-! ## The memrefs the body is called with -/

/-- One staging buffer of the output window, through which its contents are stated. -/
abbrev VO2_6 : View sig .tc .vmem S512x5 .f32 := (Memref.whole cc2_stg6_0 : Memref sig .tc .vmem S512x5 .f32).view
abbrev ms2_0 (t : Fin cfg2.N) : Memref sig .tc .vmem S116x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S116x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S116x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x5 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x5 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S512x5 .f32 := win2_6.stage (cfg2.slots t 6)
abbrev hs2_6 (t : Fin cfg2.N) : (ms2_6 t).IsWhole := hstage2_6 ((cfg2.slots t 6).cast nbuf2_6)
/-- The accumulator scratch, a whole scoped buffer passed beside the windows, -/
abbrev scM2 : Memref sig .tc .vmem S512x5 .f32 := Memref.whole cc2_scratch0
/-- and its view, through which what it holds is stated. -/
abbrev VS2 : View sig .tc .vmem S512x5 .f32 := scM2.view

/-- The scoped rest of the region split at the accumulator scratch. -/
theorem scopedRest2_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop(iprop((∃ f : Buf Val ((c : Thread nD τ).loc cc2_scratch0), ((c : Thread nD τ).loc cc2_scratch0) ↦{fullShare} f))
          ∗ Pipeline.scopedRestBut (Ix := Ix) (Name := Name) (U := U) (Lvl := Lvl) (Val := Val) spec2 c [cc2_scratch0]) :=
  Pipeline.scopedRest_split_of_list spec2 c [cc2_scratch0] (by decide) (by decide)

/-- The other scoped buffers of the core, unopened. -/
abbrev restBut2 (c : Dev nD) : sProp 𝕄 :=
  Pipeline.scopedRestBut (Ix := Unit) (Name := ℕ) (U := UR sig nD τ) (Lvl := ℕ) (Val := Elt F) spec2 c [cc2_scratch0]

/-- The region invariant with the scratch as a memref owned at some contents. -/
theorem PhiA2_eq (c : Dev nD) :
    (Pipeline.ΦA spec2 c : sProp 𝕄)
      = iprop(iprop(iprop((∃ d, owns (c : Thread nD τ) scM2 fullShare d)) ∗ restBut2 c) ∗ (∃ r, prngReg c r)) := by
  unfold Pipeline.ΦA; rw [scopedRest2_split]; simp only [scM2, owns_whole]; try rfl

end Cert.Kernel.Hand

end
-- ==== Proof.FrameKernel.Region2RunA.lean ====
import proofs.«143417_j3152505995417_1_alg».proof.Proof.FrameKernel.Region2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in case A (the inner coordinate is 0: the scratch is reset and then updated, nothing is stored into the output block): on whole memrefs, the six inputs' at their contents,
    the output's at contents handed back untouched, the scratch at anything, the body runs to the
    continuation holding the inputs' as they were and the scratch with its pieces written. The pieces
    (last store first) are the witness the symbolic run finds. -/
noncomputable def kernelRun2_A (c : Dev nD) (i : grid2.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S512x5 .f32) (harg6 : arg6.IsWhole) (arg7 : Memref sig .tc .vmem S1x5 .f32) (harg7 : arg7.IsWhole) (arg8 : Memref sig .tc .vmem S512x5 .f32) (harg8 : arg8.IsWhole) (arg9 : Memref sig .tc .vmem S512x5 .f32) (harg9 : arg9.IsWhole) (hc0 : cond2_0 i) (hc1 : ¬cond2_1 i)
    (x0 : Vec F S116x512 .f32) (x1 : Vec F S116x512 .f32) (x2 : Vec F S116x1 .f32) (x3 : Vec F S1x512 .f32) (x4 : Vec F S512x5 .f32) (x5 : Vec F S1x5 .f32) :
    Σ' (L6 : List (View.Piece (Elt F) S512x5 .f32)), { LS0 : List (View.Piece (Elt F) S512x5 .f32) //
      ∀ (xi6 : Vec F S512x5 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2__accum_kernel i arg2 harg2 arg3 harg3 arg4 harg4 arg5 harg5 arg6 harg6 arg7 harg7 arg8 harg8 arg9 harg9) K } := by
  refine ⟨[], ?_, fun xi6 E K => ?run⟩
  case run =>
    simp only [cc2__accum_kernel_eq_skeleton]; unfold cc2__accum_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.FrameKernel.Region2RunB.lean ====
import proofs.«143417_j3152505995417_1_alg».proof.Proof.FrameKernel.Region2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in case B (the inner coordinate is strictly between 0 and 13: the scratch is updated, nothing is stored into the output block): on whole memrefs, the six inputs' at their contents,
    the output's at contents handed back untouched, the scratch at what the point before left, the body runs to the
    continuation holding the inputs' as they were and the scratch with its pieces written. The pieces
    (last store first) are the witness the symbolic run finds. -/
noncomputable def kernelRun2_B (c : Dev nD) (i : grid2.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S512x5 .f32) (harg6 : arg6.IsWhole) (arg7 : Memref sig .tc .vmem S1x5 .f32) (harg7 : arg7.IsWhole) (arg8 : Memref sig .tc .vmem S512x5 .f32) (harg8 : arg8.IsWhole) (arg9 : Memref sig .tc .vmem S512x5 .f32) (harg9 : arg9.IsWhole) (hc0 : ¬cond2_0 i) (hc1 : ¬cond2_1 i)
    (x0 : Vec F S116x512 .f32) (x1 : Vec F S116x512 .f32) (x2 : Vec F S116x1 .f32) (x3 : Vec F S1x512 .f32) (x4 : Vec F S512x5 .f32) (x5 : Vec F S1x5 .f32) (xs0 : Vec F S512x5 .f32) :
    Σ' (L6 : List (View.Piece (Elt F) S512x5 .f32)), { LS0 : List (View.Piece (Elt F) S512x5 .f32) //
      ∀ (xi6 : Vec F S512x5 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2__accum_kernel i arg2 harg2 arg3 harg3 arg4 harg4 arg5 harg5 arg6 harg6 arg7 harg7 arg8 harg8 arg9 harg9) K } := by
  refine ⟨[], ?_, fun xi6 E K => ?run⟩
  case run =>
    simp only [cc2__accum_kernel_eq_skeleton]; unfold cc2__accum_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.FrameKernel.Region2RunC.lean ====
import proofs.«143417_j3152505995417_1_alg».proof.Proof.FrameKernel.Region2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in case C (the inner coordinate is 13: the scratch is updated and the output block is stored from it): on whole memrefs, the six inputs' at their contents,
    the output's at anything, the scratch at what the point before left, the body runs to the
    continuation holding the inputs' as they were, the output's buffer with its pieces written and the scratch with its pieces written. The pieces
    (last store first) are the witness the symbolic run finds. -/
noncomputable def kernelRun2_C (c : Dev nD) (i : grid2.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S512x5 .f32) (harg6 : arg6.IsWhole) (arg7 : Memref sig .tc .vmem S1x5 .f32) (harg7 : arg7.IsWhole) (arg8 : Memref sig .tc .vmem S512x5 .f32) (harg8 : arg8.IsWhole) (arg9 : Memref sig .tc .vmem S512x5 .f32) (harg9 : arg9.IsWhole) (hc0 : ¬cond2_0 i) (hc1 : cond2_1 i)
    (x0 : Vec F S116x512 .f32) (x1 : Vec F S116x512 .f32) (x2 : Vec F S116x1 .f32) (x3 : Vec F S1x512 .f32) (x4 : Vec F S512x5 .f32) (x5 : Vec F S1x5 .f32) (xs0 : Vec F S512x5 .f32) :
    Σ' (L6 : List (View.Piece (Elt F) S512x5 .f32)), { LS0 : List (View.Piece (Elt F) S512x5 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc2__accum_kernel i arg2 harg2 arg3 harg3 arg4 harg4 arg5 harg5 arg6 harg6 arg7 harg7 arg8 harg8 arg9 harg9) K } := by
  refine ⟨?_, ?_, fun E K => ?run⟩
  case run =>
    simp only [cc2__accum_kernel_eq_skeleton]; unfold cc2__accum_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Hand

end
-- ==== Proof.FrameKernel.Region2Dat.lean ====
import proofs.«143417_j3152505995417_1_alg».proof.Proof.FrameKernel.Region2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: what the body leaves, point by point, and the proof data

The accumulator scratch and the output window's staging buffer after each point of the grid, by recursion on the
point through the three control cases; the region invariant that carries the scratch between points; the proof data
of the pipeline at the contents `V` the region is entered with. -/

/-! ## The pieces each case writes cover the buffers -/

theorem scover2_A_gen (c : Dev nD) (i : grid2.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S512x5 .f32) (harg6 : arg6.IsWhole) (arg7 : Memref sig .tc .vmem S1x5 .f32) (harg7 : arg7.IsWhole) (arg8 : Memref sig .tc .vmem S512x5 .f32) (harg8 : arg8.IsWhole) (arg9 : Memref sig .tc .vmem S512x5 .f32) (harg9 : arg9.IsWhole) (hc0 : cond2_0 i) (hc1 : ¬cond2_1 i) (x0 : Vec F S116x512 .f32) (x1 : Vec F S116x512 .f32) (x2 : Vec F S116x1 .f32) (x3 : Vec F S1x512 .f32) (x4 : Vec F S512x5 .f32) (x5 : Vec F S1x5 .f32) (y : S512x5.Idx) :
    ∃ pc ∈ (kernelRun2_A (F := F) c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun2_A (F := F) c i arg2 harg2 arg3 harg3 arg4 harg4 arg5 harg5 arg6 harg6 arg7 harg7 arg8 harg8 arg9 harg9 hc0 hc1 x0 x1 x2 x3 x4 x5).2.1 S512x5.size (by sl_kernel_rfl) y

theorem scover2_B_gen (c : Dev nD) (i : grid2.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S512x5 .f32) (harg6 : arg6.IsWhole) (arg7 : Memref sig .tc .vmem S1x5 .f32) (harg7 : arg7.IsWhole) (arg8 : Memref sig .tc .vmem S512x5 .f32) (harg8 : arg8.IsWhole) (arg9 : Memref sig .tc .vmem S512x5 .f32) (harg9 : arg9.IsWhole) (hc0 : ¬cond2_0 i) (hc1 : ¬cond2_1 i) (x0 : Vec F S116x512 .f32) (x1 : Vec F S116x512 .f32) (x2 : Vec F S116x1 .f32) (x3 : Vec F S1x512 .f32) (x4 : Vec F S512x5 .f32) (x5 : Vec F S1x5 .f32) (xs0 : Vec F S512x5 .f32) (y : S512x5.Idx) :
    ∃ pc ∈ (kernelRun2_B (F := F) c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_B (F := F) c i arg2 harg2 arg3 harg3 arg4 harg4 arg5 harg5 arg6 harg6 arg7 harg7 arg8 harg8 arg9 harg9 hc0 hc1 x0 x1 x2 x3 x4 x5 xs0).2.1 S512x5.size (by sl_kernel_rfl) y

theorem scover2_C_gen (c : Dev nD) (i : grid2.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S512x5 .f32) (harg6 : arg6.IsWhole) (arg7 : Memref sig .tc .vmem S1x5 .f32) (harg7 : arg7.IsWhole) (arg8 : Memref sig .tc .vmem S512x5 .f32) (harg8 : arg8.IsWhole) (arg9 : Memref sig .tc .vmem S512x5 .f32) (harg9 : arg9.IsWhole) (hc0 : ¬cond2_0 i) (hc1 : cond2_1 i) (x0 : Vec F S116x512 .f32) (x1 : Vec F S116x512 .f32) (x2 : Vec F S116x1 .f32) (x3 : Vec F S1x512 .f32) (x4 : Vec F S512x5 .f32) (x5 : Vec F S1x5 .f32) (xs0 : Vec F S512x5 .f32) (y : S512x5.Idx) :
    ∃ pc ∈ (kernelRun2_C (F := F) c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_C (F := F) c i arg2 harg2 arg3 harg3 arg4 harg4 arg5 harg5 arg6 harg6 arg7 harg7 arg8 harg8 arg9 harg9 hc0 hc1 x0 x1 x2 x3 x4 x5 xs0).2.1 S512x5.size (by sl_kernel_rfl) y

theorem cover2_C_gen (c : Dev nD) (i : grid2.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S512x5 .f32) (harg6 : arg6.IsWhole) (arg7 : Memref sig .tc .vmem S1x5 .f32) (harg7 : arg7.IsWhole) (arg8 : Memref sig .tc .vmem S512x5 .f32) (harg8 : arg8.IsWhole) (arg9 : Memref sig .tc .vmem S512x5 .f32) (harg9 : arg9.IsWhole) (hc0 : ¬cond2_0 i) (hc1 : cond2_1 i) (x0 : Vec F S116x512 .f32) (x1 : Vec F S116x512 .f32) (x2 : Vec F S116x1 .f32) (x3 : Vec F S1x512 .f32) (x4 : Vec F S512x5 .f32) (x5 : Vec F S1x5 .f32) (xs0 : Vec F S512x5 .f32) (y : S512x5.Idx) :
    ∃ pc ∈ (kernelRun2_C (F := F) c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun2_C (F := F) c i arg2 harg2 arg3 harg3 arg4 harg4 arg5 harg5 arg6 harg6 arg7 harg7 arg8 harg8 arg9 harg9 hc0 hc1 x0 x1 x2 x3 x4 x5 xs0).1 S512x5.size (by sl_kernel_rfl) y

section Region2

variable (V : (c : Dev nD) → (b : Ref sig .tc) → Buf (Elt F) ((c : Thread nD τ).loc b))

/-! ## The three cases at a point of the grid -/

/-- The run of case A at point `t`: on the point's staging memrefs and the scratch, the inputs at their blocks. -/
def run2_A (c : Dev nD) (t : Fin cfg2.N) (h0 : t.val % 14 = 0) (h1 : ¬t.val % 14 = 13) :=
  kernelRun2_A (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _)
    ((hcond2_0 t).mpr h0) (fun h => h1 ((hcond2_1 t).mp h)) (iblk2 V c 0 t) (iblk2 V c 1 t) (iblk2 V c 2 t) (iblk2 V c 3 t) (iblk2 V c 4 t) (iblk2 V c 5 t)

/-- The run of case B at point `t`, the scratch at `xs`. -/
def run2_B (c : Dev nD) (t : Fin cfg2.N) (h0 : ¬t.val % 14 = 0) (h1 : ¬t.val % 14 = 13) (xs : Vec F S512x5 .f32) :=
  kernelRun2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _)
    (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) xs

/-- The run of case C at point `t`, the scratch at `xs`. -/
def run2_C (c : Dev nD) (t : Fin cfg2.N) (h0 : ¬t.val % 14 = 0) (h1 : t.val % 14 = 13) (xs : Vec F S512x5 .f32) :=
  kernelRun2_C (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _)
    (fun h => h0 ((hcond2_0 t).mp h)) ((hcond2_1 t).mpr h1) (iblk2 V c 0 t) (iblk2 V c 1 t) (iblk2 V c 2 t) (iblk2 V c 3 t) (iblk2 V c 4 t) (iblk2 V c 5 t) xs

/-- What case A leaves in the scratch: its pieces read back. -/
def sout2_A (c : Dev nD) (t : Fin cfg2.N) (h0 : t.val % 14 = 0) (h1 : ¬t.val % 14 = 13) : Vec F S512x5 .f32 :=
  VS2.read (Elt F) (VS2.writes (Elt F) VS2.junk (run2_A V c t h0 h1).2.1)
/-- Case A stores nothing into the output block: a placeholder nothing consults (the window is idle there). -/
def out2_A (c : Dev nD) (t : Fin cfg2.N) (h0 : t.val % 14 = 0) (h1 : ¬t.val % 14 = 13) : Vec F S512x5 .f32 :=
  VO2_6.read (Elt F) (VO2_6.writes (Elt F) VO2_6.junk (run2_A V c t h0 h1).1)
theorem scover2_A (c : Dev nD) (t : Fin cfg2.N) (h0 : t.val % 14 = 0) (h1 : ¬t.val % 14 = 13) (y : S512x5.Idx) :
    ∃ pc ∈ (run2_A V c t h0 h1).2.1, y ∈ pc.1.set := scover2_A_gen c _ _ _ _ _ _ _ _ _ _ _ _ _ _ _ _ _ _ _ _ _ _ _ _ _ y

/-- What case B leaves in the scratch. -/
def sout2_B (c : Dev nD) (t : Fin cfg2.N) (h0 : ¬t.val % 14 = 0) (h1 : ¬t.val % 14 = 13) (xs : Vec F S512x5 .f32) : Vec F S512x5 .f32 :=
  VS2.read (Elt F) (VS2.writes (Elt F) VS2.junk (run2_B V c t h0 h1 xs).2.1)
/-- Case B stores nothing into the output block: a placeholder. -/
def out2_B (c : Dev nD) (t : Fin cfg2.N) (h0 : ¬t.val % 14 = 0) (h1 : ¬t.val % 14 = 13) (xs : Vec F S512x5 .f32) : Vec F S512x5 .f32 :=
  VO2_6.read (Elt F) (VO2_6.writes (Elt F) VO2_6.junk (run2_B V c t h0 h1 xs).1)
theorem scover2_B (c : Dev nD) (t : Fin cfg2.N) (h0 : ¬t.val % 14 = 0) (h1 : ¬t.val % 14 = 13) (xs : Vec F S512x5 .f32) (y : S512x5.Idx) :
    ∃ pc ∈ (run2_B V c t h0 h1 xs).2.1, y ∈ pc.1.set := scover2_B_gen c _ _ _ _ _ _ _ _ _ _ _ _ _ _ _ _ _ _ _ _ _ _ _ _ _ _ y

/-- What case C leaves in the scratch. -/
def sout2_C (c : Dev nD) (t : Fin cfg2.N) (h0 : ¬t.val % 14 = 0) (h1 : t.val % 14 = 13) (xs : Vec F S512x5 .f32) : Vec F S512x5 .f32 :=
  VS2.read (Elt F) (VS2.writes (Elt F) VS2.junk (run2_C V c t h0 h1 xs).2.1)
/-- What case C leaves in the output window's staging buffer. -/
def out2_C (c : Dev nD) (t : Fin cfg2.N) (h0 : ¬t.val % 14 = 0) (h1 : t.val % 14 = 13) (xs : Vec F S512x5 .f32) : Vec F S512x5 .f32 :=
  VO2_6.read (Elt F) (VO2_6.writes (Elt F) VO2_6.junk (run2_C V c t h0 h1 xs).1)
theorem scover2_C (c : Dev nD) (t : Fin cfg2.N) (h0 : ¬t.val % 14 = 0) (h1 : t.val % 14 = 13) (xs : Vec F S512x5 .f32) (y : S512x5.Idx) :
    ∃ pc ∈ (run2_C V c t h0 h1 xs).2.1, y ∈ pc.1.set := scover2_C_gen c _ _ _ _ _ _ _ _ _ _ _ _ _ _ _ _ _ _ _ _ _ _ _ _ _ _ y
theorem cover2_C (c : Dev nD) (t : Fin cfg2.N) (h0 : ¬t.val % 14 = 0) (h1 : t.val % 14 = 13) (xs : Vec F S512x5 .f32) (y : S512x5.Idx) :
    ∃ pc ∈ (run2_C V c t h0 h1 xs).1, y ∈ pc.1.set := cover2_C_gen c _ _ _ _ _ _ _ _ _ _ _ _ _ _ _ _ _ _ _ _ _ _ _ _ _ _ y

/-! ## What the output buffer and the scratch hold after each point -/

/-- After the body at position `n`: (the output window's staging buffer, the accumulator scratch). The case is the one
    the inner coordinate `n % 14` selects; cases B and C start from the scratch the point before left. -/
def outsAt2 (c : Dev nD) : (n : ℕ) → n < cfg2.N → Vec F S512x5 .f32 × Vec F S512x5 .f32
  | 0, hn => (out2_A V c ⟨0, hn⟩ (Nat.zero_mod _) (by show ¬(0 % 14 = 13); decide), sout2_A V c ⟨0, hn⟩ (Nat.zero_mod _) (by show ¬(0 % 14 = 13); decide))
  | n + 1, hn =>
    if h0 : (n + 1) % 14 = 0 then
      if h1 : (n + 1) % 14 = 13 then
        False.elim (by omega)
      else
        (out2_A V c ⟨n + 1, hn⟩ h0 h1, sout2_A V c ⟨n + 1, hn⟩ h0 h1)
    else
      if h1 : (n + 1) % 14 = 13 then
        (out2_C V c ⟨n + 1, hn⟩ h0 h1 (outsAt2 c n (Nat.lt_of_succ_lt hn)).2, sout2_C V c ⟨n + 1, hn⟩ h0 h1 (outsAt2 c n (Nat.lt_of_succ_lt hn)).2)
      else
        (out2_B V c ⟨n + 1, hn⟩ h0 h1 (outsAt2 c n (Nat.lt_of_succ_lt hn)).2, sout2_B V c ⟨n + 1, hn⟩ h0 h1 (outsAt2 c n (Nat.lt_of_succ_lt hn)).2)

/-- `outsAt2` at a point of case A. -/
theorem outsAt2_A (c : Dev nD) (t : Fin cfg2.N) (h0 : t.val % 14 = 0) (h1 : ¬t.val % 14 = 13) :
    outsAt2 V c t.val t.isLt = (out2_A V c t h0 h1, sout2_A V c t h0 h1) := by
  obtain ⟨n, hn⟩ := t
  cases n with
  | zero => exact rfl
  | succ n => exact (dif_pos h0).trans ((dif_neg h1).trans rfl)

/-- `outsAt2` at a point of case B: over what the point before left in the scratch. -/
theorem outsAt2_B (c : Dev nD) (t : Fin cfg2.N) (h0 : ¬t.val % 14 = 0) (h1 : ¬t.val % 14 = 13) :
    outsAt2 V c t.val t.isLt = (out2_B V c t h0 h1 (outsAt2 V c (t.val - 1) (Nat.lt_of_le_of_lt (Nat.sub_le _ _) t.isLt)).2,
      sout2_B V c t h0 h1 (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: over what the point before left in the scratch. -/
theorem outsAt2_C (c : Dev nD) (t : Fin cfg2.N) (h0 : ¬t.val % 14 = 0) (h1 : t.val % 14 = 13) :
    outsAt2 V c t.val t.isLt = (out2_C V c t h0 h1 (outsAt2 V c (t.val - 1) (Nat.lt_of_le_of_lt (Nat.sub_le _ _) t.isLt)).2,
      sout2_C V c t h0 h1 (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: before the first point what the launch hands the region; afterwards the scratch at what the
    point before left in it, the other scoped buffers unopened, the generator register at some state. -/
def PhiS2 (c : Dev nD) : (n : ℕ) → n ≤ cfg2.N → sProp 𝕄
  | 0, _ => Pipeline.ΦA spec2 c
  | n + 1, hn => iprop(iprop(iprop(owns (c : Thread nD τ) scM2 fullShare ((outsAt2 V c n hn).2)) ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2 fullShare ((outsAt2 V c n hn).2)) ∗ restBut2 c) ∗ (∃ r, prngReg c r)) := rfl

theorem PhiS2_pos (c : Dev nD) (n : ℕ) (h : n ≤ cfg2.N) (hz : n ≠ 0) :
    PhiS2 V c n h = iprop(iprop(iprop(owns (c : Thread nD τ) scM2 fullShare ((outsAt2 V c (n - 1) (by omega)).2)) ∗ restBut2 c) ∗ (∃ r, prngReg c r)) := by
  cases n with
  | zero => exact absurd rfl hz
  | succ n => rfl

/-! ## The proof data -/

/-- The proof data of the region's pipeline on core `c`: the arrays as the region finds them; after the body each
    input's buffer at its block and the output's at `outsAt2`; the invariant `PhiS2`; nothing owed; the array the
    first two windows share held half and half, every other array outright. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq2 (c : Dev nD) (w : Fin cfg2.W) : (dat2 V c).A w = V c (Pipeline.arrRef spec2 w) := by
  dsimp only [dat2]

theorem owed2 (c : Dev nD) (t) : (dat2 V c).owed t = 0 := rfl

theorem q2_0 (c : Dev nD) : (dat2 V c).q 0 = fullShare.left := rfl
theorem q2_1 (c : Dev nD) : (dat2 V c).q 1 = fullShare.right := rfl
theorem q2_2 (c : Dev nD) : (dat2 V c).q 2 = fullShare := rfl
theorem q2_3 (c : Dev nD) : (dat2 V c).q 3 = fullShare := rfl
theorem q2_4 (c : Dev nD) : (dat2 V c).q 4 = fullShare := rfl
theorem q2_5 (c : Dev nD) : (dat2 V c).q 5 = fullShare := rfl
theorem q2_6 (c : Dev nD) : (dat2 V c).q 6 = fullShare := rfl

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives it back: the scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 196 := N_2; omega)

end Region2

end Cert.Kernel.Hand

end
-- ==== Proof.FrameKernel.Region2.lean ====
import proofs.«143417_j3152505995417_1_alg».proof.Proof.FrameKernel.Region2Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the body obligation

At every point of the grid the body, called on the point's staging memrefs and the accumulator scratch, runs from
the invariant and the windows' buffers to the invariant of the next point and the buffers at what the proof data
says: the inner coordinate selects one of the three control cases, whose run applies. -/

section Region2

variable (V : (c : Dev nD) → (b : Ref sig .tc) → Buf (Elt F) ((c : Thread nD τ).loc b))

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' memrefs hold their blocks; the closed forms of the conditions say which case
    the point is in; the invariant hands the body the scratch at what the point before left (at anything at the very
    first point) and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 196 := lt_of_lt_of_eq t.isLt (show cfg2.N = 196 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h0 : t.val % 14 = 0
  · by_cases h1 : t.val % 14 = 13
    · exfalso; omega
    · rw [Dat.leavesExact_idle (dat2 V c) 6 t (idleAt2_6 t (fun h => h1 ((hcond2_1 t).mp h))) (noFlush2_6 t (fun h => h1 ((hcond2_1 t).mp h)))]
      rw [outsAt2_A V c t h0 h1]
      unfold sout2_A; (try dsimp only)
      by_cases hz : t.val = 0
      · rw [PhiS2_castSucc V c t, PhiS2_zero V c _ _ hz, PhiA2_eq]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((run2_A V c t h0 h1).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A V c t h0 h1)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((run2_A V c t h0 h1).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A V c t h0 h1)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun e => h0 (by rw [e])
    by_cases h1 : t.val % 14 = 13
    · rw [show (dat2 V c).leavesExact 6 t = owns (c : Thread nD τ) (ms2_6 t) fullShare ((dat2 V c).after 6 t) from by
        unfold Dat.leavesExact; rw [liveAt2_6_C t ((hcond2_1 t).mpr h1)], after2_6]
      rw [outsAt2_C V c t h0 h1]
      unfold out2_C sout2_C; (try dsimp only)
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((run2_C V c t h0 h1 _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_C V c t h0 h1 _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_C V c t h0 h1 _)
    · rw [Dat.leavesExact_idle (dat2 V c) 6 t (idleAt2_6 t (fun h => h1 ((hcond2_1 t).mp h))) (noFlush2_6 t (fun h => h1 ((hcond2_1 t).mp h)))]
      rw [outsAt2_B V c t h0 h1]
      unfold sout2_B; (try dsimp only)
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((run2_B V c t h0 h1 _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_B V c t h0 h1 _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation of the region's pipeline, at every point. -/
theorem body_obligation2 (c : Dev nD) : Pipeline.BodyObligation (dat2 (F := F) V c) (defs₀ (F := F)) Variants.none () Set.univ := fun t => by
  rw [bigSep_W2, bigSep_W2]
  exact sound_body2 V c t

end Region2

end Cert.Kernel.Hand

end
-- ==== Proof.FrameKernel.Region3Dat.lean ====
import proofs.«143417_j3152505995417_1_alg».proof.Proof.Gen.Kernel.Launch
import proofs.«143417_j3152505995417_1_alg».proof.Proof.Gen.Kernel.Skeleton
import proofs.«143417_j3152505995417_1_alg».proof.Proof.Gen.Kernel.Points
import Idealize.ShloMosaic.Lib.Pipeline.FrameBody
import Idealize.ShloMosaic.Lib.Ring
import Idealize.ShloMosaic.Lib.Tactic

-- membership in a rectangle of large extents is decided by a structural recursion, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! # Region 3: the node convolution on a one-point grid, at the entry contents `V` -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: an unfetched point has not moved the block
    index, the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: an unfetched point has not moved the block
    index, the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: an unfetched point has not moved the block
    index, the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: an unfetched point has not moved the block
    index, the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: an unfetched point has not moved the block
    index, the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof
    data whose array is `V`'s and whose body leaves the block in place: an unfetched point has not moved the block
    index, the window is uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take the whole buffer -/

abbrev r3_0 : Rect S116x6670 := Rect.unit (s := S116x6670) ![0, 0] S116x6670.size inb_S116x6670_S116x6670_0_0
abbrev r3_1 : Rect S6670x5 := Rect.unit (s := S6670x5) ![0, 0] S6670x5.size inb_S6670x5_S6670x5_0_0
abbrev r3_2 : Rect S116x64 := Rect.unit (s := S116x64) ![0, 0] S116x64.size inb_S116x64_S116x64_0_0
abbrev r3_3 : Rect S1x5 := Rect.unit (s := S1x5) ![0, 0] S1x5.size inb_S1x5_S1x5_0_0
abbrev r3_4 : Rect S64x64 := Rect.unit (s := S64x64) ![0, 0] S64x64.size inb_S64x64_S64x64_0_0
abbrev r3_5 : Rect S1x64 := Rect.unit (s := S1x64) ![0, 0] S1x64.size inb_S1x64_S1x64_0_0
abbrev r3_6 : Rect S116x64 := Rect.unit (s := S116x64) ![0, 0] S116x64.size inb_S116x64_S116x64_0_0

/-! ## What the body leaves in the output window's buffer -/

/-- Window 6's staging buffer after the body, from the six input blocks: the one store, whose value is the
    convolution of the six loaded vectors, laid over the whole buffer. -/
def out3_6 (x0 : Vec F S116x6670 .f32) (x1 : Vec F S6670x5 .f32) (x2 : Vec F S116x64 .f32) (x3 : Vec F S1x5 .f32)
    (x4 : Vec F S64x64 .f32) (x5 : Vec F S1x64 .f32) : Vec F S116x64 .f32 :=
  View.canon [⟨r3_6, k3_pay1 (View.ld x0 r3_0) (View.ld x1 r3_1) (View.ld x2 r3_2) (View.ld x3 r3_3) (View.ld x4 r3_4) (View.ld x5 r3_5)⟩]

/-- The one store's rectangle is the whole buffer, so it covers it. -/
theorem cover3_6 (p0 : Vec F S116x64 .f32) (y : S116x64.Idx) :
    ∃ pc ∈ ([⟨r3_6, p0⟩] : List (View.Piece (Elt F) S116x64 .f32)), y ∈ pc.1.set :=
  View.cover_of_tiled [⟨r3_6, p0⟩] S116x64.size (by rfl) y

/-! ## The proof data -/

/-- The proof data of the region's pipeline on core `c`: the arrays as the region finds them; after the body each
    input's buffer at its block and the output's at `out3_6` of the input blocks; the invariant is the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- Nothing is owed at any point. -/
theorem owed3 (c : Dev nD) (t) : (dat3 V c).owed t = 0 := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

end Region

end Cert.Kernel.Hand

end
-- ==== Proof.FrameKernel.Region3Body.lean ====
import proofs.«143417_j3152505995417_1_alg».proof.Proof.FrameKernel.Region3Dat

-- membership in a rectangle of large extents is decided by a structural recursion, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: the body's triple -/

set_option maxHeartbeats 1000000 in
/-- The node convolution on whole staging memrefs, the inputs' at read contents `xW` and the output's at anything,
    runs to the continuation holding the inputs' as they were and the output's at `out3_6` of the inputs': the
    printed function is its skeleton of seven whole loads (the last, of the output buffer, unused) and one whole
    store: each load reads its buffer's contents, and the store leaves its value over the whole output buffer. -/
theorem sound_kernel3 (c : Dev nD) (E : Set ℕ) (i : grid3.Coords) (arg1 : Memref sig .tc .vmem S116x6670 .f32) (harg1 : arg1.IsWhole) (arg2 : Memref sig .tc .vmem S6670x5 .f32) (harg2 : arg2.IsWhole) (arg3 : Memref sig .tc .vmem S116x64 .f32) (harg3 : arg3.IsWhole) (arg4 : Memref sig .tc .vmem S1x5 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S116x64 .f32) (harg7 : arg7.IsWhole)
    (x0 : Vec F S116x6670 .f32) (x1 : Vec F S6670x5 .f32) (x2 : Vec F S116x64 .f32) (x3 : Vec F S1x5 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__node_conv_kernel i arg1 harg1 arg2 harg2 arg3 harg3 arg4 harg4 arg5 harg5 arg6 harg6 arg7 harg7) K := by
  simp only [cc3__node_conv_kernel_eq_skeleton]; unfold cc3__node_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

end Cert.Kernel.Hand

end
-- ==== Proof.FrameKernel.Region3.lean ====
import proofs.«143417_j3152505995417_1_alg».proof.Proof.FrameKernel.Region3Dat
import proofs.«143417_j3152505995417_1_alg».proof.Proof.FrameKernel.Region3Body

-- membership in a rectangle of large extents is decided by a structural recursion, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! # Region 3: the body obligation, at a generic point -/

/-- What the body is called with at point `t`: the invariant, what is owed, and the windows' current staging buffers one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks, so the body's triple applies; the invariant and
    what is owed pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Region

end Cert.Kernel.Hand

end
-- ==== Proof.FrameKernel.RunCond.lean ====
/-
  The run of @main from the four regions' segment records, with the RESULT named.

  Between two items of @main core `c` holds every unscoped buffer at the valuation the generated module
  `Gen.VJ` names: the launch contents, each stretch of host operations applied in turn, and at a region's exit the
  region's output array replaced by what the region leaves (`outs`).  Given one segment record per region, entered
  from the valuation before it and left at the one after it, every weakly fair execution terminates, the sixteen
  argument arrays end as launched, and the result array `main_v63` ends at the last valuation's contents
  `Gen.V16 m outs c main_v63`: the last stretch of host operations applied to what region 3 left.
-/
import proofs.«143417_j3152505995417_1_alg».proof.Proof.Gen.Kernel.Regions

set_option maxRecDepth 1072

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

variable (m : (ℓ : Loc nD τ sig) → Buf (Elt F) ℓ)

set_option backward.isDefEq.respectTransparency.types false in
/-- The run, given the regions' records: termination, the arguments unchanged, and the result array at the last
    valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V9 m outs c) ∗ E 1 c) ⊢ R1.pre c)
    (hpost1 : ∀ c : Dev nD, R1.post c ⊢ iprop(StableHlo.held (c : Thread nD τ) (Pipeline.ucRefs τ sig) (V10 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V10 m outs c) ∗ E 2 c) ⊢ R2.pre c)
    (hpost2 : ∀ c : Dev nD, R2.post c ⊢ iprop(StableHlo.held (c : Thread nD τ) (Pipeline.ucRefs τ sig) (V11 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V14 m outs c) ∗ E 3 c) ⊢ R3.pre c)
    (hpost3 : ∀ c : Dev nD, R3.post c ⊢ iprop(StableHlo.held (c : Thread nD τ) (Pipeline.ucRefs τ sig) (V15 m outs c) ∗ E 4 c)) :
    θ_run defs (onTc (τ := τ) (main (F := F))) ⟨m, fun _ => 0, ρ⟩ (fun r => ∀ c : Dev nD,
      r.2.mem ((c.tc : Thread nD τ).loc main_v63) = V16 m outs c main_v63
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          Prog.lift (.customCall (Pipeline.entry 2) ()),
          StableHlo.seq hostOps3,
          StableHlo.seq hostOps3_1,
          StableHlo.seq hostOps3_2,
          Prog.lift (.customCall (Pipeline.entry 3) ()),
          StableHlo.seq hostOps4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V16 m outs c))
    (hch := fun c => ⟨.rfl, .rfl, .rfl, hpre0 c, hpost0 c, .rfl, .rfl, .rfl, .rfl, hpre1 c, (hpost1 c).trans (hpre2 c), hpost2 c, .rfl, .rfl, hpre3 c, hpost3 c, sep_mono .rfl (hE4 c)⟩)
    (hinit := ?_) (QY := fun c s => s.mem ((c.tc : Thread nD τ).loc main_v63) = V16 m outs c main_v63 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15))
    (hfin := fun c s' => ?_) (hQ := fun _ h => h)
  · -- the launch: the unscoped buffers are held at the launch valuation; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's and each argument's buffer read off the last valuation
    unfold StableHlo.held
    iintro ⟨Hh, HSI⟩
    ihave Hr := (pointsTo_read_all (Pipeline.ucRefs τ sig) (fun b => ((c : Thread nD τ).1, b)) (V16 m outs c) s') $$ [Hh HSI]
    · isplitl [Hh] <;> iassumption
    icases Hr with ⟨%h, HSI⟩
    imodintro
    isplitr
    · ipureintro
      exact ⟨h (Proc.devRef .tc main_v63) (Finset.mem_filter.mpr ⟨StableHlo.devRef_mem_tcRefs main_v63, by decide⟩),
        (h (Proc.devRef .tc main_arg0) (Finset.mem_filter.mpr ⟨StableHlo.devRef_mem_tcRefs main_arg0, by decide⟩)).trans (V16_main_arg0 m outs c),
        (h (Proc.devRef .tc main_arg1) (Finset.mem_filter.mpr ⟨StableHlo.devRef_mem_tcRefs main_arg1, by decide⟩)).trans (V16_main_arg1 m outs c),
        (h (Proc.devRef .tc main_arg2) (Finset.mem_filter.mpr ⟨StableHlo.devRef_mem_tcRefs main_arg2, by decide⟩)).trans (V16_main_arg2 m outs c),
        (h (Proc.devRef .tc main_arg3) (Finset.mem_filter.mpr ⟨StableHlo.devRef_mem_tcRefs main_arg3, by decide⟩)).trans (V16_main_arg3 m outs c),
        (h (Proc.devRef .tc main_arg4) (Finset.mem_filter.mpr ⟨StableHlo.devRef_mem_tcRefs main_arg4, by decide⟩)).trans (V16_main_arg4 m outs c),
        (h (Proc.devRef .tc main_arg5) (Finset.mem_filter.mpr ⟨StableHlo.devRef_mem_tcRefs main_arg5, by decide⟩)).trans (V16_main_arg5 m outs c),
        (h (Proc.devRef .tc main_arg6) (Finset.mem_filter.mpr ⟨StableHlo.devRef_mem_tcRefs main_arg6, by decide⟩)).trans (V16_main_arg6 m outs c),
        (h (Proc.devRef .tc main_arg7) (Finset.mem_filter.mpr ⟨StableHlo.devRef_mem_tcRefs main_arg7, by decide⟩)).trans (V16_main_arg7 m outs c),
        (h (Proc.devRef .tc main_arg8) (Finset.mem_filter.mpr ⟨StableHlo.devRef_mem_tcRefs main_arg8, by decide⟩)).trans (V16_main_arg8 m outs c),
        (h (Proc.devRef .tc main_arg9) (Finset.mem_filter.mpr ⟨StableHlo.devRef_mem_tcRefs main_arg9, by decide⟩)).trans (V16_main_arg9 m outs c),
        (h (Proc.devRef .tc main_arg10) (Finset.mem_filter.mpr ⟨StableHlo.devRef_mem_tcRefs main_arg10, by decide⟩)).trans (V16_main_arg10 m outs c),
        (h (Proc.devRef .tc main_arg11) (Finset.mem_filter.mpr ⟨StableHlo.devRef_mem_tcRefs main_arg11, by decide⟩)).trans (V16_main_arg11 m outs c),
        (h (Proc.devRef .tc main_arg12) (Finset.mem_filter.mpr ⟨StableHlo.devRef_mem_tcRefs main_arg12, by decide⟩)).trans (V16_main_arg12 m outs c),
        (h (Proc.devRef .tc main_arg13) (Finset.mem_filter.mpr ⟨StableHlo.devRef_mem_tcRefs main_arg13, by decide⟩)).trans (V16_main_arg13 m outs c),
        (h (Proc.devRef .tc main_arg14) (Finset.mem_filter.mpr ⟨StableHlo.devRef_mem_tcRefs main_arg14, by decide⟩)).trans (V16_main_arg14 m outs c),
        (h (Proc.devRef .tc main_arg15) (Finset.mem_filter.mpr ⟨StableHlo.devRef_mem_tcRefs main_arg15, by decide⟩)).trans (V16_main_arg15 m outs c)⟩
    · iexact HSI

end Cert.Kernel.Hand

end
-- ==== Proof.FrameKernel.Chain.lean ====
import proofs.«143417_j3152505995417_1_alg».proof.Proof.FrameKernel.Region0
import proofs.«143417_j3152505995417_1_alg».proof.Proof.FrameKernel.Region1
import proofs.«143417_j3152505995417_1_alg».proof.Proof.FrameKernel.Region2
import proofs.«143417_j3152505995417_1_alg».proof.Proof.FrameKernel.Region3
import proofs.«143417_j3152505995417_1_alg».proof.Proof.Gen.Kernel.Regions
import Idealize.ShloMosaic.Lib.Pipeline.Frame
import Idealize.ShloMosaic.Lib.Pipeline.RegionsLoop
import Idealize.ShloMosaic.Lib.Pipeline.FrameSuffix
import proofs.«143417_j3152505995417_1_alg».proof.Proof.FrameKernel.RunCond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! # The valuations between the items of @main

Between two items of @main a core holds every unscoped buffer at a valuation: the launch contents, each stretch of host
operations applied in turn, and at a region's exit the region's output array replaced by what the region's write-backs
leave.  Each region's proof data is stated at the valuation its region is entered from.  Each valuation is determined
by its defining equation, which is all that is used of it. -/

section Run

variable (m : (ℓ : Loc nD τ sig) → Buf (Elt F) ℓ)

/-- The valuation region 0 is entered from: the launch contents after the three stretches of host operations before it. -/
def W3 (c : Dev nD) : Valuation τ sig (Elt F) := V3 m c
theorem W3_eq (c : Dev nD) : V3 m c = W3 m c := rfl
abbrev X0 : (c : Dev nD) → (b : Ref sig .tc) → Buf (Elt F) ((c : Thread nD τ).loc b) := fun c b => W3 m c b
/-- After region 0: its output array `main_v44` at what the region leaves. -/
def U4 (c : Dev nD) : Valuation τ sig (Elt F) := Function.update (W3 m c) main_v44 ((dat0 (X0 m) c).arrAt 6 cfg0.N)
theorem U4_def (c : Dev nD) : U4 m c = Function.update (W3 m c) main_v44 ((dat0 (X0 m) c).arrAt 6 cfg0.N) := rfl
/-- The valuation region 1 is entered from: five stretches of host operations later. -/
def U9 (c : Dev nD) : Valuation τ sig (Elt F) :=
  StableHlo.after hostOps1_4 (StableHlo.after hostOps1_3 (StableHlo.after hostOps1_2 (StableHlo.after hostOps1_1 (StableHlo.after hostOps1 (U4 m c)))))
theorem U9_def (c : Dev nD) : U9 m c =
  StableHlo.after hostOps1_4 (StableHlo.after hostOps1_3 (StableHlo.after hostOps1_2 (StableHlo.after hostOps1_1 (StableHlo.after hostOps1 (U4 m c))))) := rfl
abbrev X1 : (c : Dev nD) → (b : Ref sig .tc) → Buf (Elt F) ((c : Thread nD τ).loc b) := fun c b => U9 m c b
/-- After region 1: the column maxima `main_v51` at what the region leaves. -/
def U10 (c : Dev nD) : Valuation τ sig (Elt F) := Function.update (U9 m c) main_v51 ((dat1 (X1 m) c).arrAt 3 cfg1.N)
theorem U10_def (c : Dev nD) : U10 m c = Function.update (U9 m c) main_v51 ((dat1 (X1 m) c).arrAt 3 cfg1.N) := rfl
abbrev X2 : (c : Dev nD) → (b : Ref sig .tc) → Buf (Elt F) ((c : Thread nD τ).loc b) := fun c b => U10 m c b
/-- After region 2: the edge features `main_v52` at what the region leaves. -/
def U11 (c : Dev nD) : Valuation τ sig (Elt F) := Function.update (U10 m c) main_v52 ((dat2 (X2 m) c).arrAt 6 cfg2.N)
theorem U11_def (c : Dev nD) : U11 m c = Function.update (U10 m c) main_v52 ((dat2 (X2 m) c).arrAt 6 cfg2.N) := rfl
/-- The valuation region 3 is entered from: three stretches of host operations later. -/
def U14 (c : Dev nD) : Valuation τ sig (Elt F) := StableHlo.after hostOps3_2 (StableHlo.after hostOps3_1 (StableHlo.after hostOps3 (U11 m c)))
theorem U14_def (c : Dev nD) : U14 m c = StableHlo.after hostOps3_2 (StableHlo.after hostOps3_1 (StableHlo.after hostOps3 (U11 m c))) := rfl
abbrev X3 : (c : Dev nD) → (b : Ref sig .tc) → Buf (Elt F) ((c : Thread nD τ).loc b) := fun c b => U14 m c b
/-- After region 3: the node features `main_v56` at what the region leaves. -/
def U15 (c : Dev nD) : Valuation τ sig (Elt F) := Function.update (U14 m c) main_v56 ((dat3 (X3 m) c).arrAt 6 cfg3.N)
theorem U15_def (c : Dev nD) : U15 m c = Function.update (U14 m c) main_v56 ((dat3 (X3 m) c).arrAt 6 cfg3.N) := rfl
/-- The last valuation: the closing stretch of host operations applied. -/
def U16 (c : Dev nD) : Valuation τ sig (Elt F) := StableHlo.after hostOps4 (U15 m c)
theorem U16_def (c : Dev nD) : U16 m c = StableHlo.after hostOps4 (U15 m c) := rfl

/-- What the regions leave in the arrays they may change, read off the valuations above. -/
def outs : Outs (F := F) := fun J r c =>
  if J = 4 then U4 m c r else if J = 10 then U10 m c r else if J = 11 then U11 m c r else if J = 15 then U15 m c r else W3 m c r

theorem V4_eq (c : Dev nD) : V4 m (outs m) c = U4 m c := by
  show Function.update (V3 m c) main_v44 (outs m 4 main_v44 c) = _
  unfold outs; rw [if_pos rfl, U4_def, Function.update_self, W3_eq]
theorem V9_eq (c : Dev nD) : V9 m (outs m) c = U9 m c := by
  show StableHlo.after hostOps1_4 (StableHlo.after hostOps1_3 (StableHlo.after hostOps1_2 (StableHlo.after hostOps1_1 (StableHlo.after hostOps1 (V4 m (outs m) c))))) = _
  rw [V4_eq, U9_def]
theorem V10_eq (c : Dev nD) : V10 m (outs m) c = U10 m c := by
  show Function.update (V9 m (outs m) c) main_v51 (outs m 10 main_v51 c) = _
  rw [V9_eq]; unfold outs; rw [if_neg (by decide), if_pos rfl, U10_def, Function.update_self]
theorem V11_eq (c : Dev nD) : V11 m (outs m) c = U11 m c := by
  show Function.update (V10 m (outs m) c) main_v52 (outs m 11 main_v52 c) = _
  rw [V10_eq]; unfold outs; rw [if_neg (by decide), if_neg (by decide), if_pos rfl, U11_def, Function.update_self]
theorem V14_eq (c : Dev nD) : V14 m (outs m) c = U14 m c := by
  show StableHlo.after hostOps3_2 (StableHlo.after hostOps3_1 (StableHlo.after hostOps3 (V11 m (outs m) c))) = _
  rw [V11_eq, U14_def]
theorem V15_eq (c : Dev nD) : V15 m (outs m) c = U15 m c := by
  show Function.update (V14 m (outs m) c) main_v56 (outs m 15 main_v56 c) = _
  rw [V14_eq]; unfold outs; rw [if_neg (by decide), if_neg (by decide), if_neg (by decide), if_pos rfl, U15_def, Function.update_self]
theorem V16_eq (c : Dev nD) : V16 m (outs m) c = U16 m c := by
  show StableHlo.after hostOps4 (V15 m (outs m) c) = _
  rw [V15_eq, U16_def]

/-- A valuation changed at one buffer reads elsewhere as before. -/
theorem upd_ne (W : Valuation τ sig (Elt F)) {r r' : Ref sig .tc} (h : r' ≠ r) (v) :
    Function.update W (Proc.devRef .tc r) v (Proc.devRef .tc r') = W (Proc.devRef .tc r') :=
  Function.update_of_ne (StableHlo.devRef_ne_of_ne h) _ _
/-- and at that buffer as it was set. -/
theorem upd_eq (W : Valuation τ sig (Elt F)) (r : Ref sig .tc) (v) :
    Function.update W (Proc.devRef .tc r) v (Proc.devRef .tc r) = v := Function.update_self _ _ _

end Run

attribute [irreducible] W3 U4 U9 U10 U11 U14 U15 U16

end Cert.Kernel.Hand

end
-- ==== Proof.FrameKernel.Shared.lean ====
import proofs.«143417_j3152505995417_1_alg».proof.Proof.Gen.Kernel.Launch
import Idealize.ShloMosaic.Lib.Pipeline.Frame
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! # One array read by two windows

Regions 1 and 2 hand the padded incidence matrix `main_v36` to two input windows.  Each window holds half of the
array's buffer; the two halves together are the buffer at the full share. -/

/-! ## Region 1: windows 0 and 1 both read `main_v36` -/

theorem img1 : Finset.univ.image (Pipeline.arrRef spec1) = ({main_v36, main_v48, main_v51} : Finset (Ref sig .tc)) := by decide

/-- The buffers behind region 1's arrays, each whole at the full share at contents `V`, are the pipeline's arrays at
    contents `G` that agree with `V` — the shared buffer `main_v36` as its two halves, one per window reading it. -/
theorem arrays_iff1 (c : Dev nD) (dat : Dat τ (Elt F) Unit ℕ (UR sig nD τ) ℕ cfg1 c)
    (hq0 : dat.q 0 = fullShare.left) (hq1 : dat.q 1 = fullShare.right) (hq : ∀ w : Fin cfg1.W, w ≠ 0 → w ≠ 1 → dat.q w = fullShare)
    (V : (b : Ref sig .tc) → Buf (Elt F) ((c : Thread nD τ).loc b))
    (G : (w : Fin cfg1.W) → Buf (Elt F) ((cfg1.win w).arr.view.loc (c.tc : Thread nD τ)))
    (hG : ∀ w, G w = V (Pipeline.arrRef spec1 w)) :
    (Pipeline.arrBufs spec1 c V : sProp 𝕄) ⊣⊢ dat.arrays G := by
  have s0 : dat.share 0 = fullShare.left := by unfold Pipeline.Dat.share; rw [if_neg (by decide)]; exact hq0
  have s1 : dat.share 1 = fullShare.right := by unfold Pipeline.Dat.share; rw [if_neg (by decide)]; exact hq1
  have s2 : dat.share 2 = fullShare := by unfold Pipeline.Dat.share; rw [if_neg (by decide)]; exact hq 2 (by decide) (by decide)
  have s3 : dat.share 3 = fullShare := by unfold Pipeline.Dat.share; rw [if_pos (by decide)]
  have hh : ((((c.tc : Thread nD τ).loc main_v36) ↦{fullShare} V main_v36 : sProp 𝕄)) ⊣⊢ iprop((((c.tc : Thread nD τ).loc main_v36) ↦{fullShare.left} V main_v36) ∗ (((c.tc : Thread nD τ).loc main_v36) ↦{fullShare.right} V main_v36)) :=
    pointsTo_share (PosShare.mem_left_op_right fullShare)
  unfold Pipeline.arrBufs Pipeline.Dat.arrays
  rw [bigSep_W1, img1, bigSep_insert (by decide), bigSep_insert (by decide), BI.bigSep_singleton]
  simp only [(arr_whole1 0).set_eq_univ, s0, (arr_whole1 1).set_eq_univ, s1, (arr_whole1 2).set_eq_univ, s2, (arr_whole1 3).set_eq_univ, s3, hG]
  show iprop((((c.tc : Thread nD τ).loc main_v36) ↦{fullShare} V main_v36) ∗ (((c.tc : Thread nD τ).loc main_v48) ↦{fullShare} V main_v48) ∗ (((c.tc : Thread nD τ).loc main_v51) ↦{fullShare} V main_v51)) ⊣⊢ iprop((((c.tc : Thread nD τ).loc main_v36) ↦{fullShare.left} V main_v36) ∗ (((c.tc : Thread nD τ).loc main_v36) ↦{fullShare.right} V main_v36) ∗ (((c.tc : Thread nD τ).loc main_v48) ↦{fullShare} V main_v48) ∗ (((c.tc : Thread nD τ).loc main_v51) ↦{fullShare} V main_v51))
  constructor
  · iintro ⟨H36, H0, H1⟩
    ihave H := hh.1 $$ H36
    icases H with ⟨Hl, Hr⟩
    isplitl [Hl]; · iexact Hl
    isplitl [Hr]; · iexact Hr
    isplitl [H0]; · iexact H0
    iexact H1
  · iintro ⟨Hl, Hr, G0, G1⟩
    isplitl [Hl Hr]
    · iapply hh.2; isplitl [Hl]; · iexact Hl
      iexact Hr
    isplitl [G0]; · iexact G0
    iexact G1

/-! ## Region 2: windows 0 and 1 both read `main_v36` -/

theorem img2 : Finset.univ.image (Pipeline.arrRef spec2) = ({main_v36, main_v48, main_v51, main_v50, main_v39, main_v52} : Finset (Ref sig .tc)) := by decide

set_option maxHeartbeats 4000000 in
/-- The buffers behind region 2's arrays, each whole at the full share at contents `V`, are the pipeline's arrays at
    contents `G` that agree with `V` — the shared buffer `main_v36` as its two halves, one per window reading it. -/
theorem arrays_iff2 (c : Dev nD) (dat : Dat τ (Elt F) Unit ℕ (UR sig nD τ) ℕ cfg2 c)
    (hq0 : dat.q 0 = fullShare.left) (hq1 : dat.q 1 = fullShare.right) (hq : ∀ w : Fin cfg2.W, w ≠ 0 → w ≠ 1 → dat.q w = fullShare)
    (V : (b : Ref sig .tc) → Buf (Elt F) ((c : Thread nD τ).loc b))
    (G : (w : Fin cfg2.W) → Buf (Elt F) ((cfg2.win w).arr.view.loc (c.tc : Thread nD τ)))
    (hG : ∀ w, G w = V (Pipeline.arrRef spec2 w)) :
    (Pipeline.arrBufs spec2 c V : sProp 𝕄) ⊣⊢ dat.arrays G := by
  have s0 : dat.share 0 = fullShare.left := by unfold Pipeline.Dat.share; rw [if_neg (by decide)]; exact hq0
  have s1 : dat.share 1 = fullShare.right := by unfold Pipeline.Dat.share; rw [if_neg (by decide)]; exact hq1
  have s2 : dat.share 2 = fullShare := by unfold Pipeline.Dat.share; rw [if_neg (by decide)]; exact hq 2 (by decide) (by decide)
  have s3 : dat.share 3 = fullShare := by unfold Pipeline.Dat.share; rw [if_neg (by decide)]; exact hq 3 (by decide) (by decide)
  have s4 : dat.share 4 = fullShare := by unfold Pipeline.Dat.share; rw [if_neg (by decide)]; exact hq 4 (by decide) (by decide)
  have s5 : dat.share 5 = fullShare := by unfold Pipeline.Dat.share; rw [if_neg (by decide)]; exact hq 5 (by decide) (by decide)
  have s6 : dat.share 6 = fullShare := by unfold Pipeline.Dat.share; rw [if_pos (by decide)]
  have hh : ((((c.tc : Thread nD τ).loc main_v36) ↦{fullShare} V main_v36 : sProp 𝕄)) ⊣⊢ iprop((((c.tc : Thread nD τ).loc main_v36) ↦{fullShare.left} V main_v36) ∗ (((c.tc : Thread nD τ).loc main_v36) ↦{fullShare.right} V main_v36)) :=
    pointsTo_share (PosShare.mem_left_op_right fullShare)
  unfold Pipeline.arrBufs Pipeline.Dat.arrays
  rw [bigSep_W2, img2, bigSep_insert (by decide), bigSep_insert (by decide), bigSep_insert (by decide), bigSep_insert (by decide), bigSep_insert (by decide), BI.bigSep_singleton]
  simp only [(arr_whole2 0).set_eq_univ, s0, (arr_whole2 1).set_eq_univ, s1, (arr_whole2 2).set_eq_univ, s2, (arr_whole2 3).set_eq_univ, s3, (arr_whole2 4).set_eq_univ, s4, (arr_whole2 5).set_eq_univ, s5, (arr_whole2 6).set_eq_univ, s6, hG]
  show iprop((((c.tc : Thread nD τ).loc main_v36) ↦{fullShare} V main_v36) ∗ (((c.tc : Thread nD τ).loc main_v48) ↦{fullShare} V main_v48) ∗ (((c.tc : Thread nD τ).loc main_v51) ↦{fullShare} V main_v51) ∗ (((c.tc : Thread nD τ).loc main_v50) ↦{fullShare} V main_v50) ∗ (((c.tc : Thread nD τ).loc main_v39) ↦{fullShare} V main_v39) ∗ (((c.tc : Thread nD τ).loc main_v52) ↦{fullShare} V main_v52)) ⊣⊢ iprop((((c.tc : Thread nD τ).loc main_v36) ↦{fullShare.left} V main_v36) ∗ (((c.tc : Thread nD τ).loc main_v36) ↦{fullShare.right} V main_v36) ∗ (((c.tc : Thread nD τ).loc main_v48) ↦{fullShare} V main_v48) ∗ (((c.tc : Thread nD τ).loc main_v51) ↦{fullShare} V main_v51) ∗ (((c.tc : Thread nD τ).loc main_v50) ↦{fullShare} V main_v50) ∗ (((c.tc : Thread nD τ).loc main_v39) ↦{fullShare} V main_v39) ∗ (((c.tc : Thread nD τ).loc main_v52) ↦{fullShare} V main_v52))
  constructor
  · iintro ⟨H36, H0, H1, H2, H3, H4⟩
    ihave H := hh.1 $$ H36
    icases H with ⟨Hl, Hr⟩
    isplitl [Hl]; · iexact Hl
    isplitl [Hr]; · iexact Hr
    isplitl [H0]; · iexact H0
    isplitl [H1]; · iexact H1
    isplitl [H2]; · iexact H2
    isplitl [H3]; · iexact H3
    iexact H4
  · iintro ⟨Hl, Hr, G0, G1, G2, G3, G4⟩
    isplitl [Hl Hr]
    · iapply hh.2; isplitl [Hl]; · iexact Hl
      iexact Hr
    isplitl [G0]; · iexact G0
    isplitl [G1]; · iexact G1
    isplitl [G2]; · iexact G2
    isplitl [G3]; · iexact G3
    iexact G4

end Cert.Kernel.Hand

end
-- ==== Proof.FrameKernel.Segs.lean ====
import proofs.«143417_j3152505995417_1_alg».proof.Proof.FrameKernel.Chain
import proofs.«143417_j3152505995417_1_alg».proof.Proof.FrameKernel.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! # The regions as segments, the run and the frame -/

section Run

variable (m : (ℓ : Loc nD τ sig) → Buf (Elt F) ℓ)

/-- Every pipeline's proof data, each at the valuation its region is entered from. -/
def pdats : (p : Fin 4) → (c : Dev nD) → Dat τ (Elt F) Unit ℕ (UR sig nD τ) ℕ (Pipeline.pin (pcfgs (F := F)) adm p) c
  | ⟨0, _⟩ => fun c => dat0 (X0 m) c
  | ⟨1, _⟩ => fun c => dat1 (X1 m) c
  | ⟨2, _⟩ => fun c => dat2 (X2 m) c
  | ⟨3, _⟩ => fun c => dat3 (X3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-! ### Region 0's arrays at its exit -/
theorem ar0_0 : Pipeline.arrRef spec0 0 = main_v35 := rfl
theorem ar0_1 : Pipeline.arrRef spec0 1 = main_arg1 := rfl
theorem ar0_2 : Pipeline.arrRef spec0 2 = main_v43 := rfl
theorem ar0_3 : Pipeline.arrRef spec0 3 = main_arg7 := rfl
theorem ar0_4 : Pipeline.arrRef spec0 4 = main_arg5 := rfl
theorem ar0_5 : Pipeline.arrRef spec0 5 = main_v37 := rfl
theorem ar0_6 : Pipeline.arrRef spec0 6 = main_v44 := rfl
theorem ne0_0 : Pipeline.arrRef spec0 0 ≠ main_v44 := by rw [ar0_0]; decide
theorem ne0_1 : Pipeline.arrRef spec0 1 ≠ main_v44 := by rw [ar0_1]; decide
theorem ne0_2 : Pipeline.arrRef spec0 2 ≠ main_v44 := by rw [ar0_2]; decide
theorem ne0_3 : Pipeline.arrRef spec0 3 ≠ main_v44 := by rw [ar0_3]; decide
theorem ne0_4 : Pipeline.arrRef spec0 4 ≠ main_v44 := by rw [ar0_4]; decide
theorem ne0_5 : Pipeline.arrRef spec0 5 ≠ main_v44 := by rw [ar0_5]; decide
theorem hF0_0 (c : Dev nD) : (dat0 (X0 m) c).arrAt 0 cfg0.N = V4 m (outs m) c (Pipeline.arrRef spec0 0) := by
  rw [V4_eq, U4_def]
  exact ((dat0 (X0 m) c).arrAt_in 0 rfl _).trans ((A_eq0 (X0 m) c 0).trans (upd_ne (W3 m c) ne0_0 _).symm)
theorem hF0_1 (c : Dev nD) : (dat0 (X0 m) c).arrAt 1 cfg0.N = V4 m (outs m) c (Pipeline.arrRef spec0 1) := by
  rw [V4_eq, U4_def]
  exact ((dat0 (X0 m) c).arrAt_in 1 rfl _).trans ((A_eq0 (X0 m) c 1).trans (upd_ne (W3 m c) ne0_1 _).symm)
theorem hF0_2 (c : Dev nD) : (dat0 (X0 m) c).arrAt 2 cfg0.N = V4 m (outs m) c (Pipeline.arrRef spec0 2) := by
  rw [V4_eq, U4_def]
  exact ((dat0 (X0 m) c).arrAt_in 2 rfl _).trans ((A_eq0 (X0 m) c 2).trans (upd_ne (W3 m c) ne0_2 _).symm)
theorem hF0_3 (c : Dev nD) : (dat0 (X0 m) c).arrAt 3 cfg0.N = V4 m (outs m) c (Pipeline.arrRef spec0 3) := by
  rw [V4_eq, U4_def]
  exact ((dat0 (X0 m) c).arrAt_in 3 rfl _).trans ((A_eq0 (X0 m) c 3).trans (upd_ne (W3 m c) ne0_3 _).symm)
theorem hF0_4 (c : Dev nD) : (dat0 (X0 m) c).arrAt 4 cfg0.N = V4 m (outs m) c (Pipeline.arrRef spec0 4) := by
  rw [V4_eq, U4_def]
  exact ((dat0 (X0 m) c).arrAt_in 4 rfl _).trans ((A_eq0 (X0 m) c 4).trans (upd_ne (W3 m c) ne0_4 _).symm)
theorem hF0_5 (c : Dev nD) : (dat0 (X0 m) c).arrAt 5 cfg0.N = V4 m (outs m) c (Pipeline.arrRef spec0 5) := by
  rw [V4_eq, U4_def]
  exact ((dat0 (X0 m) c).arrAt_in 5 rfl _).trans ((A_eq0 (X0 m) c 5).trans (upd_ne (W3 m c) ne0_5 _).symm)
theorem hF0_6 (c : Dev nD) : (dat0 (X0 m) c).arrAt 6 cfg0.N = V4 m (outs m) c (Pipeline.arrRef spec0 6) := by
  rw [V4_eq, U4_def]
  exact (upd_eq (W3 m c) main_v44 _).symm
/-- At region 0's exit each of its arrays holds what the pipeline leaves: the inputs as entered, the output its write-back. -/
theorem hF0 (c : Dev nD) : ∀ w : Fin cfg0.W, (dat0 (X0 m) c).arrAt w cfg0.N = V4 m (outs m) c (Pipeline.arrRef spec0 w)
  | ⟨0, _⟩ => hF0_0 m c
  | ⟨1, _⟩ => hF0_1 m c
  | ⟨2, _⟩ => hF0_2 m c
  | ⟨3, _⟩ => hF0_3 m c
  | ⟨4, _⟩ => hF0_4 m c
  | ⟨5, _⟩ => hF0_5 m c
  | ⟨6, _⟩ => hF0_6 m c
/-- Every other buffer is as the region found it. -/
theorem hrest0 (c : Dev nD) : ∀ b, b ∉ Finset.univ.image (Pipeline.arrRef spec0) → V4 m (outs m) c b = X0 m c b := fun b hb => by
  rw [V4_eq, U4_def]
  exact upd_ne (W3 m c) (fun e => hb (Finset.mem_image.mpr ⟨6, Finset.mem_univ _, e.symm⟩)) _

/-! ### Region 1's arrays at its exit -/
theorem ar1_0 : Pipeline.arrRef spec1 0 = main_v36 := rfl
theorem ar1_1 : Pipeline.arrRef spec1 1 = main_v36 := rfl
theorem ar1_2 : Pipeline.arrRef spec1 2 = main_v48 := rfl
theorem ar1_3 : Pipeline.arrRef spec1 3 = main_v51 := rfl
theorem ne1_0 : Pipeline.arrRef spec1 0 ≠ main_v51 := by rw [ar1_0]; decide
theorem ne1_1 : Pipeline.arrRef spec1 1 ≠ main_v51 := by rw [ar1_1]; decide
theorem ne1_2 : Pipeline.arrRef spec1 2 ≠ main_v51 := by rw [ar1_2]; decide
theorem hF1_0 (c : Dev nD) : (dat1 (X1 m) c).arrAt 0 cfg1.N = V10 m (outs m) c (Pipeline.arrRef spec1 0) := by
  rw [V10_eq, U10_def]
  exact ((dat1 (X1 m) c).arrAt_in 0 rfl _).trans ((A_eq1 (X1 m) c 0).trans (upd_ne (U9 m c) ne1_0 _).symm)
theorem hF1_1 (c : Dev nD) : (dat1 (X1 m) c).arrAt 1 cfg1.N = V10 m (outs m) c (Pipeline.arrRef spec1 1) := by
  rw [V10_eq, U10_def]
  exact ((dat1 (X1 m) c).arrAt_in 1 rfl _).trans ((A_eq1 (X1 m) c 1).trans (upd_ne (U9 m c) ne1_1 _).symm)
theorem hF1_2 (c : Dev nD) : (dat1 (X1 m) c).arrAt 2 cfg1.N = V10 m (outs m) c (Pipeline.arrRef spec1 2) := by
  rw [V10_eq, U10_def]
  exact ((dat1 (X1 m) c).arrAt_in 2 rfl _).trans ((A_eq1 (X1 m) c 2).trans (upd_ne (U9 m c) ne1_2 _).symm)
theorem hF1_3 (c : Dev nD) : (dat1 (X1 m) c).arrAt 3 cfg1.N = V10 m (outs m) c (Pipeline.arrRef spec1 3) := by
  rw [V10_eq, U10_def]
  exact (upd_eq (U9 m c) main_v51 _).symm
/-- At region 1's exit each of its arrays holds what the pipeline leaves: the inputs as entered, the output its write-back. -/
theorem hF1 (c : Dev nD) : ∀ w : Fin cfg1.W, (dat1 (X1 m) c).arrAt w cfg1.N = V10 m (outs m) c (Pipeline.arrRef spec1 w)
  | ⟨0, _⟩ => hF1_0 m c
  | ⟨1, _⟩ => hF1_1 m c
  | ⟨2, _⟩ => hF1_2 m c
  | ⟨3, _⟩ => hF1_3 m c
/-- Every other buffer is as the region found it. -/
theorem hrest1 (c : Dev nD) : ∀ b, b ∉ Finset.univ.image (Pipeline.arrRef spec1) → V10 m (outs m) c b = X1 m c b := fun b hb => by
  rw [V10_eq, U10_def]
  exact upd_ne (U9 m c) (fun e => hb (Finset.mem_image.mpr ⟨3, Finset.mem_univ _, e.symm⟩)) _

/-! ### Region 2's arrays at its exit -/
theorem ar2_0 : Pipeline.arrRef spec2 0 = main_v36 := rfl
theorem ar2_1 : Pipeline.arrRef spec2 1 = main_v36 := rfl
theorem ar2_2 : Pipeline.arrRef spec2 2 = main_v48 := rfl
theorem ar2_3 : Pipeline.arrRef spec2 3 = main_v51 := rfl
theorem ar2_4 : Pipeline.arrRef spec2 4 = main_v50 := rfl
theorem ar2_5 : Pipeline.arrRef spec2 5 = main_v39 := rfl
theorem ar2_6 : Pipeline.arrRef spec2 6 = main_v52 := rfl
theorem ne2_0 : Pipeline.arrRef spec2 0 ≠ main_v52 := by rw [ar2_0]; decide
theorem ne2_1 : Pipeline.arrRef spec2 1 ≠ main_v52 := by rw [ar2_1]; decide
theorem ne2_2 : Pipeline.arrRef spec2 2 ≠ main_v52 := by rw [ar2_2]; decide
theorem ne2_3 : Pipeline.arrRef spec2 3 ≠ main_v52 := by rw [ar2_3]; decide
theorem ne2_4 : Pipeline.arrRef spec2 4 ≠ main_v52 := by rw [ar2_4]; decide
theorem ne2_5 : Pipeline.arrRef spec2 5 ≠ main_v52 := by rw [ar2_5]; decide
theorem hF2_0 (c : Dev nD) : (dat2 (X2 m) c).arrAt 0 cfg2.N = V11 m (outs m) c (Pipeline.arrRef spec2 0) := by
  rw [V11_eq, U11_def]
  exact ((dat2 (X2 m) c).arrAt_in 0 rfl _).trans ((A_eq2 (X2 m) c 0).trans (upd_ne (U10 m c) ne2_0 _).symm)
theorem hF2_1 (c : Dev nD) : (dat2 (X2 m) c).arrAt 1 cfg2.N = V11 m (outs m) c (Pipeline.arrRef spec2 1) := by
  rw [V11_eq, U11_def]
  exact ((dat2 (X2 m) c).arrAt_in 1 rfl _).trans ((A_eq2 (X2 m) c 1).trans (upd_ne (U10 m c) ne2_1 _).symm)
theorem hF2_2 (c : Dev nD) : (dat2 (X2 m) c).arrAt 2 cfg2.N = V11 m (outs m) c (Pipeline.arrRef spec2 2) := by
  rw [V11_eq, U11_def]
  exact ((dat2 (X2 m) c).arrAt_in 2 rfl _).trans ((A_eq2 (X2 m) c 2).trans (upd_ne (U10 m c) ne2_2 _).symm)
theorem hF2_3 (c : Dev nD) : (dat2 (X2 m) c).arrAt 3 cfg2.N = V11 m (outs m) c (Pipeline.arrRef spec2 3) := by
  rw [V11_eq, U11_def]
  exact ((dat2 (X2 m) c).arrAt_in 3 rfl _).trans ((A_eq2 (X2 m) c 3).trans (upd_ne (U10 m c) ne2_3 _).symm)
theorem hF2_4 (c : Dev nD) : (dat2 (X2 m) c).arrAt 4 cfg2.N = V11 m (outs m) c (Pipeline.arrRef spec2 4) := by
  rw [V11_eq, U11_def]
  exact ((dat2 (X2 m) c).arrAt_in 4 rfl _).trans ((A_eq2 (X2 m) c 4).trans (upd_ne (U10 m c) ne2_4 _).symm)
theorem hF2_5 (c : Dev nD) : (dat2 (X2 m) c).arrAt 5 cfg2.N = V11 m (outs m) c (Pipeline.arrRef spec2 5) := by
  rw [V11_eq, U11_def]
  exact ((dat2 (X2 m) c).arrAt_in 5 rfl _).trans ((A_eq2 (X2 m) c 5).trans (upd_ne (U10 m c) ne2_5 _).symm)
theorem hF2_6 (c : Dev nD) : (dat2 (X2 m) c).arrAt 6 cfg2.N = V11 m (outs m) c (Pipeline.arrRef spec2 6) := by
  rw [V11_eq, U11_def]
  exact (upd_eq (U10 m c) main_v52 _).symm
/-- At region 2's exit each of its arrays holds what the pipeline leaves: the inputs as entered, the output its write-back. -/
theorem hF2 (c : Dev nD) : ∀ w : Fin cfg2.W, (dat2 (X2 m) c).arrAt w cfg2.N = V11 m (outs m) c (Pipeline.arrRef spec2 w)
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c
  | ⟨6, _⟩ => hF2_6 m c
/-- Every other buffer is as the region found it. -/
theorem hrest2 (c : Dev nD) : ∀ b, b ∉ Finset.univ.image (Pipeline.arrRef spec2) → V11 m (outs m) c b = X2 m c b := fun b hb => by
  rw [V11_eq, U11_def]
  exact upd_ne (U10 m c) (fun e => hb (Finset.mem_image.mpr ⟨6, Finset.mem_univ _, e.symm⟩)) _

/-! ### Region 3's arrays at its exit -/
theorem ar3_0 : Pipeline.arrRef spec3 0 = main_v35 := rfl
theorem ar3_1 : Pipeline.arrRef spec3 1 = main_v54 := rfl
theorem ar3_2 : Pipeline.arrRef spec3 2 = main_v55 := rfl
theorem ar3_3 : Pipeline.arrRef spec3 3 = main_arg13 := rfl
theorem ar3_4 : Pipeline.arrRef spec3 4 = main_arg11 := rfl
theorem ar3_5 : Pipeline.arrRef spec3 5 = main_v38 := rfl
theorem ar3_6 : Pipeline.arrRef spec3 6 = main_v56 := rfl
theorem ne3_0 : Pipeline.arrRef spec3 0 ≠ main_v56 := by rw [ar3_0]; decide
theorem ne3_1 : Pipeline.arrRef spec3 1 ≠ main_v56 := by rw [ar3_1]; decide
theorem ne3_2 : Pipeline.arrRef spec3 2 ≠ main_v56 := by rw [ar3_2]; decide
theorem ne3_3 : Pipeline.arrRef spec3 3 ≠ main_v56 := by rw [ar3_3]; decide
theorem ne3_4 : Pipeline.arrRef spec3 4 ≠ main_v56 := by rw [ar3_4]; decide
theorem ne3_5 : Pipeline.arrRef spec3 5 ≠ main_v56 := by rw [ar3_5]; decide
theorem hF3_0 (c : Dev nD) : (dat3 (X3 m) c).arrAt 0 cfg3.N = V15 m (outs m) c (Pipeline.arrRef spec3 0) := by
  rw [V15_eq, U15_def]
  exact ((dat3 (X3 m) c).arrAt_in 0 rfl _).trans ((A_eq3 (X3 m) c 0).trans (upd_ne (U14 m c) ne3_0 _).symm)
theorem hF3_1 (c : Dev nD) : (dat3 (X3 m) c).arrAt 1 cfg3.N = V15 m (outs m) c (Pipeline.arrRef spec3 1) := by
  rw [V15_eq, U15_def]
  exact ((dat3 (X3 m) c).arrAt_in 1 rfl _).trans ((A_eq3 (X3 m) c 1).trans (upd_ne (U14 m c) ne3_1 _).symm)
theorem hF3_2 (c : Dev nD) : (dat3 (X3 m) c).arrAt 2 cfg3.N = V15 m (outs m) c (Pipeline.arrRef spec3 2) := by
  rw [V15_eq, U15_def]
  exact ((dat3 (X3 m) c).arrAt_in 2 rfl _).trans ((A_eq3 (X3 m) c 2).trans (upd_ne (U14 m c) ne3_2 _).symm)
theorem hF3_3 (c : Dev nD) : (dat3 (X3 m) c).arrAt 3 cfg3.N = V15 m (outs m) c (Pipeline.arrRef spec3 3) := by
  rw [V15_eq, U15_def]
  exact ((dat3 (X3 m) c).arrAt_in 3 rfl _).trans ((A_eq3 (X3 m) c 3).trans (upd_ne (U14 m c) ne3_3 _).symm)
theorem hF3_4 (c : Dev nD) : (dat3 (X3 m) c).arrAt 4 cfg3.N = V15 m (outs m) c (Pipeline.arrRef spec3 4) := by
  rw [V15_eq, U15_def]
  exact ((dat3 (X3 m) c).arrAt_in 4 rfl _).trans ((A_eq3 (X3 m) c 4).trans (upd_ne (U14 m c) ne3_4 _).symm)
theorem hF3_5 (c : Dev nD) : (dat3 (X3 m) c).arrAt 5 cfg3.N = V15 m (outs m) c (Pipeline.arrRef spec3 5) := by
  rw [V15_eq, U15_def]
  exact ((dat3 (X3 m) c).arrAt_in 5 rfl _).trans ((A_eq3 (X3 m) c 5).trans (upd_ne (U14 m c) ne3_5 _).symm)
theorem hF3_6 (c : Dev nD) : (dat3 (X3 m) c).arrAt 6 cfg3.N = V15 m (outs m) c (Pipeline.arrRef spec3 6) := by
  rw [V15_eq, U15_def]
  exact (upd_eq (U14 m c) main_v56 _).symm
/-- At region 3's exit each of its arrays holds what the pipeline leaves: the inputs as entered, the output its write-back. -/
theorem hF3 (c : Dev nD) : ∀ w : Fin cfg3.W, (dat3 (X3 m) c).arrAt w cfg3.N = V15 m (outs m) c (Pipeline.arrRef spec3 w)
  | ⟨0, _⟩ => hF3_0 m c
  | ⟨1, _⟩ => hF3_1 m c
  | ⟨2, _⟩ => hF3_2 m c
  | ⟨3, _⟩ => hF3_3 m c
  | ⟨4, _⟩ => hF3_4 m c
  | ⟨5, _⟩ => hF3_5 m c
  | ⟨6, _⟩ => hF3_6 m c
/-- Every other buffer is as the region found it. -/
theorem hrest3 (c : Dev nD) : ∀ b, b ∉ Finset.univ.image (Pipeline.arrRef spec3) → V15 m (outs m) c b = X3 m c b := fun b hb => by
  rw [V15_eq, U15_def]
  exact upd_ne (U14 m c) (fun e => hb (Finset.mem_image.mpr ⟨6, Finset.mem_univ _, e.symm⟩)) _

/-- Region 1's shares: the two windows on `main_v36` hold its halves, every other input window its whole array. -/
theorem hq1 (c : Dev nD) : ∀ w : Fin cfg1.W, w ≠ 0 → w ≠ 1 → (dat1 (X1 m) c).q w = fullShare
  | ⟨0, _⟩ => fun h _ => absurd rfl h
  | ⟨1, _⟩ => fun _ h => absurd rfl h
  | ⟨2, _⟩ => fun _ _ => q1_2 (X1 m) c
  | ⟨3, _⟩ => fun _ _ => q1_3 (X1 m) c

/-- Region 2's shares: the two windows on `main_v36` hold its halves, every other input window its whole array. -/
theorem hq2 (c : Dev nD) : ∀ w : Fin cfg2.W, w ≠ 0 → w ≠ 1 → (dat2 (X2 m) c).q w = fullShare
  | ⟨0, _⟩ => fun h _ => absurd rfl h
  | ⟨1, _⟩ => fun _ h => absurd rfl h
  | ⟨2, _⟩ => fun _ _ => q2_2 (X2 m) c
  | ⟨3, _⟩ => fun _ _ => q2_3 (X2 m) c
  | ⟨4, _⟩ => fun _ _ => q2_4 (X2 m) c
  | ⟨5, _⟩ => fun _ _ => q2_5 (X2 m) c
  | ⟨6, _⟩ => fun _ _ => q2_6 (X2 m) c

set_option backward.isDefEq.respectTransparency.types false in
/-- Region 0 over the thread state: entered holding every unscoped buffer at the valuation before it, left holding them
    at the valuation after it.  Its arrays are split out of the unscoped buffers and put back at the exit contents; the
    generator register goes into the region's invariant and comes back; nothing is owed; the kernel has no semaphore of
    its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (X0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (X0 m c)
  hentry c := by
    rw [Pipeline.ownSems0_none, W3_eq]
    have hsplit := Pipeline.arrays_of_unscopedBufs (p := 0) (pcfgs (F := F)) adm (pdats m) launch0.win launch0.arr_whole c
      ((pdats m 0 c).share_full fun _ => rfl) (X0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (X0 m c) (fun b => V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state.  Two of its input windows read one array, so each holds half of it: the array's
    buffer is split in two halves at the entry and joined again at the exit, where both halves hold what they held. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (X1 m) c).loose
  hwaits := Pipeline.hwaits_of_owed_zero _ _ _ _ L lv 1 fun c t => owed1 (X1 m) c t
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (X1 m c)
  hentry c := by
    rw [Pipeline.ownSems0_none, V9_eq]
    have hiff := arrays_iff1 c (pdats m 1 c) (q1_0 (X1 m) c) (q1_1 (X1 m) c) (hq1 m c) (X1 m c)
      ((pdats m 1 c).arrAt · 0) (fun w => A_eq1 (X1 m) c w)
    have hsplit : (StableHlo.held (c : Thread nD τ) (Pipeline.ucRefs τ sig) (U9 m c) : sProp 𝕄)
        ⊢ iprop((pdats m 1 c).arrays ((pdats m 1 c).arrAt · 0) ∗ Pipeline.unscopedRest spec1 c (X1 m c)) := by
      rw [← Pipeline.unscopedBufs_held (Ix := Unit) (Name := ℕ) (U := UR sig nD τ) (Lvl := ℕ) c (U9 m c),
        Pipeline.unscopedBufs_split₀ (Pipeline.pin (pcfgs (F := F)) adm) 1 winFacts₀1.arr_unscoped c (X1 m c)]
      exact sep_mono hiff.1 .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (X1 m) c)
    unfold Pipeline.ΦA
    iintro ⟨Hp, -, Hr⟩
    isplitl [Hr]; · iexact Hr
    iexact Hp
  hout c := by
    rw [Pipeline.ownSems0_none]
    refine (hout1 (X1 m) c).trans ?_
    unfold Pipeline.ΦA
    iintro ⟨Hr, Hp⟩
    isplitl [Hp]; · iexact Hp
    isplitr; · iempintro
    iexact Hr
  hexit c := by
    have hiff := arrays_iff1 c (pdats m 1 c) (q1_0 (X1 m) c) (q1_1 (X1 m) c) (hq1 m c) (fun b => V10 m (outs m) c b)
      ((pdats m 1 c).arrAt · cfg1.N) (hF1 m c)
    have hjoin : iprop((pdats m 1 c).arrays ((pdats m 1 c).arrAt · cfg1.N) ∗ Pipeline.unscopedRest spec1 c (X1 m c))
        ⊢ (StableHlo.held (c : Thread nD τ) (Pipeline.ucRefs τ sig) (V10 m (outs m) c) : sProp 𝕄) := by
      rw [← Pipeline.unscopedBufs_held (Ix := Unit) (Name := ℕ) (U := UR sig nD τ) (Lvl := ℕ) c (V10 m (outs m) c),
        Pipeline.unscopedBufs_split₀ (Pipeline.pin (pcfgs (F := F)) adm) 1 winFacts₀1.arr_unscoped c (fun b => V10 m (outs m) c b)]
      refine sep_mono hiff.2 (Entails.of_eq ?_)
      unfold Pipeline.unscopedRest
      exact bigSep_congr fun b hb => by beta_reduce; rw [hrest1 m c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state.  Two of its input windows read one array, so each holds half of it: the array's
    buffer is split in two halves at the entry and joined again at the exit, where both halves hold what they held. -/
def reg2 : RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (X2 m) c).loose
  hwaits := Pipeline.hwaits_of_owed_zero _ _ _ _ L lv 2 fun c t => owed2 (X2 m) c t
  pre c := iprop(StableHlo.held (c : Thread nD τ) (Pipeline.ucRefs τ sig) (V10 m (outs m) c) ∗ R c)
  post c := iprop(StableHlo.held (c : Thread nD τ) (Pipeline.ucRefs τ sig) (V11 m (outs m) c) ∗ R c)
  X c := iprop(∃ r, prngReg c r)
  Y c := iprop(∃ r, prngReg c r)
  Z c := Pipeline.unscopedRest (Ix := Unit) (Name := ℕ) (U := UR sig nD τ) (Lvl := ℕ) spec2 c (X2 m c)
  hentry c := by
    rw [Pipeline.ownSems0_none, V10_eq]
    have hiff := arrays_iff2 c (pdats m 2 c) (q2_0 (X2 m) c) (q2_1 (X2 m) c) (hq2 m c) (X2 m c)
      ((pdats m 2 c).arrAt · 0) (fun w => A_eq2 (X2 m) c w)
    have hsplit : (StableHlo.held (c : Thread nD τ) (Pipeline.ucRefs τ sig) (U10 m c) : sProp 𝕄)
        ⊢ iprop((pdats m 2 c).arrays ((pdats m 2 c).arrAt · 0) ∗ Pipeline.unscopedRest spec2 c (X2 m c)) := by
      rw [← Pipeline.unscopedBufs_held (Ix := Unit) (Name := ℕ) (U := UR sig nD τ) (Lvl := ℕ) c (U10 m c),
        Pipeline.unscopedBufs_split₀ (Pipeline.pin (pcfgs (F := F)) adm) 2 winFacts₀2.arr_unscoped c (X2 m c)]
      exact sep_mono hiff.1 .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec2 c : sProp 𝕄) from ?_).trans (hin2 (X2 m) c)
    unfold Pipeline.ΦA
    iintro ⟨Hp, -, Hr⟩
    isplitl [Hr]; · iexact Hr
    iexact Hp
  hout c := by
    rw [Pipeline.ownSems0_none]
    refine (hout2 (X2 m) c).trans ?_
    unfold Pipeline.ΦA
    iintro ⟨Hr, Hp⟩
    isplitl [Hp]; · iexact Hp
    isplitr; · iempintro
    iexact Hr
  hexit c := by
    have hiff := arrays_iff2 c (pdats m 2 c) (q2_0 (X2 m) c) (q2_1 (X2 m) c) (hq2 m c) (fun b => V11 m (outs m) c b)
      ((pdats m 2 c).arrAt · cfg2.N) (hF2 m c)
    have hjoin : iprop((pdats m 2 c).arrays ((pdats m 2 c).arrAt · cfg2.N) ∗ Pipeline.unscopedRest spec2 c (X2 m c))
        ⊢ (StableHlo.held (c : Thread nD τ) (Pipeline.ucRefs τ sig) (V11 m (outs m) c) : sProp 𝕄) := by
      rw [← Pipeline.unscopedBufs_held (Ix := Unit) (Name := ℕ) (U := UR sig nD τ) (Lvl := ℕ) c (V11 m (outs m) c),
        Pipeline.unscopedBufs_split₀ (Pipeline.pin (pcfgs (F := F)) adm) 2 winFacts₀2.arr_unscoped c (fun b => V11 m (outs m) c b)]
      refine sep_mono hiff.2 (Entails.of_eq ?_)
      unfold Pipeline.unscopedRest
      exact bigSep_congr fun b hb => by beta_reduce; rw [hrest2 m c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered holding every unscoped buffer at the valuation before it, left holding them
    at the valuation after it.  Its arrays are split out of the unscoped buffers and put back at the exit contents; the
    generator register goes into the region's invariant and comes back; nothing is owed; the kernel has no semaphore of
    its own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (X3 m) c).loose
  hwaits := Pipeline.hwaits_of_owed_zero _ _ _ _ L lv 3 fun _ _ => rfl
  pre c := iprop(StableHlo.held (c : Thread nD τ) (Pipeline.ucRefs τ sig) (V14 m (outs m) c) ∗ R c)
  post c := iprop(StableHlo.held (c : Thread nD τ) (Pipeline.ucRefs τ sig) (V15 m (outs m) c) ∗ R c)
  X c := iprop(∃ r, prngReg c r)
  Y c := iprop(∃ r, prngReg c r)
  Z c := Pipeline.unscopedRest (Ix := Unit) (Name := ℕ) (U := UR sig nD τ) (Lvl := ℕ) spec3 c (X3 m c)
  hentry c := by
    rw [Pipeline.ownSems0_none, V14_eq]
    have hsplit := Pipeline.arrays_of_unscopedBufs (p := 3) (pcfgs (F := F)) adm (pdats m) launch3.win launch3.arr_whole c
      ((pdats m 3 c).share_full fun _ => rfl) (X3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (X3 m c) (fun b => V15 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

variable (ρ : Dev nD → PrngReg)

set_option backward.isDefEq.respectTransparency.types false in
/-- The run: every weakly fair execution of @main terminates, the arguments end as launched, and the result array ends at
    the last valuation. -/
theorem run_main : θ_run defs (onTc (τ := τ) (main (F := F))) ⟨m, fun _ => 0, ρ⟩ (fun r => ∀ c : Dev nD,
      r.2.mem ((c.tc : Thread nD τ).loc main_v63) = V16 m (outs m) c main_v63
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)

/-- The frame: @main terminates and the sixteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2) (run_main m ρ)

end Run

end Cert.Kernel.Hand

end
-- ==== Proof.FrameKernelIdeal.Region0Dat.lean ====
import proofs.«143417_j3152505995417_1_alg».proof.Proof.Gen.KernelIdeal.Launch
import proofs.«143417_j3152505995417_1_alg».proof.Proof.Gen.KernelIdeal.Skeleton
import proofs.«143417_j3152505995417_1_alg».proof.Proof.Gen.KernelIdeal.Points
import Idealize.ShloMosaic.Lib.Pipeline.FrameBody
import Idealize.ShloMosaic.Lib.Ring
import Idealize.ShloMosaic.Lib.Tactic

-- membership in a rectangle of large extents is decided by a structural recursion, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! # Region 0: the node convolution on a one-point grid, at the entry contents `V` -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: an unfetched point has not moved the block
    index, the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: an unfetched point has not moved the block
    index, the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: an unfetched point has not moved the block
    index, the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: an unfetched point has not moved the block
    index, the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: an unfetched point has not moved the block
    index, the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place: an unfetched point has not moved the block
    index, the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole buffer -/

abbrev r0_0 : Rect S116x6670 := Rect.unit (s := S116x6670) ![0, 0] S116x6670.size inb_S116x6670_S116x6670_0_0
abbrev r0_1 : Rect S6670x5 := Rect.unit (s := S6670x5) ![0, 0] S6670x5.size inb_S6670x5_S6670x5_0_0
abbrev r0_2 : Rect S116x64 := Rect.unit (s := S116x64) ![0, 0] S116x64.size inb_S116x64_S116x64_0_0
abbrev r0_3 : Rect S1x5 := Rect.unit (s := S1x5) ![0, 0] S1x5.size inb_S1x5_S1x5_0_0
abbrev r0_4 : Rect S64x64 := Rect.unit (s := S64x64) ![0, 0] S64x64.size inb_S64x64_S64x64_0_0
abbrev r0_5 : Rect S1x64 := Rect.unit (s := S1x64) ![0, 0] S1x64.size inb_S1x64_S1x64_0_0
abbrev r0_6 : Rect S116x64 := Rect.unit (s := S116x64) ![0, 0] S116x64.size inb_S116x64_S116x64_0_0

/-! ## What the body leaves in the output window's buffer -/

/-- Window 6's staging buffer after the body, from the six input blocks: the one store, whose value is the
    convolution of the six loaded vectors, laid over the whole buffer. -/
def out0_6 (x0 : Vec F S116x6670 .f32) (x1 : Vec F S6670x5 .f32) (x2 : Vec F S116x64 .f32) (x3 : Vec F S1x5 .f32)
    (x4 : Vec F S64x64 .f32) (x5 : Vec F S1x64 .f32) : Vec F S116x64 .f32 :=
  View.canon [⟨r0_6, k0_pay1 (View.ld x0 r0_0) (View.ld x1 r0_1) (View.ld x2 r0_2) (View.ld x3 r0_3) (View.ld x4 r0_4) (View.ld x5 r0_5)⟩]

/-- The one store's rectangle is the whole buffer, so it covers it. -/
theorem cover0_6 (p0 : Vec F S116x64 .f32) (y : S116x64.Idx) :
    ∃ pc ∈ ([⟨r0_6, p0⟩] : List (View.Piece (Elt F) S116x64 .f32)), y ∈ pc.1.set :=
  View.cover_of_tiled [⟨r0_6, p0⟩] S116x64.size (by rfl) y

/-! ## The proof data -/

/-- The proof data of the region's pipeline on core `c`: the arrays as the region finds them; after the body each
    input's buffer at its block and the output's at `out0_6` of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- Nothing is owed at any point. -/
theorem owed0 (c : Dev nD) (t) : (dat0 V c).owed t = 0 := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

end Region

end Cert.KernelIdeal.Hand

end
-- ==== Proof.FrameKernelIdeal.Region0Body.lean ====
import proofs.«143417_j3152505995417_1_alg».proof.Proof.FrameKernelIdeal.Region0Dat

-- membership in a rectangle of large extents is decided by a structural recursion, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the body's triple -/

set_option maxHeartbeats 1000000 in
/-- The node convolution on whole staging memrefs, the inputs' at read contents `xW` and the output's at anything,
    runs to the continuation holding the inputs' as they were and the output's at `out0_6` of the inputs': the
    printed function is its skeleton of seven whole loads (the last, of the output buffer, unused) and one whole
    store: each load reads its buffer's contents, and the store leaves its value over the whole output buffer. -/
theorem sound_kernel0 (c : Dev nD) (E : Set ℕ) (i : grid0.Coords) (arg1 : Memref sig .tc .vmem S116x6670 .f32) (harg1 : arg1.IsWhole) (arg2 : Memref sig .tc .vmem S6670x5 .f32) (harg2 : arg2.IsWhole) (arg3 : Memref sig .tc .vmem S116x64 .f32) (harg3 : arg3.IsWhole) (arg4 : Memref sig .tc .vmem S1x5 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S116x64 .f32) (harg7 : arg7.IsWhole)
    (x0 : Vec F S116x6670 .f32) (x1 : Vec F S6670x5 .f32) (x2 : Vec F S116x64 .f32) (x3 : Vec F S1x5 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__node_conv_kernel i arg1 harg1 arg2 harg2 arg3 harg3 arg4 harg4 arg5 harg5 arg6 harg6 arg7 harg7) K := by
  simp only [cc0__node_conv_kernel_eq_skeleton]; unfold cc0__node_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

end Cert.KernelIdeal.Hand

end
-- ==== Proof.FrameKernelIdeal.Region0.lean ====
import proofs.«143417_j3152505995417_1_alg».proof.Proof.FrameKernelIdeal.Region0Dat
import proofs.«143417_j3152505995417_1_alg».proof.Proof.FrameKernelIdeal.Region0Body

-- membership in a rectangle of large extents is decided by a structural recursion, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! # Region 0: the body obligation, at a generic point -/

/-- What the body is called with at point `t`: the invariant, what is owed, and the windows' current staging buffers one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.FrameKernelIdeal.Region1Runs.lean ====
import proofs.«143417_j3152505995417_1_alg».proof.Proof.Gen.KernelIdeal.Launch
import proofs.«143417_j3152505995417_1_alg».proof.Proof.Gen.KernelIdeal.Skeleton
import proofs.«143417_j3152505995417_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # Region 1 (the column-maximum call): what its per-case runs share

Everything is stated at a parameter `V`: the TensorCore's buffer contents when the region is entered. -/

section Region1
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the row-tile operand, fetched at every point) holds its block at every point, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the column-tile operand, fetched when the inner coordinate is 0) holds its block at every point:
    where it is not fetched its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the scaling column, fetched at the first point only) holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions on the grid coordinates -/

/-- The first conditional's condition (the inner coordinate is 0: the scratch is reset), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 14). -/
theorem hcond1_0 : ∀ t : Fin cfg1.N, cond1_0 (grid1.coords t) ↔ t.val % 14 = 0 :=
  (by decide +kernel : ∀ t : Fin grid1.N, cond1_0 (grid1.coords t) ↔ t.val % 14 = 0)

/-- The second conditional's condition (the inner coordinate is 13: the output block is stored). -/
abbrev cond1_1 (i : grid1.Coords) : Prop := k1_cond2 i = 1#1
/-- It holds at the points ≡ 13 (mod 14). -/
theorem hcond1_1 : ∀ t : Fin cfg1.N, cond1_1 (grid1.coords t) ↔ t.val % 14 = 13 :=
  (by decide +kernel : ∀ t : Fin grid1.N, cond1_1 (grid1.coords t) ↔ t.val % 14 = 13)

/-! ## Where the output window is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where the output block is not stored the output window is idle, -/
theorem idleAt1_3 : ∀ t : Fin cfg1.N, ¬cond1_1 (grid1.coords t) → cfg1.idle 3 (grid1.coords t) = true := by decide +kernel
/-- and not written back; -/
theorem noFlush1_3 : ∀ t : Fin cfg1.N, ¬cond1_1 (grid1.coords t) → (cfg1.win 3).flush t = false := by decide +kernel
/-- where it is stored the window is live. -/
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S1x512 .f32 := (Memref.whole cc1_stg3_0 : Memref sig .tc .vmem S1x512 .f32).view
abbrev ms1_0 (t : Fin cfg1.N) : Memref sig .tc .vmem S116x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S116x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S116x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
/-- The scratch operand: a whole scoped buffer of the call's own, carried between points. -/
abbrev scM1_0 : Memref sig .tc .vmem S1x512 .f32 := Memref.whole cc1_scratch0
abbrev VS1_0 : View sig .tc .vmem S1x512 .f32 := scM1_0.view

/-- The class's invariant with the scratch as a memref owned at some contents, the other scoped buffers unopened. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.KernelIdeal.Hand

end
-- ==== Proof.FrameKernelIdeal.Region1RunA.lean ====
import proofs.«143417_j3152505995417_1_alg».proof.Proof.FrameKernelIdeal.Region1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body in case A (the inner coordinate is 0: the scratch is reset, then updated; the output block is not
    stored): on whole memrefs — the three inputs at their contents, the output's buffer at contents handed back
    untouched, the scratch at anything — it runs to the continuation holding the inputs as they were and the scratch
    with its pieces written. The pieces are the witness the run finds. -/
noncomputable def kernelRun1_A (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : cond1_0 i) (hc1 : ¬cond1_1 i)
    (x0 : Vec F S116x512 .f32) (x1 : Vec F S116x512 .f32) (x2 : Vec F S116x1 .f32) :
    Σ' (L3 : List (View.Piece (Elt F) S1x512 .f32)), { LS0 : List (View.Piece (Elt F) S1x512 .f32) //
      ∀ (xi3 : Vec F S1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__colmax_kernel i arg2 harg2 arg3 harg3 arg4 harg4 arg5 harg5 arg6 harg6) K } := by
  refine ⟨[], ?_, fun xi3 E K => ?run⟩
  case run =>
    simp only [cc1__colmax_kernel_eq_skeleton]; unfold cc1__colmax_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.FrameKernelIdeal.Region1RunB.lean ====
import proofs.«143417_j3152505995417_1_alg».proof.Proof.FrameKernelIdeal.Region1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body in case B (the inner coordinate is neither 0 nor 13: the scratch is updated; the output block is not
    stored): the scratch at what the point before left. -/
noncomputable def kernelRun1_B (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : ¬cond1_0 i) (hc1 : ¬cond1_1 i)
    (x0 : Vec F S116x512 .f32) (x1 : Vec F S116x512 .f32) (x2 : Vec F S116x1 .f32) (xs0 : Vec F S1x512 .f32) :
    Σ' (L3 : List (View.Piece (Elt F) S1x512 .f32)), { LS0 : List (View.Piece (Elt F) S1x512 .f32) //
      ∀ (xi3 : Vec F S1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__colmax_kernel i arg2 harg2 arg3 harg3 arg4 harg4 arg5 harg5 arg6 harg6) K } := by
  refine ⟨[], ?_, fun xi3 E K => ?run⟩
  case run =>
    simp only [cc1__colmax_kernel_eq_skeleton]; unfold cc1__colmax_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.FrameKernelIdeal.Region1RunC.lean ====
import proofs.«143417_j3152505995417_1_alg».proof.Proof.FrameKernelIdeal.Region1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body in case C (the inner coordinate is 13: the scratch is updated, then the output block stored from it):
    the output's buffer at anything, the scratch at what the point before left. -/
noncomputable def kernelRun1_C (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : ¬cond1_0 i) (hc1 : cond1_1 i)
    (x0 : Vec F S116x512 .f32) (x1 : Vec F S116x512 .f32) (x2 : Vec F S116x1 .f32) (xs0 : Vec F S1x512 .f32) :
    Σ' (L3 : List (View.Piece (Elt F) S1x512 .f32)), { LS0 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__colmax_kernel i arg2 harg2 arg3 harg3 arg4 harg4 arg5 harg5 arg6 harg6) K } := by
  refine ⟨?_, ?_, fun E K => ?run⟩
  case run =>
    simp only [cc1__colmax_kernel_eq_skeleton]; unfold cc1__colmax_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.FrameKernelIdeal.Region1Defs.lean ====
import proofs.«143417_j3152505995417_1_alg».proof.Proof.FrameKernelIdeal.Region1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # Region 1: what each case leaves, point by point, and the proof data -/

/-- Case A stores nothing into the output's buffer (the window is idle at its points and not written back there): a
    placeholder that nothing consults. -/
def out1_A_3 (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : cond1_0 i) (hc1 : ¬cond1_1 i)
    (x0 : Vec F S116x512 .f32) (x1 : Vec F S116x512 .f32) (x2 : Vec F S116x1 .f32) : Vec F S1x512 .f32 :=
  VO1_3.read (Elt F) (VO1_3.writes (Elt F) VO1_3.junk (kernelRun1_A c i arg2 harg2 arg3 harg3 arg4 harg4 arg5 harg5 arg6 harg6 hc0 hc1 x0 x1 x2).1)

/-- Case A's stores into the scratch cover it. -/
theorem scover1_A_0 (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : cond1_0 i) (hc1 : ¬cond1_1 i)
    (x0 : Vec F S116x512 .f32) (x1 : Vec F S116x512 .f32) (x2 : Vec F S116x1 .f32) (y : S1x512.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1x512.size (by sl_kernel_rfl) y

/-- What case A leaves in the scratch: its pieces read back. -/
def sout1_A_0 (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : cond1_0 i) (hc1 : ¬cond1_1 i)
    (x0 : Vec F S116x512 .f32) (x1 : Vec F S116x512 .f32) (x2 : Vec F S116x1 .f32) : Vec F S1x512 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into the output's buffer (the window is idle at its points and not written back there): a
    placeholder that nothing consults. -/
def out1_B_3 (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : ¬cond1_0 i) (hc1 : ¬cond1_1 i)
    (x0 : Vec F S116x512 .f32) (x1 : Vec F S116x512 .f32) (x2 : Vec F S116x1 .f32) (xs0 : Vec F S1x512 .f32) : Vec F S1x512 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's stores into the scratch cover it. -/
theorem scover1_B_0 (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : ¬cond1_0 i) (hc1 : ¬cond1_1 i)
    (x0 : Vec F S116x512 .f32) (x1 : Vec F S116x512 .f32) (x2 : Vec F S116x1 .f32) (xs0 : Vec F S1x512 .f32) (y : S1x512.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1x512.size (by sl_kernel_rfl) y

/-- What case B leaves in the scratch: its pieces read back. -/
def sout1_B_0 (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : ¬cond1_0 i) (hc1 : ¬cond1_1 i)
    (x0 : Vec F S116x512 .f32) (x1 : Vec F S116x512 .f32) (x2 : Vec F S116x1 .f32) (xs0 : Vec F S1x512 .f32) : Vec F S1x512 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's one store into the output's buffer covers it. -/
theorem cover1_C_3 (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : ¬cond1_0 i) (hc1 : cond1_1 i)
    (x0 : Vec F S116x512 .f32) (x1 : Vec F S116x512 .f32) (x2 : Vec F S116x1 .f32) (xs0 : Vec F S1x512 .f32) (y : S1x512.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1x512.size (by sl_kernel_rfl) y

/-- What case C leaves in the output's buffer: its pieces read back. -/
def out1_C_3 (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : ¬cond1_0 i) (hc1 : cond1_1 i)
    (x0 : Vec F S116x512 .f32) (x1 : Vec F S116x512 .f32) (x2 : Vec F S116x1 .f32) (xs0 : Vec F S1x512 .f32) : Vec F S1x512 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's stores into the scratch cover it. -/
theorem scover1_C_0 (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : ¬cond1_0 i) (hc1 : cond1_1 i)
    (x0 : Vec F S116x512 .f32) (x1 : Vec F S116x512 .f32) (x2 : Vec F S116x1 .f32) (xs0 : Vec F S1x512 .f32) (y : S1x512.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1x512.size (by sl_kernel_rfl) y

/-- What case C leaves in the scratch: its pieces read back. -/
def sout1_C_0 (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : ¬cond1_0 i) (hc1 : cond1_1 i)
    (x0 : Vec F S116x512 .f32) (x1 : Vec F S116x512 .f32) (x2 : Vec F S116x1 .f32) (xs0 : Vec F S1x512 .f32) : Vec F S1x512 .f32 :=
  VS1_0.read (Elt F) (VS1_0.writes (Elt F) VS1_0.junk (kernelRun1_C c i arg2 harg2 arg3 harg3 arg4 harg4 arg5 harg5 arg6 harg6 hc0 hc1 x0 x1 x2 xs0).2.1)

section Region1
variable (V : (c : Dev nD) → (b : Ref sig .tc) → Buf (Elt F) ((c : Thread nD τ).loc b))

/-! ## What the output's buffer and the scratch hold after each point -/

/-- What the output's staging buffer (first component) and the scratch (second component) hold after the body at
    position `n`: the case the closed forms select at `n`, run at the point's memrefs and input blocks, the scratch at
    what the point before left (in case A it is reset, so nothing of the point before is read). -/
def outsAt1 (c : Dev nD) : (n : ℕ) → n < cfg1.N → Vec F S1x512 .f32 × Vec F S1x512 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 14 = 0 then
      if h1 : (n + 1) % 14 = 13 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 14 = 13 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 14 = 0) (h1 : ¬t.val % 14 = 13) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left in the scratch. -/
theorem outsAt1_B (c : Dev nD) (t : Fin cfg1.N) (h0 : ¬t.val % 14 = 0) (h1 : ¬t.val % 14 = 13) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left in the scratch. -/
theorem outsAt1_C (c : Dev nD) (t : Fin cfg1.N) (h0 : ¬t.val % 14 = 0) (h1 : t.val % 14 = 13) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The scoped buffers of the region other than its scratch, unopened. -/
abbrev rest1 (c : Dev nD) : sProp 𝕄 :=
  Pipeline.scopedRestBut (Ix := Unit) (Name := ℕ) (U := UR sig nD τ) (Lvl := ℕ) (Val := Elt F) spec1 c [cc1_scratch0]

/-- The region invariant before position `n`: before the first point the class's (every scoped buffer at anything);
    afterwards the scratch at what the point before left in it, the other scoped buffers unopened, and the generator
    register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 c) ∗ (∃ r, prngReg c r)) := by
  cases n with
  | zero => exact absurd rfl hz
  | succ n => rfl

/-! ## The proof data -/

/-- The proof data of region 1 on core `c`: the arrays as the region finds them (`V`); after the body at point `t`
    each input's buffer at its block and the output's at `outsAt1`; the invariant `PhiS1`; nothing owed; the two
    windows that read one array hold a half of it each, every other window its array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem owed1 (c : Dev nD) (t) : (dat1 V c).owed t = 0 := rfl

theorem q1_0 (c : Dev nD) : (dat1 V c).q 0 = fullShare.left := rfl
theorem q1_1 (c : Dev nD) : (dat1 V c).q 1 = fullShare.right := rfl
theorem q1_2 (c : Dev nD) : (dat1 V c).q 2 = fullShare := rfl
theorem q1_3 (c : Dev nD) : (dat1 V c).q 3 = fullShare := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 196 := N_1; omega)

end Region1

end Cert.KernelIdeal.Hand

end
-- ==== Proof.FrameKernelIdeal.Region1.lean ====
import proofs.«143417_j3152505995417_1_alg».proof.Proof.FrameKernelIdeal.Region1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # Region 1: the body obligation -/

section Region1
variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The inputs' buffers are left at their blocks (their windows are never idle). -/
theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (c : Dev nD) (t : Fin cfg1.N) :
    (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]

set_option maxHeartbeats 4800000 in
/-- The body at any point: the inputs' memrefs hold their blocks; the closed forms say which case the point is in;
    the invariant hands the body the scratch at what the point before left (at anything at the first point) and
    takes it back at this point's contents; where the output block is not stored its buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 196 := lt_of_lt_of_eq t.isLt (show cfg1.N = 196 from N_1)
  by_cases h0 : t.val % 14 = 0
  · by_cases h1 : t.val % 14 = 13
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 14 = 13
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.FrameKernelIdeal.Region2Base.lean ====
import proofs.«143417_j3152505995417_1_alg».proof.Proof.Gen.KernelIdeal.Launch
import proofs.«143417_j3152505995417_1_alg».proof.Proof.Gen.KernelIdeal.Skeleton
import proofs.«143417_j3152505995417_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 (the accumulation over column tiles), at the contents `V` the region is entered with

What the three control cases of the body share: each window's block at a point, the closed forms of the two
conditions over the grid, where the output window is idle, the staging memrefs the body is called with, and the
region invariant with the accumulator scratch split off. -/

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: an
    unfetched input's block index has not moved, the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: an
    unfetched input's block index has not moved, the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: an
    unfetched input's block index has not moved, the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: an
    unfetched input's block index has not moved, the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: an
    unfetched input's block index has not moved, the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: an
    unfetched input's block index has not moved, the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The two conditions of the body, in closed form over the grid -/

/-- The first condition (the inner coordinate is 0: the accumulator is reset), from the grid coordinates. -/
abbrev cond2_0 (i : grid2.Coords) : Prop := (Scalar.cmpi .ne (Scalar.extui (Scalar.cmpi .eq (BitVec.ofNat 32 (i 1).val) 0#32)) 0#32) = 1#1
/-- It holds exactly at the points ≡ 0 (mod 14). -/
theorem hcond2_0 : ∀ t : Fin cfg2.N, cond2_0 (grid2.coords t) ↔ t.val % 14 = 0 :=
  (by decide +kernel : ∀ t : Fin grid2.N, cond2_0 (grid2.coords t) ↔ t.val % 14 = 0)

/-- The second condition (the inner coordinate is 13: the output block is stored). -/
abbrev cond2_1 (i : grid2.Coords) : Prop := k2_cond2 i = 1#1
/-- It holds exactly at the points ≡ 13 (mod 14). -/
theorem hcond2_1 : ∀ t : Fin cfg2.N, cond2_1 (grid2.coords t) ↔ t.val % 14 = 13 :=
  (by decide +kernel : ∀ t : Fin grid2.N, cond2_1 (grid2.coords t) ↔ t.val % 14 = 13)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
/-- Away from the storing points the output window is idle, -/
theorem idleAt2_6 : ∀ t : Fin cfg2.N, ¬cond2_1 (grid2.coords t) → cfg2.idle 6 (grid2.coords t) = true := by decide +kernel
/-- and its block is not written back there. -/
theorem noFlush2_6 : ∀ t : Fin cfg2.N, ¬cond2_1 (grid2.coords t) → (cfg2.win 6).flush t = false := by decide +kernel
/-- At the storing points it is live. -/
theorem liveAt2_6_C : ∀ t : Fin cfg2.N, cond2_1 (grid2.coords t) → cfg2.idle 6 (grid2.coords t) = false := by decide +kernel

/-! ## The memrefs the body is called with -/

/-- One staging buffer of the output window, through which its contents are stated. -/
abbrev VO2_6 : View sig .tc .vmem S512x5 .f32 := (Memref.whole cc2_stg6_0 : Memref sig .tc .vmem S512x5 .f32).view
abbrev ms2_0 (t : Fin cfg2.N) : Memref sig .tc .vmem S116x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S116x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S116x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x5 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x5 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S512x5 .f32 := win2_6.stage (cfg2.slots t 6)
abbrev hs2_6 (t : Fin cfg2.N) : (ms2_6 t).IsWhole := hstage2_6 ((cfg2.slots t 6).cast nbuf2_6)
/-- The accumulator scratch, a whole scoped buffer passed beside the windows, -/
abbrev scM2 : Memref sig .tc .vmem S512x5 .f32 := Memref.whole cc2_scratch0
/-- and its view, through which what it holds is stated. -/
abbrev VS2 : View sig .tc .vmem S512x5 .f32 := scM2.view

/-- The scoped rest of the region split at the accumulator scratch. -/
theorem scopedRest2_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop(iprop((∃ f : Buf Val ((c : Thread nD τ).loc cc2_scratch0), ((c : Thread nD τ).loc cc2_scratch0) ↦{fullShare} f))
          ∗ Pipeline.scopedRestBut (Ix := Ix) (Name := Name) (U := U) (Lvl := Lvl) (Val := Val) spec2 c [cc2_scratch0]) :=
  Pipeline.scopedRest_split_of_list spec2 c [cc2_scratch0] (by decide) (by decide)

/-- The other scoped buffers of the core, unopened. -/
abbrev restBut2 (c : Dev nD) : sProp 𝕄 :=
  Pipeline.scopedRestBut (Ix := Unit) (Name := ℕ) (U := UR sig nD τ) (Lvl := ℕ) (Val := Elt F) spec2 c [cc2_scratch0]

/-- The region invariant with the scratch as a memref owned at some contents. -/
theorem PhiA2_eq (c : Dev nD) :
    (Pipeline.ΦA spec2 c : sProp 𝕄)
      = iprop(iprop(iprop((∃ d, owns (c : Thread nD τ) scM2 fullShare d)) ∗ restBut2 c) ∗ (∃ r, prngReg c r)) := by
  unfold Pipeline.ΦA; rw [scopedRest2_split]; simp only [scM2, owns_whole]; try rfl

end Cert.KernelIdeal.Hand

end
-- ==== Proof.FrameKernelIdeal.Region2RunA.lean ====
import proofs.«143417_j3152505995417_1_alg».proof.Proof.FrameKernelIdeal.Region2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in case A (the inner coordinate is 0: the scratch is reset and then updated, nothing is stored into the output block): on whole memrefs, the six inputs' at their contents,
    the output's at contents handed back untouched, the scratch at anything, the body runs to the
    continuation holding the inputs' as they were and the scratch with its pieces written. The pieces
    (last store first) are the witness the symbolic run finds. -/
noncomputable def kernelRun2_A (c : Dev nD) (i : grid2.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S512x5 .f32) (harg6 : arg6.IsWhole) (arg7 : Memref sig .tc .vmem S1x5 .f32) (harg7 : arg7.IsWhole) (arg8 : Memref sig .tc .vmem S512x5 .f32) (harg8 : arg8.IsWhole) (arg9 : Memref sig .tc .vmem S512x5 .f32) (harg9 : arg9.IsWhole) (hc0 : cond2_0 i) (hc1 : ¬cond2_1 i)
    (x0 : Vec F S116x512 .f32) (x1 : Vec F S116x512 .f32) (x2 : Vec F S116x1 .f32) (x3 : Vec F S1x512 .f32) (x4 : Vec F S512x5 .f32) (x5 : Vec F S1x5 .f32) :
    Σ' (L6 : List (View.Piece (Elt F) S512x5 .f32)), { LS0 : List (View.Piece (Elt F) S512x5 .f32) //
      ∀ (xi6 : Vec F S512x5 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2__accum_kernel i arg2 harg2 arg3 harg3 arg4 harg4 arg5 harg5 arg6 harg6 arg7 harg7 arg8 harg8 arg9 harg9) K } := by
  refine ⟨[], ?_, fun xi6 E K => ?run⟩
  case run =>
    simp only [cc2__accum_kernel_eq_skeleton]; unfold cc2__accum_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.FrameKernelIdeal.Region2RunB.lean ====
import proofs.«143417_j3152505995417_1_alg».proof.Proof.FrameKernelIdeal.Region2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in case B (the inner coordinate is strictly between 0 and 13: the scratch is updated, nothing is stored into the output block): on whole memrefs, the six inputs' at their contents,
    the output's at contents handed back untouched, the scratch at what the point before left, the body runs to the
    continuation holding the inputs' as they were and the scratch with its pieces written. The pieces
    (last store first) are the witness the symbolic run finds. -/
noncomputable def kernelRun2_B (c : Dev nD) (i : grid2.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S512x5 .f32) (harg6 : arg6.IsWhole) (arg7 : Memref sig .tc .vmem S1x5 .f32) (harg7 : arg7.IsWhole) (arg8 : Memref sig .tc .vmem S512x5 .f32) (harg8 : arg8.IsWhole) (arg9 : Memref sig .tc .vmem S512x5 .f32) (harg9 : arg9.IsWhole) (hc0 : ¬cond2_0 i) (hc1 : ¬cond2_1 i)
    (x0 : Vec F S116x512 .f32) (x1 : Vec F S116x512 .f32) (x2 : Vec F S116x1 .f32) (x3 : Vec F S1x512 .f32) (x4 : Vec F S512x5 .f32) (x5 : Vec F S1x5 .f32) (xs0 : Vec F S512x5 .f32) :
    Σ' (L6 : List (View.Piece (Elt F) S512x5 .f32)), { LS0 : List (View.Piece (Elt F) S512x5 .f32) //
      ∀ (xi6 : Vec F S512x5 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2__accum_kernel i arg2 harg2 arg3 harg3 arg4 harg4 arg5 harg5 arg6 harg6 arg7 harg7 arg8 harg8 arg9 harg9) K } := by
  refine ⟨[], ?_, fun xi6 E K => ?run⟩
  case run =>
    simp only [cc2__accum_kernel_eq_skeleton]; unfold cc2__accum_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.FrameKernelIdeal.Region2RunC.lean ====
import proofs.«143417_j3152505995417_1_alg».proof.Proof.FrameKernelIdeal.Region2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in case C (the inner coordinate is 13: the scratch is updated and the output block is stored from it): on whole memrefs, the six inputs' at their contents,
    the output's at anything, the scratch at what the point before left, the body runs to the
    continuation holding the inputs' as they were, the output's buffer with its pieces written and the scratch with its pieces written. The pieces
    (last store first) are the witness the symbolic run finds. -/
noncomputable def kernelRun2_C (c : Dev nD) (i : grid2.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S512x5 .f32) (harg6 : arg6.IsWhole) (arg7 : Memref sig .tc .vmem S1x5 .f32) (harg7 : arg7.IsWhole) (arg8 : Memref sig .tc .vmem S512x5 .f32) (harg8 : arg8.IsWhole) (arg9 : Memref sig .tc .vmem S512x5 .f32) (harg9 : arg9.IsWhole) (hc0 : ¬cond2_0 i) (hc1 : cond2_1 i)
    (x0 : Vec F S116x512 .f32) (x1 : Vec F S116x512 .f32) (x2 : Vec F S116x1 .f32) (x3 : Vec F S1x512 .f32) (x4 : Vec F S512x5 .f32) (x5 : Vec F S1x5 .f32) (xs0 : Vec F S512x5 .f32) :
    Σ' (L6 : List (View.Piece (Elt F) S512x5 .f32)), { LS0 : List (View.Piece (Elt F) S512x5 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc2__accum_kernel i arg2 harg2 arg3 harg3 arg4 harg4 arg5 harg5 arg6 harg6 arg7 harg7 arg8 harg8 arg9 harg9) K } := by
  refine ⟨?_, ?_, fun E K => ?run⟩
  case run =>
    simp only [cc2__accum_kernel_eq_skeleton]; unfold cc2__accum_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.FrameKernelIdeal.Region2Dat.lean ====
import proofs.«143417_j3152505995417_1_alg».proof.Proof.FrameKernelIdeal.Region2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: what the body leaves, point by point, and the proof data

The accumulator scratch and the output window's staging buffer after each point of the grid, by recursion on the
point through the three control cases; the region invariant that carries the scratch between points; the proof data
of the pipeline at the contents `V` the region is entered with. -/

/-! ## The pieces each case writes cover the buffers -/

theorem scover2_A_gen (c : Dev nD) (i : grid2.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S512x5 .f32) (harg6 : arg6.IsWhole) (arg7 : Memref sig .tc .vmem S1x5 .f32) (harg7 : arg7.IsWhole) (arg8 : Memref sig .tc .vmem S512x5 .f32) (harg8 : arg8.IsWhole) (arg9 : Memref sig .tc .vmem S512x5 .f32) (harg9 : arg9.IsWhole) (hc0 : cond2_0 i) (hc1 : ¬cond2_1 i) (x0 : Vec F S116x512 .f32) (x1 : Vec F S116x512 .f32) (x2 : Vec F S116x1 .f32) (x3 : Vec F S1x512 .f32) (x4 : Vec F S512x5 .f32) (x5 : Vec F S1x5 .f32) (y : S512x5.Idx) :
    ∃ pc ∈ (kernelRun2_A (F := F) c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun2_A (F := F) c i arg2 harg2 arg3 harg3 arg4 harg4 arg5 harg5 arg6 harg6 arg7 harg7 arg8 harg8 arg9 harg9 hc0 hc1 x0 x1 x2 x3 x4 x5).2.1 S512x5.size (by sl_kernel_rfl) y

theorem scover2_B_gen (c : Dev nD) (i : grid2.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S512x5 .f32) (harg6 : arg6.IsWhole) (arg7 : Memref sig .tc .vmem S1x5 .f32) (harg7 : arg7.IsWhole) (arg8 : Memref sig .tc .vmem S512x5 .f32) (harg8 : arg8.IsWhole) (arg9 : Memref sig .tc .vmem S512x5 .f32) (harg9 : arg9.IsWhole) (hc0 : ¬cond2_0 i) (hc1 : ¬cond2_1 i) (x0 : Vec F S116x512 .f32) (x1 : Vec F S116x512 .f32) (x2 : Vec F S116x1 .f32) (x3 : Vec F S1x512 .f32) (x4 : Vec F S512x5 .f32) (x5 : Vec F S1x5 .f32) (xs0 : Vec F S512x5 .f32) (y : S512x5.Idx) :
    ∃ pc ∈ (kernelRun2_B (F := F) c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_B (F := F) c i arg2 harg2 arg3 harg3 arg4 harg4 arg5 harg5 arg6 harg6 arg7 harg7 arg8 harg8 arg9 harg9 hc0 hc1 x0 x1 x2 x3 x4 x5 xs0).2.1 S512x5.size (by sl_kernel_rfl) y

theorem scover2_C_gen (c : Dev nD) (i : grid2.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S512x5 .f32) (harg6 : arg6.IsWhole) (arg7 : Memref sig .tc .vmem S1x5 .f32) (harg7 : arg7.IsWhole) (arg8 : Memref sig .tc .vmem S512x5 .f32) (harg8 : arg8.IsWhole) (arg9 : Memref sig .tc .vmem S512x5 .f32) (harg9 : arg9.IsWhole) (hc0 : ¬cond2_0 i) (hc1 : cond2_1 i) (x0 : Vec F S116x512 .f32) (x1 : Vec F S116x512 .f32) (x2 : Vec F S116x1 .f32) (x3 : Vec F S1x512 .f32) (x4 : Vec F S512x5 .f32) (x5 : Vec F S1x5 .f32) (xs0 : Vec F S512x5 .f32) (y : S512x5.Idx) :
    ∃ pc ∈ (kernelRun2_C (F := F) c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_C (F := F) c i arg2 harg2 arg3 harg3 arg4 harg4 arg5 harg5 arg6 harg6 arg7 harg7 arg8 harg8 arg9 harg9 hc0 hc1 x0 x1 x2 x3 x4 x5 xs0).2.1 S512x5.size (by sl_kernel_rfl) y

theorem cover2_C_gen (c : Dev nD) (i : grid2.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S512x5 .f32) (harg6 : arg6.IsWhole) (arg7 : Memref sig .tc .vmem S1x5 .f32) (harg7 : arg7.IsWhole) (arg8 : Memref sig .tc .vmem S512x5 .f32) (harg8 : arg8.IsWhole) (arg9 : Memref sig .tc .vmem S512x5 .f32) (harg9 : arg9.IsWhole) (hc0 : ¬cond2_0 i) (hc1 : cond2_1 i) (x0 : Vec F S116x512 .f32) (x1 : Vec F S116x512 .f32) (x2 : Vec F S116x1 .f32) (x3 : Vec F S1x512 .f32) (x4 : Vec F S512x5 .f32) (x5 : Vec F S1x5 .f32) (xs0 : Vec F S512x5 .f32) (y : S512x5.Idx) :
    ∃ pc ∈ (kernelRun2_C (F := F) c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun2_C (F := F) c i arg2 harg2 arg3 harg3 arg4 harg4 arg5 harg5 arg6 harg6 arg7 harg7 arg8 harg8 arg9 harg9 hc0 hc1 x0 x1 x2 x3 x4 x5 xs0).1 S512x5.size (by sl_kernel_rfl) y

section Region2

variable (V : (c : Dev nD) → (b : Ref sig .tc) → Buf (Elt F) ((c : Thread nD τ).loc b))

/-! ## The three cases at a point of the grid -/

/-- The run of case A at point `t`: on the point's staging memrefs and the scratch, the inputs at their blocks. -/
def run2_A (c : Dev nD) (t : Fin cfg2.N) (h0 : t.val % 14 = 0) (h1 : ¬t.val % 14 = 13) :=
  kernelRun2_A (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _)
    ((hcond2_0 t).mpr h0) (fun h => h1 ((hcond2_1 t).mp h)) (iblk2 V c 0 t) (iblk2 V c 1 t) (iblk2 V c 2 t) (iblk2 V c 3 t) (iblk2 V c 4 t) (iblk2 V c 5 t)

/-- The run of case B at point `t`, the scratch at `xs`. -/
def run2_B (c : Dev nD) (t : Fin cfg2.N) (h0 : ¬t.val % 14 = 0) (h1 : ¬t.val % 14 = 13) (xs : Vec F S512x5 .f32) :=
  kernelRun2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _)
    (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) xs

/-- The run of case C at point `t`, the scratch at `xs`. -/
def run2_C (c : Dev nD) (t : Fin cfg2.N) (h0 : ¬t.val % 14 = 0) (h1 : t.val % 14 = 13) (xs : Vec F S512x5 .f32) :=
  kernelRun2_C (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _)
    (fun h => h0 ((hcond2_0 t).mp h)) ((hcond2_1 t).mpr h1) (iblk2 V c 0 t) (iblk2 V c 1 t) (iblk2 V c 2 t) (iblk2 V c 3 t) (iblk2 V c 4 t) (iblk2 V c 5 t) xs

/-- What case A leaves in the scratch: its pieces read back. -/
def sout2_A (c : Dev nD) (t : Fin cfg2.N) (h0 : t.val % 14 = 0) (h1 : ¬t.val % 14 = 13) : Vec F S512x5 .f32 :=
  VS2.read (Elt F) (VS2.writes (Elt F) VS2.junk (run2_A V c t h0 h1).2.1)
/-- Case A stores nothing into the output block: a placeholder nothing consults (the window is idle there). -/
def out2_A (c : Dev nD) (t : Fin cfg2.N) (h0 : t.val % 14 = 0) (h1 : ¬t.val % 14 = 13) : Vec F S512x5 .f32 :=
  VO2_6.read (Elt F) (VO2_6.writes (Elt F) VO2_6.junk (run2_A V c t h0 h1).1)
theorem scover2_A (c : Dev nD) (t : Fin cfg2.N) (h0 : t.val % 14 = 0) (h1 : ¬t.val % 14 = 13) (y : S512x5.Idx) :
    ∃ pc ∈ (run2_A V c t h0 h1).2.1, y ∈ pc.1.set := scover2_A_gen c _ _ _ _ _ _ _ _ _ _ _ _ _ _ _ _ _ _ _ _ _ _ _ _ _ y

/-- What case B leaves in the scratch. -/
def sout2_B (c : Dev nD) (t : Fin cfg2.N) (h0 : ¬t.val % 14 = 0) (h1 : ¬t.val % 14 = 13) (xs : Vec F S512x5 .f32) : Vec F S512x5 .f32 :=
  VS2.read (Elt F) (VS2.writes (Elt F) VS2.junk (run2_B V c t h0 h1 xs).2.1)
/-- Case B stores nothing into the output block: a placeholder. -/
def out2_B (c : Dev nD) (t : Fin cfg2.N) (h0 : ¬t.val % 14 = 0) (h1 : ¬t.val % 14 = 13) (xs : Vec F S512x5 .f32) : Vec F S512x5 .f32 :=
  VO2_6.read (Elt F) (VO2_6.writes (Elt F) VO2_6.junk (run2_B V c t h0 h1 xs).1)
theorem scover2_B (c : Dev nD) (t : Fin cfg2.N) (h0 : ¬t.val % 14 = 0) (h1 : ¬t.val % 14 = 13) (xs : Vec F S512x5 .f32) (y : S512x5.Idx) :
    ∃ pc ∈ (run2_B V c t h0 h1 xs).2.1, y ∈ pc.1.set := scover2_B_gen c _ _ _ _ _ _ _ _ _ _ _ _ _ _ _ _ _ _ _ _ _ _ _ _ _ _ y

/-- What case C leaves in the scratch. -/
def sout2_C (c : Dev nD) (t : Fin cfg2.N) (h0 : ¬t.val % 14 = 0) (h1 : t.val % 14 = 13) (xs : Vec F S512x5 .f32) : Vec F S512x5 .f32 :=
  VS2.read (Elt F) (VS2.writes (Elt F) VS2.junk (run2_C V c t h0 h1 xs).2.1)
/-- What case C leaves in the output window's staging buffer. -/
def out2_C (c : Dev nD) (t : Fin cfg2.N) (h0 : ¬t.val % 14 = 0) (h1 : t.val % 14 = 13) (xs : Vec F S512x5 .f32) : Vec F S512x5 .f32 :=
  VO2_6.read (Elt F) (VO2_6.writes (Elt F) VO2_6.junk (run2_C V c t h0 h1 xs).1)
theorem scover2_C (c : Dev nD) (t : Fin cfg2.N) (h0 : ¬t.val % 14 = 0) (h1 : t.val % 14 = 13) (xs : Vec F S512x5 .f32) (y : S512x5.Idx) :
    ∃ pc ∈ (run2_C V c t h0 h1 xs).2.1, y ∈ pc.1.set := scover2_C_gen c _ _ _ _ _ _ _ _ _ _ _ _ _ _ _ _ _ _ _ _ _ _ _ _ _ _ y
theorem cover2_C (c : Dev nD) (t : Fin cfg2.N) (h0 : ¬t.val % 14 = 0) (h1 : t.val % 14 = 13) (xs : Vec F S512x5 .f32) (y : S512x5.Idx) :
    ∃ pc ∈ (run2_C V c t h0 h1 xs).1, y ∈ pc.1.set := cover2_C_gen c _ _ _ _ _ _ _ _ _ _ _ _ _ _ _ _ _ _ _ _ _ _ _ _ _ _ y

/-! ## What the output buffer and the scratch hold after each point -/

/-- After the body at position `n`: (the output window's staging buffer, the accumulator scratch). The case is the one
    the inner coordinate `n % 14` selects; cases B and C start from the scratch the point before left. -/
def outsAt2 (c : Dev nD) : (n : ℕ) → n < cfg2.N → Vec F S512x5 .f32 × Vec F S512x5 .f32
  | 0, hn => (out2_A V c ⟨0, hn⟩ (Nat.zero_mod _) (by show ¬(0 % 14 = 13); decide), sout2_A V c ⟨0, hn⟩ (Nat.zero_mod _) (by show ¬(0 % 14 = 13); decide))
  | n + 1, hn =>
    if h0 : (n + 1) % 14 = 0 then
      if h1 : (n + 1) % 14 = 13 then
        False.elim (by omega)
      else
        (out2_A V c ⟨n + 1, hn⟩ h0 h1, sout2_A V c ⟨n + 1, hn⟩ h0 h1)
    else
      if h1 : (n + 1) % 14 = 13 then
        (out2_C V c ⟨n + 1, hn⟩ h0 h1 (outsAt2 c n (Nat.lt_of_succ_lt hn)).2, sout2_C V c ⟨n + 1, hn⟩ h0 h1 (outsAt2 c n (Nat.lt_of_succ_lt hn)).2)
      else
        (out2_B V c ⟨n + 1, hn⟩ h0 h1 (outsAt2 c n (Nat.lt_of_succ_lt hn)).2, sout2_B V c ⟨n + 1, hn⟩ h0 h1 (outsAt2 c n (Nat.lt_of_succ_lt hn)).2)

/-- `outsAt2` at a point of case A. -/
theorem outsAt2_A (c : Dev nD) (t : Fin cfg2.N) (h0 : t.val % 14 = 0) (h1 : ¬t.val % 14 = 13) :
    outsAt2 V c t.val t.isLt = (out2_A V c t h0 h1, sout2_A V c t h0 h1) := by
  obtain ⟨n, hn⟩ := t
  cases n with
  | zero => exact rfl
  | succ n => exact (dif_pos h0).trans ((dif_neg h1).trans rfl)

/-- `outsAt2` at a point of case B: over what the point before left in the scratch. -/
theorem outsAt2_B (c : Dev nD) (t : Fin cfg2.N) (h0 : ¬t.val % 14 = 0) (h1 : ¬t.val % 14 = 13) :
    outsAt2 V c t.val t.isLt = (out2_B V c t h0 h1 (outsAt2 V c (t.val - 1) (Nat.lt_of_le_of_lt (Nat.sub_le _ _) t.isLt)).2,
      sout2_B V c t h0 h1 (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: over what the point before left in the scratch. -/
theorem outsAt2_C (c : Dev nD) (t : Fin cfg2.N) (h0 : ¬t.val % 14 = 0) (h1 : t.val % 14 = 13) :
    outsAt2 V c t.val t.isLt = (out2_C V c t h0 h1 (outsAt2 V c (t.val - 1) (Nat.lt_of_le_of_lt (Nat.sub_le _ _) t.isLt)).2,
      sout2_C V c t h0 h1 (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: before the first point what the launch hands the region; afterwards the scratch at what the
    point before left in it, the other scoped buffers unopened, the generator register at some state. -/
def PhiS2 (c : Dev nD) : (n : ℕ) → n ≤ cfg2.N → sProp 𝕄
  | 0, _ => Pipeline.ΦA spec2 c
  | n + 1, hn => iprop(iprop(iprop(owns (c : Thread nD τ) scM2 fullShare ((outsAt2 V c n hn).2)) ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2 fullShare ((outsAt2 V c n hn).2)) ∗ restBut2 c) ∗ (∃ r, prngReg c r)) := rfl

theorem PhiS2_pos (c : Dev nD) (n : ℕ) (h : n ≤ cfg2.N) (hz : n ≠ 0) :
    PhiS2 V c n h = iprop(iprop(iprop(owns (c : Thread nD τ) scM2 fullShare ((outsAt2 V c (n - 1) (by omega)).2)) ∗ restBut2 c) ∗ (∃ r, prngReg c r)) := by
  cases n with
  | zero => exact absurd rfl hz
  | succ n => rfl

/-! ## The proof data -/

/-- The proof data of the region's pipeline on core `c`: the arrays as the region finds them; after the body each
    input's buffer at its block and the output's at `outsAt2`; the invariant `PhiS2`; nothing owed; the array the
    first two windows share held half and half, every other array outright. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq2 (c : Dev nD) (w : Fin cfg2.W) : (dat2 V c).A w = V c (Pipeline.arrRef spec2 w) := by
  dsimp only [dat2]

theorem owed2 (c : Dev nD) (t) : (dat2 V c).owed t = 0 := rfl

theorem q2_0 (c : Dev nD) : (dat2 V c).q 0 = fullShare.left := rfl
theorem q2_1 (c : Dev nD) : (dat2 V c).q 1 = fullShare.right := rfl
theorem q2_2 (c : Dev nD) : (dat2 V c).q 2 = fullShare := rfl
theorem q2_3 (c : Dev nD) : (dat2 V c).q 3 = fullShare := rfl
theorem q2_4 (c : Dev nD) : (dat2 V c).q 4 = fullShare := rfl
theorem q2_5 (c : Dev nD) : (dat2 V c).q 5 = fullShare := rfl
theorem q2_6 (c : Dev nD) : (dat2 V c).q 6 = fullShare := rfl

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives it back: the scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 196 := N_2; omega)

end Region2

end Cert.KernelIdeal.Hand

end
-- ==== Proof.FrameKernelIdeal.Region2.lean ====
import proofs.«143417_j3152505995417_1_alg».proof.Proof.FrameKernelIdeal.Region2Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the body obligation

At every point of the grid the body, called on the point's staging memrefs and the accumulator scratch, runs from
the invariant and the windows' buffers to the invariant of the next point and the buffers at what the proof data
says: the inner coordinate selects one of the three control cases, whose run applies. -/

section Region2

variable (V : (c : Dev nD) → (b : Ref sig .tc) → Buf (Elt F) ((c : Thread nD τ).loc b))

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' memrefs hold their blocks; the closed forms of the conditions say which case
    the point is in; the invariant hands the body the scratch at what the point before left (at anything at the very
    first point) and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 196 := lt_of_lt_of_eq t.isLt (show cfg2.N = 196 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h0 : t.val % 14 = 0
  · by_cases h1 : t.val % 14 = 13
    · exfalso; omega
    · rw [Dat.leavesExact_idle (dat2 V c) 6 t (idleAt2_6 t (fun h => h1 ((hcond2_1 t).mp h))) (noFlush2_6 t (fun h => h1 ((hcond2_1 t).mp h)))]
      rw [outsAt2_A V c t h0 h1]
      unfold sout2_A; (try dsimp only)
      by_cases hz : t.val = 0
      · rw [PhiS2_castSucc V c t, PhiS2_zero V c _ _ hz, PhiA2_eq]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((run2_A V c t h0 h1).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A V c t h0 h1)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((run2_A V c t h0 h1).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A V c t h0 h1)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun e => h0 (by rw [e])
    by_cases h1 : t.val % 14 = 13
    · rw [show (dat2 V c).leavesExact 6 t = owns (c : Thread nD τ) (ms2_6 t) fullShare ((dat2 V c).after 6 t) from by
        unfold Dat.leavesExact; rw [liveAt2_6_C t ((hcond2_1 t).mpr h1)], after2_6]
      rw [outsAt2_C V c t h0 h1]
      unfold out2_C sout2_C; (try dsimp only)
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((run2_C V c t h0 h1 _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_C V c t h0 h1 _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_C V c t h0 h1 _)
    · rw [Dat.leavesExact_idle (dat2 V c) 6 t (idleAt2_6 t (fun h => h1 ((hcond2_1 t).mp h))) (noFlush2_6 t (fun h => h1 ((hcond2_1 t).mp h)))]
      rw [outsAt2_B V c t h0 h1]
      unfold sout2_B; (try dsimp only)
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((run2_B V c t h0 h1 _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_B V c t h0 h1 _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation of the region's pipeline, at every point. -/
theorem body_obligation2 (c : Dev nD) : Pipeline.BodyObligation (dat2 (F := F) V c) (defs₀ (F := F)) Variants.none () Set.univ := fun t => by
  rw [bigSep_W2, bigSep_W2]
  exact sound_body2 V c t

end Region2

end Cert.KernelIdeal.Hand

end
-- ==== Proof.FrameKernelIdeal.Region3Dat.lean ====
import proofs.«143417_j3152505995417_1_alg».proof.Proof.Gen.KernelIdeal.Launch
import proofs.«143417_j3152505995417_1_alg».proof.Proof.Gen.KernelIdeal.Skeleton
import proofs.«143417_j3152505995417_1_alg».proof.Proof.Gen.KernelIdeal.Points
import Idealize.ShloMosaic.Lib.Pipeline.FrameBody
import Idealize.ShloMosaic.Lib.Ring
import Idealize.ShloMosaic.Lib.Tactic

-- membership in a rectangle of large extents is decided by a structural recursion, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! # Region 3: the node convolution on a one-point grid, at the entry contents `V` -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: an unfetched point has not moved the block
    index, the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: an unfetched point has not moved the block
    index, the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: an unfetched point has not moved the block
    index, the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: an unfetched point has not moved the block
    index, the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: an unfetched point has not moved the block
    index, the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof
    data whose array is `V`'s and whose body leaves the block in place: an unfetched point has not moved the block
    index, the window is uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take the whole buffer -/

abbrev r3_0 : Rect S116x6670 := Rect.unit (s := S116x6670) ![0, 0] S116x6670.size inb_S116x6670_S116x6670_0_0
abbrev r3_1 : Rect S6670x5 := Rect.unit (s := S6670x5) ![0, 0] S6670x5.size inb_S6670x5_S6670x5_0_0
abbrev r3_2 : Rect S116x64 := Rect.unit (s := S116x64) ![0, 0] S116x64.size inb_S116x64_S116x64_0_0
abbrev r3_3 : Rect S1x5 := Rect.unit (s := S1x5) ![0, 0] S1x5.size inb_S1x5_S1x5_0_0
abbrev r3_4 : Rect S64x64 := Rect.unit (s := S64x64) ![0, 0] S64x64.size inb_S64x64_S64x64_0_0
abbrev r3_5 : Rect S1x64 := Rect.unit (s := S1x64) ![0, 0] S1x64.size inb_S1x64_S1x64_0_0
abbrev r3_6 : Rect S116x64 := Rect.unit (s := S116x64) ![0, 0] S116x64.size inb_S116x64_S116x64_0_0

/-! ## What the body leaves in the output window's buffer -/

/-- Window 6's staging buffer after the body, from the six input blocks: the one store, whose value is the
    convolution of the six loaded vectors, laid over the whole buffer. -/
def out3_6 (x0 : Vec F S116x6670 .f32) (x1 : Vec F S6670x5 .f32) (x2 : Vec F S116x64 .f32) (x3 : Vec F S1x5 .f32)
    (x4 : Vec F S64x64 .f32) (x5 : Vec F S1x64 .f32) : Vec F S116x64 .f32 :=
  View.canon [⟨r3_6, k3_pay1 (View.ld x0 r3_0) (View.ld x1 r3_1) (View.ld x2 r3_2) (View.ld x3 r3_3) (View.ld x4 r3_4) (View.ld x5 r3_5)⟩]

/-- The one store's rectangle is the whole buffer, so it covers it. -/
theorem cover3_6 (p0 : Vec F S116x64 .f32) (y : S116x64.Idx) :
    ∃ pc ∈ ([⟨r3_6, p0⟩] : List (View.Piece (Elt F) S116x64 .f32)), y ∈ pc.1.set :=
  View.cover_of_tiled [⟨r3_6, p0⟩] S116x64.size (by rfl) y

/-! ## The proof data -/

/-- The proof data of the region's pipeline on core `c`: the arrays as the region finds them; after the body each
    input's buffer at its block and the output's at `out3_6` of the input blocks; the invariant is the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- Nothing is owed at any point. -/
theorem owed3 (c : Dev nD) (t) : (dat3 V c).owed t = 0 := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

end Region

end Cert.KernelIdeal.Hand

end
-- ==== Proof.FrameKernelIdeal.Region3Body.lean ====
import proofs.«143417_j3152505995417_1_alg».proof.Proof.FrameKernelIdeal.Region3Dat

-- membership in a rectangle of large extents is decided by a structural recursion, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: the body's triple -/

set_option maxHeartbeats 1000000 in
/-- The node convolution on whole staging memrefs, the inputs' at read contents `xW` and the output's at anything,
    runs to the continuation holding the inputs' as they were and the output's at `out3_6` of the inputs': the
    printed function is its skeleton of seven whole loads (the last, of the output buffer, unused) and one whole
    store: each load reads its buffer's contents, and the store leaves its value over the whole output buffer. -/
theorem sound_kernel3 (c : Dev nD) (E : Set ℕ) (i : grid3.Coords) (arg1 : Memref sig .tc .vmem S116x6670 .f32) (harg1 : arg1.IsWhole) (arg2 : Memref sig .tc .vmem S6670x5 .f32) (harg2 : arg2.IsWhole) (arg3 : Memref sig .tc .vmem S116x64 .f32) (harg3 : arg3.IsWhole) (arg4 : Memref sig .tc .vmem S1x5 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S116x64 .f32) (harg7 : arg7.IsWhole)
    (x0 : Vec F S116x6670 .f32) (x1 : Vec F S6670x5 .f32) (x2 : Vec F S116x64 .f32) (x3 : Vec F S1x5 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__node_conv_kernel i arg1 harg1 arg2 harg2 arg3 harg3 arg4 harg4 arg5 harg5 arg6 harg6 arg7 harg7) K := by
  simp only [cc3__node_conv_kernel_eq_skeleton]; unfold cc3__node_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

end Cert.KernelIdeal.Hand

end
-- ==== Proof.FrameKernelIdeal.Region3.lean ====
import proofs.«143417_j3152505995417_1_alg».proof.Proof.FrameKernelIdeal.Region3Dat
import proofs.«143417_j3152505995417_1_alg».proof.Proof.FrameKernelIdeal.Region3Body

-- membership in a rectangle of large extents is decided by a structural recursion, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! # Region 3: the body obligation, at a generic point -/

/-- What the body is called with at point `t`: the invariant, what is owed, and the windows' current staging buffers one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks, so the body's triple applies; the invariant and
    what is owed pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Region

end Cert.KernelIdeal.Hand

end
-- ==== Proof.FrameKernelIdeal.RunCond.lean ====
/-
  The run of @main from the four regions' segment records, with the RESULT named.

  Between two items of @main core `c` holds every unscoped buffer at the valuation the generated module
  `Gen.VJ` names: the launch contents, each stretch of host operations applied in turn, and at a region's exit the
  region's output array replaced by what the region leaves (`outs`).  Given one segment record per region, entered
  from the valuation before it and left at the one after it, every weakly fair execution terminates, the sixteen
  argument arrays end as launched, and the result array `main_v63` ends at the last valuation's contents
  `Gen.V16 m outs c main_v63`: the last stretch of host operations applied to what region 3 left.
-/
import proofs.«143417_j3152505995417_1_alg».proof.Proof.Gen.KernelIdeal.Regions

set_option maxRecDepth 1072

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

variable (m : (ℓ : Loc nD τ sig) → Buf (Elt F) ℓ)

set_option backward.isDefEq.respectTransparency.types false in
/-- The run, given the regions' records: termination, the arguments unchanged, and the result array at the last
    valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V9 m outs c) ∗ E 1 c) ⊢ R1.pre c)
    (hpost1 : ∀ c : Dev nD, R1.post c ⊢ iprop(StableHlo.held (c : Thread nD τ) (Pipeline.ucRefs τ sig) (V10 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V10 m outs c) ∗ E 2 c) ⊢ R2.pre c)
    (hpost2 : ∀ c : Dev nD, R2.post c ⊢ iprop(StableHlo.held (c : Thread nD τ) (Pipeline.ucRefs τ sig) (V11 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V14 m outs c) ∗ E 3 c) ⊢ R3.pre c)
    (hpost3 : ∀ c : Dev nD, R3.post c ⊢ iprop(StableHlo.held (c : Thread nD τ) (Pipeline.ucRefs τ sig) (V15 m outs c) ∗ E 4 c)) :
    θ_run defs (onTc (τ := τ) (main (F := F))) ⟨m, fun _ => 0, ρ⟩ (fun r => ∀ c : Dev nD,
      r.2.mem ((c.tc : Thread nD τ).loc main_v63) = V16 m outs c main_v63
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          Prog.lift (.customCall (Pipeline.entry 2) ()),
          StableHlo.seq hostOps3,
          StableHlo.seq hostOps3_1,
          StableHlo.seq hostOps3_2,
          Prog.lift (.customCall (Pipeline.entry 3) ()),
          StableHlo.seq hostOps4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V16 m outs c))
    (hch := fun c => ⟨.rfl, .rfl, .rfl, hpre0 c, hpost0 c, .rfl, .rfl, .rfl, .rfl, hpre1 c, (hpost1 c).trans (hpre2 c), hpost2 c, .rfl, .rfl, hpre3 c, hpost3 c, sep_mono .rfl (hE4 c)⟩)
    (hinit := ?_) (QY := fun c s => s.mem ((c.tc : Thread nD τ).loc main_v63) = V16 m outs c main_v63 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15))
    (hfin := fun c s' => ?_) (hQ := fun _ h => h)
  · -- the launch: the unscoped buffers are held at the launch valuation; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's and each argument's buffer read off the last valuation
    unfold StableHlo.held
    iintro ⟨Hh, HSI⟩
    ihave Hr := (pointsTo_read_all (Pipeline.ucRefs τ sig) (fun b => ((c : Thread nD τ).1, b)) (V16 m outs c) s') $$ [Hh HSI]
    · isplitl [Hh] <;> iassumption
    icases Hr with ⟨%h, HSI⟩
    imodintro
    isplitr
    · ipureintro
      exact ⟨h (Proc.devRef .tc main_v63) (Finset.mem_filter.mpr ⟨StableHlo.devRef_mem_tcRefs main_v63, by decide⟩),
        (h (Proc.devRef .tc main_arg0) (Finset.mem_filter.mpr ⟨StableHlo.devRef_mem_tcRefs main_arg0, by decide⟩)).trans (V16_main_arg0 m outs c),
        (h (Proc.devRef .tc main_arg1) (Finset.mem_filter.mpr ⟨StableHlo.devRef_mem_tcRefs main_arg1, by decide⟩)).trans (V16_main_arg1 m outs c),
        (h (Proc.devRef .tc main_arg2) (Finset.mem_filter.mpr ⟨StableHlo.devRef_mem_tcRefs main_arg2, by decide⟩)).trans (V16_main_arg2 m outs c),
        (h (Proc.devRef .tc main_arg3) (Finset.mem_filter.mpr ⟨StableHlo.devRef_mem_tcRefs main_arg3, by decide⟩)).trans (V16_main_arg3 m outs c),
        (h (Proc.devRef .tc main_arg4) (Finset.mem_filter.mpr ⟨StableHlo.devRef_mem_tcRefs main_arg4, by decide⟩)).trans (V16_main_arg4 m outs c),
        (h (Proc.devRef .tc main_arg5) (Finset.mem_filter.mpr ⟨StableHlo.devRef_mem_tcRefs main_arg5, by decide⟩)).trans (V16_main_arg5 m outs c),
        (h (Proc.devRef .tc main_arg6) (Finset.mem_filter.mpr ⟨StableHlo.devRef_mem_tcRefs main_arg6, by decide⟩)).trans (V16_main_arg6 m outs c),
        (h (Proc.devRef .tc main_arg7) (Finset.mem_filter.mpr ⟨StableHlo.devRef_mem_tcRefs main_arg7, by decide⟩)).trans (V16_main_arg7 m outs c),
        (h (Proc.devRef .tc main_arg8) (Finset.mem_filter.mpr ⟨StableHlo.devRef_mem_tcRefs main_arg8, by decide⟩)).trans (V16_main_arg8 m outs c),
        (h (Proc.devRef .tc main_arg9) (Finset.mem_filter.mpr ⟨StableHlo.devRef_mem_tcRefs main_arg9, by decide⟩)).trans (V16_main_arg9 m outs c),
        (h (Proc.devRef .tc main_arg10) (Finset.mem_filter.mpr ⟨StableHlo.devRef_mem_tcRefs main_arg10, by decide⟩)).trans (V16_main_arg10 m outs c),
        (h (Proc.devRef .tc main_arg11) (Finset.mem_filter.mpr ⟨StableHlo.devRef_mem_tcRefs main_arg11, by decide⟩)).trans (V16_main_arg11 m outs c),
        (h (Proc.devRef .tc main_arg12) (Finset.mem_filter.mpr ⟨StableHlo.devRef_mem_tcRefs main_arg12, by decide⟩)).trans (V16_main_arg12 m outs c),
        (h (Proc.devRef .tc main_arg13) (Finset.mem_filter.mpr ⟨StableHlo.devRef_mem_tcRefs main_arg13, by decide⟩)).trans (V16_main_arg13 m outs c),
        (h (Proc.devRef .tc main_arg14) (Finset.mem_filter.mpr ⟨StableHlo.devRef_mem_tcRefs main_arg14, by decide⟩)).trans (V16_main_arg14 m outs c),
        (h (Proc.devRef .tc main_arg15) (Finset.mem_filter.mpr ⟨StableHlo.devRef_mem_tcRefs main_arg15, by decide⟩)).trans (V16_main_arg15 m outs c)⟩
    · iexact HSI

end Cert.KernelIdeal.Hand

end
-- ==== Proof.FrameKernelIdeal.Chain.lean ====
import proofs.«143417_j3152505995417_1_alg».proof.Proof.FrameKernelIdeal.Region0
import proofs.«143417_j3152505995417_1_alg».proof.Proof.FrameKernelIdeal.Region1
import proofs.«143417_j3152505995417_1_alg».proof.Proof.FrameKernelIdeal.Region2
import proofs.«143417_j3152505995417_1_alg».proof.Proof.FrameKernelIdeal.Region3
import proofs.«143417_j3152505995417_1_alg».proof.Proof.Gen.KernelIdeal.Regions
import Idealize.ShloMosaic.Lib.Pipeline.Frame
import Idealize.ShloMosaic.Lib.Pipeline.RegionsLoop
import Idealize.ShloMosaic.Lib.Pipeline.FrameSuffix
import proofs.«143417_j3152505995417_1_alg».proof.Proof.FrameKernelIdeal.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! # The valuations between the items of @main

Between two items of @main a core holds every unscoped buffer at a valuation: the launch contents, each stretch of host
operations applied in turn, and at a region's exit the region's output array replaced by what the region's write-backs
leave.  Each region's proof data is stated at the valuation its region is entered from.  Each valuation is determined
by its defining equation, which is all that is used of it. -/

section Run

variable (m : (ℓ : Loc nD τ sig) → Buf (Elt F) ℓ)

/-- The valuation region 0 is entered from: the launch contents after the three stretches of host operations before it. -/
def W3 (c : Dev nD) : Valuation τ sig (Elt F) := V3 m c
theorem W3_eq (c : Dev nD) : V3 m c = W3 m c := rfl
abbrev X0 : (c : Dev nD) → (b : Ref sig .tc) → Buf (Elt F) ((c : Thread nD τ).loc b) := fun c b => W3 m c b
/-- After region 0: its output array `main_v44` at what the region leaves. -/
def U4 (c : Dev nD) : Valuation τ sig (Elt F) := Function.update (W3 m c) main_v44 ((dat0 (X0 m) c).arrAt 6 cfg0.N)
theorem U4_def (c : Dev nD) : U4 m c = Function.update (W3 m c) main_v44 ((dat0 (X0 m) c).arrAt 6 cfg0.N) := rfl
/-- The valuation region 1 is entered from: five stretches of host operations later. -/
def U9 (c : Dev nD) : Valuation τ sig (Elt F) :=
  StableHlo.after hostOps1_4 (StableHlo.after hostOps1_3 (StableHlo.after hostOps1_2 (StableHlo.after hostOps1_1 (StableHlo.after hostOps1 (U4 m c)))))
theorem U9_def (c : Dev nD) : U9 m c =
  StableHlo.after hostOps1_4 (StableHlo.after hostOps1_3 (StableHlo.after hostOps1_2 (StableHlo.after hostOps1_1 (StableHlo.after hostOps1 (U4 m c))))) := rfl
abbrev X1 : (c : Dev nD) → (b : Ref sig .tc) → Buf (Elt F) ((c : Thread nD τ).loc b) := fun c b => U9 m c b
/-- After region 1: the column maxima `main_v51` at what the region leaves. -/
def U10 (c : Dev nD) : Valuation τ sig (Elt F) := Function.update (U9 m c) main_v51 ((dat1 (X1 m) c).arrAt 3 cfg1.N)
theorem U10_def (c : Dev nD) : U10 m c = Function.update (U9 m c) main_v51 ((dat1 (X1 m) c).arrAt 3 cfg1.N) := rfl
abbrev X2 : (c : Dev nD) → (b : Ref sig .tc) → Buf (Elt F) ((c : Thread nD τ).loc b) := fun c b => U10 m c b
/-- After region 2: the edge features `main_v52` at what the region leaves. -/
def U11 (c : Dev nD) : Valuation τ sig (Elt F) := Function.update (U10 m c) main_v52 ((dat2 (X2 m) c).arrAt 6 cfg2.N)
theorem U11_def (c : Dev nD) : U11 m c = Function.update (U10 m c) main_v52 ((dat2 (X2 m) c).arrAt 6 cfg2.N) := rfl
/-- The valuation region 3 is entered from: three stretches of host operations later. -/
def U14 (c : Dev nD) : Valuation τ sig (Elt F) := StableHlo.after hostOps3_2 (StableHlo.after hostOps3_1 (StableHlo.after hostOps3 (U11 m c)))
theorem U14_def (c : Dev nD) : U14 m c = StableHlo.after hostOps3_2 (StableHlo.after hostOps3_1 (StableHlo.after hostOps3 (U11 m c))) := rfl
abbrev X3 : (c : Dev nD) → (b : Ref sig .tc) → Buf (Elt F) ((c : Thread nD τ).loc b) := fun c b => U14 m c b
/-- After region 3: the node features `main_v56` at what the region leaves. -/
def U15 (c : Dev nD) : Valuation τ sig (Elt F) := Function.update (U14 m c) main_v56 ((dat3 (X3 m) c).arrAt 6 cfg3.N)
theorem U15_def (c : Dev nD) : U15 m c = Function.update (U14 m c) main_v56 ((dat3 (X3 m) c).arrAt 6 cfg3.N) := rfl
/-- The last valuation: the closing stretch of host operations applied. -/
def U16 (c : Dev nD) : Valuation τ sig (Elt F) := StableHlo.after hostOps4 (U15 m c)
theorem U16_def (c : Dev nD) : U16 m c = StableHlo.after hostOps4 (U15 m c) := rfl

/-- What the regions leave in the arrays they may change, read off the valuations above. -/
def outs : Outs (F := F) := fun J r c =>
  if J = 4 then U4 m c r else if J = 10 then U10 m c r else if J = 11 then U11 m c r else if J = 15 then U15 m c r else W3 m c r

theorem V4_eq (c : Dev nD) : V4 m (outs m) c = U4 m c := by
  show Function.update (V3 m c) main_v44 (outs m 4 main_v44 c) = _
  unfold outs; rw [if_pos rfl, U4_def, Function.update_self, W3_eq]
theorem V9_eq (c : Dev nD) : V9 m (outs m) c = U9 m c := by
  show StableHlo.after hostOps1_4 (StableHlo.after hostOps1_3 (StableHlo.after hostOps1_2 (StableHlo.after hostOps1_1 (StableHlo.after hostOps1 (V4 m (outs m) c))))) = _
  rw [V4_eq, U9_def]
theorem V10_eq (c : Dev nD) : V10 m (outs m) c = U10 m c := by
  show Function.update (V9 m (outs m) c) main_v51 (outs m 10 main_v51 c) = _
  rw [V9_eq]; unfold outs; rw [if_neg (by decide), if_pos rfl, U10_def, Function.update_self]
theorem V11_eq (c : Dev nD) : V11 m (outs m) c = U11 m c := by
  show Function.update (V10 m (outs m) c) main_v52 (outs m 11 main_v52 c) = _
  rw [V10_eq]; unfold outs; rw [if_neg (by decide), if_neg (by decide), if_pos rfl, U11_def, Function.update_self]
theorem V14_eq (c : Dev nD) : V14 m (outs m) c = U14 m c := by
  show StableHlo.after hostOps3_2 (StableHlo.after hostOps3_1 (StableHlo.after hostOps3 (V11 m (outs m) c))) = _
  rw [V11_eq, U14_def]
theorem V15_eq (c : Dev nD) : V15 m (outs m) c = U15 m c := by
  show Function.update (V14 m (outs m) c) main_v56 (outs m 15 main_v56 c) = _
  rw [V14_eq]; unfold outs; rw [if_neg (by decide), if_neg (by decide), if_neg (by decide), if_pos rfl, U15_def, Function.update_self]
theorem V16_eq (c : Dev nD) : V16 m (outs m) c = U16 m c := by
  show StableHlo.after hostOps4 (V15 m (outs m) c) = _
  rw [V15_eq, U16_def]

/-- A valuation changed at one buffer reads elsewhere as before. -/
theorem upd_ne (W : Valuation τ sig (Elt F)) {r r' : Ref sig .tc} (h : r' ≠ r) (v) :
    Function.update W (Proc.devRef .tc r) v (Proc.devRef .tc r') = W (Proc.devRef .tc r') :=
  Function.update_of_ne (StableHlo.devRef_ne_of_ne h) _ _
/-- and at that buffer as it was set. -/
theorem upd_eq (W : Valuation τ sig (Elt F)) (r : Ref sig .tc) (v) :
    Function.update W (Proc.devRef .tc r) v (Proc.devRef .tc r) = v := Function.update_self _ _ _

end Run

attribute [irreducible] W3 U4 U9 U10 U11 U14 U15 U16

end Cert.KernelIdeal.Hand

end
-- ==== Proof.FrameKernelIdeal.Shared.lean ====
import proofs.«143417_j3152505995417_1_alg».proof.Proof.Gen.KernelIdeal.Launch
import Idealize.ShloMosaic.Lib.Pipeline.Frame
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! # One array read by two windows

Regions 1 and 2 hand the padded incidence matrix `main_v36` to two input windows.  Each window holds half of the
array's buffer; the two halves together are the buffer at the full share. -/

/-! ## Region 1: windows 0 and 1 both read `main_v36` -/

theorem img1 : Finset.univ.image (Pipeline.arrRef spec1) = ({main_v36, main_v48, main_v51} : Finset (Ref sig .tc)) := by decide

/-- The buffers behind region 1's arrays, each whole at the full share at contents `V`, are the pipeline's arrays at
    contents `G` that agree with `V` — the shared buffer `main_v36` as its two halves, one per window reading it. -/
theorem arrays_iff1 (c : Dev nD) (dat : Dat τ (Elt F) Unit ℕ (UR sig nD τ) ℕ cfg1 c)
    (hq0 : dat.q 0 = fullShare.left) (hq1 : dat.q 1 = fullShare.right) (hq : ∀ w : Fin cfg1.W, w ≠ 0 → w ≠ 1 → dat.q w = fullShare)
    (V : (b : Ref sig .tc) → Buf (Elt F) ((c : Thread nD τ).loc b))
    (G : (w : Fin cfg1.W) → Buf (Elt F) ((cfg1.win w).arr.view.loc (c.tc : Thread nD τ)))
    (hG : ∀ w, G w = V (Pipeline.arrRef spec1 w)) :
    (Pipeline.arrBufs spec1 c V : sProp 𝕄) ⊣⊢ dat.arrays G := by
  have s0 : dat.share 0 = fullShare.left := by unfold Pipeline.Dat.share; rw [if_neg (by decide)]; exact hq0
  have s1 : dat.share 1 = fullShare.right := by unfold Pipeline.Dat.share; rw [if_neg (by decide)]; exact hq1
  have s2 : dat.share 2 = fullShare := by unfold Pipeline.Dat.share; rw [if_neg (by decide)]; exact hq 2 (by decide) (by decide)
  have s3 : dat.share 3 = fullShare := by unfold Pipeline.Dat.share; rw [if_pos (by decide)]
  have hh : ((((c.tc : Thread nD τ).loc main_v36) ↦{fullShare} V main_v36 : sProp 𝕄)) ⊣⊢ iprop((((c.tc : Thread nD τ).loc main_v36) ↦{fullShare.left} V main_v36) ∗ (((c.tc : Thread nD τ).loc main_v36) ↦{fullShare.right} V main_v36)) :=
    pointsTo_share (PosShare.mem_left_op_right fullShare)
  unfold Pipeline.arrBufs Pipeline.Dat.arrays
  rw [bigSep_W1, img1, bigSep_insert (by decide), bigSep_insert (by decide), BI.bigSep_singleton]
  simp only [(arr_whole1 0).set_eq_univ, s0, (arr_whole1 1).set_eq_univ, s1, (arr_whole1 2).set_eq_univ, s2, (arr_whole1 3).set_eq_univ, s3, hG]
  show iprop((((c.tc : Thread nD τ).loc main_v36) ↦{fullShare} V main_v36) ∗ (((c.tc : Thread nD τ).loc main_v48) ↦{fullShare} V main_v48) ∗ (((c.tc : Thread nD τ).loc main_v51) ↦{fullShare} V main_v51)) ⊣⊢ iprop((((c.tc : Thread nD τ).loc main_v36) ↦{fullShare.left} V main_v36) ∗ (((c.tc : Thread nD τ).loc main_v36) ↦{fullShare.right} V main_v36) ∗ (((c.tc : Thread nD τ).loc main_v48) ↦{fullShare} V main_v48) ∗ (((c.tc : Thread nD τ).loc main_v51) ↦{fullShare} V main_v51))
  constructor
  · iintro ⟨H36, H0, H1⟩
    ihave H := hh.1 $$ H36
    icases H with ⟨Hl, Hr⟩
    isplitl [Hl]; · iexact Hl
    isplitl [Hr]; · iexact Hr
    isplitl [H0]; · iexact H0
    iexact H1
  · iintro ⟨Hl, Hr, G0, G1⟩
    isplitl [Hl Hr]
    · iapply hh.2; isplitl [Hl]; · iexact Hl
      iexact Hr
    isplitl [G0]; · iexact G0
    iexact G1

/-! ## Region 2: windows 0 and 1 both read `main_v36` -/

theorem img2 : Finset.univ.image (Pipeline.arrRef spec2) = ({main_v36, main_v48, main_v51, main_v50, main_v39, main_v52} : Finset (Ref sig .tc)) := by decide

set_option maxHeartbeats 4000000 in
/-- The buffers behind region 2's arrays, each whole at the full share at contents `V`, are the pipeline's arrays at
    contents `G` that agree with `V` — the shared buffer `main_v36` as its two halves, one per window reading it. -/
theorem arrays_iff2 (c : Dev nD) (dat : Dat τ (Elt F) Unit ℕ (UR sig nD τ) ℕ cfg2 c)
    (hq0 : dat.q 0 = fullShare.left) (hq1 : dat.q 1 = fullShare.right) (hq : ∀ w : Fin cfg2.W, w ≠ 0 → w ≠ 1 → dat.q w = fullShare)
    (V : (b : Ref sig .tc) → Buf (Elt F) ((c : Thread nD τ).loc b))
    (G : (w : Fin cfg2.W) → Buf (Elt F) ((cfg2.win w).arr.view.loc (c.tc : Thread nD τ)))
    (hG : ∀ w, G w = V (Pipeline.arrRef spec2 w)) :
    (Pipeline.arrBufs spec2 c V : sProp 𝕄) ⊣⊢ dat.arrays G := by
  have s0 : dat.share 0 = fullShare.left := by unfold Pipeline.Dat.share; rw [if_neg (by decide)]; exact hq0
  have s1 : dat.share 1 = fullShare.right := by unfold Pipeline.Dat.share; rw [if_neg (by decide)]; exact hq1
  have s2 : dat.share 2 = fullShare := by unfold Pipeline.Dat.share; rw [if_neg (by decide)]; exact hq 2 (by decide) (by decide)
  have s3 : dat.share 3 = fullShare := by unfold Pipeline.Dat.share; rw [if_neg (by decide)]; exact hq 3 (by decide) (by decide)
  have s4 : dat.share 4 = fullShare := by unfold Pipeline.Dat.share; rw [if_neg (by decide)]; exact hq 4 (by decide) (by decide)
  have s5 : dat.share 5 = fullShare := by unfold Pipeline.Dat.share; rw [if_neg (by decide)]; exact hq 5 (by decide) (by decide)
  have s6 : dat.share 6 = fullShare := by unfold Pipeline.Dat.share; rw [if_pos (by decide)]
  have hh : ((((c.tc : Thread nD τ).loc main_v36) ↦{fullShare} V main_v36 : sProp 𝕄)) ⊣⊢ iprop((((c.tc : Thread nD τ).loc main_v36) ↦{fullShare.left} V main_v36) ∗ (((c.tc : Thread nD τ).loc main_v36) ↦{fullShare.right} V main_v36)) :=
    pointsTo_share (PosShare.mem_left_op_right fullShare)
  unfold Pipeline.arrBufs Pipeline.Dat.arrays
  rw [bigSep_W2, img2, bigSep_insert (by decide), bigSep_insert (by decide), bigSep_insert (by decide), bigSep_insert (by decide), bigSep_insert (by decide), BI.bigSep_singleton]
  simp only [(arr_whole2 0).set_eq_univ, s0, (arr_whole2 1).set_eq_univ, s1, (arr_whole2 2).set_eq_univ, s2, (arr_whole2 3).set_eq_univ, s3, (arr_whole2 4).set_eq_univ, s4, (arr_whole2 5).set_eq_univ, s5, (arr_whole2 6).set_eq_univ, s6, hG]
  show iprop((((c.tc : Thread nD τ).loc main_v36) ↦{fullShare} V main_v36) ∗ (((c.tc : Thread nD τ).loc main_v48) ↦{fullShare} V main_v48) ∗ (((c.tc : Thread nD τ).loc main_v51) ↦{fullShare} V main_v51) ∗ (((c.tc : Thread nD τ).loc main_v50) ↦{fullShare} V main_v50) ∗ (((c.tc : Thread nD τ).loc main_v39) ↦{fullShare} V main_v39) ∗ (((c.tc : Thread nD τ).loc main_v52) ↦{fullShare} V main_v52)) ⊣⊢ iprop((((c.tc : Thread nD τ).loc main_v36) ↦{fullShare.left} V main_v36) ∗ (((c.tc : Thread nD τ).loc main_v36) ↦{fullShare.right} V main_v36) ∗ (((c.tc : Thread nD τ).loc main_v48) ↦{fullShare} V main_v48) ∗ (((c.tc : Thread nD τ).loc main_v51) ↦{fullShare} V main_v51) ∗ (((c.tc : Thread nD τ).loc main_v50) ↦{fullShare} V main_v50) ∗ (((c.tc : Thread nD τ).loc main_v39) ↦{fullShare} V main_v39) ∗ (((c.tc : Thread nD τ).loc main_v52) ↦{fullShare} V main_v52))
  constructor
  · iintro ⟨H36, H0, H1, H2, H3, H4⟩
    ihave H := hh.1 $$ H36
    icases H with ⟨Hl, Hr⟩
    isplitl [Hl]; · iexact Hl
    isplitl [Hr]; · iexact Hr
    isplitl [H0]; · iexact H0
    isplitl [H1]; · iexact H1
    isplitl [H2]; · iexact H2
    isplitl [H3]; · iexact H3
    iexact H4
  · iintro ⟨Hl, Hr, G0, G1, G2, G3, G4⟩
    isplitl [Hl Hr]
    · iapply hh.2; isplitl [Hl]; · iexact Hl
      iexact Hr
    isplitl [G0]; · iexact G0
    isplitl [G1]; · iexact G1
    isplitl [G2]; · iexact G2
    isplitl [G3]; · iexact G3
    iexact G4

end Cert.KernelIdeal.Hand

end
-- ==== Proof.FrameKernelIdeal.Segs.lean ====
import proofs.«143417_j3152505995417_1_alg».proof.Proof.FrameKernelIdeal.Chain
import proofs.«143417_j3152505995417_1_alg».proof.Proof.FrameKernelIdeal.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! # The regions as segments, the run and the frame -/

section Run

variable (m : (ℓ : Loc nD τ sig) → Buf (Elt F) ℓ)

/-- Every pipeline's proof data, each at the valuation its region is entered from. -/
def pdats : (p : Fin 4) → (c : Dev nD) → Dat τ (Elt F) Unit ℕ (UR sig nD τ) ℕ (Pipeline.pin (pcfgs (F := F)) adm p) c
  | ⟨0, _⟩ => fun c => dat0 (X0 m) c
  | ⟨1, _⟩ => fun c => dat1 (X1 m) c
  | ⟨2, _⟩ => fun c => dat2 (X2 m) c
  | ⟨3, _⟩ => fun c => dat3 (X3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-! ### Region 0's arrays at its exit -/
theorem ar0_0 : Pipeline.arrRef spec0 0 = main_v35 := rfl
theorem ar0_1 : Pipeline.arrRef spec0 1 = main_arg1 := rfl
theorem ar0_2 : Pipeline.arrRef spec0 2 = main_v43 := rfl
theorem ar0_3 : Pipeline.arrRef spec0 3 = main_arg7 := rfl
theorem ar0_4 : Pipeline.arrRef spec0 4 = main_arg5 := rfl
theorem ar0_5 : Pipeline.arrRef spec0 5 = main_v37 := rfl
theorem ar0_6 : Pipeline.arrRef spec0 6 = main_v44 := rfl
theorem ne0_0 : Pipeline.arrRef spec0 0 ≠ main_v44 := by rw [ar0_0]; decide
theorem ne0_1 : Pipeline.arrRef spec0 1 ≠ main_v44 := by rw [ar0_1]; decide
theorem ne0_2 : Pipeline.arrRef spec0 2 ≠ main_v44 := by rw [ar0_2]; decide
theorem ne0_3 : Pipeline.arrRef spec0 3 ≠ main_v44 := by rw [ar0_3]; decide
theorem ne0_4 : Pipeline.arrRef spec0 4 ≠ main_v44 := by rw [ar0_4]; decide
theorem ne0_5 : Pipeline.arrRef spec0 5 ≠ main_v44 := by rw [ar0_5]; decide
theorem hF0_0 (c : Dev nD) : (dat0 (X0 m) c).arrAt 0 cfg0.N = V4 m (outs m) c (Pipeline.arrRef spec0 0) := by
  rw [V4_eq, U4_def]
  exact ((dat0 (X0 m) c).arrAt_in 0 rfl _).trans ((A_eq0 (X0 m) c 0).trans (upd_ne (W3 m c) ne0_0 _).symm)
theorem hF0_1 (c : Dev nD) : (dat0 (X0 m) c).arrAt 1 cfg0.N = V4 m (outs m) c (Pipeline.arrRef spec0 1) := by
  rw [V4_eq, U4_def]
  exact ((dat0 (X0 m) c).arrAt_in 1 rfl _).trans ((A_eq0 (X0 m) c 1).trans (upd_ne (W3 m c) ne0_1 _).symm)
theorem hF0_2 (c : Dev nD) : (dat0 (X0 m) c).arrAt 2 cfg0.N = V4 m (outs m) c (Pipeline.arrRef spec0 2) := by
  rw [V4_eq, U4_def]
  exact ((dat0 (X0 m) c).arrAt_in 2 rfl _).trans ((A_eq0 (X0 m) c 2).trans (upd_ne (W3 m c) ne0_2 _).symm)
theorem hF0_3 (c : Dev nD) : (dat0 (X0 m) c).arrAt 3 cfg0.N = V4 m (outs m) c (Pipeline.arrRef spec0 3) := by
  rw [V4_eq, U4_def]
  exact ((dat0 (X0 m) c).arrAt_in 3 rfl _).trans ((A_eq0 (X0 m) c 3).trans (upd_ne (W3 m c) ne0_3 _).symm)
theorem hF0_4 (c : Dev nD) : (dat0 (X0 m) c).arrAt 4 cfg0.N = V4 m (outs m) c (Pipeline.arrRef spec0 4) := by
  rw [V4_eq, U4_def]
  exact ((dat0 (X0 m) c).arrAt_in 4 rfl _).trans ((A_eq0 (X0 m) c 4).trans (upd_ne (W3 m c) ne0_4 _).symm)
theorem hF0_5 (c : Dev nD) : (dat0 (X0 m) c).arrAt 5 cfg0.N = V4 m (outs m) c (Pipeline.arrRef spec0 5) := by
  rw [V4_eq, U4_def]
  exact ((dat0 (X0 m) c).arrAt_in 5 rfl _).trans ((A_eq0 (X0 m) c 5).trans (upd_ne (W3 m c) ne0_5 _).symm)
theorem hF0_6 (c : Dev nD) : (dat0 (X0 m) c).arrAt 6 cfg0.N = V4 m (outs m) c (Pipeline.arrRef spec0 6) := by
  rw [V4_eq, U4_def]
  exact (upd_eq (W3 m c) main_v44 _).symm
/-- At region 0's exit each of its arrays holds what the pipeline leaves: the inputs as entered, the output its write-back. -/
theorem hF0 (c : Dev nD) : ∀ w : Fin cfg0.W, (dat0 (X0 m) c).arrAt w cfg0.N = V4 m (outs m) c (Pipeline.arrRef spec0 w)
  | ⟨0, _⟩ => hF0_0 m c
  | ⟨1, _⟩ => hF0_1 m c
  | ⟨2, _⟩ => hF0_2 m c
  | ⟨3, _⟩ => hF0_3 m c
  | ⟨4, _⟩ => hF0_4 m c
  | ⟨5, _⟩ => hF0_5 m c
  | ⟨6, _⟩ => hF0_6 m c
/-- Every other buffer is as the region found it. -/
theorem hrest0 (c : Dev nD) : ∀ b, b ∉ Finset.univ.image (Pipeline.arrRef spec0) → V4 m (outs m) c b = X0 m c b := fun b hb => by
  rw [V4_eq, U4_def]
  exact upd_ne (W3 m c) (fun e => hb (Finset.mem_image.mpr ⟨6, Finset.mem_univ _, e.symm⟩)) _

/-! ### Region 1's arrays at its exit -/
theorem ar1_0 : Pipeline.arrRef spec1 0 = main_v36 := rfl
theorem ar1_1 : Pipeline.arrRef spec1 1 = main_v36 := rfl
theorem ar1_2 : Pipeline.arrRef spec1 2 = main_v48 := rfl
theorem ar1_3 : Pipeline.arrRef spec1 3 = main_v51 := rfl
theorem ne1_0 : Pipeline.arrRef spec1 0 ≠ main_v51 := by rw [ar1_0]; decide
theorem ne1_1 : Pipeline.arrRef spec1 1 ≠ main_v51 := by rw [ar1_1]; decide
theorem ne1_2 : Pipeline.arrRef spec1 2 ≠ main_v51 := by rw [ar1_2]; decide
theorem hF1_0 (c : Dev nD) : (dat1 (X1 m) c).arrAt 0 cfg1.N = V10 m (outs m) c (Pipeline.arrRef spec1 0) := by
  rw [V10_eq, U10_def]
  exact ((dat1 (X1 m) c).arrAt_in 0 rfl _).trans ((A_eq1 (X1 m) c 0).trans (upd_ne (U9 m c) ne1_0 _).symm)
theorem hF1_1 (c : Dev nD) : (dat1 (X1 m) c).arrAt 1 cfg1.N = V10 m (outs m) c (Pipeline.arrRef spec1 1) := by
  rw [V10_eq, U10_def]
  exact ((dat1 (X1 m) c).arrAt_in 1 rfl _).trans ((A_eq1 (X1 m) c 1).trans (upd_ne (U9 m c) ne1_1 _).symm)
theorem hF1_2 (c : Dev nD) : (dat1 (X1 m) c).arrAt 2 cfg1.N = V10 m (outs m) c (Pipeline.arrRef spec1 2) := by
  rw [V10_eq, U10_def]
  exact ((dat1 (X1 m) c).arrAt_in 2 rfl _).trans ((A_eq1 (X1 m) c 2).trans (upd_ne (U9 m c) ne1_2 _).symm)
theorem hF1_3 (c : Dev nD) : (dat1 (X1 m) c).arrAt 3 cfg1.N = V10 m (outs m) c (Pipeline.arrRef spec1 3) := by
  rw [V10_eq, U10_def]
  exact (upd_eq (U9 m c) main_v51 _).symm
/-- At region 1's exit each of its arrays holds what the pipeline leaves: the inputs as entered, the output its write-back. -/
theorem hF1 (c : Dev nD) : ∀ w : Fin cfg1.W, (dat1 (X1 m) c).arrAt w cfg1.N = V10 m (outs m) c (Pipeline.arrRef spec1 w)
  | ⟨0, _⟩ => hF1_0 m c
  | ⟨1, _⟩ => hF1_1 m c
  | ⟨2, _⟩ => hF1_2 m c
  | ⟨3, _⟩ => hF1_3 m c
/-- Every other buffer is as the region found it. -/
theorem hrest1 (c : Dev nD) : ∀ b, b ∉ Finset.univ.image (Pipeline.arrRef spec1) → V10 m (outs m) c b = X1 m c b := fun b hb => by
  rw [V10_eq, U10_def]
  exact upd_ne (U9 m c) (fun e => hb (Finset.mem_image.mpr ⟨3, Finset.mem_univ _, e.symm⟩)) _

/-! ### Region 2's arrays at its exit -/
theorem ar2_0 : Pipeline.arrRef spec2 0 = main_v36 := rfl
theorem ar2_1 : Pipeline.arrRef spec2 1 = main_v36 := rfl
theorem ar2_2 : Pipeline.arrRef spec2 2 = main_v48 := rfl
theorem ar2_3 : Pipeline.arrRef spec2 3 = main_v51 := rfl
theorem ar2_4 : Pipeline.arrRef spec2 4 = main_v50 := rfl
theorem ar2_5 : Pipeline.arrRef spec2 5 = main_v39 := rfl
theorem ar2_6 : Pipeline.arrRef spec2 6 = main_v52 := rfl
theorem ne2_0 : Pipeline.arrRef spec2 0 ≠ main_v52 := by rw [ar2_0]; decide
theorem ne2_1 : Pipeline.arrRef spec2 1 ≠ main_v52 := by rw [ar2_1]; decide
theorem ne2_2 : Pipeline.arrRef spec2 2 ≠ main_v52 := by rw [ar2_2]; decide
theorem ne2_3 : Pipeline.arrRef spec2 3 ≠ main_v52 := by rw [ar2_3]; decide
theorem ne2_4 : Pipeline.arrRef spec2 4 ≠ main_v52 := by rw [ar2_4]; decide
theorem ne2_5 : Pipeline.arrRef spec2 5 ≠ main_v52 := by rw [ar2_5]; decide
theorem hF2_0 (c : Dev nD) : (dat2 (X2 m) c).arrAt 0 cfg2.N = V11 m (outs m) c (Pipeline.arrRef spec2 0) := by
  rw [V11_eq, U11_def]
  exact ((dat2 (X2 m) c).arrAt_in 0 rfl _).trans ((A_eq2 (X2 m) c 0).trans (upd_ne (U10 m c) ne2_0 _).symm)
theorem hF2_1 (c : Dev nD) : (dat2 (X2 m) c).arrAt 1 cfg2.N = V11 m (outs m) c (Pipeline.arrRef spec2 1) := by
  rw [V11_eq, U11_def]
  exact ((dat2 (X2 m) c).arrAt_in 1 rfl _).trans ((A_eq2 (X2 m) c 1).trans (upd_ne (U10 m c) ne2_1 _).symm)
theorem hF2_2 (c : Dev nD) : (dat2 (X2 m) c).arrAt 2 cfg2.N = V11 m (outs m) c (Pipeline.arrRef spec2 2) := by
  rw [V11_eq, U11_def]
  exact ((dat2 (X2 m) c).arrAt_in 2 rfl _).trans ((A_eq2 (X2 m) c 2).trans (upd_ne (U10 m c) ne2_2 _).symm)
theorem hF2_3 (c : Dev nD) : (dat2 (X2 m) c).arrAt 3 cfg2.N = V11 m (outs m) c (Pipeline.arrRef spec2 3) := by
  rw [V11_eq, U11_def]
  exact ((dat2 (X2 m) c).arrAt_in 3 rfl _).trans ((A_eq2 (X2 m) c 3).trans (upd_ne (U10 m c) ne2_3 _).symm)
theorem hF2_4 (c : Dev nD) : (dat2 (X2 m) c).arrAt 4 cfg2.N = V11 m (outs m) c (Pipeline.arrRef spec2 4) := by
  rw [V11_eq, U11_def]
  exact ((dat2 (X2 m) c).arrAt_in 4 rfl _).trans ((A_eq2 (X2 m) c 4).trans (upd_ne (U10 m c) ne2_4 _).symm)
theorem hF2_5 (c : Dev nD) : (dat2 (X2 m) c).arrAt 5 cfg2.N = V11 m (outs m) c (Pipeline.arrRef spec2 5) := by
  rw [V11_eq, U11_def]
  exact ((dat2 (X2 m) c).arrAt_in 5 rfl _).trans ((A_eq2 (X2 m) c 5).trans (upd_ne (U10 m c) ne2_5 _).symm)
theorem hF2_6 (c : Dev nD) : (dat2 (X2 m) c).arrAt 6 cfg2.N = V11 m (outs m) c (Pipeline.arrRef spec2 6) := by
  rw [V11_eq, U11_def]
  exact (upd_eq (U10 m c) main_v52 _).symm
/-- At region 2's exit each of its arrays holds what the pipeline leaves: the inputs as entered, the output its write-back. -/
theorem hF2 (c : Dev nD) : ∀ w : Fin cfg2.W, (dat2 (X2 m) c).arrAt w cfg2.N = V11 m (outs m) c (Pipeline.arrRef spec2 w)
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c
  | ⟨6, _⟩ => hF2_6 m c
/-- Every other buffer is as the region found it. -/
theorem hrest2 (c : Dev nD) : ∀ b, b ∉ Finset.univ.image (Pipeline.arrRef spec2) → V11 m (outs m) c b = X2 m c b := fun b hb => by
  rw [V11_eq, U11_def]
  exact upd_ne (U10 m c) (fun e => hb (Finset.mem_image.mpr ⟨6, Finset.mem_univ _, e.symm⟩)) _

/-! ### Region 3's arrays at its exit -/
theorem ar3_0 : Pipeline.arrRef spec3 0 = main_v35 := rfl
theorem ar3_1 : Pipeline.arrRef spec3 1 = main_v54 := rfl
theorem ar3_2 : Pipeline.arrRef spec3 2 = main_v55 := rfl
theorem ar3_3 : Pipeline.arrRef spec3 3 = main_arg13 := rfl
theorem ar3_4 : Pipeline.arrRef spec3 4 = main_arg11 := rfl
theorem ar3_5 : Pipeline.arrRef spec3 5 = main_v38 := rfl
theorem ar3_6 : Pipeline.arrRef spec3 6 = main_v56 := rfl
theorem ne3_0 : Pipeline.arrRef spec3 0 ≠ main_v56 := by rw [ar3_0]; decide
theorem ne3_1 : Pipeline.arrRef spec3 1 ≠ main_v56 := by rw [ar3_1]; decide
theorem ne3_2 : Pipeline.arrRef spec3 2 ≠ main_v56 := by rw [ar3_2]; decide
theorem ne3_3 : Pipeline.arrRef spec3 3 ≠ main_v56 := by rw [ar3_3]; decide
theorem ne3_4 : Pipeline.arrRef spec3 4 ≠ main_v56 := by rw [ar3_4]; decide
theorem ne3_5 : Pipeline.arrRef spec3 5 ≠ main_v56 := by rw [ar3_5]; decide
theorem hF3_0 (c : Dev nD) : (dat3 (X3 m) c).arrAt 0 cfg3.N = V15 m (outs m) c (Pipeline.arrRef spec3 0) := by
  rw [V15_eq, U15_def]
  exact ((dat3 (X3 m) c).arrAt_in 0 rfl _).trans ((A_eq3 (X3 m) c 0).trans (upd_ne (U14 m c) ne3_0 _).symm)
theorem hF3_1 (c : Dev nD) : (dat3 (X3 m) c).arrAt 1 cfg3.N = V15 m (outs m) c (Pipeline.arrRef spec3 1) := by
  rw [V15_eq, U15_def]
  exact ((dat3 (X3 m) c).arrAt_in 1 rfl _).trans ((A_eq3 (X3 m) c 1).trans (upd_ne (U14 m c) ne3_1 _).symm)
theorem hF3_2 (c : Dev nD) : (dat3 (X3 m) c).arrAt 2 cfg3.N = V15 m (outs m) c (Pipeline.arrRef spec3 2) := by
  rw [V15_eq, U15_def]
  exact ((dat3 (X3 m) c).arrAt_in 2 rfl _).trans ((A_eq3 (X3 m) c 2).trans (upd_ne (U14 m c) ne3_2 _).symm)
theorem hF3_3 (c : Dev nD) : (dat3 (X3 m) c).arrAt 3 cfg3.N = V15 m (outs m) c (Pipeline.arrRef spec3 3) := by
  rw [V15_eq, U15_def]
  exact ((dat3 (X3 m) c).arrAt_in 3 rfl _).trans ((A_eq3 (X3 m) c 3).trans (upd_ne (U14 m c) ne3_3 _).symm)
theorem hF3_4 (c : Dev nD) : (dat3 (X3 m) c).arrAt 4 cfg3.N = V15 m (outs m) c (Pipeline.arrRef spec3 4) := by
  rw [V15_eq, U15_def]
  exact ((dat3 (X3 m) c).arrAt_in 4 rfl _).trans ((A_eq3 (X3 m) c 4).trans (upd_ne (U14 m c) ne3_4 _).symm)
theorem hF3_5 (c : Dev nD) : (dat3 (X3 m) c).arrAt 5 cfg3.N = V15 m (outs m) c (Pipeline.arrRef spec3 5) := by
  rw [V15_eq, U15_def]
  exact ((dat3 (X3 m) c).arrAt_in 5 rfl _).trans ((A_eq3 (X3 m) c 5).trans (upd_ne (U14 m c) ne3_5 _).symm)
theorem hF3_6 (c : Dev nD) : (dat3 (X3 m) c).arrAt 6 cfg3.N = V15 m (outs m) c (Pipeline.arrRef spec3 6) := by
  rw [V15_eq, U15_def]
  exact (upd_eq (U14 m c) main_v56 _).symm
/-- At region 3's exit each of its arrays holds what the pipeline leaves: the inputs as entered, the output its write-back. -/
theorem hF3 (c : Dev nD) : ∀ w : Fin cfg3.W, (dat3 (X3 m) c).arrAt w cfg3.N = V15 m (outs m) c (Pipeline.arrRef spec3 w)
  | ⟨0, _⟩ => hF3_0 m c
  | ⟨1, _⟩ => hF3_1 m c
  | ⟨2, _⟩ => hF3_2 m c
  | ⟨3, _⟩ => hF3_3 m c
  | ⟨4, _⟩ => hF3_4 m c
  | ⟨5, _⟩ => hF3_5 m c
  | ⟨6, _⟩ => hF3_6 m c
/-- Every other buffer is as the region found it. -/
theorem hrest3 (c : Dev nD) : ∀ b, b ∉ Finset.univ.image (Pipeline.arrRef spec3) → V15 m (outs m) c b = X3 m c b := fun b hb => by
  rw [V15_eq, U15_def]
  exact upd_ne (U14 m c) (fun e => hb (Finset.mem_image.mpr ⟨6, Finset.mem_univ _, e.symm⟩)) _

/-- Region 1's shares: the two windows on `main_v36` hold its halves, every other input window its whole array. -/
theorem hq1 (c : Dev nD) : ∀ w : Fin cfg1.W, w ≠ 0 → w ≠ 1 → (dat1 (X1 m) c).q w = fullShare
  | ⟨0, _⟩ => fun h _ => absurd rfl h
  | ⟨1, _⟩ => fun _ h => absurd rfl h
  | ⟨2, _⟩ => fun _ _ => q1_2 (X1 m) c
  | ⟨3, _⟩ => fun _ _ => q1_3 (X1 m) c

/-- Region 2's shares: the two windows on `main_v36` hold its halves, every other input window its whole array. -/
theorem hq2 (c : Dev nD) : ∀ w : Fin cfg2.W, w ≠ 0 → w ≠ 1 → (dat2 (X2 m) c).q w = fullShare
  | ⟨0, _⟩ => fun h _ => absurd rfl h
  | ⟨1, _⟩ => fun _ h => absurd rfl h
  | ⟨2, _⟩ => fun _ _ => q2_2 (X2 m) c
  | ⟨3, _⟩ => fun _ _ => q2_3 (X2 m) c
  | ⟨4, _⟩ => fun _ _ => q2_4 (X2 m) c
  | ⟨5, _⟩ => fun _ _ => q2_5 (X2 m) c
  | ⟨6, _⟩ => fun _ _ => q2_6 (X2 m) c

set_option backward.isDefEq.respectTransparency.types false in
/-- Region 0 over the thread state: entered holding every unscoped buffer at the valuation before it, left holding them
    at the valuation after it.  Its arrays are split out of the unscoped buffers and put back at the exit contents; the
    generator register goes into the region's invariant and comes back; nothing is owed; the kernel has no semaphore of
    its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (X0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (X0 m c)
  hentry c := by
    rw [Pipeline.ownSems0_none, W3_eq]
    have hsplit := Pipeline.arrays_of_unscopedBufs (p := 0) (pcfgs (F := F)) adm (pdats m) launch0.win launch0.arr_whole c
      ((pdats m 0 c).share_full fun _ => rfl) (X0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (X0 m c) (fun b => V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state.  Two of its input windows read one array, so each holds half of it: the array's
    buffer is split in two halves at the entry and joined again at the exit, where both halves hold what they held. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (X1 m) c).loose
  hwaits := Pipeline.hwaits_of_owed_zero _ _ _ _ L lv 1 fun c t => owed1 (X1 m) c t
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (X1 m c)
  hentry c := by
    rw [Pipeline.ownSems0_none, V9_eq]
    have hiff := arrays_iff1 c (pdats m 1 c) (q1_0 (X1 m) c) (q1_1 (X1 m) c) (hq1 m c) (X1 m c)
      ((pdats m 1 c).arrAt · 0) (fun w => A_eq1 (X1 m) c w)
    have hsplit : (StableHlo.held (c : Thread nD τ) (Pipeline.ucRefs τ sig) (U9 m c) : sProp 𝕄)
        ⊢ iprop((pdats m 1 c).arrays ((pdats m 1 c).arrAt · 0) ∗ Pipeline.unscopedRest spec1 c (X1 m c)) := by
      rw [← Pipeline.unscopedBufs_held (Ix := Unit) (Name := ℕ) (U := UR sig nD τ) (Lvl := ℕ) c (U9 m c),
        Pipeline.unscopedBufs_split₀ (Pipeline.pin (pcfgs (F := F)) adm) 1 winFacts₀1.arr_unscoped c (X1 m c)]
      exact sep_mono hiff.1 .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (X1 m) c)
    unfold Pipeline.ΦA
    iintro ⟨Hp, -, Hr⟩
    isplitl [Hr]; · iexact Hr
    iexact Hp
  hout c := by
    rw [Pipeline.ownSems0_none]
    refine (hout1 (X1 m) c).trans ?_
    unfold Pipeline.ΦA
    iintro ⟨Hr, Hp⟩
    isplitl [Hp]; · iexact Hp
    isplitr; · iempintro
    iexact Hr
  hexit c := by
    have hiff := arrays_iff1 c (pdats m 1 c) (q1_0 (X1 m) c) (q1_1 (X1 m) c) (hq1 m c) (fun b => V10 m (outs m) c b)
      ((pdats m 1 c).arrAt · cfg1.N) (hF1 m c)
    have hjoin : iprop((pdats m 1 c).arrays ((pdats m 1 c).arrAt · cfg1.N) ∗ Pipeline.unscopedRest spec1 c (X1 m c))
        ⊢ (StableHlo.held (c : Thread nD τ) (Pipeline.ucRefs τ sig) (V10 m (outs m) c) : sProp 𝕄) := by
      rw [← Pipeline.unscopedBufs_held (Ix := Unit) (Name := ℕ) (U := UR sig nD τ) (Lvl := ℕ) c (V10 m (outs m) c),
        Pipeline.unscopedBufs_split₀ (Pipeline.pin (pcfgs (F := F)) adm) 1 winFacts₀1.arr_unscoped c (fun b => V10 m (outs m) c b)]
      refine sep_mono hiff.2 (Entails.of_eq ?_)
      unfold Pipeline.unscopedRest
      exact bigSep_congr fun b hb => by beta_reduce; rw [hrest1 m c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state.  Two of its input windows read one array, so each holds half of it: the array's
    buffer is split in two halves at the entry and joined again at the exit, where both halves hold what they held. -/
def reg2 : RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (X2 m) c).loose
  hwaits := Pipeline.hwaits_of_owed_zero _ _ _ _ L lv 2 fun c t => owed2 (X2 m) c t
  pre c := iprop(StableHlo.held (c : Thread nD τ) (Pipeline.ucRefs τ sig) (V10 m (outs m) c) ∗ R c)
  post c := iprop(StableHlo.held (c : Thread nD τ) (Pipeline.ucRefs τ sig) (V11 m (outs m) c) ∗ R c)
  X c := iprop(∃ r, prngReg c r)
  Y c := iprop(∃ r, prngReg c r)
  Z c := Pipeline.unscopedRest (Ix := Unit) (Name := ℕ) (U := UR sig nD τ) (Lvl := ℕ) spec2 c (X2 m c)
  hentry c := by
    rw [Pipeline.ownSems0_none, V10_eq]
    have hiff := arrays_iff2 c (pdats m 2 c) (q2_0 (X2 m) c) (q2_1 (X2 m) c) (hq2 m c) (X2 m c)
      ((pdats m 2 c).arrAt · 0) (fun w => A_eq2 (X2 m) c w)
    have hsplit : (StableHlo.held (c : Thread nD τ) (Pipeline.ucRefs τ sig) (U10 m c) : sProp 𝕄)
        ⊢ iprop((pdats m 2 c).arrays ((pdats m 2 c).arrAt · 0) ∗ Pipeline.unscopedRest spec2 c (X2 m c)) := by
      rw [← Pipeline.unscopedBufs_held (Ix := Unit) (Name := ℕ) (U := UR sig nD τ) (Lvl := ℕ) c (U10 m c),
        Pipeline.unscopedBufs_split₀ (Pipeline.pin (pcfgs (F := F)) adm) 2 winFacts₀2.arr_unscoped c (X2 m c)]
      exact sep_mono hiff.1 .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec2 c : sProp 𝕄) from ?_).trans (hin2 (X2 m) c)
    unfold Pipeline.ΦA
    iintro ⟨Hp, -, Hr⟩
    isplitl [Hr]; · iexact Hr
    iexact Hp
  hout c := by
    rw [Pipeline.ownSems0_none]
    refine (hout2 (X2 m) c).trans ?_
    unfold Pipeline.ΦA
    iintro ⟨Hr, Hp⟩
    isplitl [Hp]; · iexact Hp
    isplitr; · iempintro
    iexact Hr
  hexit c := by
    have hiff := arrays_iff2 c (pdats m 2 c) (q2_0 (X2 m) c) (q2_1 (X2 m) c) (hq2 m c) (fun b => V11 m (outs m) c b)
      ((pdats m 2 c).arrAt · cfg2.N) (hF2 m c)
    have hjoin : iprop((pdats m 2 c).arrays ((pdats m 2 c).arrAt · cfg2.N) ∗ Pipeline.unscopedRest spec2 c (X2 m c))
        ⊢ (StableHlo.held (c : Thread nD τ) (Pipeline.ucRefs τ sig) (V11 m (outs m) c) : sProp 𝕄) := by
      rw [← Pipeline.unscopedBufs_held (Ix := Unit) (Name := ℕ) (U := UR sig nD τ) (Lvl := ℕ) c (V11 m (outs m) c),
        Pipeline.unscopedBufs_split₀ (Pipeline.pin (pcfgs (F := F)) adm) 2 winFacts₀2.arr_unscoped c (fun b => V11 m (outs m) c b)]
      refine sep_mono hiff.2 (Entails.of_eq ?_)
      unfold Pipeline.unscopedRest
      exact bigSep_congr fun b hb => by beta_reduce; rw [hrest2 m c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered holding every unscoped buffer at the valuation before it, left holding them
    at the valuation after it.  Its arrays are split out of the unscoped buffers and put back at the exit contents; the
    generator register goes into the region's invariant and comes back; nothing is owed; the kernel has no semaphore of
    its own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (X3 m) c).loose
  hwaits := Pipeline.hwaits_of_owed_zero _ _ _ _ L lv 3 fun _ _ => rfl
  pre c := iprop(StableHlo.held (c : Thread nD τ) (Pipeline.ucRefs τ sig) (V14 m (outs m) c) ∗ R c)
  post c := iprop(StableHlo.held (c : Thread nD τ) (Pipeline.ucRefs τ sig) (V15 m (outs m) c) ∗ R c)
  X c := iprop(∃ r, prngReg c r)
  Y c := iprop(∃ r, prngReg c r)
  Z c := Pipeline.unscopedRest (Ix := Unit) (Name := ℕ) (U := UR sig nD τ) (Lvl := ℕ) spec3 c (X3 m c)
  hentry c := by
    rw [Pipeline.ownSems0_none, V14_eq]
    have hsplit := Pipeline.arrays_of_unscopedBufs (p := 3) (pcfgs (F := F)) adm (pdats m) launch3.win launch3.arr_whole c
      ((pdats m 3 c).share_full fun _ => rfl) (X3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (X3 m c) (fun b => V15 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

variable (ρ : Dev nD → PrngReg)

set_option backward.isDefEq.respectTransparency.types false in
/-- The run: every weakly fair execution of @main terminates, the arguments end as launched, and the result array ends at
    the last valuation. -/
theorem run_main : θ_run defs (onTc (τ := τ) (main (F := F))) ⟨m, fun _ => 0, ρ⟩ (fun r => ∀ c : Dev nD,
      r.2.mem ((c.tc : Thread nD τ).loc main_v63) = V16 m (outs m) c main_v63
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)

/-- The frame: @main terminates and the sixteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2) (run_main m ρ)

end Run

end Cert.KernelIdeal.Hand

end
-- ==== Proof.KernelT.lean ====
import proofs.«143417_j3152505995417_1_alg».proof.Proof.Gen.KernelIdeal.Regions
import proofs.«143417_j3152505995417_1_alg».proof.Proof.Gen.ReferenceIdeal.Read
import Idealize.ShloMosaic.Lib.StableHlo.Run

set_option maxRecDepth 16384

noncomputable section

namespace Cert.KernelIdeal.HandValue

open Cert.KernelIdeal Cert.KernelIdeal.Gen
open Idealize.ShloMosaic Idealize.ShloMosaic.TcCoe
open Idealize.SL Idealize.SL.Sem

variable (m : (ℓ : Loc nD τ sig) → Buf (Elt Ideal) ℓ)

set_option maxHeartbeats 4000000 in
/-- The incidence matrix the kernel program's host operations build from the edge list is the reference's. -/
theorem T_eq (c : Dev nD) :
    (V3 m c main_v35 : S116x6670.Idx → EReal) = Cert.ReferenceIdeal.Read.val_main_v51 (F := Ideal) (m ((c.tc : Thread nD τ).loc main_arg2)) := by
  rw [V3_of m c main_v35 (by decide), V2_of m c main_v35 (by decide)]
  show StableHlo.after hostOps0 (fun b => m (c, b)) (Proc.devRef .tc main_v35) = _
  after_results_simp
  rfl

end Cert.KernelIdeal.HandValue

end
-- ==== Proof.FrameKernelIdeal.NodeConvK.lean ====
/-
  One entry of a node convolution, as the body of the two convolution regions computes it, on the extended reals:
  the edge scale d e = ∑ k, p k · He e k, the node adjacency (∑ e, (T n e · d e) · T n' e) with its diagonal cleared,
  applied to the transformed node features ∑ k, Hv n' k · W k h, plus the bias. The sums and the factors of every
  product stand in the order the body forms them.
-/
import Idealize.ShloMosaic.PureOps.Ideal.Laws
import Idealize.ShloMosaic.Lib.ValueIdx

noncomputable section

namespace Cert.KernelIdeal.Hand

open scoped BigOperators

/-- Entry (n, h) of the node convolution of node features `Hv` along the incidence matrix `T` with edge features
    `He`, edge projection `p`, weights `W` and bias `b`. -/
def nodeConvK (T : Fin 116 → Fin 6670 → EReal) (He : Fin 6670 → Fin 5 → EReal) (Hv : Fin 116 → Fin 64 → EReal)
    (p : Fin 5 → EReal) (W : Fin 64 → Fin 64 → EReal) (b : Fin 64 → EReal) : Fin 116 → Fin 64 → EReal :=
  fun n h => (∑ n' : Fin 116, ((∑ e : Fin 6670, (T n e * (∑ k : Fin 5, p k * He e k)) * T n' e) * (if n = n' then 0 else 1))
    * (∑ k : Fin 64, Hv n' k * W k h)) + b h

end Cert.KernelIdeal.Hand

end
-- ==== Proof.LibRowsDot.lean ====
/-
  A product of a matrix with the transpose of another, A · Bᵀ ("bi,hi->bh": both operands contracted on their last
  axis), as a kernel's `tpu.matmul` into the zero accumulator, read at the extended reals at an index given by
  coordinates: entry (p, q) is the sum over k of A(p, k) · B(q, k). Stated for arbitrary extents and operand formats,
  over the library's dimension numbers `DotDims.transposedRhs M K N`.
-/
import Idealize.ShloMosaic.Lib.ValueIdx
import Idealize.ShloMosaic.PureOps.Ideal.Laws

namespace Cert.Lib.RowsDot

open Idealize.ShloMosaic Idealize.ShloMosaic.ValueIdx

variable {M K N : ℕ} {φ₁ φ₂ : FTy}

/-- The left operand's row is the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The right operand's row is the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- Entry (p, q) of A · Bᵀ accumulated into zero is the sum over k of A(p, k) · B(q, k). -/
theorem matmul_zero_apply (A : FVec Ideal ⟨2, ![M, K]⟩ φ₁) (B : FVec Ideal ⟨2, ![N, K]⟩ φ₂) (p : Fin M) (q : Fin N) :
    matmul (DotDims.transposedRhs M K N) none A B (constant ⟨2, ![M, N]⟩ .f32 0x00000000#32) (ix2 p q)
      = ∑ k : Fin K, A (ix2 p k) * B (ix2 q k) := by
  simp only [matmul]
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q)
      ((contrEquiv1 (DotDims.transposedRhs M K N) K rfl rfl).symm k) = ix2 p k := funext fun a => Fin.ext (by
    match a with
    | ⟨0, _⟩ => exact lhs_row _ _
    | ⟨1, _⟩ => exact ((DotDims.transposedRhs M K N).lhsIdx_val_of_single rfl _ _).trans hk)
  have er : (DotDims.transposedRhs M K N).rhsIdx (ix2 p q)
      ((contrEquiv1 (DotDims.transposedRhs M K N) K rfl rfl).symm k) = ix2 q k := funext fun a => Fin.ext (by
    match a with
    | ⟨0, _⟩ => exact rhs_row _ _
    | ⟨1, _⟩ => exact ((DotDims.transposedRhs M K N).rhsIdx_val_of_single rfl _ _).trans hk)
  rw [el, er]

end Cert.Lib.RowsDot
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.FrameKernelIdeal.NodeConvPieces.lean ====
/-
  The non-pointwise operations of the node convolution's body, each read at an entry given by coordinates, at the
  ideal values: its four matrix products into the zero accumulator as plain sums (two contract both operands on their
  last axis, two are ordinary products), and the word mask "row ≠ column" converted to a float, which is 0 on the
  diagonal and 1 off it.
-/
import proofs.«143417_j3152505995417_1_alg».proof.Proof.Gen.KernelIdeal.Skeleton
import proofs.«143417_j3152505995417_1_alg».proof.Proof.LibRowsDot
import proofs.«143417_j3152505995417_1_alg».proof.Proof.LibPlainDot
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.ValueIdx
open scoped BigOperators

/-- The zero offsets of a whole-buffer access of a matrix, as the constant function. -/
theorem zeroOffsets : (![0, 0] : Fin 2 → Nat) = fun _ => 0 := funext fun a => by fin_cases a <;> rfl

/-! ## The four products -/

/-- The edge scale: the projection row against every edge's feature row. -/
theorem scale_apply (p : FVec Ideal S1x5 .bf16) (He : FVec Ideal S6670x5 .bf16) (e : Fin 6670) :
    matmul dot_S1x5_S6670x5_S1x6670_1_1_0_0_n_n none p He (constant (F := Ideal) S1x6670 .f32 0x00000000#32) (ix2 (0 : Fin 1) e)
      = ∑ k : Fin 5, p (ix2 0 k) * He (ix2 e k) :=
  Cert.Lib.RowsDot.matmul_zero_apply (M := 1) (K := 5) (N := 6670) p He 0 e

/-- The node adjacency: rows of the two operands against one another, over the edges. -/
theorem gram_apply (A B : FVec Ideal S116x6670 .bf16) (n n' : Fin 116) :
    matmul dot_S116x6670_S116x6670_S116x116_1_1_0_0_n_n none A B (constant (F := Ideal) S116x116 .f32 0x00000000#32) (ix2 n n')
      = ∑ e : Fin 6670, A (ix2 n e) * B (ix2 n' e) :=
  Cert.Lib.RowsDot.matmul_zero_apply (M := 116) (K := 6670) (N := 116) A B n n'

/-- The node features through the weights. -/
theorem feat_apply (A : FVec Ideal S116x64 .bf16) (B : FVec Ideal S64x64 .bf16) (n : Fin 116) (h : Fin 64) :
    matmul dot_S116x64_S64x64_S116x64_1_0_0_1_n_n none A B (constant (F := Ideal) S116x64 .f32 0x00000000#32) (ix2 n h)
      = ∑ k : Fin 64, A (ix2 n k) * B (ix2 k h) :=
  Cert.PlainDot.matmul_zero_plain_apply (M := 116) (K := 64) (N := 64) none A B n h

/-- The adjacency applied to the transformed features. -/
theorem mix_apply (A : FVec Ideal S116x116 .bf16) (B : FVec Ideal S116x64 .bf16) (n : Fin 116) (h : Fin 64) :
    matmul dot_S116x116_S116x64_S116x64_1_0_0_1_n_n none A B (constant (F := Ideal) S116x64 .f32 0x00000000#32) (ix2 n h)
      = ∑ n' : Fin 116, A (ix2 n n') * B (ix2 n' h) :=
  Cert.PlainDot.matmul_zero_plain_apply (M := 116) (K := 116) (N := 64) none A B n h

/-! ## The mask -/

/-- Two node numbers as 32-bit words differ exactly when the numbers do (both are below 2³²). -/
theorem neWord (n n' : Fin 116) :
    IntOp.cmpi .ne (BitVec.ofNat 32 n.val) (BitVec.ofNat 32 n'.val) = if n = n' then 0#1 else 1#1 := by
  by_cases hn : n = n'
  · subst hn; simp [IntOp.cmpi]
  · rw [if_neg hn]
    have hne : BitVec.ofNat 32 n.val ≠ BitVec.ofNat 32 n'.val := by
      intro e
      have e' := congrArg BitVec.toNat e
      simp only [BitVec.toNat_ofNat] at e'
      apply hn; apply Fin.ext
      have := n.isLt; have := n'.isLt
      omega
    have hb : (BitVec.ofNat 32 n.val != BitVec.ofNat 32 n'.val) = true := bne_iff_ne.mpr hne
    show BitVec.ofBool (BitVec.ofNat 32 n.val != BitVec.ofNat 32 n'.val) = 1#1
    rw [hb]; rfl

/-- "Row number ≠ column number", widened to a word and converted to a float: 0 on the diagonal, 1 off it. -/
theorem offDiagWord_apply (n n' : Fin 116) :
    (sitofp .f32 (extui 32 (cmpi .ne (iota .tc S116x116 32 [0] iota_S116x116_d0_w32) (iota .tc S116x116 32 [1] iota_S116x116_d1_w32)) natLt_1_32) : FVec Ideal S116x116 .f32) (ix2 n n')
      = if n = n' then 0 else 1 := by
  show ((((IntOp.cmpi .ne (iota .tc S116x116 32 [0] iota_S116x116_d0_w32 (ix2 n n')) (iota .tc S116x116 32 [1] iota_S116x116_d1_w32 (ix2 n n'))).setWidth 32).toInt : ℝ) : EReal) = _
  rw [iota_single_apply, iota_single_apply]
  show ((((IntOp.cmpi .ne (BitVec.ofNat 32 n.val) (BitVec.ofNat 32 n'.val)).setWidth 32).toInt : ℝ) : EReal) = _
  rw [neWord]
  by_cases hn : n = n'
  · rw [if_pos hn, if_pos hn]; simp
  · rw [if_neg hn, if_neg hn]; simp

end Cert.KernelIdeal.Hand

end
-- ==== Proof.FrameKernelIdeal.Region0Value.lean ====
/-
  The value of region 0's output array at the ideal values: the body's stored value read at an entry is the node
  convolution of the six loaded vectors, and, the grid having one point whose blocks are the whole arrays, the output
  array after the region is the node convolution of the six input arrays as the region finds them.
-/
import proofs.«143417_j3152505995417_1_alg».proof.Proof.FrameKernelIdeal.Region0Dat
import proofs.«143417_j3152505995417_1_alg».proof.Proof.FrameKernelIdeal.NodeConvK
import proofs.«143417_j3152505995417_1_alg».proof.Proof.FrameKernelIdeal.NodeConvPieces

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open scoped BigOperators

/-! ## The stored value at an entry -/

/-- Entry (n, h) of what the body stores, from the six vectors it loaded: rounding to bf16 is the identity at the
    ideal values, the casts to the same shape change nothing, the two row broadcasts read row 0. -/
theorem pay0_apply (x0 : Vec Ideal S116x6670 .f32) (x1 : Vec Ideal S6670x5 .f32) (x2 : Vec Ideal S116x64 .f32)
    (x3 : Vec Ideal S1x5 .f32) (x4 : Vec Ideal S64x64 .f32) (x5 : Vec Ideal S1x64 .f32) (n : Fin 116) (h : Fin 64) :
    Gen.k0_pay1 (F := Ideal) x0 x1 x2 x3 x4 x5 (ix2 n h)
      = nodeConvK (fun a e => x0 (ix2 a e)) (fun e k => x1 (ix2 e k)) (fun a k => x2 (ix2 a k)) (fun k => x3 (ix2 0 k))
          (fun k j => x4 (ix2 k j)) (fun j => x5 (ix2 0 j)) n h := by
  unfold Gen.k0_pay1 nodeConvK
  dsimp only
  simp only [shapeCast_self]
  refine (addf_apply _ _ _).trans ?_
  refine congrArg₂ (· + ·) ?_ (broadcastTo_1b_ab_apply _ _ n h)
  refine (mix_apply _ _ n h).trans ?_
  refine Finset.sum_congr rfl fun n' _ => ?_
  refine congrArg₂ (· * ·) ?_ ?_
  · refine (truncf_apply (ψ := .bf16) (φ := .f32) _ _ _).trans ((mulf_apply _ _ _).trans ?_)
    refine congrArg₂ (· * ·) ?_ (offDiagWord_apply n n')
    refine (gram_apply _ _ n n').trans ?_
    refine Finset.sum_congr rfl fun e _ => ?_
    refine congrArg₂ (· * ·) ?_ rfl
    refine (truncf_apply (ψ := .bf16) (φ := .f32) _ _ _).trans ((mulf_apply _ _ _).trans ?_)
    refine congrArg₂ (· * ·) rfl ?_
    refine (broadcastTo_1b_ab_apply _ _ n e).trans ?_
    exact scale_apply _ _ e
  · refine (truncf_apply (ψ := .bf16) (φ := .f32) _ _ _).trans ?_
    exact feat_apply _ _ n' h

/-! ## From the one block to the array -/

section Array
variable (V : (c : Dev nD) → (b : Ref sig .tc) → Buf (Elt Ideal) ((c : Thread nD τ).loc b))

/-- At the grid's one point every window's block starts at the origin of its array. -/
theorem origin0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! Each input window's block is its whole array: an entry of the block is the same entry of the array. -/

theorem iblk0_0_apply (c : Dev nD) (t : Fin cfg0.N) (a : Fin 116) (e : Fin 6670) :
    iblk0 V c 0 t (ix2 a e) = V c (Pipeline.arrRef spec0 0) (ix2 a e) := by
  show V c (Pipeline.arrRef spec0 0) (((cfg0.win 0).blk t).view.emb (ix2 a e)) = _
  refine congrArg (V c (Pipeline.arrRef spec0 0)) ?_
  have o := origin0 t
  funext ax; apply Fin.ext
  match ax with
  | ⟨0, _⟩ => show win0_0.index t (0 : Fin 2) * 116 + 1 * a.val = a.val; omega
  | ⟨1, _⟩ => show win0_0.index t (1 : Fin 2) * 6670 + 1 * e.val = e.val; omega

theorem iblk0_1_apply (c : Dev nD) (t : Fin cfg0.N) (e : Fin 6670) (k : Fin 5) :
    iblk0 V c 1 t (ix2 e k) = V c (Pipeline.arrRef spec0 1) (ix2 e k) := by
  show V c (Pipeline.arrRef spec0 1) (((cfg0.win 1).blk t).view.emb (ix2 e k)) = _
  refine congrArg (V c (Pipeline.arrRef spec0 1)) ?_
  have o := origin0 t
  funext ax; apply Fin.ext
  match ax with
  | ⟨0, _⟩ => show win0_1.index t (0 : Fin 2) * 6670 + 1 * e.val = e.val; omega
  | ⟨1, _⟩ => show win0_1.index t (1 : Fin 2) * 5 + 1 * k.val = k.val; omega

theorem iblk0_2_apply (c : Dev nD) (t : Fin cfg0.N) (a : Fin 116) (k : Fin 64) :
    iblk0 V c 2 t (ix2 a k) = V c (Pipeline.arrRef spec0 2) (ix2 a k) := by
  show V c (Pipeline.arrRef spec0 2) (((cfg0.win 2).blk t).view.emb (ix2 a k)) = _
  refine congrArg (V c (Pipeline.arrRef spec0 2)) ?_
  have o := origin0 t
  funext ax; apply Fin.ext
  match ax with
  | ⟨0, _⟩ => show win0_2.index t (0 : Fin 2) * 116 + 1 * a.val = a.val; omega
  | ⟨1, _⟩ => show win0_2.index t (1 : Fin 2) * 64 + 1 * k.val = k.val; omega

theorem iblk0_3_apply (c : Dev nD) (t : Fin cfg0.N) (z : Fin 1) (k : Fin 5) :
    iblk0 V c 3 t (ix2 z k) = V c (Pipeline.arrRef spec0 3) (ix2 z k) := by
  show V c (Pipeline.arrRef spec0 3) (((cfg0.win 3).blk t).view.emb (ix2 z k)) = _
  refine congrArg (V c (Pipeline.arrRef spec0 3)) ?_
  have o := origin0 t
  funext ax; apply Fin.ext
  match ax with
  | ⟨0, _⟩ => show win0_3.index t (0 : Fin 2) * 1 + 1 * z.val = z.val; omega
  | ⟨1, _⟩ => show win0_3.index t (1 : Fin 2) * 5 + 1 * k.val = k.val; omega

theorem iblk0_4_apply (c : Dev nD) (t : Fin cfg0.N) (k : Fin 64) (j : Fin 64) :
    iblk0 V c 4 t (ix2 k j) = V c (Pipeline.arrRef spec0 4) (ix2 k j) := by
  show V c (Pipeline.arrRef spec0 4) (((cfg0.win 4).blk t).view.emb (ix2 k j)) = _
  refine congrArg (V c (Pipeline.arrRef spec0 4)) ?_
  have o := origin0 t
  funext ax; apply Fin.ext
  match ax with
  | ⟨0, _⟩ => show win0_4.index t (0 : Fin 2) * 64 + 1 * k.val = k.val; omega
  | ⟨1, _⟩ => show win0_4.index t (1 : Fin 2) * 64 + 1 * j.val = j.val; omega

theorem iblk0_5_apply (c : Dev nD) (t : Fin cfg0.N) (z : Fin 1) (j : Fin 64) :
    iblk0 V c 5 t (ix2 z j) = V c (Pipeline.arrRef spec0 5) (ix2 z j) := by
  show V c (Pipeline.arrRef spec0 5) (((cfg0.win 5).blk t).view.emb (ix2 z j)) = _
  refine congrArg (V c (Pipeline.arrRef spec0 5)) ?_
  have o := origin0 t
  funext ax; apply Fin.ext
  match ax with
  | ⟨0, _⟩ => show win0_5.index t (0 : Fin 2) * 1 + 1 * z.val = z.val; omega
  | ⟨1, _⟩ => show win0_5.index t (1 : Fin 2) * 64 + 1 * j.val = j.val; omega

/-- The output window's block sits in its array entry for entry. -/
theorem blk0_6_emb (t : Fin cfg0.N) (a : Fin 116) (j : Fin 64) :
    ((cfg0.win 6).blk t).view.emb (ix2 a j) = ix2 a j := by
  have o := origin0 t
  funext ax; apply Fin.ext
  match ax with
  | ⟨0, _⟩ => show win0_6.index t (0 : Fin 2) * 116 + 1 * a.val = a.val; omega
  | ⟨1, _⟩ => show win0_6.index t (1 : Fin 2) * 64 + 1 * j.val = j.val; omega

/-- The node convolution of the six input arrays as the region finds them, as contents of the output array. -/
def conv0 (c : Dev nD) : S116x64.Idx → Elt Ideal .f32 := fun i =>
  nodeConvK (fun a e => V c (Pipeline.arrRef spec0 0) (ix2 a e)) (fun e k => V c (Pipeline.arrRef spec0 1) (ix2 e k))
    (fun a k => V c (Pipeline.arrRef spec0 2) (ix2 a k)) (fun k => V c (Pipeline.arrRef spec0 3) (ix2 0 k))
    (fun k j => V c (Pipeline.arrRef spec0 4) (ix2 k j)) (fun j => V c (Pipeline.arrRef spec0 5) (ix2 0 j)) (i 0) (i 1)

/-- What the one point writes back is the block of `conv0`. -/
theorem flushed0_eq (c : Dev nD) (t : Fin cfg0.N) :
    (dat0 (F := Ideal) V c).flushed 6 t = ((cfg0.win 6).blk t).view.read (Elt Ideal) (conv0 V c) := by
  show (cfg0.win 6).cut (grid0.coords t) ((dat0 V c).after 6 t) = _
  rw [after0_6]
  unfold out0_6
  rw [View.canon_unit_zero zeroOffsets]
  simp only [View.ld_unit_zero (S := S116x6670) zeroOffsets, View.ld_unit_zero (S := S6670x5) zeroOffsets,
    View.ld_unit_zero (S := S116x64) zeroOffsets, View.ld_unit_zero (S := S1x5) zeroOffsets,
    View.ld_unit_zero (S := S64x64) zeroOffsets, View.ld_unit_zero (S := S1x64) zeroOffsets]
  funext y
  obtain ⟨p, q, rfl⟩ : ∃ (p : Fin 116) (q : Fin 64), y = ix2 p q := ⟨y 0, y 1, eq_ix2 y⟩
  show Gen.k0_pay1 (F := Ideal) (iblk0 V c 0 t) (iblk0 V c 1 t) (iblk0 V c 2 t) (iblk0 V c 3 t) (iblk0 V c 4 t) (iblk0 V c 5 t) (ix2 p q)
    = conv0 V c (((cfg0.win 6).blk t).view.emb (ix2 p q))
  rw [blk0_6_emb t p q]
  refine (pay0_apply (iblk0 V c 0 t) (iblk0 V c 1 t) (iblk0 V c 2 t) (iblk0 V c 3 t) (iblk0 V c 4 t) (iblk0 V c 5 t) p q).trans ?_
  simp only [iblk0_0_apply V c t, iblk0_1_apply V c t, iblk0_2_apply V c t, iblk0_3_apply V c t, iblk0_4_apply V c t, iblk0_5_apply V c t]
  rfl

/-- The one point's block covers the output array. -/
theorem cover0 (i : S116x64.Idx) :
    ∃ t : Fin cfg0.N, (cfg0.win 6).flush t = true ∧ i ∈ ((cfg0.win 6).blk t).view.set := by
  refine ⟨t0_0, flush0_6 t0_0, ?_⟩
  show i ∈ ((View.whole main_v44).slice (win0_6.rect t0_0)).set
  rw [View.set_slice_whole, Rect.mem_set_unit]
  show ∀ a : Fin 2, win0_6.index t0_0 a * S116x64.size a ≤ (i a).val ∧ (i a).val < win0_6.index t0_0 a * S116x64.size a + S116x64.size a
  have o := origin0 t0_0
  intro a
  match a with
  | ⟨0, _⟩ =>
    show win0_6.index t0_0 (0 : Fin 2) * 116 ≤ (i 0).val ∧ (i 0).val < win0_6.index t0_0 (0 : Fin 2) * 116 + 116
    have hi : (i 0).val < 116 := (i 0).isLt
    omega
  | ⟨1, _⟩ =>
    show win0_6.index t0_0 (1 : Fin 2) * 64 ≤ (i 1).val ∧ (i 1).val < win0_6.index t0_0 (1 : Fin 2) * 64 + 64
    have hi : (i 1).val < 64 := (i 1).isLt
    omega

/-- The output array after the region: the node convolution of the six input arrays as the region finds them. -/
theorem final0 (c : Dev nD) (n : Fin 116) (h : Fin 64) :
    (dat0 (F := Ideal) V c).arrAt 6 cfg0.N (ix2 n h)
      = nodeConvK (fun a e => V c (Pipeline.arrRef spec0 0) (ix2 a e)) (fun e k => V c (Pipeline.arrRef spec0 1) (ix2 e k))
          (fun a k => V c (Pipeline.arrRef spec0 2) (ix2 a k)) (fun k => V c (Pipeline.arrRef spec0 3) (ix2 0 k))
          (fun k j => V c (Pipeline.arrRef spec0 4) (ix2 k j)) (fun j => V c (Pipeline.arrRef spec0 5) (ix2 0 j)) n h := by
  rw [(dat0 V c).arrAt_eq_of_cover 6 (conv0 V c) (fun t _ => flushed0_eq V c t) (cover0)]
  rfl

end Array

end Cert.KernelIdeal.Hand

end
-- ==== Proof.Spec.lean ====
/-
  The network as index-by-index functions on the extended reals.

  A graph of 116 nodes and 6670 edges with incidence matrix T (T n e = 1 when node n is an end of edge e).  Node
  features are 116 × 64, edge features 6670 × 5.  Every stage below is one entry of one array, written with the sums in
  the order the stages are composed:

    encode     x0[n,h]  = (∑k enc[n,k]·Wenc[k,h]) + benc[h]
    dEdge      d[e]     = ∑k He[e,k]·p[k]                       one learned scalar per edge
    nodeAdj    A[n,n']  = (∑e (T[n,e]·d[e])·T[n',e]) · offDiag n n'      T diag(d) Tᵀ with its diagonal removed
    nodeConv   y[n,h]   = (∑n' A[n,n'] · (∑k Hv[n',k]·W[k,h])) + b[h]
    dNode      dv[n]    = ∑k Hv[n,k]·p[k]                       one learned scalar per node
    edgeAdj    M[a,b]   = (∑n T[n,a]·(dv[n]·T[n,b])) · offDiag a b       Tᵀ diag(dv) T with its diagonal removed
    colMax     cm[b]    = the maximum over a of M[a,b], folded from −∞
    edgeConv   z[a,k]   = (∑b (M[a,b] / (cm[b] + ε)) · (∑j He[b,j]·W[j,k])) + bias[k]
    pooled     m[h]     = (∑n y[n,h]) / 116
    head       out[o]   = (∑h m[h]·Wl[h,o]) + bl[o]

  and the network is  encode → nodeConv → relu → edgeConv (on relu of the edge features) → relu → nodeConv → pooled → head.
  The quotient is the ideal instance's division; ε is the f32 word of 1e-10 and 116 the f32 word of 116, both kept as
  words: the same word on both sides of a comparison is never evaluated.
-/
import Idealize.ShloMosaic.PureOps.Ideal.Laws
import Idealize.ShloMosaic.Lib.ValueIdx

noncomputable section

namespace Cert.Spec

open Idealize.ShloMosaic
open scoped BigOperators

/-- One off the diagonal, zero on it: the complement of the identity matrix. -/
def offDiag {n : ℕ} (a b : Fin n) : EReal := if a = b then 0 else 1

theorem offDiag_self {n : ℕ} (a : Fin n) : offDiag a a = 0 := if_pos rfl

theorem offDiag_ne {n : ℕ} {a b : Fin n} (h : a ≠ b) : offDiag a b = 1 := if_neg h

/-- Multiplying by the complement of the identity keeps an entry off the diagonal and clears it on the diagonal,
    whatever the entry (zero times an infinity is zero on the extended reals). -/
theorem mul_offDiag {n : ℕ} (x : EReal) (a b : Fin n) : x * offDiag a b = if a = b then 0 else x := by
  unfold offDiag
  split
  · exact mul_zero x
  · exact mul_one x

/-- The f32 word of 1e-10, the guard added to a column maximum before dividing by it. -/
def eps : EReal := Ideal.ofBits .f32 0x2EDBE6FF#32

/-- The f32 word of 116, the number of nodes the mean is taken over. -/
def nodeCount : EReal := Ideal.ofBits .f32 0x42E80000#32

/-- The rectifier. -/
def relu (x : EReal) : EReal := max x 0

/-- The linear encoding of the raw node features. -/
def encode (enc : Fin 116 → Fin 122 → EReal) (Wenc : Fin 122 → Fin 64 → EReal) (benc : Fin 64 → EReal) :
    Fin 116 → Fin 64 → EReal :=
  fun n h => (∑ k, enc n k * Wenc k h) + benc h

/-- One learned scalar per edge: the edge's features against the vector p. -/
def dEdge (He : Fin 6670 → Fin 5 → EReal) (p : Fin 5 → EReal) : Fin 6670 → EReal :=
  fun e => ∑ k, He e k * p k

/-- T diag(d) Tᵀ with its diagonal removed: the weight node n' sends to node n. -/
def nodeAdj (T : Fin 116 → Fin 6670 → EReal) (d : Fin 6670 → EReal) : Fin 116 → Fin 116 → EReal :=
  fun n n' => (∑ e, (T n e * d e) * T n' e) * offDiag n n'

/-- A node convolution: the node features through W, mixed by the weights of nodeAdj, plus a bias. -/
def nodeConv (T : Fin 116 → Fin 6670 → EReal) (Hv : Fin 116 → Fin 64 → EReal) (He : Fin 6670 → Fin 5 → EReal)
    (W : Fin 64 → Fin 64 → EReal) (b : Fin 64 → EReal) (p : Fin 5 → EReal) : Fin 116 → Fin 64 → EReal :=
  fun n h => (∑ n', nodeAdj T (dEdge He p) n n' * (∑ k, Hv n' k * W k h)) + b h

/-- One learned scalar per node: the node's features against the vector p. -/
def dNode (Hv : Fin 116 → Fin 64 → EReal) (p : Fin 64 → EReal) : Fin 116 → EReal :=
  fun n => ∑ k, Hv n k * p k

/-- Tᵀ diag(dv) T with its diagonal removed: the weight edge b sends to edge a. -/
def edgeAdj (T : Fin 116 → Fin 6670 → EReal) (dv : Fin 116 → EReal) : Fin 6670 → Fin 6670 → EReal :=
  fun a b => (∑ n, T n a * (dv n * T n b)) * offDiag a b

/-- The maximum of each column, folded from −∞. -/
def colMax (M : Fin 6670 → Fin 6670 → EReal) : Fin 6670 → EReal :=
  fun b => (Finset.univ : Finset (Fin 6670)).fold max ⊥ (fun a => M a b)

/-- A column maximum is determined by its upper bounds: it is below a value exactly when every entry of the column is. -/
theorem colMax_le_iff (M : Fin 6670 → Fin 6670 → EReal) (b : Fin 6670) (c : EReal) :
    colMax M b ≤ c ↔ ∀ a, M a b ≤ c := by
  unfold colMax
  rw [Finset.fold_max_le]
  simp

/-- An edge convolution: the edge features through W, mixed by the weights of edgeAdj each divided by its column's
    maximum plus ε, plus a bias. -/
def edgeConv (T : Fin 116 → Fin 6670 → EReal) (Hv : Fin 116 → Fin 64 → EReal) (He : Fin 6670 → Fin 5 → EReal)
    (W : Fin 5 → Fin 5 → EReal) (b : Fin 5 → EReal) (p : Fin 64 → EReal) : Fin 6670 → Fin 5 → EReal :=
  fun a k => (∑ b', Ideal.div (edgeAdj T (dNode Hv p) a b') (colMax (edgeAdj T (dNode Hv p)) b' + eps)
      * (∑ j, He b' j * W j k)) + b k

/-- The mean of each feature over the nodes. -/
def pooled (y : Fin 116 → Fin 64 → EReal) : Fin 64 → EReal :=
  fun h => Ideal.div (∑ n, y n h) nodeCount

/-- The classifier head. -/
def head (v : Fin 64 → EReal) (Wl : Fin 64 → Fin 4 → EReal) (bl : Fin 4 → EReal) : Fin 4 → EReal :=
  fun o => (∑ h, v h * Wl h o) + bl o

/-- The node features after the first node convolution and its rectifier. -/
def x1 (T : Fin 116 → Fin 6670 → EReal) (enc : Fin 116 → Fin 122 → EReal) (Wenc : Fin 122 → Fin 64 → EReal)
    (benc : Fin 64 → EReal) (W1 : Fin 64 → Fin 64 → EReal) (b1 : Fin 64 → EReal) (p1 : Fin 5 → EReal)
    (ea : Fin 6670 → Fin 5 → EReal) : Fin 116 → Fin 64 → EReal :=
  fun n h => relu (nodeConv T (encode enc Wenc benc) ea W1 b1 p1 n h)

/-- The edge features after the edge convolution and its rectifier. -/
def e1 (T : Fin 116 → Fin 6670 → EReal) (xs : Fin 116 → Fin 64 → EReal) (We : Fin 5 → Fin 5 → EReal)
    (be : Fin 5 → EReal) (pe : Fin 64 → EReal) (ea : Fin 6670 → Fin 5 → EReal) : Fin 6670 → Fin 5 → EReal :=
  fun a k => relu (edgeConv T xs (fun b j => relu (ea b j)) We be pe a k)

/-- The whole network: four outputs from the incidence matrix, the raw node features, the edge features and the
    weights. -/
def net (T : Fin 116 → Fin 6670 → EReal) (enc : Fin 116 → Fin 122 → EReal) (Wenc : Fin 122 → Fin 64 → EReal)
    (benc : Fin 64 → EReal) (W1 : Fin 64 → Fin 64 → EReal) (b1 : Fin 64 → EReal) (p1 : Fin 5 → EReal)
    (We : Fin 5 → Fin 5 → EReal) (be : Fin 5 → EReal) (pe : Fin 64 → EReal)
    (W2 : Fin 64 → Fin 64 → EReal) (b2 : Fin 64 → EReal) (p2 : Fin 5 → EReal)
    (Wl : Fin 64 → Fin 4 → EReal) (bl : Fin 4 → EReal) (ea : Fin 6670 → Fin 5 → EReal) : Fin 4 → EReal :=
  head (pooled (nodeConv T (fun n h => relu (x1 T enc Wenc benc W1 b1 p1 ea n h))
      (e1 T (x1 T enc Wenc benc W1 b1 p1 ea) We be pe ea) W2 b2 p2)) Wl bl

end Cert.Spec

end
-- ==== Proof.FrameKernelIdeal.NodeConvKSpec.lean ====
/-
  The node convolution in the order the body forms it is the specification's: the two differ only in the order of the
  two factors of the edge scale's products, p k · He e k against He e k · p k.
-/
import proofs.«143417_j3152505995417_1_alg».proof.Proof.FrameKernelIdeal.NodeConvK
import proofs.«143417_j3152505995417_1_alg».proof.Proof.Spec

noncomputable section

namespace Cert.KernelIdeal.Hand

open scoped BigOperators

theorem nodeConvK_eq_spec (T : Fin 116 → Fin 6670 → EReal) (He : Fin 6670 → Fin 5 → EReal) (Hv : Fin 116 → Fin 64 → EReal)
    (p : Fin 5 → EReal) (W : Fin 64 → Fin 64 → EReal) (b : Fin 64 → EReal) :
    nodeConvK T He Hv p W b = Cert.Spec.nodeConv T Hv He W b p := by
  funext n h
  unfold nodeConvK Cert.Spec.nodeConv Cert.Spec.nodeAdj Cert.Spec.dEdge Cert.Spec.offDiag
  refine congrArg (· + b h) ?_
  refine Finset.sum_congr rfl fun n' _ => ?_
  refine congrArg (· * (∑ k, Hv n' k * W k h)) ?_
  refine congrArg (· * (if n = n' then (0 : EReal) else 1)) ?_
  refine Finset.sum_congr rfl fun e _ => ?_
  refine congrArg (· * T n' e) ?_
  refine congrArg (T n e * ·) ?_
  exact Finset.sum_congr rfl fun k _ => mul_comm _ _

end Cert.KernelIdeal.Hand

end
-- ==== Proof.LibHostDot.lean ====
/-
  A host matrix product and a column broadcast read at an entry, at the ideal values.

  The host's `dot_general` of an M×K by a K×N matrix (contract the left operand's columns against the right operand's
  rows, no batch axis) is, at the entry (a, b), the sum over the contracted coordinate c of `A (a, c) · B (c, b)`: the
  same sum a kernel's plain product into a zero accumulator has. A column [a, 1] broadcast along its unit axis to
  [a, b] repeats the row's one entry.
-/
import Idealize.ShloMosaic.Lib.ValueIdx
import Idealize.ShloMosaic.Lib.Pipeline.Value
import Idealize.ShloMosaic.PureOps.Ideal.Laws

noncomputable section

namespace Cert.HostDot

open Idealize.ShloMosaic Idealize.ShloMosaic.ValueIdx

/-- The host's plain product of an M×K by a K×N matrix, read at an entry, is the sum over the contracted coordinate of
    the products of the entries. At the ideal values. -/
theorem dotGeneral_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    Host.dotGeneral (DotDims.plain M K N) prec A B (ix2 a b) = ∑ c : Fin K, A (ix2 a c) * B (ix2 c b) := by
  simp only [Host.dotGeneral]
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A column [a, 1] broadcast along its unit axis to [a, b]: entry (p, q) is the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.HostDot

end
-- ==== Proof.FrameKernelIdeal.KernelHostPre.lean ====
/-
  The host operations before the first convolution region, read at an entry at the ideal values: the encoded node
  features (a matrix product plus a bias laid along every row), the three bias and projection vectors laid as one-row
  matrices, and the arguments the stretch leaves untouched. The incidence matrix is never opened.
-/
import proofs.«143417_j3152505995417_1_alg».proof.Proof.Gen.KernelIdeal.Regions
import proofs.«143417_j3152505995417_1_alg».proof.Proof.Spec
import proofs.«143417_j3152505995417_1_alg».proof.Proof.LibHostDot
import Idealize.ShloMosaic.Lib.ValueIdx
import Idealize.ShloMosaic.Lib.ValueLayout
import Idealize.ShloMosaic.Lib.Pipeline.Value
import Idealize.ShloMosaic.Lib.KernelVsHost

noncomputable section

namespace Cert.KernelIdeal.Hand

open Cert.KernelIdeal Cert.KernelIdeal.Gen
open Idealize.ShloMosaic Idealize.ShloMosaic.TcCoe Idealize.ShloMosaic.ValueIdx
open scoped BigOperators

/-- A vector laid as a one-row matrix reads, at (0, j), its entry j. -/
theorem broadcastInDim_vec_row_apply {α : Type} {n : ℕ} (hd : (⟨1, ![n]⟩ : Shape).BroadcastsInDim ⟨2, ![1, n]⟩ ![1])
    (x : (⟨1, ![n]⟩ : Shape).Idx → α) (z : Fin 1) (j : Fin n) :
    broadcastInDim ⟨2, ![1, n]⟩ ![1] hd x (ix2 z j) = x (ix1 j) := by
  refine broadcastInDim_apply ![1] hd x (ix2 z j) (ix1 j) ?_
  intro a
  match a with
  | ⟨0, _⟩ =>
    show j.val = if n = 1 then 0 else j.val
    split
    · have := j.isLt; omega
    · rfl

/-! ## The last stretch before the region, over any contents `U` it starts from -/

section Stretch
variable (U : Valuation τ sig (Elt Ideal))

/-- The encoded node features: the raw features through the encoder's weights, plus its bias along every row. -/
theorem encode_after (n : Fin 116) (h : Fin 64) :
    StableHlo.after (hostOps0_2 (F := Ideal)) U main_v43 (ix2 n h)
      = Cert.Spec.encode (fun a k => U main_arg0 (ix2 a k)) (fun k j => U main_arg3 (ix2 k j)) (fun j => U main_arg4 (ix1 j)) n h := by
  have e : @Eq (S116x64.Idx → EReal) (StableHlo.after (hostOps0_2 (F := Ideal)) U main_v43)
      (addf (F := Ideal) (Host.dotGeneral (φ₁ := .f32) (φ₂ := .f32) dot_S116x122_S122x64_S116x64_1_0_0_1_n_n none (U main_arg0) (U main_arg3))
          (broadcastInDim S116x64 ![0, 1] bcast_S1x64_S116x64_0_1 (broadcastInDim S1x64 ![1] bcast_S64_S1x64_1 (U main_arg4)))) := by
    dsimp only [hostOps0_2]; after_results <;> rfl
  refine (congrFun e (ix2 n h)).trans ?_
  refine (addf_apply _ _ _).trans ?_
  unfold Cert.Spec.encode
  refine congrArg₂ (· + ·) ?_ ?_
  · exact Cert.HostDot.dotGeneral_plain_apply (M := 116) (K := 122) (N := 64) none (U main_arg0) (U main_arg3) n h
  · refine (broadcastInDim_oneRow_apply bcast_S1x64_S116x64_0_1 _ n h).trans ?_
    exact broadcastInDim_vec_row_apply bcast_S64_S1x64_1 (U main_arg4) 0 h

/-- The first convolution's bias as a one-row matrix. -/
theorem bias1_after (j : Fin 64) :
    StableHlo.after (hostOps0_2 (F := Ideal)) U main_v37 (ix2 (0 : Fin 1) j) = U main_arg6 (ix1 j) := by
  have e : @Eq (S1x64.Idx → EReal) (StableHlo.after (hostOps0_2 (F := Ideal)) U main_v37)
      (broadcastInDim S1x64 ![1] bcast_S64_S1x64_1 (U main_arg6)) := by
    dsimp only [hostOps0_2]; after_results <;> rfl
  exact (congrFun e (ix2 0 j)).trans (broadcastInDim_vec_row_apply bcast_S64_S1x64_1 (U main_arg6) 0 j)

/-- The second convolution's bias as a one-row matrix. -/
theorem bias2_after (j : Fin 64) :
    StableHlo.after (hostOps0_2 (F := Ideal)) U main_v38 (ix2 (0 : Fin 1) j) = U main_arg12 (ix1 j) := by
  have e : @Eq (S1x64.Idx → EReal) (StableHlo.after (hostOps0_2 (F := Ideal)) U main_v38)
      (broadcastInDim S1x64 ![1] bcast_S64_S1x64_1 (U main_arg12)) := by
    dsimp only [hostOps0_2]; after_results <;> rfl
  exact (congrFun e (ix2 0 j)).trans (broadcastInDim_vec_row_apply bcast_S64_S1x64_1 (U main_arg12) 0 j)

/-- The edge convolution's bias as a one-row matrix. -/
theorem bias5_after (k : Fin 5) :
    StableHlo.after (hostOps0_2 (F := Ideal)) U main_v39 (ix2 (0 : Fin 1) k) = U main_arg9 (ix1 k) := by
  have e : @Eq (S1x5.Idx → EReal) (StableHlo.after (hostOps0_2 (F := Ideal)) U main_v39)
      (broadcastInDim S1x5 ![1] bcast_S5_S1x5_1 (U main_arg9)) := by
    dsimp only [hostOps0_2]; after_results <;> rfl
  exact (congrFun e (ix2 0 k)).trans (broadcastInDim_vec_row_apply bcast_S5_S1x5_1 (U main_arg9) 0 k)

end Stretch

/-! ## At the region's entry contents -/

section Entry
variable (m : (ℓ : Loc nD τ sig) → Buf (Elt Ideal) ℓ) (c : Dev nD)

/-- The arguments the three stretches never write hold their launch contents at the region's entry. -/
theorem V3_main_arg0 : Gen.V3 m c main_arg0 = m ((c : Thread nD τ).loc main_arg0) :=
  (V3_of m c main_arg0 (by decide)).trans <| (V2_of m c main_arg0 (by decide)).trans <| V1_of m c main_arg0 (by decide)
theorem V3_main_arg1 : Gen.V3 m c main_arg1 = m ((c : Thread nD τ).loc main_arg1) :=
  (V3_of m c main_arg1 (by decide)).trans <| (V2_of m c main_arg1 (by decide)).trans <| V1_of m c main_arg1 (by decide)
theorem V3_main_arg3 : Gen.V3 m c main_arg3 = m ((c : Thread nD τ).loc main_arg3) :=
  (V3_of m c main_arg3 (by decide)).trans <| (V2_of m c main_arg3 (by decide)).trans <| V1_of m c main_arg3 (by decide)
theorem V3_main_arg4 : Gen.V3 m c main_arg4 = m ((c : Thread nD τ).loc main_arg4) :=
  (V3_of m c main_arg4 (by decide)).trans <| (V2_of m c main_arg4 (by decide)).trans <| V1_of m c main_arg4 (by decide)
theorem V3_main_arg5 : Gen.V3 m c main_arg5 = m ((c : Thread nD τ).loc main_arg5) :=
  (V3_of m c main_arg5 (by decide)).trans <| (V2_of m c main_arg5 (by decide)).trans <| V1_of m c main_arg5 (by decide)
theorem V3_main_arg6 : Gen.V3 m c main_arg6 = m ((c : Thread nD τ).loc main_arg6) :=
  (V3_of m c main_arg6 (by decide)).trans <| (V2_of m c main_arg6 (by decide)).trans <| V1_of m c main_arg6 (by decide)
theorem V3_main_arg7 : Gen.V3 m c main_arg7 = m ((c : Thread nD τ).loc main_arg7) :=
  (V3_of m c main_arg7 (by decide)).trans <| (V2_of m c main_arg7 (by decide)).trans <| V1_of m c main_arg7 (by decide)
theorem V3_main_arg9 : Gen.V3 m c main_arg9 = m ((c : Thread nD τ).loc main_arg9) :=
  (V3_of m c main_arg9 (by decide)).trans <| (V2_of m c main_arg9 (by decide)).trans <| V1_of m c main_arg9 (by decide)
theorem V3_main_arg12 : Gen.V3 m c main_arg12 = m ((c : Thread nD τ).loc main_arg12) :=
  (V3_of m c main_arg12 (by decide)).trans <| (V2_of m c main_arg12 (by decide)).trans <| V1_of m c main_arg12 (by decide)

/-- The same of the stretch before the last. -/
theorem V2_main_arg0 : Gen.V2 m c main_arg0 = m ((c : Thread nD τ).loc main_arg0) :=
  (V2_of m c main_arg0 (by decide)).trans <| V1_of m c main_arg0 (by decide)
theorem V2_main_arg3 : Gen.V2 m c main_arg3 = m ((c : Thread nD τ).loc main_arg3) :=
  (V2_of m c main_arg3 (by decide)).trans <| V1_of m c main_arg3 (by decide)
theorem V2_main_arg4 : Gen.V2 m c main_arg4 = m ((c : Thread nD τ).loc main_arg4) :=
  (V2_of m c main_arg4 (by decide)).trans <| V1_of m c main_arg4 (by decide)
theorem V2_main_arg6 : Gen.V2 m c main_arg6 = m ((c : Thread nD τ).loc main_arg6) :=
  (V2_of m c main_arg6 (by decide)).trans <| V1_of m c main_arg6 (by decide)
theorem V2_main_arg9 : Gen.V2 m c main_arg9 = m ((c : Thread nD τ).loc main_arg9) :=
  (V2_of m c main_arg9 (by decide)).trans <| V1_of m c main_arg9 (by decide)
theorem V2_main_arg12 : Gen.V2 m c main_arg12 = m ((c : Thread nD τ).loc main_arg12) :=
  (V2_of m c main_arg12 (by decide)).trans <| V1_of m c main_arg12 (by decide)

/-- The encoded node features at the region's entry, from the launch contents. -/
theorem V3_main_v43 (n : Fin 116) (h : Fin 64) :
    Gen.V3 m c main_v43 (ix2 n h)
      = Cert.Spec.encode (fun a k => m ((c : Thread nD τ).loc main_arg0) (ix2 a k)) (fun k j => m ((c : Thread nD τ).loc main_arg3) (ix2 k j))
          (fun j => m ((c : Thread nD τ).loc main_arg4) (ix1 j)) n h := by
  refine (encode_after (Gen.V2 m c) n h).trans ?_
  rw [V2_main_arg0 m c, V2_main_arg3 m c, V2_main_arg4 m c]

theorem V3_main_v37 (j : Fin 64) : Gen.V3 m c main_v37 (ix2 (0 : Fin 1) j) = m ((c : Thread nD τ).loc main_arg6) (ix1 j) := by
  refine (bias1_after (Gen.V2 m c) j).trans ?_
  rw [V2_main_arg6 m c]

theorem V3_main_v38 (j : Fin 64) : Gen.V3 m c main_v38 (ix2 (0 : Fin 1) j) = m ((c : Thread nD τ).loc main_arg12) (ix1 j) := by
  refine (bias2_after (Gen.V2 m c) j).trans ?_
  rw [V2_main_arg12 m c]

theorem V3_main_v39 (k : Fin 5) : Gen.V3 m c main_v39 (ix2 (0 : Fin 1) k) = m ((c : Thread nD τ).loc main_arg9) (ix1 k) := by
  refine (bias5_after (Gen.V2 m c) k).trans ?_
  rw [V2_main_arg9 m c]

end Entry

end Cert.KernelIdeal.Hand

end
-- ==== Proof.KernelValue1.lean ====
import proofs.«143417_j3152505995417_1_alg».proof.Proof.FrameKernelIdeal.Chain
import proofs.«143417_j3152505995417_1_alg».proof.Proof.FrameKernelIdeal.Region0Value
import proofs.«143417_j3152505995417_1_alg».proof.Proof.FrameKernelIdeal.NodeConvKSpec
import proofs.«143417_j3152505995417_1_alg».proof.Proof.FrameKernelIdeal.KernelHostPre
import proofs.«143417_j3152505995417_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

/-! # The idealized kernel program's values, stage by stage: up to the first node convolution -/

/-- The incidence matrix as the kernel program's host operations build it (never opened). -/
def TK : Fin 116 → Fin 6670 → EReal := fun n e => W3 m c main_v35 (ix2 n e)
/-- The arguments, as the specification takes them. -/
abbrev aEnc : Fin 116 → Fin 122 → EReal := fun a k => m ((c : Thread nD τ).loc main_arg0) (ix2 a k)
abbrev aEa : Fin 6670 → Fin 5 → EReal := fun e k => m ((c : Thread nD τ).loc main_arg1) (ix2 e k)
abbrev aWenc : Fin 122 → Fin 64 → EReal := fun k j => m ((c : Thread nD τ).loc main_arg3) (ix2 k j)
abbrev aBenc : Fin 64 → EReal := fun j => m ((c : Thread nD τ).loc main_arg4) (ix1 j)
abbrev aW1 : Fin 64 → Fin 64 → EReal := fun k j => m ((c : Thread nD τ).loc main_arg5) (ix2 k j)
abbrev aB1 : Fin 64 → EReal := fun j => m ((c : Thread nD τ).loc main_arg6) (ix1 j)
abbrev aP1 : Fin 5 → EReal := fun k => m ((c : Thread nD τ).loc main_arg7) (ix2 (0 : Fin 1) k)

/-- The encoded node features the first node convolution is entered with. -/
theorem x0_eq (n : Fin 116) (h : Fin 64) :
    X0 m c main_v43 (ix2 n h) = Cert.Spec.encode (aEnc m c) (aWenc m c) (aBenc m c) n h := by
  show W3 m c main_v43 (ix2 n h) = _
  rw [← W3_eq]; exact V3_main_v43 m c n h

/-- Region 0 leaves the first node convolution in `main_v44`. -/
theorem v44_eq (n : Fin 116) (h : Fin 64) :
    U4 m c main_v44 (ix2 n h)
      = Cert.Spec.nodeConv (TK m c) (Cert.Spec.encode (aEnc m c) (aWenc m c) (aBenc m c)) (aEa m c) (aW1 m c) (aB1 m c) (aP1 m c) n h := by
  rw [U4_def, upd_eq, final0 (X0 m) c n h, nodeConvK_eq_spec]
  have e1 : (fun e k => X0 m c (Pipeline.arrRef spec0 1) (ix2 e k)) = aEa m c := by
    funext e k; show W3 m c main_arg1 (ix2 e k) = _; rw [← W3_eq, V3_main_arg1]
  have e2 : (fun a k => X0 m c (Pipeline.arrRef spec0 2) (ix2 a k)) = Cert.Spec.encode (aEnc m c) (aWenc m c) (aBenc m c) := by
    funext a k; exact x0_eq m c a k
  have e3 : (fun k => X0 m c (Pipeline.arrRef spec0 3) (ix2 (0 : Fin 1) k)) = aP1 m c := by
    funext k; show W3 m c main_arg7 (ix2 (0 : Fin 1) k) = _; rw [← W3_eq, V3_main_arg7]
  have e4 : (fun k j => X0 m c (Pipeline.arrRef spec0 4) (ix2 k j)) = aW1 m c := by
    funext k j; show W3 m c main_arg5 (ix2 k j) = _; rw [← W3_eq, V3_main_arg5]
  have e5 : (fun j => X0 m c (Pipeline.arrRef spec0 5) (ix2 (0 : Fin 1) j)) = aB1 m c := by
    funext j; show W3 m c main_v37 (ix2 (0 : Fin 1) j) = _; rw [← W3_eq]; exact V3_main_v37 m c j
  rw [e1, e2, e3, e4, e5]; rfl

end Cert.KernelIdeal.Hand

end
-- ==== Proof.EdgeAlgebra.lean ====
import proofs.«143417_j3152505995417_1_alg».proof.Proof.Spec
import Idealize.ShloMosaic.PureOps.Ideal.Laws
import Idealize.ShloMosaic.Lib.ValueIdx

noncomputable section

namespace Cert.EdgeAlgebra

open Idealize.ShloMosaic
open Cert.Spec

/-! # The tiled, padded edge convolution is the plain one

The kernel works on the incidence matrix padded with zero columns from 6670 to 7168 = 14 · 512 edges.  Its column
maximum runs over all 7168 rows, the padding rows replaced by a large negative number, and starts from that number;
its weighted sum runs over all 7168 columns, the padding columns replaced by zero.  On the 6670 true edges both are the
plain column maximum and the plain sum: a true column contains its diagonal entry 0, which exceeds the negative
number, and a padding column contributes a zero product. -/

/-- The incidence matrix with zero columns appended. -/
def pad (T : Fin 116 → Fin 6670 → EReal) : Fin 116 → Fin 7168 → EReal :=
  fun n e => if h : e.val < 6670 then T n ⟨e.val, h⟩ else 0
/-- The edge features with zero rows appended. -/
def padRows (e0 : Fin 6670 → Fin 5 → EReal) : Fin 7168 → Fin 5 → EReal :=
  fun b j => if h : b.val < 6670 then e0 ⟨b.val, h⟩ j else 0
/-- An entry of Tᵀ·diag(dv)·T on the padded edges. -/
def rawK (Tp : Fin 116 → Fin 7168 → EReal) (dv : Fin 116 → EReal) (a b : Fin 7168) : EReal := ∑ n : Fin 116, Tp n a * (dv n * Tp n b)
/-- The large negative number standing for "no entry". -/
def negBig : EReal := Ideal.ofBits .f32 0xF149F2CA#32
def epsK : EReal := Ideal.ofBits .f32 0x2EDBE6FF#32
/-- The entry the column maximum sees: the diagonal 0, a padding ROW the negative number. -/
def valK (Tp : Fin 116 → Fin 7168 → EReal) (dv : Fin 116 → EReal) (a b : Fin 7168) : EReal :=
  if a.val < 6670 then (if a = b then 0 else rawK Tp dv a b) else negBig
/-- The entry the weighted sum sees: the diagonal 0, a padding COLUMN 0. -/
def rvK (Tp : Fin 116 → Fin 7168 → EReal) (dv : Fin 116 → EReal) (a b : Fin 7168) : EReal :=
  if b.val < 6670 then (if a = b then 0 else rawK Tp dv a b) else 0

/-- A true edge among the padded ones. -/
def up (a : Fin 6670) : Fin 7168 := ⟨a.val, by have := a.isLt; omega⟩
theorem up_injective : Function.Injective up := fun a b h => Fin.ext (by have := congrArg Fin.val h; exact this)
theorem up_val (a : Fin 6670) : (up a).val = a.val := rfl
theorem up_eq_iff (a b : Fin 6670) : up a = up b ↔ a = b := up_injective.eq_iff

theorem negBig_le_zero : negBig ≤ 0 := by
  unfold negBig
  simp [Ideal.ofBits, Ideal.ieee]
  first
    | positivity
    | (norm_cast; positivity)
    | exact mul_nonneg (EReal.coe_nonneg.mpr (by norm_num)) (pow_nonneg (EReal.coe_nonneg.mpr (by norm_num)) _)

/-- A sum over the padded edges whose padding terms vanish is the sum over the true edges. -/
theorem sum_pad (f : Fin 7168 → EReal) (hf : ∀ b : Fin 7168, 6670 ≤ b.val → f b = 0) :
    ∑ b : Fin 7168, f b = ∑ b : Fin 6670, f (up b) := by
  calc ∑ b : Fin 7168, f b = ∑ b ∈ Finset.univ.map ⟨up, up_injective⟩, f b :=
        (Finset.sum_subset (Finset.subset_univ _) fun b _ hb => hf b (by
          by_contra h
          exact hb (Finset.mem_map.mpr ⟨⟨b.val, by omega⟩, Finset.mem_univ _, Fin.ext rfl⟩))).symm
    _ = ∑ b : Fin 6670, f (up b) := Finset.sum_map _ _ _

/-- On true edges the padded matrix is the matrix. -/
theorem pad_up (T : Fin 116 → Fin 6670 → EReal) (n : Fin 116) (a : Fin 6670) : pad T n (up a) = T n a := by
  unfold pad; rw [dif_pos (by rw [up_val]; exact a.isLt)]; rfl
theorem rawK_up (T : Fin 116 → Fin 6670 → EReal) (dv : Fin 116 → EReal) (a b : Fin 6670) :
    rawK (pad T) dv (up a) (up b) = ∑ n : Fin 116, T n a * (dv n * T n b) := by
  unfold rawK; exact Finset.sum_congr rfl fun n _ => by rw [pad_up, pad_up]
/-- The reference's masked entry, the mask spelt as a case distinction. -/
theorem edgeAdj_eq (T : Fin 116 → Fin 6670 → EReal) (dv : Fin 116 → EReal) (a b : Fin 6670) :
    edgeAdj T dv a b = if a = b then 0 else ∑ n : Fin 116, T n a * (dv n * T n b) := by
  unfold edgeAdj; exact mul_offDiag _ a b
theorem valK_up (T : Fin 116 → Fin 6670 → EReal) (dv : Fin 116 → EReal) (a b : Fin 6670) :
    valK (pad T) dv (up a) (up b) = edgeAdj T dv a b := by
  unfold valK; rw [if_pos (by rw [up_val]; exact a.isLt), edgeAdj_eq, rawK_up]
  by_cases h : a = b
  · rw [if_pos h, if_pos (by rw [h])]
  · rw [if_neg h, if_neg (fun e => h ((up_eq_iff a b).mp e))]
theorem rvK_up (T : Fin 116 → Fin 6670 → EReal) (dv : Fin 116 → EReal) (a b : Fin 6670) :
    rvK (pad T) dv (up a) (up b) = edgeAdj T dv a b := by
  unfold rvK; rw [if_pos (by rw [up_val]; exact b.isLt), edgeAdj_eq, rawK_up]
  by_cases h : a = b
  · rw [if_pos h, if_pos (by rw [h])]
  · rw [if_neg h, if_neg (fun e => h ((up_eq_iff a b).mp e))]

/-- The kernel's column maximum, known by its upper bounds, is on a true column the plain column maximum: the column's
    own diagonal entry 0 exceeds the negative number the kernel starts from and fills the padding rows with. -/
theorem colmax_eq (T : Fin 116 → Fin 6670 → EReal) (dv : Fin 116 → EReal) (cm : Fin 7168 → EReal)
    (hcm : ∀ (q : Fin 7168) (x : EReal), cm q ≤ x ↔ (negBig ≤ x ∧ ∀ a : Fin 7168, valK (pad T) dv a q ≤ x)) (b : Fin 6670) :
    cm (up b) = colMax (edgeAdj T dv) b := by
  refine eq_of_forall_ge_iff fun x => ?_
  rw [hcm, colMax_le_iff]
  constructor
  · rintro ⟨-, h⟩ a
    rw [← valK_up]; exact h (up a)
  · intro h
    have h0 : (0 : EReal) ≤ x := by
      have := h b; rw [edgeAdj_eq, if_pos rfl] at this; exact this
    refine ⟨negBig_le_zero.trans h0, fun a => ?_⟩
    by_cases ha : a.val < 6670
    · have : a = up ⟨a.val, ha⟩ := Fin.ext rfl
      rw [this, valK_up]; exact h _
    · unfold valK; rw [if_neg ha]; exact negBig_le_zero.trans h0

/-- The kernel's weighted sum over the padded columns, on a true row, is the reference's edge convolution. -/
theorem edge_out_eq (T : Fin 116 → Fin 6670 → EReal) (dv : Fin 116 → EReal) (e0 : Fin 6670 → Fin 5 → EReal)
    (We : Fin 5 → Fin 5 → EReal) (be : Fin 5 → EReal) (cm : Fin 7168 → EReal)
    (hcm : ∀ (q : Fin 7168) (x : EReal), cm q ≤ x ↔ (negBig ≤ x ∧ ∀ a : Fin 7168, valK (pad T) dv a q ≤ x))
    (a : Fin 6670) (k : Fin 5) :
    (∑ b : Fin 7168, Ideal.div (rvK (pad T) dv (up a) b) (cm b + epsK) * (∑ j : Fin 5, padRows e0 b j * We j k)) + be k
      = (∑ b' : Fin 6670, Ideal.div (edgeAdj T dv a b') (colMax (edgeAdj T dv) b' + eps) * (∑ j : Fin 5, e0 b' j * We j k)) + be k := by
  congr 1
  rw [sum_pad _ (fun b hb => by
    have : (∑ j : Fin 5, padRows e0 b j * We j k) = 0 :=
      Finset.sum_eq_zero fun j _ => by unfold padRows; rw [dif_neg (by omega), zero_mul]
    rw [this, mul_zero])]
  refine Finset.sum_congr rfl fun b' _ => ?_
  rw [rvK_up, colmax_eq T dv cm hcm b']
  have : (∑ j : Fin 5, padRows e0 (up b') j * We j k) = ∑ j : Fin 5, e0 b' j * We j k :=
    Finset.sum_congr rfl fun j _ => by unfold padRows; rw [dif_pos (by rw [up_val]; exact b'.isLt)]; rfl
  rw [this]; rfl

end Cert.EdgeAlgebra

end
-- ==== Proof.KernelValueAbbrevs.lean ====
import proofs.«143417_j3152505995417_1_alg».proof.Proof.KernelValue1
import proofs.«143417_j3152505995417_1_alg».proof.Proof.EdgeAlgebra

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

/-! # Names for the arguments and the intermediate features, as the specification takes them -/

abbrev aWe : Fin 5 → Fin 5 → EReal := fun j k => m ((c : Thread nD τ).loc main_arg8) (ix2 j k)
abbrev aBe : Fin 5 → EReal := fun k => m ((c : Thread nD τ).loc main_arg9) (ix1 k)
abbrev aPe : Fin 64 → EReal := fun k => m ((c : Thread nD τ).loc main_arg10) (ix2 (0 : Fin 1) k)
abbrev aW2 : Fin 64 → Fin 64 → EReal := fun k j => m ((c : Thread nD τ).loc main_arg11) (ix2 k j)
abbrev aB2 : Fin 64 → EReal := fun j => m ((c : Thread nD τ).loc main_arg12) (ix1 j)
abbrev aP2 : Fin 5 → EReal := fun k => m ((c : Thread nD τ).loc main_arg13) (ix2 (0 : Fin 1) k)
abbrev aWl : Fin 64 → Fin 4 → EReal := fun h o => m ((c : Thread nD τ).loc main_arg14) (ix2 h o)
abbrev aBl : Fin 4 → EReal := fun o => m ((c : Thread nD τ).loc main_arg15) (ix1 o)
/-- The node features after the first node convolution, -/
abbrev x1S : Fin 116 → Fin 64 → EReal :=
  Cert.Spec.x1 (TK m c) (aEnc m c) (aWenc m c) (aBenc m c) (aW1 m c) (aB1 m c) (aP1 m c) (aEa m c)
/-- and the edge features after the edge convolution. -/
abbrev e1S : Fin 6670 → Fin 5 → EReal := Cert.Spec.e1 (TK m c) (x1S m c) (aWe m c) (aBe m c) (aPe m c) (aEa m c)

/-- The edge features the edge convolution is entered with. -/
abbrev e0S : Fin 6670 → Fin 5 → EReal := fun b j => Cert.Spec.relu (aEa m c b j)

end Cert.KernelIdeal.Hand

end
-- ==== Proof.FrameKernelIdeal.Kept.lean ====
import proofs.«143417_j3152505995417_1_alg».proof.Proof.FrameKernelIdeal.Chain

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (c : Dev nD)

/-! # Buffers no item writes, along the valuations between the items of @main -/

/-- A buffer none of the first three stretches of host operations writes is as launched when region 0 is entered. -/
theorem keep3 (r : Ref sig .tc) (h0 : r ∉ hostOps0_W) (h1 : r ∉ hostOps0_1_W) (h2 : r ∉ hostOps0_2_W) :
    W3 m c r = m ((c : Thread nD τ).loc r) := by
  rw [← W3_eq]; exact (V3_of m c r h2).trans ((V2_of m c r h1).trans ((V1_of m c r h0).trans rfl))
/-- Region 0 changes `main_v44` only. -/
theorem keep4 (r : Ref sig .tc) (h : r ≠ main_v44) : U4 m c r = W3 m c r := by rw [U4_def]; exact upd_ne (W3 m c) h _
/-- The five stretches between regions 0 and 1. -/
theorem keep9 (r : Ref sig .tc) (h0 : r ∉ hostOps1_W) (h1 : r ∉ hostOps1_1_W) (h2 : r ∉ hostOps1_2_W) (h3 : r ∉ hostOps1_3_W) (h4 : r ∉ hostOps1_4_W) :
    U9 m c r = U4 m c r := by
  rw [U9_def]
  exact (StableHlo.after_of_writes_sub hostOps1_4 _ hostOps1_4_writes h4).trans
    ((StableHlo.after_of_writes_sub hostOps1_3 _ hostOps1_3_writes h3).trans
    ((StableHlo.after_of_writes_sub hostOps1_2 _ hostOps1_2_writes h2).trans
    ((StableHlo.after_of_writes_sub hostOps1_1 _ hostOps1_1_writes h1).trans
    (StableHlo.after_of_writes_sub hostOps1 _ hostOps1_writes h0))))
/-- Region 1 changes `main_v51` only. -/
theorem keep10 (r : Ref sig .tc) (h : r ≠ main_v51) : U10 m c r = U9 m c r := by rw [U10_def]; exact upd_ne (U9 m c) h _
/-- Region 2 changes `main_v52` only. -/
theorem keep11 (r : Ref sig .tc) (h : r ≠ main_v52) : U11 m c r = U10 m c r := by rw [U11_def]; exact upd_ne (U10 m c) h _
/-- The three stretches between regions 2 and 3. -/
theorem keep14 (r : Ref sig .tc) (h0 : r ∉ hostOps3_W) (h1 : r ∉ hostOps3_1_W) (h2 : r ∉ hostOps3_2_W) : U14 m c r = U11 m c r := by
  rw [U14_def]
  exact (StableHlo.after_of_writes_sub hostOps3_2 _ hostOps3_2_writes h2).trans
    ((StableHlo.after_of_writes_sub hostOps3_1 _ hostOps3_1_writes h1).trans
    (StableHlo.after_of_writes_sub hostOps3 _ hostOps3_writes h0))
/-- Region 3 changes `main_v56` only. -/
theorem keep15 (r : Ref sig .tc) (h : r ≠ main_v56) : U15 m c r = U14 m c r := by rw [U15_def]; exact upd_ne (U14 m c) h _

end Cert.KernelIdeal.Hand

end
-- ==== Proof.FrameKernelIdeal.Region3Value.lean ====
/-
  The value of region 3's output array at the ideal values: the body's stored value read at an entry is the node
  convolution of the six loaded vectors, and, the grid having one point whose blocks are the whole arrays, the output
  array after the region is the node convolution of the six input arrays as the region finds them.
-/
import proofs.«143417_j3152505995417_1_alg».proof.Proof.FrameKernelIdeal.Region3Dat
import proofs.«143417_j3152505995417_1_alg».proof.Proof.FrameKernelIdeal.NodeConvK
import proofs.«143417_j3152505995417_1_alg».proof.Proof.FrameKernelIdeal.NodeConvPieces

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open scoped BigOperators

/-! ## The stored value at an entry -/

/-- Entry (n, h) of what the body stores, from the six vectors it loaded: rounding to bf16 is the identity at the
    ideal values, the casts to the same shape change nothing, the two row broadcasts read row 0. -/
theorem pay3_apply (x0 : Vec Ideal S116x6670 .f32) (x1 : Vec Ideal S6670x5 .f32) (x2 : Vec Ideal S116x64 .f32)
    (x3 : Vec Ideal S1x5 .f32) (x4 : Vec Ideal S64x64 .f32) (x5 : Vec Ideal S1x64 .f32) (n : Fin 116) (h : Fin 64) :
    Gen.k3_pay1 (F := Ideal) x0 x1 x2 x3 x4 x5 (ix2 n h)
      = nodeConvK (fun a e => x0 (ix2 a e)) (fun e k => x1 (ix2 e k)) (fun a k => x2 (ix2 a k)) (fun k => x3 (ix2 0 k))
          (fun k j => x4 (ix2 k j)) (fun j => x5 (ix2 0 j)) n h := by
  unfold Gen.k3_pay1 nodeConvK
  dsimp only
  simp only [shapeCast_self]
  refine (addf_apply _ _ _).trans ?_
  refine congrArg₂ (· + ·) ?_ (broadcastTo_1b_ab_apply _ _ n h)
  refine (mix_apply _ _ n h).trans ?_
  refine Finset.sum_congr rfl fun n' _ => ?_
  refine congrArg₂ (· * ·) ?_ ?_
  · refine (truncf_apply (ψ := .bf16) (φ := .f32) _ _ _).trans ((mulf_apply _ _ _).trans ?_)
    refine congrArg₂ (· * ·) ?_ (offDiagWord_apply n n')
    refine (gram_apply _ _ n n').trans ?_
    refine Finset.sum_congr rfl fun e _ => ?_
    refine congrArg₂ (· * ·) ?_ rfl
    refine (truncf_apply (ψ := .bf16) (φ := .f32) _ _ _).trans ((mulf_apply _ _ _).trans ?_)
    refine congrArg₂ (· * ·) rfl ?_
    refine (broadcastTo_1b_ab_apply _ _ n e).trans ?_
    exact scale_apply _ _ e
  · refine (truncf_apply (ψ := .bf16) (φ := .f32) _ _ _).trans ?_
    exact feat_apply _ _ n' h

/-! ## From the one block to the array -/

section Array
variable (V : (c : Dev nD) → (b : Ref sig .tc) → Buf (Elt Ideal) ((c : Thread nD τ).loc b))

/-- At the grid's one point every window's block starts at the origin of its array. -/
theorem origin3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-! Each input window's block is its whole array: an entry of the block is the same entry of the array. -/

theorem iblk3_0_apply (c : Dev nD) (t : Fin cfg3.N) (a : Fin 116) (e : Fin 6670) :
    iblk3 V c 0 t (ix2 a e) = V c (Pipeline.arrRef spec3 0) (ix2 a e) := by
  show V c (Pipeline.arrRef spec3 0) (((cfg3.win 0).blk t).view.emb (ix2 a e)) = _
  refine congrArg (V c (Pipeline.arrRef spec3 0)) ?_
  have o := origin3 t
  funext ax; apply Fin.ext
  match ax with
  | ⟨0, _⟩ => show win3_0.index t (0 : Fin 2) * 116 + 1 * a.val = a.val; omega
  | ⟨1, _⟩ => show win3_0.index t (1 : Fin 2) * 6670 + 1 * e.val = e.val; omega

theorem iblk3_1_apply (c : Dev nD) (t : Fin cfg3.N) (e : Fin 6670) (k : Fin 5) :
    iblk3 V c 1 t (ix2 e k) = V c (Pipeline.arrRef spec3 1) (ix2 e k) := by
  show V c (Pipeline.arrRef spec3 1) (((cfg3.win 1).blk t).view.emb (ix2 e k)) = _
  refine congrArg (V c (Pipeline.arrRef spec3 1)) ?_
  have o := origin3 t
  funext ax; apply Fin.ext
  match ax with
  | ⟨0, _⟩ => show win3_1.index t (0 : Fin 2) * 6670 + 1 * e.val = e.val; omega
  | ⟨1, _⟩ => show win3_1.index t (1 : Fin 2) * 5 + 1 * k.val = k.val; omega

theorem iblk3_2_apply (c : Dev nD) (t : Fin cfg3.N) (a : Fin 116) (k : Fin 64) :
    iblk3 V c 2 t (ix2 a k) = V c (Pipeline.arrRef spec3 2) (ix2 a k) := by
  show V c (Pipeline.arrRef spec3 2) (((cfg3.win 2).blk t).view.emb (ix2 a k)) = _
  refine congrArg (V c (Pipeline.arrRef spec3 2)) ?_
  have o := origin3 t
  funext ax; apply Fin.ext
  match ax with
  | ⟨0, _⟩ => show win3_2.index t (0 : Fin 2) * 116 + 1 * a.val = a.val; omega
  | ⟨1, _⟩ => show win3_2.index t (1 : Fin 2) * 64 + 1 * k.val = k.val; omega

theorem iblk3_3_apply (c : Dev nD) (t : Fin cfg3.N) (z : Fin 1) (k : Fin 5) :
    iblk3 V c 3 t (ix2 z k) = V c (Pipeline.arrRef spec3 3) (ix2 z k) := by
  show V c (Pipeline.arrRef spec3 3) (((cfg3.win 3).blk t).view.emb (ix2 z k)) = _
  refine congrArg (V c (Pipeline.arrRef spec3 3)) ?_
  have o := origin3 t
  funext ax; apply Fin.ext
  match ax with
  | ⟨0, _⟩ => show win3_3.index t (0 : Fin 2) * 1 + 1 * z.val = z.val; omega
  | ⟨1, _⟩ => show win3_3.index t (1 : Fin 2) * 5 + 1 * k.val = k.val; omega

theorem iblk3_4_apply (c : Dev nD) (t : Fin cfg3.N) (k : Fin 64) (j : Fin 64) :
    iblk3 V c 4 t (ix2 k j) = V c (Pipeline.arrRef spec3 4) (ix2 k j) := by
  show V c (Pipeline.arrRef spec3 4) (((cfg3.win 4).blk t).view.emb (ix2 k j)) = _
  refine congrArg (V c (Pipeline.arrRef spec3 4)) ?_
  have o := origin3 t
  funext ax; apply Fin.ext
  match ax with
  | ⟨0, _⟩ => show win3_4.index t (0 : Fin 2) * 64 + 1 * k.val = k.val; omega
  | ⟨1, _⟩ => show win3_4.index t (1 : Fin 2) * 64 + 1 * j.val = j.val; omega

theorem iblk3_5_apply (c : Dev nD) (t : Fin cfg3.N) (z : Fin 1) (j : Fin 64) :
    iblk3 V c 5 t (ix2 z j) = V c (Pipeline.arrRef spec3 5) (ix2 z j) := by
  show V c (Pipeline.arrRef spec3 5) (((cfg3.win 5).blk t).view.emb (ix2 z j)) = _
  refine congrArg (V c (Pipeline.arrRef spec3 5)) ?_
  have o := origin3 t
  funext ax; apply Fin.ext
  match ax with
  | ⟨0, _⟩ => show win3_5.index t (0 : Fin 2) * 1 + 1 * z.val = z.val; omega
  | ⟨1, _⟩ => show win3_5.index t (1 : Fin 2) * 64 + 1 * j.val = j.val; omega

/-- The output window's block sits in its array entry for entry. -/
theorem blk3_6_emb (t : Fin cfg3.N) (a : Fin 116) (j : Fin 64) :
    ((cfg3.win 6).blk t).view.emb (ix2 a j) = ix2 a j := by
  have o := origin3 t
  funext ax; apply Fin.ext
  match ax with
  | ⟨0, _⟩ => show win3_6.index t (0 : Fin 2) * 116 + 1 * a.val = a.val; omega
  | ⟨1, _⟩ => show win3_6.index t (1 : Fin 2) * 64 + 1 * j.val = j.val; omega

/-- The node convolution of the six input arrays as the region finds them, as contents of the output array. -/
def conv3 (c : Dev nD) : S116x64.Idx → Elt Ideal .f32 := fun i =>
  nodeConvK (fun a e => V c (Pipeline.arrRef spec3 0) (ix2 a e)) (fun e k => V c (Pipeline.arrRef spec3 1) (ix2 e k))
    (fun a k => V c (Pipeline.arrRef spec3 2) (ix2 a k)) (fun k => V c (Pipeline.arrRef spec3 3) (ix2 0 k))
    (fun k j => V c (Pipeline.arrRef spec3 4) (ix2 k j)) (fun j => V c (Pipeline.arrRef spec3 5) (ix2 0 j)) (i 0) (i 1)

/-- What the one point writes back is the block of `conv3`. -/
theorem flushed3_eq (c : Dev nD) (t : Fin cfg3.N) :
    (dat3 (F := Ideal) V c).flushed 6 t = ((cfg3.win 6).blk t).view.read (Elt Ideal) (conv3 V c) := by
  show (cfg3.win 6).cut (grid3.coords t) ((dat3 V c).after 6 t) = _
  rw [after3_6]
  unfold out3_6
  rw [View.canon_unit_zero zeroOffsets]
  simp only [View.ld_unit_zero (S := S116x6670) zeroOffsets, View.ld_unit_zero (S := S6670x5) zeroOffsets,
    View.ld_unit_zero (S := S116x64) zeroOffsets, View.ld_unit_zero (S := S1x5) zeroOffsets,
    View.ld_unit_zero (S := S64x64) zeroOffsets, View.ld_unit_zero (S := S1x64) zeroOffsets]
  funext y
  obtain ⟨p, q, rfl⟩ : ∃ (p : Fin 116) (q : Fin 64), y = ix2 p q := ⟨y 0, y 1, eq_ix2 y⟩
  show Gen.k3_pay1 (F := Ideal) (iblk3 V c 0 t) (iblk3 V c 1 t) (iblk3 V c 2 t) (iblk3 V c 3 t) (iblk3 V c 4 t) (iblk3 V c 5 t) (ix2 p q)
    = conv3 V c (((cfg3.win 6).blk t).view.emb (ix2 p q))
  rw [blk3_6_emb t p q]
  refine (pay3_apply (iblk3 V c 0 t) (iblk3 V c 1 t) (iblk3 V c 2 t) (iblk3 V c 3 t) (iblk3 V c 4 t) (iblk3 V c 5 t) p q).trans ?_
  simp only [iblk3_0_apply V c t, iblk3_1_apply V c t, iblk3_2_apply V c t, iblk3_3_apply V c t, iblk3_4_apply V c t, iblk3_5_apply V c t]
  rfl

/-- The one point's block covers the output array. -/
theorem cover3 (i : S116x64.Idx) :
    ∃ t : Fin cfg3.N, (cfg3.win 6).flush t = true ∧ i ∈ ((cfg3.win 6).blk t).view.set := by
  refine ⟨t3_0, flush3_6 t3_0, ?_⟩
  show i ∈ ((View.whole main_v56).slice (win3_6.rect t3_0)).set
  rw [View.set_slice_whole, Rect.mem_set_unit]
  show ∀ a : Fin 2, win3_6.index t3_0 a * S116x64.size a ≤ (i a).val ∧ (i a).val < win3_6.index t3_0 a * S116x64.size a + S116x64.size a
  have o := origin3 t3_0
  intro a
  match a with
  | ⟨0, _⟩ =>
    show win3_6.index t3_0 (0 : Fin 2) * 116 ≤ (i 0).val ∧ (i 0).val < win3_6.index t3_0 (0 : Fin 2) * 116 + 116
    have hi : (i 0).val < 116 := (i 0).isLt
    omega
  | ⟨1, _⟩ =>
    show win3_6.index t3_0 (1 : Fin 2) * 64 ≤ (i 1).val ∧ (i 1).val < win3_6.index t3_0 (1 : Fin 2) * 64 + 64
    have hi : (i 1).val < 64 := (i 1).isLt
    omega

/-- The output array after the region: the node convolution of the six input arrays as the region finds them. -/
theorem final3 (c : Dev nD) (n : Fin 116) (h : Fin 64) :
    (dat3 (F := Ideal) V c).arrAt 6 cfg3.N (ix2 n h)
      = nodeConvK (fun a e => V c (Pipeline.arrRef spec3 0) (ix2 a e)) (fun e k => V c (Pipeline.arrRef spec3 1) (ix2 e k))
          (fun a k => V c (Pipeline.arrRef spec3 2) (ix2 a k)) (fun k => V c (Pipeline.arrRef spec3 3) (ix2 0 k))
          (fun k j => V c (Pipeline.arrRef spec3 4) (ix2 k j)) (fun j => V c (Pipeline.arrRef spec3 5) (ix2 0 j)) n h := by
  rw [(dat3 V c).arrAt_eq_of_cover 6 (conv3 V c) (fun t _ => flushed3_eq V c t) (cover3)]
  rfl

end Array

end Cert.KernelIdeal.Hand

end
-- ==== Proof.FrameKernelIdeal.KernelHostPost.lean ====
/-
  The host operations after the second convolution region, read at an entry at the ideal values: the mean of each
  feature over the nodes (a sum down the columns from the zero word, divided by the word of 116), through the
  classifier's weights, plus its bias — over any contents the stretch starts from.
-/
import proofs.«143417_j3152505995417_1_alg».proof.Proof.Gen.KernelIdeal.Regions
import proofs.«143417_j3152505995417_1_alg».proof.Proof.Spec
import proofs.«143417_j3152505995417_1_alg».proof.Proof.LibHostDot
import proofs.«143417_j3152505995417_1_alg».proof.Proof.FrameKernelIdeal.KernelHostPre
import Idealize.ShloMosaic.Lib.IdealHost

noncomputable section

namespace Cert.KernelIdeal.Hand

open Cert.KernelIdeal Cert.KernelIdeal.Gen
open Idealize.ShloMosaic Idealize.ShloMosaic.TcCoe Idealize.ShloMosaic.ValueIdx
open scoped BigOperators

section Stretch
variable (U : Valuation τ sig (Elt Ideal))

/-- The sum down a column of the second convolution's output, from the zero word. -/
theorem colSum_apply (x : FVec Ideal S116x64 .f32) (h : Fin 64) :
    Host.reduceAdd (F := Ideal) x (constant (F := Ideal) S_ .f32 0x00000000#32) reducesTo_S116x64_S64_d0 h_S_ (ix1 h)
      = ∑ n : Fin 116, x (ix2 n h) := by
  refine (hostReduceAdd_apply x _ reducesTo_S116x64_S64_d0 h_S_ (ix1 h)).trans ?_
  refine (Ideal.hostReduceAdd_single reducesTo_S116x64_S64_d0 (by decide) x _ (ix1 h)).trans ?_
  refine (congrArg (· + _) (Ideal.ofBits_zero_f32)).trans ?_
  refine (zero_add _).trans ?_
  refine Finset.sum_congr rfl fun n _ => congrArg x ?_
  funext ax
  match ax with
  | ⟨0, _⟩ => rfl
  | ⟨1, _⟩ => rfl

/-- The classifier head of the pooled second convolution. -/
theorem head_after (o : Fin 4) :
    StableHlo.after (hostOps4 (F := Ideal)) U main_v63 (ix2 (0 : Fin 1) o)
      = Cert.Spec.head (Cert.Spec.pooled (fun n h => U main_v56 (ix2 n h))) (fun h o => U main_arg14 (ix2 h o))
          (fun o => U main_arg15 (ix1 o)) o := by
  have e : @Eq (S1x4.Idx → EReal) (StableHlo.after (hostOps4 (F := Ideal)) U main_v63)
      (addf (F := Ideal) (Host.dotGeneral (φ₁ := .f32) (φ₂ := .f32) dot_S1x64_S64x4_S1x4_1_0_0_1_n_n none
          (Host.divf (F := Ideal)
            (broadcastInDim S1x64 ![1] bcast_S64_S1x64_1
              (Host.reduceAdd (F := Ideal) (φ := .f32) (U main_v56) (constant (F := Ideal) S_ .f32 0x00000000#32) reducesTo_S116x64_S64_d0 h_S_))
            (broadcastInDim S1x64 ![] bcast_S_S1x64 (constant (F := Ideal) S_ .f32 0x42E80000#32)))
          (U main_arg14))
        (broadcastInDim S1x4 ![1] bcast_S4_S1x4_1 (U main_arg15))) := by
    dsimp only [hostOps4]; after_results <;> rfl
  refine (congrFun e (ix2 0 o)).trans ?_
  refine (addf_apply _ _ _).trans ?_
  unfold Cert.Spec.head
  refine congrArg₂ (· + ·) ?_ (broadcastInDim_vec_row_apply bcast_S4_S1x4_1 (U main_arg15) 0 o)
  refine (Cert.HostDot.dotGeneral_plain_apply (M := 1) (K := 64) (N := 4) none _ (U main_arg14) 0 o).trans ?_
  refine Finset.sum_congr rfl fun h _ => ?_
  refine congrArg (· * U main_arg14 (ix2 h o)) ?_
  unfold Cert.Spec.pooled Cert.Spec.nodeCount
  refine (hostDivf_apply _ _ _).trans ?_
  refine congrArg₂ Ideal.div ?_ ?_
  · refine (broadcastInDim_vec_row_apply bcast_S64_S1x64_1 _ 0 h).trans ?_
    exact colSum_apply (U main_v56) h
  · exact broadcastInDim_scalar_apply bcast_S_S1x64 _ (ix2 0 h)

end Stretch

end Cert.KernelIdeal.Hand

end
-- ==== Proof.KernelValue4.lean ====
import proofs.«143417_j3152505995417_1_alg».proof.Proof.KernelValue1
import proofs.«143417_j3152505995417_1_alg».proof.Proof.KernelValueAbbrevs
import proofs.«143417_j3152505995417_1_alg».proof.Proof.FrameKernelIdeal.Kept
import proofs.«143417_j3152505995417_1_alg».proof.Proof.FrameKernelIdeal.Region3Value
import proofs.«143417_j3152505995417_1_alg».proof.Proof.FrameKernelIdeal.KernelHostPost
import proofs.«143417_j3152505995417_1_alg».proof.Proof.EdgeAlgebra

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

/-! # The idealized kernel program's values: the second node convolution and the head -/

/-- An argument no item writes is as launched when region 3 has run. -/
theorem keep_arg (r : Ref sig .tc) (h0 : r ∉ hostOps0_W) (h1 : r ∉ hostOps0_1_W) (h2 : r ∉ hostOps0_2_W) (h4 : r ≠ main_v44)
    (h5 : r ∉ hostOps1_W) (h6 : r ∉ hostOps1_1_W) (h7 : r ∉ hostOps1_2_W) (h8 : r ∉ hostOps1_3_W) (h9 : r ∉ hostOps1_4_W)
    (h10 : r ≠ main_v51) (h11 : r ≠ main_v52) (h12 : r ∉ hostOps3_W) (h13 : r ∉ hostOps3_1_W) (h14 : r ∉ hostOps3_2_W) :
    U14 m c r = m ((c : Thread nD τ).loc r) :=
  (keep14 m c r h12 h13 h14).trans ((keep11 m c r h11).trans ((keep10 m c r h10).trans ((keep9 m c r h5 h6 h7 h8 h9).trans
    ((keep4 m c r h4).trans (keep3 m c r h0 h1 h2)))))

theorem u14_arg13 : U14 m c main_arg13 = m ((c : Thread nD τ).loc main_arg13) :=
  keep_arg m c main_arg13 (by decide) (by decide) (by decide) (by decide) (by decide) (by decide) (by decide) (by decide) (by decide) (by decide) (by decide) (by decide) (by decide) (by decide)
theorem u14_arg11 : U14 m c main_arg11 = m ((c : Thread nD τ).loc main_arg11) :=
  keep_arg m c main_arg11 (by decide) (by decide) (by decide) (by decide) (by decide) (by decide) (by decide) (by decide) (by decide) (by decide) (by decide) (by decide) (by decide) (by decide)
theorem u14_arg14 : U14 m c main_arg14 = m ((c : Thread nD τ).loc main_arg14) :=
  keep_arg m c main_arg14 (by decide) (by decide) (by decide) (by decide) (by decide) (by decide) (by decide) (by decide) (by decide) (by decide) (by decide) (by decide) (by decide) (by decide)
theorem u14_arg15 : U14 m c main_arg15 = m ((c : Thread nD τ).loc main_arg15) :=
  keep_arg m c main_arg15 (by decide) (by decide) (by decide) (by decide) (by decide) (by decide) (by decide) (by decide) (by decide) (by decide) (by decide) (by decide) (by decide) (by decide)
/-- The incidence matrix is as region 0 found it. -/
theorem u14_T (n : Fin 116) (e : Fin 6670) : U14 m c main_v35 (ix2 n e) = TK m c n e := by
  rw [keep14 m c main_v35 (by decide) (by decide) (by decide), keep11 m c main_v35 (by decide), keep10 m c main_v35 (by decide),
    keep9 m c main_v35 (by decide) (by decide) (by decide) (by decide) (by decide), keep4 m c main_v35 (by decide)]; rfl
/-- The second bias row. -/
theorem u14_b2 (j : Fin 64) : U14 m c main_v38 (ix2 (0 : Fin 1) j) = aB2 m c j := by
  rw [keep14 m c main_v38 (by decide) (by decide) (by decide), keep11 m c main_v38 (by decide), keep10 m c main_v38 (by decide),
    keep9 m c main_v38 (by decide) (by decide) (by decide) (by decide) (by decide), keep4 m c main_v38 (by decide), ← W3_eq]
  exact V3_main_v38 m c j

section Tail
variable (hv54 : ∀ (e : Fin 6670) (k : Fin 5), U14 m c main_v54 (ix2 e k) = e1S m c e k)
  (hv55 : ∀ (n : Fin 116) (h : Fin 64), U14 m c main_v55 (ix2 n h) = Cert.Spec.relu (x1S m c n h))
include hv54 hv55

/-- Region 3 leaves the second node convolution in `main_v56`. -/
theorem v56_eq (n : Fin 116) (h : Fin 64) :
    U15 m c main_v56 (ix2 n h)
      = Cert.Spec.nodeConv (TK m c) (fun n h => Cert.Spec.relu (x1S m c n h)) (e1S m c) (aW2 m c) (aB2 m c) (aP2 m c) n h := by
  rw [U15_def, upd_eq, final3 (X3 m) c n h, nodeConvK_eq_spec]
  have e0 : (fun a e => X3 m c (Pipeline.arrRef spec3 0) (ix2 a e)) = TK m c := by
    funext a e; exact u14_T m c a e
  have e1 : (fun e k => X3 m c (Pipeline.arrRef spec3 1) (ix2 e k)) = e1S m c := by
    funext e k; exact hv54 e k
  have e2 : (fun a k => X3 m c (Pipeline.arrRef spec3 2) (ix2 a k)) = fun n h => Cert.Spec.relu (x1S m c n h) := by
    funext a k; exact hv55 a k
  have e3 : (fun k => X3 m c (Pipeline.arrRef spec3 3) (ix2 (0 : Fin 1) k)) = aP2 m c := by
    funext k; show U14 m c main_arg13 (ix2 (0 : Fin 1) k) = _; rw [u14_arg13]
  have e4 : (fun k j => X3 m c (Pipeline.arrRef spec3 4) (ix2 k j)) = aW2 m c := by
    funext k j; show U14 m c main_arg11 (ix2 k j) = _; rw [u14_arg11]
  have e5 : (fun j => X3 m c (Pipeline.arrRef spec3 5) (ix2 (0 : Fin 1) j)) = aB2 m c := by
    funext j; exact u14_b2 m c j
  rw [e0, e1, e2, e3, e4, e5]

/-- The result array of the idealized kernel program is the specification's network of the arguments. -/
theorem kernel_result (o : Fin 4) :
    V16 m (outs m) c main_v63 (ix2 (0 : Fin 1) o)
      = Cert.Spec.net (TK m c) (aEnc m c) (aWenc m c) (aBenc m c) (aW1 m c) (aB1 m c) (aP1 m c) (aWe m c) (aBe m c) (aPe m c)
          (aW2 m c) (aB2 m c) (aP2 m c) (aWl m c) (aBl m c) (aEa m c) o := by
  rw [V16_eq, U16_def, head_after (U15 m c) o]
  have ey : (fun n h => U15 m c main_v56 (ix2 n h))
      = Cert.Spec.nodeConv (TK m c) (fun n h => Cert.Spec.relu (x1S m c n h)) (e1S m c) (aW2 m c) (aB2 m c) (aP2 m c) := by
    funext n h; exact v56_eq m c hv54 hv55 n h
  have ew : (fun h o => U15 m c main_arg14 (ix2 h o)) = aWl m c := by
    funext h o; rw [keep15 m c main_arg14 (by decide), u14_arg14]
  have eb : (fun o => U15 m c main_arg15 (ix1 o)) = aBl m c := by
    funext o; rw [keep15 m c main_arg15 (by decide), u14_arg15]
  rw [ey, ew, eb]; rfl

end Tail

end Cert.KernelIdeal.Hand

end
-- ==== Proof.FrameKernelIdeal.HostReads.lean ====
/-
  Host layout operations of the program's middle stretches, read at an entry given by coordinates, at the ideal values:
  the rectifier (a maximum with the broadcast zero word), a matrix padded with zero rows below or zero columns to the
  right (the pad value any scalar array holding zero), and the leading rows of a matrix cut off by a slice.
-/
import proofs.«143417_j3152505995417_1_alg».proof.Proof.Spec
import proofs.«143417_j3152505995417_1_alg».proof.Proof.EdgeAlgebra
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost

noncomputable section

namespace Cert.KernelIdeal.Hand

open Idealize.ShloMosaic Idealize.ShloMosaic.ValueIdx
open scoped BigOperators

/-- The maximum with the broadcast zero word is the rectifier, entry by entry. -/
theorem relu_apply {S : Shape} (hb : (⟨0, ![]⟩ : Shape).BroadcastsInDim S ![]) (x : FVec Ideal S .f32) (i : S.Idx) :
    maximumf x (broadcastInDim S ![] hb (constant (F := Ideal) ⟨0, ![]⟩ .f32 0x00000000#32)) i = Cert.Spec.relu (x i) := by
  refine (maximumf_apply _ _ _).trans ?_
  unfold Cert.Spec.relu
  refine congrArg (max (x i)) ?_
  exact (broadcastInDim_scalar_apply hb _ i).trans Ideal.ofBits_zero_f32

/-- The integer zero word converted to a float is zero. -/
theorem sitofp_zeroWord (i : (⟨0, ![]⟩ : Shape).Idx) :
    (sitofp (F := Ideal) .f32 (constantI ⟨0, ![]⟩ 32 0#32) : FVec Ideal ⟨0, ![]⟩ .f32) i = 0 := by
  show ((((0#32 : BitVec 32).toInt : ℝ)) : EReal) = 0
  simp

/-- A 6670 × 5 matrix with 498 rows of the pad value appended, the pad value zero. -/
theorem padRows_apply (x : (⟨2, ![6670, 5]⟩ : Shape).Idx → EReal) (v : (⟨0, ![]⟩ : Shape).Idx → EReal)
    (hp : (⟨2, ![6670, 5]⟩ : Shape).Pads (![0, 0] : Fin 2 → Nat) ![498, 0] ![0, 0] ⟨2, ![7168, 5]⟩)
    (hu : 0 < (⟨0, ![]⟩ : Shape).numel) (hv : ∀ i, v i = 0) (b : Fin 7168) (j : Fin 5) :
    pad ⟨2, ![7168, 5]⟩ ![0, 0] ![498, 0] ![0, 0] x v hp hu (ix2 b j)
      = Cert.EdgeAlgebra.padRows (fun e j => x (ix2 e j)) b j := by
  unfold Cert.EdgeAlgebra.padRows
  by_cases hb : b.val < 6670
  · rw [dif_pos hb]
    refine pad_apply_of_inside ![0, 0] ![498, 0] ![0, 0] x v hp hu (ix2 b j) (ix2 ⟨b.val, hb⟩ j) ?_
    intro a
    match a with
    | ⟨0, _⟩ => show b.val = 0 + b.val * (0 + 1); omega
    | ⟨1, _⟩ => show j.val = 0 + j.val * (0 + 1); omega
  · rw [dif_neg hb]
    refine (pad_apply_of_not_inside ![0, 0] ![498, 0] ![0, 0] x v hp hu (ix2 b j) (0 : Fin 2) ?_).trans (hv _)
    rintro ⟨-, -, h3⟩
    have h3' : (b.val - 0) / (0 + 1) < 6670 := h3
    omega

/-- A 116 × 6670 matrix with 498 columns of the pad value appended, the pad value zero. -/
theorem padCols_apply (x : (⟨2, ![116, 6670]⟩ : Shape).Idx → EReal) (v : (⟨0, ![]⟩ : Shape).Idx → EReal)
    (hp : (⟨2, ![116, 6670]⟩ : Shape).Pads (![0, 0] : Fin 2 → Nat) ![0, 498] ![0, 0] ⟨2, ![116, 7168]⟩)
    (hu : 0 < (⟨0, ![]⟩ : Shape).numel) (hv : ∀ i, v i = 0) (n : Fin 116) (e : Fin 7168) :
    pad ⟨2, ![116, 7168]⟩ ![0, 0] ![0, 498] ![0, 0] x v hp hu (ix2 n e)
      = Cert.EdgeAlgebra.pad (fun a e' => x (ix2 a e')) n e := by
  unfold Cert.EdgeAlgebra.pad
  by_cases he : e.val < 6670
  · rw [dif_pos he]
    refine pad_apply_of_inside ![0, 0] ![0, 498] ![0, 0] x v hp hu (ix2 n e) (ix2 n ⟨e.val, he⟩) ?_
    intro a
    match a with
    | ⟨0, _⟩ => show n.val = 0 + n.val * (0 + 1); omega
    | ⟨1, _⟩ => show e.val = 0 + e.val * (0 + 1); omega
  · rw [dif_neg he]
    refine (pad_apply_of_not_inside ![0, 0] ![0, 498] ![0, 0] x v hp hu (ix2 n e) (1 : Fin 2) ?_).trans (hv _)
    rintro ⟨-, -, h3⟩
    have h3' : (e.val - 0) / (0 + 1) < 6670 := h3
    omega

/-- The first 6670 rows of a 7168 × 5 matrix. -/
theorem sliceRows_apply {α : Type} (x : (⟨2, ![7168, 5]⟩ : Shape).Idx → α)
    (h : (⟨2, ![7168, 5]⟩ : Shape).Slices ![0, 0] ⟨2, ![6670, 5]⟩) (e : Fin 6670) (k : Fin 5) :
    extractStridedSlice ⟨2, ![6670, 5]⟩ ![0, 0] x h (ix2 e k) = x (ix2 (Cert.EdgeAlgebra.up e) k) := by
  refine extractStridedSlice_apply ![0, 0] x h (ix2 e k) (ix2 (Cert.EdgeAlgebra.up e) k) ?_
  intro a
  match a with
  | ⟨0, _⟩ => show e.val = 0 + e.val; omega
  | ⟨1, _⟩ => show k.val = 0 + k.val; omega

end Cert.KernelIdeal.Hand

end
-- ==== Proof.FrameKernelIdeal.KernelHostMid1.lean ====
/-
  The host operations between the first convolution region and the edge convolution's two regions, read at an entry
  at the ideal values, over any contents the stretches start from: the rectified node features, their projection to one
  scalar per node, and the rectified edge features, padded with zero rows, through the edge weights.
-/
import proofs.«143417_j3152505995417_1_alg».proof.Proof.Gen.KernelIdeal.Regions
import proofs.«143417_j3152505995417_1_alg».proof.Proof.Spec
import proofs.«143417_j3152505995417_1_alg».proof.Proof.EdgeAlgebra
import proofs.«143417_j3152505995417_1_alg».proof.Proof.LibHostDot
import proofs.«143417_j3152505995417_1_alg».proof.Proof.FrameKernelIdeal.HostReads

noncomputable section

namespace Cert.KernelIdeal.Hand

open Cert.KernelIdeal Cert.KernelIdeal.Gen
open Idealize.ShloMosaic Idealize.ShloMosaic.TcCoe Idealize.ShloMosaic.ValueIdx
open scoped BigOperators

/-! ## What a stretch does not write it leaves -/

theorem keep1 (X : Valuation τ sig (Elt Ideal)) (r : Ref sig .tc) (h : r ∉ hostOps1_W) :
    StableHlo.after (hostOps1 (F := Ideal)) X r = X r :=
  StableHlo.after_of_writes_sub hostOps1 X hostOps1_writes h
theorem keep1_1 (X : Valuation τ sig (Elt Ideal)) (r : Ref sig .tc) (h : r ∉ hostOps1_1_W) :
    StableHlo.after (hostOps1_1 (F := Ideal)) X r = X r :=
  StableHlo.after_of_writes_sub hostOps1_1 X hostOps1_1_writes h
theorem keep1_2 (X : Valuation τ sig (Elt Ideal)) (r : Ref sig .tc) (h : r ∉ hostOps1_2_W) :
    StableHlo.after (hostOps1_2 (F := Ideal)) X r = X r :=
  StableHlo.after_of_writes_sub hostOps1_2 X hostOps1_2_writes h
theorem keep1_3 (X : Valuation τ sig (Elt Ideal)) (r : Ref sig .tc) (h : r ∉ hostOps1_3_W) :
    StableHlo.after (hostOps1_3 (F := Ideal)) X r = X r :=
  StableHlo.after_of_writes_sub hostOps1_3 X hostOps1_3_writes h
theorem keep1_4 (X : Valuation τ sig (Elt Ideal)) (r : Ref sig .tc) (h : r ∉ hostOps1_4_W) :
    StableHlo.after (hostOps1_4 (F := Ideal)) X r = X r :=
  StableHlo.after_of_writes_sub hostOps1_4 X hostOps1_4_writes h

/-! ## Each stretch over any contents `X` it starts from -/

section Stretches
variable (X : Valuation τ sig (Elt Ideal))

/-- The rectified node features. -/
theorem relu1_after (n : Fin 116) (h : Fin 64) :
    StableHlo.after (hostOps1 (F := Ideal)) X main_v45 (ix2 n h) = Cert.Spec.relu (X main_v44 (ix2 n h)) := by
  have e : @Eq (S116x64.Idx → EReal) (StableHlo.after (hostOps1 (F := Ideal)) X main_v45)
      (maximumf (F := Ideal) (X main_v44) (broadcastInDim S116x64 ![] bcast_S_S116x64 (constant (F := Ideal) S_ .f32 0x00000000#32))) := by
    dsimp only [hostOps1]; after_results <;> rfl
  exact (congrFun e (ix2 n h)).trans (relu_apply bcast_S_S116x64 (X main_v44) (ix2 n h))

/-- The rectified edge features. -/
theorem relu2_after (e' : Fin 6670) (j : Fin 5) :
    StableHlo.after (hostOps1_1 (F := Ideal)) X main_v46 (ix2 e' j) = Cert.Spec.relu (X main_arg1 (ix2 e' j)) := by
  have e : @Eq (S6670x5.Idx → EReal) (StableHlo.after (hostOps1_1 (F := Ideal)) X main_v46)
      (maximumf (F := Ideal) (X main_arg1) (broadcastInDim S6670x5 ![] bcast_S_S6670x5 (constant (F := Ideal) S_ .f32 0x00000000#32))) := by
    dsimp only [hostOps1_1]; after_results <;> rfl
  exact (congrFun e (ix2 e' j)).trans (relu_apply bcast_S_S6670x5 (X main_arg1) (ix2 e' j))

/-- One scalar per node: the node features against the transposed projection row. -/
theorem proj_eq : @Eq (S116x1.Idx → EReal) (StableHlo.after (hostOps1_2 (F := Ideal)) X main_v48)
    (Host.dotGeneral (F := Ideal) (φ₁ := .f32) (φ₂ := .f32) dot_S116x64_S64x1_S116x1_1_0_0_1_n_n none (X main_v45)
      (transpose S64x1 [1, 0] (X main_arg10) transposes_S1x64_S64x1_1_0)) := by
  dsimp only [hostOps1_2]; after_results <;> rfl

/-- The integer zero word the padding converts. -/
theorem zeroWord_after : @Eq (S_.Idx → BitVec 32) (StableHlo.after (hostOps1_2 (F := Ideal)) X main_c_10) (constantI S_ 32 0#32) := by
  dsimp only [hostOps1_2]; after_results <;> rfl

/-- The edge features with zero rows appended, when the word the padding converts is zero. -/
theorem padRows_after (hX : @Eq (S_.Idx → BitVec 32) (X main_c_10) (constantI S_ 32 0#32)) (b : Fin 7168) (j : Fin 5) :
    StableHlo.after (hostOps1_3 (F := Ideal)) X main_v49 (ix2 b j) = Cert.EdgeAlgebra.padRows (fun e j => X main_v46 (ix2 e j)) b j := by
  have e : @Eq (S7168x5.Idx → EReal) (StableHlo.after (hostOps1_3 (F := Ideal)) X main_v49)
      (pad S7168x5 ![0, 0] ![498, 0] ![0, 0] (X main_v46) (sitofp (F := Ideal) .f32 (X main_c_10)) pads_S6670x5_S7168x5_04980_000 h_S_) := by
    dsimp only [hostOps1_3]; after_results <;> rfl
  refine (congrFun e (ix2 b j)).trans ?_
  refine padRows_apply (X main_v46) _ pads_S6670x5_S7168x5_04980_000 h_S_ (fun i => ?_) b j
  rw [hX]; exact sitofp_zeroWord i

/-- The padded edge features through the edge weights. -/
theorem edgeFeat_eq : @Eq (S7168x5.Idx → EReal) (StableHlo.after (hostOps1_4 (F := Ideal)) X main_v50)
    (Host.dotGeneral (F := Ideal) (φ₁ := .f32) (φ₂ := .f32) dot_S7168x5_S5x5_S7168x5_1_0_0_1_n_n none (X main_v49) (X main_arg8)) := by
  dsimp only [hostOps1_4]; after_results <;> rfl

end Stretches

/-! ## The five stretches in a row, over the contents `U` the first convolution region leaves -/

section Composite
variable (U : Valuation τ sig (Elt Ideal))

/-- What none of the five stretches writes is as the region left it. -/
theorem mid1_main_v35 : StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (U))))) main_v35 = U main_v35 :=
  (keep1_4 (StableHlo.after (hostOps1_3 (F := Ideal)) (StableHlo.after (hostOps1_2 (F := Ideal)) (StableHlo.after (hostOps1_1 (F := Ideal)) (StableHlo.after (hostOps1 (F := Ideal)) (U))))) main_v35 (by decide)).trans <| (keep1_3 (StableHlo.after (hostOps1_2 (F := Ideal)) (StableHlo.after (hostOps1_1 (F := Ideal)) (StableHlo.after (hostOps1 (F := Ideal)) (U)))) main_v35 (by decide)).trans <| (keep1_2 (StableHlo.after (hostOps1_1 (F := Ideal)) (StableHlo.after (hostOps1 (F := Ideal)) (U))) main_v35 (by decide)).trans <| (keep1_1 (StableHlo.after (hostOps1 (F := Ideal)) (U)) main_v35 (by decide)).trans <| keep1 U main_v35 (by decide)
theorem mid1_main_v36 : StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (U))))) main_v36 = U main_v36 :=
  (keep1_4 (StableHlo.after (hostOps1_3 (F := Ideal)) (StableHlo.after (hostOps1_2 (F := Ideal)) (StableHlo.after (hostOps1_1 (F := Ideal)) (StableHlo.after (hostOps1 (F := Ideal)) (U))))) main_v36 (by decide)).trans <| (keep1_3 (StableHlo.after (hostOps1_2 (F := Ideal)) (StableHlo.after (hostOps1_1 (F := Ideal)) (StableHlo.after (hostOps1 (F := Ideal)) (U)))) main_v36 (by decide)).trans <| (keep1_2 (StableHlo.after (hostOps1_1 (F := Ideal)) (StableHlo.after (hostOps1 (F := Ideal)) (U))) main_v36 (by decide)).trans <| (keep1_1 (StableHlo.after (hostOps1 (F := Ideal)) (U)) main_v36 (by decide)).trans <| keep1 U main_v36 (by decide)
theorem mid1_main_v39 : StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (U))))) main_v39 = U main_v39 :=
  (keep1_4 (StableHlo.after (hostOps1_3 (F := Ideal)) (StableHlo.after (hostOps1_2 (F := Ideal)) (StableHlo.after (hostOps1_1 (F := Ideal)) (StableHlo.after (hostOps1 (F := Ideal)) (U))))) main_v39 (by decide)).trans <| (keep1_3 (StableHlo.after (hostOps1_2 (F := Ideal)) (StableHlo.after (hostOps1_1 (F := Ideal)) (StableHlo.after (hostOps1 (F := Ideal)) (U)))) main_v39 (by decide)).trans <| (keep1_2 (StableHlo.after (hostOps1_1 (F := Ideal)) (StableHlo.after (hostOps1 (F := Ideal)) (U))) main_v39 (by decide)).trans <| (keep1_1 (StableHlo.after (hostOps1 (F := Ideal)) (U)) main_v39 (by decide)).trans <| keep1 U main_v39 (by decide)
theorem mid1_main_v38 : StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (U))))) main_v38 = U main_v38 :=
  (keep1_4 (StableHlo.after (hostOps1_3 (F := Ideal)) (StableHlo.after (hostOps1_2 (F := Ideal)) (StableHlo.after (hostOps1_1 (F := Ideal)) (StableHlo.after (hostOps1 (F := Ideal)) (U))))) main_v38 (by decide)).trans <| (keep1_3 (StableHlo.after (hostOps1_2 (F := Ideal)) (StableHlo.after (hostOps1_1 (F := Ideal)) (StableHlo.after (hostOps1 (F := Ideal)) (U)))) main_v38 (by decide)).trans <| (keep1_2 (StableHlo.after (hostOps1_1 (F := Ideal)) (StableHlo.after (hostOps1 (F := Ideal)) (U))) main_v38 (by decide)).trans <| (keep1_1 (StableHlo.after (hostOps1 (F := Ideal)) (U)) main_v38 (by decide)).trans <| keep1 U main_v38 (by decide)
theorem mid1_main_v37 : StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (U))))) main_v37 = U main_v37 :=
  (keep1_4 (StableHlo.after (hostOps1_3 (F := Ideal)) (StableHlo.after (hostOps1_2 (F := Ideal)) (StableHlo.after (hostOps1_1 (F := Ideal)) (StableHlo.after (hostOps1 (F := Ideal)) (U))))) main_v37 (by decide)).trans <| (keep1_3 (StableHlo.after (hostOps1_2 (F := Ideal)) (StableHlo.after (hostOps1_1 (F := Ideal)) (StableHlo.after (hostOps1 (F := Ideal)) (U)))) main_v37 (by decide)).trans <| (keep1_2 (StableHlo.after (hostOps1_1 (F := Ideal)) (StableHlo.after (hostOps1 (F := Ideal)) (U))) main_v37 (by decide)).trans <| (keep1_1 (StableHlo.after (hostOps1 (F := Ideal)) (U)) main_v37 (by decide)).trans <| keep1 U main_v37 (by decide)
theorem mid1_main_v44 : StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (U))))) main_v44 = U main_v44 :=
  (keep1_4 (StableHlo.after (hostOps1_3 (F := Ideal)) (StableHlo.after (hostOps1_2 (F := Ideal)) (StableHlo.after (hostOps1_1 (F := Ideal)) (StableHlo.after (hostOps1 (F := Ideal)) (U))))) main_v44 (by decide)).trans <| (keep1_3 (StableHlo.after (hostOps1_2 (F := Ideal)) (StableHlo.after (hostOps1_1 (F := Ideal)) (StableHlo.after (hostOps1 (F := Ideal)) (U)))) main_v44 (by decide)).trans <| (keep1_2 (StableHlo.after (hostOps1_1 (F := Ideal)) (StableHlo.after (hostOps1 (F := Ideal)) (U))) main_v44 (by decide)).trans <| (keep1_1 (StableHlo.after (hostOps1 (F := Ideal)) (U)) main_v44 (by decide)).trans <| keep1 U main_v44 (by decide)
theorem mid1_main_arg13 : StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (U))))) main_arg13 = U main_arg13 :=
  (keep1_4 (StableHlo.after (hostOps1_3 (F := Ideal)) (StableHlo.after (hostOps1_2 (F := Ideal)) (StableHlo.after (hostOps1_1 (F := Ideal)) (StableHlo.after (hostOps1 (F := Ideal)) (U))))) main_arg13 (by decide)).trans <| (keep1_3 (StableHlo.after (hostOps1_2 (F := Ideal)) (StableHlo.after (hostOps1_1 (F := Ideal)) (StableHlo.after (hostOps1 (F := Ideal)) (U)))) main_arg13 (by decide)).trans <| (keep1_2 (StableHlo.after (hostOps1_1 (F := Ideal)) (StableHlo.after (hostOps1 (F := Ideal)) (U))) main_arg13 (by decide)).trans <| (keep1_1 (StableHlo.after (hostOps1 (F := Ideal)) (U)) main_arg13 (by decide)).trans <| keep1 U main_arg13 (by decide)
theorem mid1_main_arg11 : StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (U))))) main_arg11 = U main_arg11 :=
  (keep1_4 (StableHlo.after (hostOps1_3 (F := Ideal)) (StableHlo.after (hostOps1_2 (F := Ideal)) (StableHlo.after (hostOps1_1 (F := Ideal)) (StableHlo.after (hostOps1 (F := Ideal)) (U))))) main_arg11 (by decide)).trans <| (keep1_3 (StableHlo.after (hostOps1_2 (F := Ideal)) (StableHlo.after (hostOps1_1 (F := Ideal)) (StableHlo.after (hostOps1 (F := Ideal)) (U)))) main_arg11 (by decide)).trans <| (keep1_2 (StableHlo.after (hostOps1_1 (F := Ideal)) (StableHlo.after (hostOps1 (F := Ideal)) (U))) main_arg11 (by decide)).trans <| (keep1_1 (StableHlo.after (hostOps1 (F := Ideal)) (U)) main_arg11 (by decide)).trans <| keep1 U main_arg11 (by decide)
theorem mid1_main_arg14 : StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (U))))) main_arg14 = U main_arg14 :=
  (keep1_4 (StableHlo.after (hostOps1_3 (F := Ideal)) (StableHlo.after (hostOps1_2 (F := Ideal)) (StableHlo.after (hostOps1_1 (F := Ideal)) (StableHlo.after (hostOps1 (F := Ideal)) (U))))) main_arg14 (by decide)).trans <| (keep1_3 (StableHlo.after (hostOps1_2 (F := Ideal)) (StableHlo.after (hostOps1_1 (F := Ideal)) (StableHlo.after (hostOps1 (F := Ideal)) (U)))) main_arg14 (by decide)).trans <| (keep1_2 (StableHlo.after (hostOps1_1 (F := Ideal)) (StableHlo.after (hostOps1 (F := Ideal)) (U))) main_arg14 (by decide)).trans <| (keep1_1 (StableHlo.after (hostOps1 (F := Ideal)) (U)) main_arg14 (by decide)).trans <| keep1 U main_arg14 (by decide)
theorem mid1_main_arg15 : StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (U))))) main_arg15 = U main_arg15 :=
  (keep1_4 (StableHlo.after (hostOps1_3 (F := Ideal)) (StableHlo.after (hostOps1_2 (F := Ideal)) (StableHlo.after (hostOps1_1 (F := Ideal)) (StableHlo.after (hostOps1 (F := Ideal)) (U))))) main_arg15 (by decide)).trans <| (keep1_3 (StableHlo.after (hostOps1_2 (F := Ideal)) (StableHlo.after (hostOps1_1 (F := Ideal)) (StableHlo.after (hostOps1 (F := Ideal)) (U)))) main_arg15 (by decide)).trans <| (keep1_2 (StableHlo.after (hostOps1_1 (F := Ideal)) (StableHlo.after (hostOps1 (F := Ideal)) (U))) main_arg15 (by decide)).trans <| (keep1_1 (StableHlo.after (hostOps1 (F := Ideal)) (U)) main_arg15 (by decide)).trans <| keep1 U main_arg15 (by decide)
theorem mid1_main_arg10 : StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (U))))) main_arg10 = U main_arg10 :=
  (keep1_4 (StableHlo.after (hostOps1_3 (F := Ideal)) (StableHlo.after (hostOps1_2 (F := Ideal)) (StableHlo.after (hostOps1_1 (F := Ideal)) (StableHlo.after (hostOps1 (F := Ideal)) (U))))) main_arg10 (by decide)).trans <| (keep1_3 (StableHlo.after (hostOps1_2 (F := Ideal)) (StableHlo.after (hostOps1_1 (F := Ideal)) (StableHlo.after (hostOps1 (F := Ideal)) (U)))) main_arg10 (by decide)).trans <| (keep1_2 (StableHlo.after (hostOps1_1 (F := Ideal)) (StableHlo.after (hostOps1 (F := Ideal)) (U))) main_arg10 (by decide)).trans <| (keep1_1 (StableHlo.after (hostOps1 (F := Ideal)) (U)) main_arg10 (by decide)).trans <| keep1 U main_arg10 (by decide)
theorem mid1_main_arg8 : StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (U))))) main_arg8 = U main_arg8 :=
  (keep1_4 (StableHlo.after (hostOps1_3 (F := Ideal)) (StableHlo.after (hostOps1_2 (F := Ideal)) (StableHlo.after (hostOps1_1 (F := Ideal)) (StableHlo.after (hostOps1 (F := Ideal)) (U))))) main_arg8 (by decide)).trans <| (keep1_3 (StableHlo.after (hostOps1_2 (F := Ideal)) (StableHlo.after (hostOps1_1 (F := Ideal)) (StableHlo.after (hostOps1 (F := Ideal)) (U)))) main_arg8 (by decide)).trans <| (keep1_2 (StableHlo.after (hostOps1_1 (F := Ideal)) (StableHlo.after (hostOps1 (F := Ideal)) (U))) main_arg8 (by decide)).trans <| (keep1_1 (StableHlo.after (hostOps1 (F := Ideal)) (U)) main_arg8 (by decide)).trans <| keep1 U main_arg8 (by decide)
theorem mid1_main_arg1 : StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (U))))) main_arg1 = U main_arg1 :=
  (keep1_4 (StableHlo.after (hostOps1_3 (F := Ideal)) (StableHlo.after (hostOps1_2 (F := Ideal)) (StableHlo.after (hostOps1_1 (F := Ideal)) (StableHlo.after (hostOps1 (F := Ideal)) (U))))) main_arg1 (by decide)).trans <| (keep1_3 (StableHlo.after (hostOps1_2 (F := Ideal)) (StableHlo.after (hostOps1_1 (F := Ideal)) (StableHlo.after (hostOps1 (F := Ideal)) (U)))) main_arg1 (by decide)).trans <| (keep1_2 (StableHlo.after (hostOps1_1 (F := Ideal)) (StableHlo.after (hostOps1 (F := Ideal)) (U))) main_arg1 (by decide)).trans <| (keep1_1 (StableHlo.after (hostOps1 (F := Ideal)) (U)) main_arg1 (by decide)).trans <| keep1 U main_arg1 (by decide)

/-- The rectified node features. -/
theorem mid1_main_v45 (n : Fin 116) (h : Fin 64) :
    StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (U))))) main_v45 (ix2 n h) = Cert.Spec.relu (U main_v44 (ix2 n h)) := by
  have e : @Eq (S116x64.Idx → EReal) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (U))))) main_v45) (StableHlo.after (hostOps1 (F := Ideal)) U main_v45) :=
    (keep1_4 (StableHlo.after (hostOps1_3 (F := Ideal)) (StableHlo.after (hostOps1_2 (F := Ideal)) (StableHlo.after (hostOps1_1 (F := Ideal)) (StableHlo.after (hostOps1 (F := Ideal)) (U))))) main_v45 (by decide)).trans <| (keep1_3 (StableHlo.after (hostOps1_2 (F := Ideal)) (StableHlo.after (hostOps1_1 (F := Ideal)) (StableHlo.after (hostOps1 (F := Ideal)) (U)))) main_v45 (by decide)).trans <| (keep1_2 (StableHlo.after (hostOps1_1 (F := Ideal)) (StableHlo.after (hostOps1 (F := Ideal)) (U))) main_v45 (by decide)).trans <| keep1_1 (StableHlo.after (hostOps1 (F := Ideal)) (U)) main_v45 (by decide)
  exact (congrFun e (ix2 n h)).trans (relu1_after U n h)

/-- One scalar per node: the rectified node features against the projection. -/
theorem mid1_main_v48 (n : Fin 116) :
    StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (U))))) main_v48 (ix2 n (0 : Fin 1))
      = ∑ k : Fin 64, Cert.Spec.relu (U main_v44 (ix2 n k)) * U main_arg10 (ix2 (0 : Fin 1) k) := by
  have e : @Eq (S116x1.Idx → EReal) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (U))))) main_v48) (StableHlo.after (hostOps1_2 (F := Ideal)) (StableHlo.after (hostOps1_1 (F := Ideal)) (StableHlo.after (hostOps1 (F := Ideal)) (U))) main_v48) :=
    (keep1_4 (StableHlo.after (hostOps1_3 (F := Ideal)) (StableHlo.after (hostOps1_2 (F := Ideal)) (StableHlo.after (hostOps1_1 (F := Ideal)) (StableHlo.after (hostOps1 (F := Ideal)) (U))))) main_v48 (by decide)).trans <| keep1_3 (StableHlo.after (hostOps1_2 (F := Ideal)) (StableHlo.after (hostOps1_1 (F := Ideal)) (StableHlo.after (hostOps1 (F := Ideal)) (U)))) main_v48 (by decide)
  refine (congrFun e (ix2 n 0)).trans ?_
  refine (congrFun (proj_eq (StableHlo.after (hostOps1_1 (F := Ideal)) (StableHlo.after (hostOps1 (F := Ideal)) (U)))) (ix2 n 0)).trans ?_
  refine (Cert.HostDot.dotGeneral_plain_apply (M := 116) (K := 64) (N := 1) (φ₁ := .f32) (φ₂ := .f32) none (StableHlo.after (hostOps1_1 (F := Ideal)) (StableHlo.after (hostOps1 (F := Ideal)) (U)) main_v45) _ n 0).trans ?_
  have e45 : @Eq (S116x64.Idx → EReal) (StableHlo.after (hostOps1_1 (F := Ideal)) (StableHlo.after (hostOps1 (F := Ideal)) (U)) main_v45) (StableHlo.after (hostOps1 (F := Ideal)) U main_v45) :=
    keep1_1 (StableHlo.after (hostOps1 (F := Ideal)) (U)) main_v45 (by decide)
  have e10 : @Eq (S1x64.Idx → EReal) (StableHlo.after (hostOps1_1 (F := Ideal)) (StableHlo.after (hostOps1 (F := Ideal)) (U)) main_arg10) (U main_arg10) :=
    (keep1_1 (StableHlo.after (hostOps1 (F := Ideal)) (U)) main_arg10 (by decide)).trans <| keep1 U main_arg10 (by decide)
  refine Finset.sum_congr rfl fun k _ => ?_
  refine congrArg₂ (· * ·) ?_ ?_
  · exact (congrFun e45 (ix2 n k)).trans (relu1_after U n k)
  · exact (transpose_ix2_apply (StableHlo.after (hostOps1_1 (F := Ideal)) (StableHlo.after (hostOps1 (F := Ideal)) (U)) main_arg10) transposes_S1x64_S64x1_1_0 k 0).trans (congrFun e10 (ix2 0 k))

/-- The rectified edge features, padded with zero rows, through the edge weights. -/
theorem mid1_main_v50 (b : Fin 7168) (k : Fin 5) :
    StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (U))))) main_v50 (ix2 b k)
      = ∑ j : Fin 5, Cert.EdgeAlgebra.padRows (fun e j => Cert.Spec.relu (U main_arg1 (ix2 e j))) b j * U main_arg8 (ix2 j k) := by
  refine (congrFun (edgeFeat_eq (StableHlo.after (hostOps1_3 (F := Ideal)) (StableHlo.after (hostOps1_2 (F := Ideal)) (StableHlo.after (hostOps1_1 (F := Ideal)) (StableHlo.after (hostOps1 (F := Ideal)) (U)))))) (ix2 b k)).trans ?_
  refine (Cert.HostDot.dotGeneral_plain_apply (M := 7168) (K := 5) (N := 5) (φ₁ := .f32) (φ₂ := .f32) none (StableHlo.after (hostOps1_3 (F := Ideal)) (StableHlo.after (hostOps1_2 (F := Ideal)) (StableHlo.after (hostOps1_1 (F := Ideal)) (StableHlo.after (hostOps1 (F := Ideal)) (U)))) main_v49) (StableHlo.after (hostOps1_3 (F := Ideal)) (StableHlo.after (hostOps1_2 (F := Ideal)) (StableHlo.after (hostOps1_1 (F := Ideal)) (StableHlo.after (hostOps1 (F := Ideal)) (U)))) main_arg8) b k).trans ?_
  have e8 : @Eq (S5x5.Idx → EReal) (StableHlo.after (hostOps1_3 (F := Ideal)) (StableHlo.after (hostOps1_2 (F := Ideal)) (StableHlo.after (hostOps1_1 (F := Ideal)) (StableHlo.after (hostOps1 (F := Ideal)) (U)))) main_arg8) (U main_arg8) :=
    (keep1_3 (StableHlo.after (hostOps1_2 (F := Ideal)) (StableHlo.after (hostOps1_1 (F := Ideal)) (StableHlo.after (hostOps1 (F := Ideal)) (U)))) main_arg8 (by decide)).trans <| (keep1_2 (StableHlo.after (hostOps1_1 (F := Ideal)) (StableHlo.after (hostOps1 (F := Ideal)) (U))) main_arg8 (by decide)).trans <| (keep1_1 (StableHlo.after (hostOps1 (F := Ideal)) (U)) main_arg8 (by decide)).trans <| keep1 U main_arg8 (by decide)
  have e46 : @Eq (S6670x5.Idx → EReal) (StableHlo.after (hostOps1_2 (F := Ideal)) (StableHlo.after (hostOps1_1 (F := Ideal)) (StableHlo.after (hostOps1 (F := Ideal)) (U))) main_v46) (StableHlo.after (hostOps1_1 (F := Ideal)) (StableHlo.after (hostOps1 (F := Ideal)) (U)) main_v46) :=
    keep1_2 (StableHlo.after (hostOps1_1 (F := Ideal)) (StableHlo.after (hostOps1 (F := Ideal)) (U))) main_v46 (by decide)
  have e1 : @Eq (S6670x5.Idx → EReal) (StableHlo.after (hostOps1 (F := Ideal)) (U) main_arg1) (U main_arg1) :=
    keep1 U main_arg1 (by decide)
  refine Finset.sum_congr rfl fun j _ => ?_
  refine congrArg₂ (· * ·) ?_ (congrFun e8 (ix2 j k))
  refine (padRows_after (StableHlo.after (hostOps1_2 (F := Ideal)) (StableHlo.after (hostOps1_1 (F := Ideal)) (StableHlo.after (hostOps1 (F := Ideal)) (U)))) (zeroWord_after (StableHlo.after (hostOps1_1 (F := Ideal)) (StableHlo.after (hostOps1 (F := Ideal)) (U)))) b j).trans ?_
  refine congrArg (fun f => Cert.EdgeAlgebra.padRows f b j) ?_
  funext e' j'
  refine (congrFun e46 (ix2 e' j')).trans ?_
  refine (relu2_after (StableHlo.after (hostOps1 (F := Ideal)) (U)) e' j').trans ?_
  exact congrArg Cert.Spec.relu (congrFun e1 (ix2 e' j'))

end Composite

end Cert.KernelIdeal.Hand

end
-- ==== Proof.FrameKernelIdeal.KernelHostPad.lean ====
/-
  The incidence matrix padded with zero columns, as the first convolution region's entry contents hold it, read at an
  entry at the ideal values; the incidence matrix itself is never opened.
-/
import proofs.«143417_j3152505995417_1_alg».proof.Proof.Gen.KernelIdeal.Regions
import proofs.«143417_j3152505995417_1_alg».proof.Proof.EdgeAlgebra
import proofs.«143417_j3152505995417_1_alg».proof.Proof.FrameKernelIdeal.HostReads

noncomputable section

namespace Cert.KernelIdeal.Hand

open Cert.KernelIdeal Cert.KernelIdeal.Gen
open Idealize.ShloMosaic Idealize.ShloMosaic.TcCoe Idealize.ShloMosaic.ValueIdx
open scoped BigOperators

/-- The padding stretch over any contents `X` it starts from, when the word the padding converts is zero. -/
theorem padCols_after (X : Valuation τ sig (Elt Ideal)) (hX : @Eq (S_.Idx → BitVec 32) (X main_c_9) (constantI S_ 32 0#32))
    (n : Fin 116) (e' : Fin 7168) :
    StableHlo.after (hostOps0_1 (F := Ideal)) X main_v36 (ix2 n e') = Cert.EdgeAlgebra.pad (fun a b => X main_v35 (ix2 a b)) n e' := by
  have e : @Eq (S116x7168.Idx → EReal) (StableHlo.after (hostOps0_1 (F := Ideal)) X main_v36)
      (pad S116x7168 ![0, 0] ![0, 498] ![0, 0] (X main_v35) (sitofp (F := Ideal) .f32 (X main_c_9)) pads_S116x6670_S116x7168_000_04980 h_S_) := by
    dsimp only [hostOps0_1]; after_results <;> rfl
  refine (congrFun e (ix2 n e')).trans ?_
  refine padCols_apply (X main_v35) _ pads_S116x6670_S116x7168_000_04980 h_S_ (fun i => ?_) n e'
  rw [hX]; exact sitofp_zeroWord i

section Entry
variable (m : (ℓ : Loc nD τ sig) → Buf (Elt Ideal) ℓ) (c : Dev nD)

set_option maxHeartbeats 1000000 in
/-- The first stretch ends by writing the integer zero word the padding converts. -/
theorem V1_main_c_9 : @Eq (S_.Idx → BitVec 32) (Gen.V1 m c main_c_9) (constantI S_ 32 0#32) := by
  dsimp only [Gen.V1, hostOps0]; after_results <;> rfl

/-- The padded incidence matrix at the region's entry. -/
theorem V3_main_v36 (n : Fin 116) (e' : Fin 7168) :
    Gen.V3 m c main_v36 (ix2 n e') = Cert.EdgeAlgebra.pad (fun a b => Gen.V3 m c main_v35 (ix2 a b)) n e' := by
  have e36 : @Eq (S116x7168.Idx → EReal) (Gen.V3 m c main_v36) (Gen.V2 m c main_v36) := V3_of m c main_v36 (by decide)
  have e35 : @Eq (S116x6670.Idx → EReal) (Gen.V3 m c main_v35) (Gen.V1 m c main_v35) :=
    (V3_of m c main_v35 (by decide)).trans (V2_of m c main_v35 (by decide))
  refine (congrFun e36 (ix2 n e')).trans ?_
  refine (padCols_after (Gen.V1 m c) (V1_main_c_9 m c) n e').trans ?_
  exact congrArg (fun f => Cert.EdgeAlgebra.pad f n e') (funext fun a => funext fun b => (congrFun e35 (ix2 a b)).symm)

end Entry

end Cert.KernelIdeal.Hand

end
-- ==== Proof.FrameKernelIdeal.Region1ValuePieces.lean ====
import proofs.«143417_j3152505995417_1_alg».proof.Proof.FrameKernelIdeal.Region1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # Region 1: what each case's found pieces are, as values

Each case leaves in the scratch the update payload of the three input blocks and of the scratch as the case found it
(in case A: of the reset value); case C copies that into the output's buffer. -/

theorem hz : (![0, 0] : Fin 2 → Nat) = fun _ => 0 := funext fun a => by fin_cases a <;> rfl

/-- Case B (inner coordinate 1..12): the scratch is left at the update of what the point before left. -/
theorem sout1_B_eq (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : ¬cond1_0 i) (hc1 : ¬cond1_1 i)
    (x0 : Vec F S116x512 .f32) (x1 : Vec F S116x512 .f32) (x2 : Vec F S116x1 .f32) (xs0 : Vec F S1x512 .f32) :
    sout1_B_0 c i arg2 harg2 arg3 harg3 arg4 harg4 arg5 harg5 arg6 harg6 hc0 hc1 x0 x1 x2 xs0 = k1_pay2 i x0 x1 x2 xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_words
  rw [View.canon_unit_zero hz]
  simp only [View.readAt_eq_ld, harg2.read_unread, harg3.read_unread, harg4.read_unread, harg6.read_unread,
    View.ld_unit_zero (S := S116x512) hz, View.ld_unit_zero (S := S116x1) hz, View.ld_unit_zero (S := S1x512) hz]

/-- Case C (inner coordinate 13): the scratch likewise, -/
theorem sout1_C_eq (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : ¬cond1_0 i) (hc1 : cond1_1 i)
    (x0 : Vec F S116x512 .f32) (x1 : Vec F S116x512 .f32) (x2 : Vec F S116x1 .f32) (xs0 : Vec F S1x512 .f32) :
    sout1_C_0 c i arg2 harg2 arg3 harg3 arg4 harg4 arg5 harg5 arg6 harg6 hc0 hc1 x0 x1 x2 xs0 = k1_pay2 i x0 x1 x2 xs0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero hz]
  simp only [View.readAt_eq_ld, harg2.read_unread, harg3.read_unread, harg4.read_unread, harg6.read_unread,
    View.ld_unit_zero (S := S116x512) hz, View.ld_unit_zero (S := S116x1) hz, View.ld_unit_zero (S := S1x512) hz]

/-- and the output's buffer holds the same value: the store into it copies the scratch just updated. -/
theorem out1_C_eq (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : ¬cond1_0 i) (hc1 : cond1_1 i)
    (x0 : Vec F S116x512 .f32) (x1 : Vec F S116x512 .f32) (x2 : Vec F S116x1 .f32) (xs0 : Vec F S1x512 .f32) :
    out1_C_3 c i arg2 harg2 arg3 harg3 arg4 harg4 arg5 harg5 arg6 harg6 hc0 hc1 x0 x1 x2 xs0 = k1_pay2 i x0 x1 x2 xs0 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero (S := S1x512) hz, View.readCov_unit_zero (S := S1x512) _ hz]
  simp only [View.readAt_eq_ld, harg2.read_unread, harg3.read_unread, harg4.read_unread, harg6.read_unread,
    View.ld_unit_zero (S := S116x512) hz, View.ld_unit_zero (S := S116x1) hz, View.ld_unit_zero (S := S1x512) hz]

/-- Case A (inner coordinate 0): the scratch is reset first, so it is left at the update of the reset value. -/
theorem sout1_A_eq (c : Dev nD) (i : grid1.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S1x512 .f32) (harg6 : arg6.IsWhole) (hc0 : cond1_0 i) (hc1 : ¬cond1_1 i)
    (x0 : Vec F S116x512 .f32) (x1 : Vec F S116x512 .f32) (x2 : Vec F S116x1 .f32) :
    sout1_A_0 c i arg2 harg2 arg3 harg3 arg4 harg4 arg5 harg5 arg6 harg6 hc0 hc1 x0 x1 x2 = k1_pay2 i x0 x1 x2 (k1_pay1 (F := F)) := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S1x512) hz, View.readCov_unit_zero (S := S1x512) _ hz]
  simp only [View.readAt_eq_ld, harg2.read_unread, harg3.read_unread, harg4.read_unread, harg6.read_unread,
    View.ld_unit_zero (S := S116x512) hz, View.ld_unit_zero (S := S116x1) hz, View.ld_unit_zero (S := S1x512) hz]

end Cert.KernelIdeal.Hand

end
-- ==== Proof.LibColsDot.lean ====
/-
  The product of the transpose of a matrix with another, Aᵀ · B ("ka,kb->ab": both operands contracted on their FIRST
  axis), as a kernel's `tpu.matmul` into the zero accumulator, read at the extended reals at an index given by
  coordinates: for A of extents K×M and B of extents K×N, entry (p, q) is the sum over k of A(k, p) · B(k, q) — no
  rounding, no order of summation. Stated for arbitrary extents and operand formats and for ANY dimension-numbers record
  whose lists are "contract axis 0 of both, keep axis 1 of both, no batch axis" (`matmul_zero_cols_apply`: a printed
  record satisfies the six hypotheses by `rfl`).
-/
import Idealize.ShloMosaic.Lib.ValueIdx
import Idealize.ShloMosaic.Lib.Pipeline.Value
import Idealize.ShloMosaic.PureOps.Ideal.Laws

noncomputable section

namespace Cert.Lib.ColsDot

open Idealize.ShloMosaic Idealize.ShloMosaic.ValueIdx

variable {K M N : ℕ} {φ₁ φ₂ : FTy}

/-- The dimension numbers "contract axis 0 of both operands, keep axis 1 of both, no batch axis", over any proof that
    they are well formed. -/
def dims (wf : DotDims.WF (⟨2, ![K, M]⟩ : Shape) (⟨2, ![K, N]⟩ : Shape) (⟨2, ![M, N]⟩ : Shape) [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

variable (wf : DotDims.WF (⟨2, ![K, M]⟩ : Shape) (⟨2, ![K, N]⟩ : Shape) (⟨2, ![M, N]⟩ : Shape) [0] [0] [1] [1] [] [])

/-- The left operand's column is the output's row. -/
theorem lhs_col (j : (⟨2, ![M, N]⟩ : Shape).Idx) (k : (dims wf).contr.Idx) :
    ((dims wf).lhsIdx j k 1).val = (j 0).val := by
  unfold DotDims.lhsIdx
  rw [dif_neg (show ¬(1 : Fin (⟨2, ![K, M]⟩ : Shape).rank) ∈ (dims wf).lhsBatch from List.not_mem_nil),
    dif_pos (show (1 : Fin (⟨2, ![K, M]⟩ : Shape).rank) ∈ (dims wf).lhsNonContracting from List.mem_singleton.mpr rfl)]
  rfl

/-- The right operand's column is the output's column. -/
theorem rhs_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- Entry (p, q) of Aᵀ · B accumulated into zero is the sum over the contracted row k of A(k, p) · B(k, q). -/
theorem matmul_zero_dims_apply (prec : Option ContractPrecision) (A : FVec Ideal ⟨2, ![K, M]⟩ φ₁) (B : FVec Ideal ⟨2, ![K, N]⟩ φ₂)
    (p : Fin M) (q : Fin N) :
    matmul (dims wf) prec A B (constant (F := Ideal) ⟨2, ![M, N]⟩ .f32 0x00000000#32) (ix2 p q)
      = ∑ k : Fin K, A (ix2 k p) * B (ix2 k q) := by
  show FloatOps.matmul (dims wf) prec A B _ (ix2 p q) = _
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 k p := funext fun a => Fin.ext (by
    match a with
    | ⟨0, _⟩ => exact ((dims wf).lhsIdx_val_of_single rfl _ _).trans hk
    | ⟨1, _⟩ => exact lhs_col wf _ _)
  have er : (dims wf).rhsIdx (ix2 p q) ((contrEquiv1 (dims wf) K rfl rfl).symm k) = ix2 k q := funext fun a => Fin.ext (by
    match a with
    | ⟨0, _⟩ => exact ((dims wf).rhsIdx_val_of_single rfl _ _).trans hk
    | ⟨1, _⟩ => exact rhs_col wf _ _)
  rw [el, er]

/-- The same for any record with those lists (a printed one: every hypothesis by `rfl`). -/
theorem matmul_zero_cols_apply (D : DotDims ⟨2, ![K, M]⟩ ⟨2, ![K, N]⟩ ⟨2, ![M, N]⟩)
    (hlc : D.lhsContracting = [0]) (hrc : D.rhsContracting = [0])
    (hln : D.lhsNonContracting = [1]) (hrn : D.rhsNonContracting = [1])
    (hlb : D.lhsBatch = []) (hrb : D.rhsBatch = [])
    (prec : Option ContractPrecision) (A : FVec Ideal ⟨2, ![K, M]⟩ φ₁) (B : FVec Ideal ⟨2, ![K, N]⟩ φ₂) (p : Fin M) (q : Fin N) :
    matmul D prec A B (constant (F := Ideal) ⟨2, ![M, N]⟩ .f32 0x00000000#32) (ix2 p q)
      = ∑ k : Fin K, A (ix2 k p) * B (ix2 k q) := by
  obtain ⟨lc, rc, ln, rn, lb, rb, wf'⟩ := D
  dsimp only at hlc hrc hln hrn hlb hrb
  subst hlc hrc hln hrn hlb hrb
  exact matmul_zero_dims_apply wf' prec A B p q

end Cert.Lib.ColsDot

end
-- ==== Proof.LibColumnExtrema.lean ====
/-
  Column minima and maxima of an M×N array of extended reals, said by their bounds.

  A kernel's `vector.multi_reduction <minimumf>` over axis 0 from the +∞ word, and the host's `stablehlo.reduce` with a
  minimum body over axis 0 from a +∞ constant, read at column j, are each determined by their lower bounds: a value is
  below the result exactly when it is below every entry (p, j) of the column. Likewise `<maximumf>` from the −∞ word and
  upper bounds. Two reductions with the same bounds are equal (`eq_of_forall_le_iff` / `eq_of_forall_ge_iff`), so a
  minimum taken block by block and combined, and a minimum over all rows, are joined without naming an order.
  Also: the source index over column j with row k is (k, j) (`lift_axis0`), the f32 words 0x7F800000 and 0xFF800000 at the
  ideal values are ⊤ and ⊥, and a fold of min from ⊤ (max from ⊥) over a finite type by its bounds. Any extents M, N; the
  host lemmas take the program's printed `ReducesTo` fact and a `Reduces` fact for the same shapes
  (`⟨h'.1, Nat.one_pos, h'.2⟩` builds the second from the first).
-/
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.Hand.Spec

open Idealize.ShloMosaic Idealize.ShloMosaic.ValueIdx

set_option backward.isDefEq.respectTransparency.types false in
/-- Over a column index j of an M×N array reduced along its rows, the source index with row k is (k, j). -/
theorem lift_axis0 {M N : ℕ} (h : (⟨2, ![M, N]⟩ : Shape).Reduces [(0 : Fin 2)] ⟨1, ![N]⟩) (j : Fin N) (k : Fin M) :
    h.lift (ix1 j) k = ix2 k j := by
  funext c
  apply Fin.ext
  rw [h.lift_val]
  unfold Shape.Reduces.liftVal
  match c with
  | ⟨0, _⟩ => simp
  | ⟨1, _⟩ => simp

theorem ofBits_posInf : Ideal.ofBits .f32 0x7F800000#32 = (⊤ : EReal) := by simp [Ideal.ofBits, Ideal.ieee]
theorem ofBits_negInf : Ideal.ofBits .f32 0xFF800000#32 = (⊥ : EReal) := by simp [Ideal.ofBits, Ideal.ieee]

/-- A value is below a fold of min from +∞ exactly when it is below every term. -/
theorem le_fold_min_top {ι : Type} [Fintype ι] (f : ι → EReal) (a : EReal) :
    a ≤ (Finset.univ : Finset ι).fold min ⊤ f ↔ ∀ k, a ≤ f k := by
  rw [Finset.le_fold_min]
  simp

/-- A fold of max from −∞ is below a value exactly when every term is. -/
theorem fold_max_bot_le {ι : Type} [Fintype ι] (f : ι → EReal) (a : EReal) :
    (Finset.univ : Finset ι).fold max ⊥ f ≤ a ↔ ∀ k, f k ≤ a := by
  rw [Finset.fold_max_le]
  simp

set_option backward.isDefEq.respectTransparency.types false in
/-- The kernel's column minimum of a block, from +∞: its lower bounds are those of the block's column. -/
theorem le_colMin_iff {M N : ℕ} (v : FVec Ideal ⟨2, ![M, N]⟩ .f32) (h : (⟨2, ![M, N]⟩ : Shape).Reduces [(0 : Fin 2)] ⟨1, ![N]⟩)
    (hφ : FKind.Formats .f32) (hacc : (0x7F800000#32 : BitVec 32) = FKind.minimumf.neutral .f32 hφ) (j : Fin N) (a : EReal) :
    a ≤ multiReduction .minimumf [(0 : Fin 2)] ⟨1, ![N]⟩ v 0x7F800000#32 h hφ hacc (ix1 j) ↔ ∀ p : Fin M, a ≤ v (ix2 p j) := by
  rw [multiReduction_minimumf_eq_fold, h.fold_filter_drop_single]
  show a ≤ (Finset.univ : Finset (Fin M)).fold min (Ideal.ofBits .f32 0x7F800000#32) _ ↔ _
  rw [ofBits_posInf, le_fold_min_top]
  refine forall_congr' fun p => ?_
  show a ≤ v (h.lift (ix1 j) p) ↔ _
  rw [lift_axis0]

set_option backward.isDefEq.respectTransparency.types false in
/-- The kernel's column maximum of a block, from −∞: its upper bounds are those of the block's column. -/
theorem colMax_le_iff {M N : ℕ} (v : FVec Ideal ⟨2, ![M, N]⟩ .f32) (h : (⟨2, ![M, N]⟩ : Shape).Reduces [(0 : Fin 2)] ⟨1, ![N]⟩)
    (hφ : FKind.Formats .f32) (hacc : (0xFF800000#32 : BitVec 32) = FKind.maximumf.neutral .f32 hφ) (j : Fin N) (a : EReal) :
    multiReduction .maximumf [(0 : Fin 2)] ⟨1, ![N]⟩ v 0xFF800000#32 h hφ hacc (ix1 j) ≤ a ↔ ∀ p : Fin M, v (ix2 p j) ≤ a := by
  rw [multiReduction_maximumf_eq_fold, h.fold_filter_drop_single]
  show (Finset.univ : Finset (Fin M)).fold max (Ideal.ofBits .f32 0xFF800000#32) _ ≤ a ↔ _
  rw [ofBits_negInf, fold_max_bot_le]
  refine forall_congr' fun p => ?_
  show v (h.lift (ix1 j) p) ≤ a ↔ _
  rw [lift_axis0]

set_option backward.isDefEq.respectTransparency.types false in
/-- The reference's column minimum over all rows, from +∞. -/
theorem le_hostColMin_iff {M N : ℕ} (v : FVec Ideal ⟨2, ![M, N]⟩ .f32) (h' : (⟨2, ![M, N]⟩ : Shape).ReducesTo [(0 : Fin 2)] ⟨1, ![N]⟩)
    (h : (⟨2, ![M, N]⟩ : Shape).Reduces [(0 : Fin 2)] ⟨1, ![N]⟩) (hu : 0 < (⟨0, ![]⟩ : Shape).numel) (j : Fin N) (a : EReal) :
    a ≤ Host.reduce FloatOps.minimumf v (constant (F := Ideal) ⟨0, ![]⟩ .f32 0x7F800000#32) h' hu (ix1 j) ↔ ∀ p : Fin M, a ≤ v (ix2 p j) := by
  rw [Host.reduce_eq_fold_single FloatOps.minimumf v _ h' h hu]
  show a ≤ (Finset.univ : Finset (Fin M)).fold min (Ideal.ofBits .f32 0x7F800000#32) _ ↔ _
  rw [ofBits_posInf, le_fold_min_top]
  refine forall_congr' fun p => ?_
  show a ≤ v (h.lift (ix1 j) p) ↔ _
  rw [lift_axis0]

set_option backward.isDefEq.respectTransparency.types false in
/-- The reference's column maximum over all rows, from −∞. -/
theorem hostColMax_le_iff {M N : ℕ} (v : FVec Ideal ⟨2, ![M, N]⟩ .f32) (h' : (⟨2, ![M, N]⟩ : Shape).ReducesTo [(0 : Fin 2)] ⟨1, ![N]⟩)
    (h : (⟨2, ![M, N]⟩ : Shape).Reduces [(0 : Fin 2)] ⟨1, ![N]⟩) (hu : 0 < (⟨0, ![]⟩ : Shape).numel) (j : Fin N) (a : EReal) :
    Host.reduce FloatOps.maximumf v (constant (F := Ideal) ⟨0, ![]⟩ .f32 0xFF800000#32) h' hu (ix1 j) ≤ a ↔ ∀ p : Fin M, v (ix2 p j) ≤ a := by
  rw [Host.reduce_eq_fold_single FloatOps.maximumf v _ h' h hu]
  show (Finset.univ : Finset (Fin M)).fold max (Ideal.ofBits .f32 0xFF800000#32) _ ≤ a ↔ _
  rw [ofBits_negInf, fold_max_bot_le]
  refine forall_congr' fun p => ?_
  show v (h.lift (ix1 j) p) ≤ a ↔ _
  rw [lift_axis0]

end Cert.Hand.Spec

end
-- ==== Proof.FrameKernelIdeal.Region1ValueWords.lean ====
import Idealize.ShloMosaic.Lib.ValueIdx
import Idealize.ShloMosaic.Lib.WordArith

namespace Cert.KernelIdeal.Hand

open Idealize.ShloMosaic

/-- The word a·512 + r, computed in 32 bits, is the number a·512 + r: nothing wraps below 14·512. -/
theorem rowWord1 (a r : Nat) (ha : a < 14) (hr : r < 512) :
    IntOp.addi (IntOp.muli (BitVec.ofNat 32 a) 512#32) (BitVec.ofNat 32 r) = BitVec.ofNat 32 (a * 512 + r) := by
  unfold IntOp.addi IntOp.muli
  apply BitVec.eq_of_toNat_eq
  simp only [BitVec.toNat_add, BitVec.toNat_mul, BitVec.toNat_ofNat]
  omega

/-- Below 2^31 the signed comparison of words with 6670 is the comparison of numbers. -/
theorem slt_word1 (m : Nat) (hm : m < 7168) :
    IntOp.cmpi .slt (BitVec.ofNat 32 m) 6670#32 = BitVec.ofBool (decide (m < 6670)) := by
  unfold IntOp.cmpi
  refine congrArg BitVec.ofBool ?_
  show (BitVec.ofNat 32 m).slt 6670#32 = decide (m < 6670)
  rw [BitVec.slt_eq_decide]
  have h1 : (BitVec.ofNat 32 m).toInt = (m : Int) := by
    rw [BitVec.toInt_eq_toNat_cond, BitVec.toNat_ofNat]
    have hmod : m % 2 ^ 32 = m := Nat.mod_eq_of_lt (by omega)
    rw [hmod]; split <;> omega
  have h2 : (6670#32 : BitVec 32).toInt = 6670 := by decide
  rw [h1, h2]
  simp

/-- Words of numbers below 2^32 are equal exactly when the numbers are. -/
theorem eq_word1 (m m' : Nat) (hm : m < 7168) (hm' : m' < 7168) :
    IntOp.cmpi .eq (BitVec.ofNat 32 m) (BitVec.ofNat 32 m') = BitVec.ofBool (decide (m = m')) := by
  unfold IntOp.cmpi
  refine congrArg BitVec.ofBool ?_
  show (BitVec.ofNat 32 m == BitVec.ofNat 32 m') = decide (m = m')
  by_cases h : m = m'
  · subst h; simp
  · have : BitVec.ofNat 32 m ≠ BitVec.ofNat 32 m' := fun e => h (by
      have := congrArg BitVec.toNat e
      simp only [BitVec.toNat_ofNat] at this
      omega)
    simp [h, this]

/-- A select on the bit of a Boolean is the conditional. -/
theorem select_ofBool1 {α : Type} (b : Bool) (A B : α) : Scalar.select (BitVec.ofBool b) A B = if b then A else B := by
  cases b
  · exact if_neg (by decide)
  · exact if_pos rfl

end Cert.KernelIdeal.Hand
-- ==== Proof.FrameKernelIdeal.Region1ValueTile.lean ====
import proofs.«143417_j3152505995417_1_alg».proof.Proof.Gen.KernelIdeal.Skeleton
import proofs.«143417_j3152505995417_1_alg».proof.Proof.LibColsDot
import proofs.«143417_j3152505995417_1_alg».proof.Proof.LibColumnExtrema
import proofs.«143417_j3152505995417_1_alg».proof.Proof.FrameKernelIdeal.Region1ValueWords
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.ValueIdx
open Cert.KernelIdeal.Gen

/-! # Region 1: the update payload, entry by entry

The update takes the two 116×512 blocks (the row-tile block x0 and the column-tile block x1 of one padded matrix),
the 116×1 scaling column x2 and the scratch row s. It forms the 512×512 product x0ᵀ·(x2∘x1), sets the entries on the
global diagonal to 0 and the rows whose global number is ≥ 6670 to the large negative constant, takes the maximum
down each column, and joins that with s by maximum. -/

section Generic
variable {F : FTy → Type} [FloatOps F]

/-- The raw 512×512 product of a point: entry (r, l) pairs column r of the row-tile block with column l of the scaled
    column-tile block. -/
def raw1 (v3 v6 : Vec F S116x512 .f32) (v8 : Vec F S116x1 .f32) : FVec F S512x512 .f32 :=
  have v4 : FVec F S116x512 .f32 := shapeCast S116x512 v3 shapeCasts_S116x512_S116x512
  have v5 : FVec F S116x512 .bf16 := truncf .bf16 v4 bitsLt_bf16_f32
  have v7 : FVec F S116x512 .f32 := shapeCast S116x512 v6 shapeCasts_S116x512_S116x512
  have v9 : FVec F S116x1 .f32 := shapeCast S116x1 v8 shapeCasts_S116x1_S116x1
  have v10 : FVec F S116x512 .f32 := broadcastTo S116x512 v9 broadcasts_S116x1_S116x512
  have v11 : FVec F S116x512 .f32 := mulf v10 v7
  have v12 : FVec F S116x512 .bf16 := truncf .bf16 v11 bitsLt_bf16_f32
  have cst : FVec F S512x512 .f32 := constant S512x512 .f32 0x00000000#32
  have v13 : FVec F S512x512 .f32 := matmul dot_S116x512_S116x512_S512x512_0_0_1_1_n_n none v5 v12 cst
  v13

/-- The tile after the two selects. -/
def tile1 (i : grid1.Coords) (v3 v6 : Vec F S116x512 .f32) (v8 : Vec F S116x1 .f32) : FVec F S512x512 .f32 :=
  let arg0 : BitVec 32 := BitVec.ofNat 32 (i 0).val
  let arg1 : BitVec 32 := BitVec.ofNat 32 (i 1).val
  have v13 : FVec F S512x512 .f32 := raw1 v3 v6 v8
  let v14 : BitVec 32 := Scalar.muli arg1 512#32
  have v15 : IVec S512x512 32 := iota .tc S512x512 32 [0] iota_S512x512_d0_w32
  have v16 : IVec S512x512 32 := broadcast S512x512 v14
  have v17 : IVec S512x512 32 := addi v16 v15
  let v18 : BitVec 32 := Scalar.muli arg0 512#32
  have v19 : IVec S512x512 32 := iota .tc S512x512 32 [1] iota_S512x512_d1_w32
  have v20 : IVec S512x512 32 := broadcast S512x512 v18
  have v21 : IVec S512x512 32 := addi v20 v19
  have v22 : IVec S512x512 1 := cmpi .eq v17 v21
  have v23 : IVec S512x512 32 := broadcast S512x512 6670#32
  have v24 : IVec S512x512 1 := cmpi .slt v17 v23
  have cst_7 : F .f32 := Scalar.ofBits .f32 0x00000000#32
  have v25 : FVec F S512x512 .f32 := broadcast S512x512 cst_7
  have v26 : FVec F S512x512 .f32 := select v22 v25 v13
  have cst_8 : F .f32 := Scalar.ofBits .f32 0xF149F2CA#32
  have v27 : FVec F S512x512 .f32 := broadcast S512x512 cst_8
  have v28 : FVec F S512x512 .f32 := select v24 v26 v27
  v28

/-- The update payload is the maximum of the scratch row with the column maxima of the tile. -/
theorem k1_pay2_eq (i : grid1.Coords) (v3 v6 : Vec F S116x512 .f32) (v8 : Vec F S116x1 .f32) (v31 : Vec F S1x512 .f32) :
    k1_pay2 i v3 v6 v8 v31
      = shapeCast S1x512 (maximumf v31 (shapeCast S1x512
          (multiReduction .maximumf [0] S512 (tile1 i v3 v6 v8) 0xFF800000#32 reduces_S512x512_S512 (.inl rfl) rfl)
          shapeCasts_S512_S1x512)) shapeCasts_S1x512_S1x512 := rfl

end Generic

/-! ## At the ideal values -/

/-- The large negative constant the masks and the reset use. -/
def negBig : EReal := Ideal.ofBits .f32 0xF149F2CA#32

/-- The reset value is that constant in every lane. -/
theorem k1_pay1_apply (u : Fin 1) (l : Fin 512) : k1_pay1 (F := Ideal) (ix2 u l) = negBig := by
  unfold k1_pay1
  exact congrFun (shapeCast_self _ _) _

/-- An entry of the raw product: the sum over the 116 rows. -/
theorem raw1_apply (x0 x1 : Vec Ideal S116x512 .f32) (x2 : Vec Ideal S116x1 .f32) (r l : Fin 512) :
    raw1 (F := Ideal) x0 x1 x2 (ix2 r l) = ∑ n : Fin 116, x0 (ix2 n r) * (x2 (ix2 n (0 : Fin 1)) * x1 (ix2 n l)) := by
  unfold raw1
  refine (Cert.Lib.ColsDot.matmul_zero_cols_apply (K := 116) (M := 512) (N := 512)
    dot_S116x512_S116x512_S512x512_0_0_1_1_n_n rfl rfl rfl rfl rfl rfl none _ _ r l).trans ?_
  refine Finset.sum_congr rfl fun n _ => ?_
  have e0 : (shapeCast S116x512 x0 shapeCasts_S116x512_S116x512 : FVec Ideal S116x512 .f32) (ix2 n r) = x0 (ix2 n r) :=
    congrFun (shapeCast_self x0 _) _
  have e1 : (shapeCast S116x512 x1 shapeCasts_S116x512_S116x512 : FVec Ideal S116x512 .f32) (ix2 n l) = x1 (ix2 n l) :=
    congrFun (shapeCast_self x1 _) _
  have e2 : (broadcastTo S116x512 (shapeCast S116x1 x2 shapeCasts_S116x1_S116x1) broadcasts_S116x1_S116x512 : FVec Ideal S116x512 .f32) (ix2 n l)
      = x2 (ix2 n (0 : Fin 1)) := by
    refine (broadcastTo_apply _ broadcasts_S116x1_S116x512 (ix2 n l) (ix2 n (0 : Fin 1)) (fun a => ?_)).trans
      (congrFun (shapeCast_self x2 _) _)
    match a with
    | ⟨0, _⟩ => rfl
    | ⟨1, _⟩ => rfl
  show (shapeCast S116x512 x0 shapeCasts_S116x512_S116x512 : FVec Ideal S116x512 .f32) (ix2 n r)
      * ((broadcastTo S116x512 (shapeCast S116x1 x2 shapeCasts_S116x1_S116x1) broadcasts_S116x1_S116x512 : FVec Ideal S116x512 .f32) (ix2 n l)
        * (shapeCast S116x512 x1 shapeCasts_S116x512_S116x512 : FVec Ideal S116x512 .f32) (ix2 n l)) = _
  rw [e0, e1, e2]

/-- An entry of the tile, by the global row number (i 1)·512 + r and the global column number (i 0)·512 + l:
    0 on the diagonal, the raw product off it, the large negative constant on the rows from 6670 on. -/
theorem tile1_apply (i : grid1.Coords) (x0 x1 : Vec Ideal S116x512 .f32) (x2 : Vec Ideal S116x1 .f32) (r l : Fin 512) :
    tile1 (F := Ideal) i x0 x1 x2 (ix2 r l)
      = if (i 1).val * 512 + r.val < 6670 then
          (if (i 1).val * 512 + r.val = (i 0).val * 512 + l.val then 0 else raw1 (F := Ideal) x0 x1 x2 (ix2 r l))
        else negBig := by
  have h0 : (i 0).val < 14 := (i 0).isLt
  have h1 : (i 1).val < 14 := (i 1).isLt
  have hr := r.isLt
  have hl := l.isLt
  show Scalar.select (IntOp.cmpi .slt (IntOp.addi (IntOp.muli (BitVec.ofNat 32 (i 1).val) 512#32) (iota .tc S512x512 32 [0] iota_S512x512_d0_w32 (ix2 r l))) 6670#32)
      (Scalar.select (IntOp.cmpi .eq (IntOp.addi (IntOp.muli (BitVec.ofNat 32 (i 1).val) 512#32) (iota .tc S512x512 32 [0] iota_S512x512_d0_w32 (ix2 r l)))
          (IntOp.addi (IntOp.muli (BitVec.ofNat 32 (i 0).val) 512#32) (iota .tc S512x512 32 [1] iota_S512x512_d1_w32 (ix2 r l))))
        (Ideal.ofBits .f32 0x00000000#32) (raw1 (F := Ideal) x0 x1 x2 (ix2 r l)))
      negBig = _
  rw [iota_single_apply, iota_single_apply]
  show Scalar.select (IntOp.cmpi .slt (IntOp.addi (IntOp.muli (BitVec.ofNat 32 (i 1).val) 512#32) (BitVec.ofNat 32 r.val)) 6670#32)
      (Scalar.select (IntOp.cmpi .eq (IntOp.addi (IntOp.muli (BitVec.ofNat 32 (i 1).val) 512#32) (BitVec.ofNat 32 r.val))
          (IntOp.addi (IntOp.muli (BitVec.ofNat 32 (i 0).val) 512#32) (BitVec.ofNat 32 l.val)))
        (Ideal.ofBits .f32 0x00000000#32) (raw1 (F := Ideal) x0 x1 x2 (ix2 r l)))
      negBig = _
  rw [rowWord1 _ _ h1 hr, rowWord1 _ _ h0 hl, slt_word1 _ (by omega), eq_word1 _ _ (by omega) (by omega),
    select_ofBool1, select_ofBool1, Ideal.ofBits_zero_f32]
  simp only [decide_eq_true_eq]

/-- The update at lane l is bounded by x exactly when the scratch's lane and every entry of the tile's column l are. -/
theorem k1_pay2_le_iff (i : grid1.Coords) (x0 x1 : Vec Ideal S116x512 .f32) (x2 : Vec Ideal S116x1 .f32)
    (s : Vec Ideal S1x512 .f32) (l : Fin 512) (x : EReal) :
    k1_pay2 (F := Ideal) i x0 x1 x2 s (ix2 (0 : Fin 1) l) ≤ x
      ↔ s (ix2 (0 : Fin 1) l) ≤ x ∧ ∀ r : Fin 512, tile1 (F := Ideal) i x0 x1 x2 (ix2 r l) ≤ x := by
  rw [k1_pay2_eq, shapeCast_self]
  show max (s (ix2 (0 : Fin 1) l)) ((shapeCast S1x512 (multiReduction .maximumf [0] S512 (tile1 (F := Ideal) i x0 x1 x2) 0xFF800000#32 reduces_S512x512_S512 (.inl rfl) rfl) shapeCasts_S512_S1x512 : FVec Ideal S1x512 .f32) (ix2 (0 : Fin 1) l)) ≤ x ↔ _
  rw [max_le_iff, shapeCast_a_1a_apply]
  exact and_congr Iff.rfl (Cert.Hand.Spec.colMax_le_iff (M := 512) (N := 512) _ reduces_S512x512_S512 (.inl rfl) rfl l x)

end Cert.KernelIdeal.Hand

end
-- ==== Proof.FrameKernelIdeal.Region1ValueBlocks.lean ====
import proofs.«143417_j3152505995417_1_alg».proof.Proof.FrameKernelIdeal.Region1
import proofs.«143417_j3152505995417_1_alg».proof.Proof.FrameKernelIdeal.Region1ValuePieces
import proofs.«143417_j3152505995417_1_alg».proof.Proof.FrameKernelIdeal.Region1ValueTile

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal.Gen

/-! # Region 1 at the ideal values: the blocks against the arrays, a tile entry against the specification -/

/-! ## The specification, in the order the call computes it -/

/-- Entry (a, b) of the raw product: over the 116 rows n, column a of the padded matrix against column b scaled. -/
def rawK (Tp : Fin 116 → Fin 7168 → EReal) (dv : Fin 116 → EReal) (a b : Fin 7168) : EReal := ∑ n : Fin 116, Tp n a * (dv n * Tp n b)

/-- The tile entry after the two selects: the large negative constant on the rows from 6670 on, else 0 on the diagonal,
    else the raw product. -/
def valK (Tp : Fin 116 → Fin 7168 → EReal) (dv : Fin 116 → EReal) (a b : Fin 7168) : EReal :=
  if a.val < 6670 then (if a = b then 0 else rawK Tp dv a b) else negBig

/-! ## Where the windows' blocks sit -/

/-- The block indices and the grid coordinates of a point, from its number: the inner coordinate is the remainder by 14. -/
theorem idx_facts1 : ∀ t : Fin cfg1.N,
    win1_0.index t (0 : Fin 2) = 0 ∧ win1_0.index t (1 : Fin 2) = t.val % 14 ∧
    win1_1.index t (0 : Fin 2) = 0 ∧ win1_1.index t (1 : Fin 2) = t.val / 14 ∧
    win1_2.index t (0 : Fin 2) = 0 ∧ win1_2.index t (1 : Fin 2) = 0 ∧
    win1_3.index t (0 : Fin 2) = 0 ∧ win1_3.index t (1 : Fin 2) = t.val / 14 ∧
    (grid1.coords t 0).val = t.val / 14 ∧ (grid1.coords t 1).val = t.val % 14 :=
  (by decide +kernel : ∀ t : Fin grid1.N,
    win1_0.index t (0 : Fin 2) = 0 ∧ win1_0.index t (1 : Fin 2) = t.val % 14 ∧
    win1_1.index t (0 : Fin 2) = 0 ∧ win1_1.index t (1 : Fin 2) = t.val / 14 ∧
    win1_2.index t (0 : Fin 2) = 0 ∧ win1_2.index t (1 : Fin 2) = 0 ∧
    win1_3.index t (0 : Fin 2) = 0 ∧ win1_3.index t (1 : Fin 2) = t.val / 14 ∧
    (grid1.coords t 0).val = t.val / 14 ∧ (grid1.coords t 1).val = t.val % 14)

section Ideal1
variable (V : (c : Dev nD) → (b : Ref sig .tc) → Buf (Elt Ideal) ((c : Thread nD τ).loc b))

/-- The padded matrix as the region finds it (windows 0 and 1 read this one array), by coordinates. -/
def Tp1 (c : Dev nD) : Fin 116 → Fin 7168 → EReal := fun n e => (V c (Pipeline.arrRef spec1 0) : S116x7168.Idx → EReal) (ix2 n e)
/-- The scaling column as the region finds it. -/
def dv1 (c : Dev nD) : Fin 116 → EReal := fun n => (V c (Pipeline.arrRef spec1 2) : S116x1.Idx → EReal) (ix2 n (0 : Fin 1))

/-- The global row number of local row r at point t, -/
def rowOf1 (t : Fin cfg1.N) (r : Fin 512) : Fin 7168 := ⟨t.val % 14 * 512 + r.val, by have := r.isLt; omega⟩
/-- and the global column number of lane l. -/
def colOf1 (t : Fin cfg1.N) (l : Fin 512) : Fin 7168 :=
  ⟨t.val / 14 * 512 + l.val, by have := l.isLt; have : t.val < 196 := lt_of_lt_of_eq t.isLt N_1; omega⟩

/-- Window 0's block at point t: the columns of row tile t % 14. -/
theorem iblk1_0_apply (c : Dev nD) (t : Fin cfg1.N) (n : Fin 116) (r : Fin 512) :
    (iblk1 V c 0 t : Vec Ideal S116x512 .f32) (ix2 n r) = Tp1 V c n (rowOf1 t r) := by
  obtain ⟨h00, h01, -⟩ := idx_facts1 t
  unfold iblk1 Tp1
  rw [View.read_apply]
  show V c (Pipeline.arrRef spec1 0) _ = V c (Pipeline.arrRef spec1 0) _
  refine congrArg _ (funext fun a => Fin.ext ?_)
  match a with
  | ⟨0, _⟩ => show win1_0.index t 0 * 116 + 1 * n.val = n.val; rw [h00]; omega
  | ⟨1, _⟩ => show win1_0.index t 1 * 512 + 1 * r.val = t.val % 14 * 512 + r.val; rw [h01]; omega

/-- Window 1's block at point t: the columns of column tile t / 14, of the same array. -/
theorem iblk1_1_apply (c : Dev nD) (t : Fin cfg1.N) (n : Fin 116) (l : Fin 512) :
    (iblk1 V c 1 t : Vec Ideal S116x512 .f32) (ix2 n l) = Tp1 V c n (colOf1 t l) := by
  obtain ⟨-, -, h10, h11, -⟩ := idx_facts1 t
  unfold iblk1 Tp1
  rw [View.read_apply]
  show V c (Pipeline.arrRef spec1 0) _ = V c (Pipeline.arrRef spec1 0) _
  refine congrArg _ (funext fun a => Fin.ext ?_)
  match a with
  | ⟨0, _⟩ => show win1_1.index t 0 * 116 + 1 * n.val = n.val; rw [h10]; omega
  | ⟨1, _⟩ => show win1_1.index t 1 * 512 + 1 * l.val = t.val / 14 * 512 + l.val; rw [h11]; omega

/-- Window 2's block at any point: the scaling column. -/
theorem iblk1_2_apply (c : Dev nD) (t : Fin cfg1.N) (n : Fin 116) :
    (iblk1 V c 2 t : Vec Ideal S116x1 .f32) (ix2 n (0 : Fin 1)) = dv1 V c n := by
  obtain ⟨-, -, -, -, h20, h21, -⟩ := idx_facts1 t
  unfold iblk1 dv1
  rw [View.read_apply]
  show V c (Pipeline.arrRef spec1 2) _ = V c (Pipeline.arrRef spec1 2) _
  refine congrArg _ (funext fun a => Fin.ext ?_)
  match a with
  | ⟨0, _⟩ => show win1_2.index t 0 * 116 + 1 * n.val = n.val; rw [h20]; omega
  | ⟨1, _⟩ => show win1_2.index t 1 * 1 + 1 * 0 = 0; rw [h21]

/-- A tile entry at point t is the specification's entry at the global row and column. -/
theorem tile1_eq_valK (c : Dev nD) (t : Fin cfg1.N) (r l : Fin 512) :
    tile1 (F := Ideal) (grid1.coords t) (iblk1 V c 0 t) (iblk1 V c 1 t) (iblk1 V c 2 t) (ix2 r l)
      = valK (Tp1 V c) (dv1 V c) (rowOf1 t r) (colOf1 t l) := by
  obtain ⟨-, -, -, -, -, -, -, -, hc0, hc1⟩ := idx_facts1 t
  refine (tile1_apply (grid1.coords t) (iblk1 V c 0 t) (iblk1 V c 1 t) (iblk1 V c 2 t) r l).trans ?_
  refine (congrArg (fun z => if (grid1.coords t 1).val * 512 + r.val < 6670 then
      (if (grid1.coords t 1).val * 512 + r.val = (grid1.coords t 0).val * 512 + l.val then (0 : EReal) else z) else negBig)
    ((raw1_apply (iblk1 V c 0 t) (iblk1 V c 1 t) (iblk1 V c 2 t) r l).trans
      (Finset.sum_congr rfl fun n _ => by rw [iblk1_0_apply V c t n r, iblk1_1_apply V c t n l, iblk1_2_apply V c t n]))).trans ?_
  unfold valK rawK
  rw [hc0, hc1]
  have hab : (rowOf1 t r = colOf1 t l) ↔ (t.val % 14 * 512 + r.val = t.val / 14 * 512 + l.val) := by
    unfold rowOf1 colOf1; exact Fin.ext_iff
  show (if t.val % 14 * 512 + r.val < 6670 then _ else _) = (if (rowOf1 t r).val < 6670 then _ else _)
  simp only [hab]
  rfl

end Ideal1

end Cert.KernelIdeal.Hand

end
-- ==== Proof.FrameKernelIdeal.Region1ValueFold.lean ====
import proofs.«143417_j3152505995417_1_alg».proof.Proof.FrameKernelIdeal.Region1ValueBlocks

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal.Gen

/-! # Region 1 at the ideal values: the scratch after each point, by its upper bounds

After the point with inner coordinate k of column tile j the scratch's lane l is bounded by x exactly when the large
negative constant and every specification entry (a, j·512 + l) with a below (k + 1)·512 are: the reset supplies the
constant, each point joins the column maxima of its 512 rows. -/

/-- The rows below (k + 1)·512 are the rows below k·512 and the 512 rows of tile k. -/
theorem rows_split1 (P : Fin 7168 → Prop) (k : ℕ) (hk : k < 14) :
    (∀ a : Fin 7168, a.val < (k + 1) * 512 → P a)
      ↔ (∀ a : Fin 7168, a.val < k * 512 → P a) ∧ (∀ r : Fin 512, P ⟨k * 512 + r.val, by have := r.isLt; omega⟩) := by
  constructor
  · intro h
    exact ⟨fun a ha => h a (by omega), fun r => h _ (by have := r.isLt; show k * 512 + r.val < (k + 1) * 512; omega)⟩
  · rintro ⟨h1, h2⟩ a ha
    by_cases hlt : a.val < k * 512
    · exact h1 a hlt
    · have := h2 ⟨a.val - k * 512, by omega⟩
      have e : (⟨k * 512 + (a.val - k * 512), by omega⟩ : Fin 7168) = a := Fin.ext (by show k * 512 + (a.val - k * 512) = a.val; omega)
      rw [e] at this; exact this

section Ideal1
variable (V : (c : Dev nD) → (b : Ref sig .tc) → Buf (Elt Ideal) ((c : Thread nD τ).loc b))

/-- At a point that resets (inner coordinate 0) the scratch is left at the update of the reset value. -/
theorem scratch1_A (c : Dev nD) (t : Fin cfg1.N) (h0 : t.val % 14 = 0) :
    (outsAt1 V c t.val t.isLt).2 = k1_pay2 (F := Ideal) (grid1.coords t) (iblk1 V c 0 t) (iblk1 V c 1 t) (iblk1 V c 2 t) (k1_pay1 (F := Ideal)) := by
  have h1 : ¬t.val % 14 = 13 := by omega
  rw [outsAt1_A V c t h0 h1]
  dsimp only
  exact sout1_A_eq (F := Ideal) c (grid1.coords t) (ms1_0 t) (hs1_0 t) (ms1_1 t) (hs1_1 t) (ms1_2 t) (hs1_2 t) (ms1_3 t) (hs1_3 t) scM1_0 (Memref.isWhole_whole _) _ _ (iblk1 V c 0 t) (iblk1 V c 1 t) (iblk1 V c 2 t)

/-- At any other point it is left at the update of what the point before left. -/
theorem scratch1_BC (c : Dev nD) (t : Fin cfg1.N) (h0 : ¬t.val % 14 = 0) :
    (outsAt1 V c t.val t.isLt).2 = k1_pay2 (F := Ideal) (grid1.coords t) (iblk1 V c 0 t) (iblk1 V c 1 t) (iblk1 V c 2 t) (outsAt1 V c (t.val - 1) (Nat.lt_of_le_of_lt (Nat.sub_le _ _) t.isLt)).2 := by
  by_cases h1 : t.val % 14 = 13
  · rw [outsAt1_C V c t h0 h1]
    dsimp only
    exact sout1_C_eq (F := Ideal) c (grid1.coords t) (ms1_0 t) (hs1_0 t) (ms1_1 t) (hs1_1 t) (ms1_2 t) (hs1_2 t) (ms1_3 t) (hs1_3 t) scM1_0 (Memref.isWhole_whole _) _ _ (iblk1 V c 0 t) (iblk1 V c 1 t) (iblk1 V c 2 t) (outsAt1 V c (t.val - 1) (Nat.lt_of_le_of_lt (Nat.sub_le _ _) t.isLt)).2
  · rw [outsAt1_B V c t h0 h1]
    dsimp only
    exact sout1_B_eq (F := Ideal) c (grid1.coords t) (ms1_0 t) (hs1_0 t) (ms1_1 t) (hs1_1 t) (ms1_2 t) (hs1_2 t) (ms1_3 t) (hs1_3 t) scM1_0 (Memref.isWhole_whole _) _ _ (iblk1 V c 0 t) (iblk1 V c 1 t) (iblk1 V c 2 t) (outsAt1 V c (t.val - 1) (Nat.lt_of_le_of_lt (Nat.sub_le _ _) t.isLt)).2

/-- At a point that stores the output block (inner coordinate 13) the output's buffer holds what the scratch holds. -/
theorem out1_C (c : Dev nD) (t : Fin cfg1.N) (h1 : t.val % 14 = 13) :
    (outsAt1 V c t.val t.isLt).1 = (outsAt1 V c t.val t.isLt).2 := by
  have h0 : ¬t.val % 14 = 0 := by omega
  rw [outsAt1_C V c t h0 h1]
  dsimp only
  exact (out1_C_eq (F := Ideal) c (grid1.coords t) (ms1_0 t) (hs1_0 t) (ms1_1 t) (hs1_1 t) (ms1_2 t) (hs1_2 t) (ms1_3 t) (hs1_3 t) scM1_0 (Memref.isWhole_whole _) _ _ (iblk1 V c 0 t) (iblk1 V c 1 t) (iblk1 V c 2 t) (outsAt1 V c (t.val - 1) (Nat.lt_of_le_of_lt (Nat.sub_le _ _) t.isLt)).2).trans
    (sout1_C_eq (F := Ideal) c (grid1.coords t) (ms1_0 t) (hs1_0 t) (ms1_1 t) (hs1_1 t) (ms1_2 t) (hs1_2 t) (ms1_3 t) (hs1_3 t) scM1_0 (Memref.isWhole_whole _) _ _ (iblk1 V c 0 t) (iblk1 V c 1 t) (iblk1 V c 2 t) (outsAt1 V c (t.val - 1) (Nat.lt_of_le_of_lt (Nat.sub_le _ _) t.isLt)).2).symm

/-- One point's update, by its bounds: the lane before it and the 512 specification entries of its rows. -/
theorem update1_le_iff (c : Dev nD) (t : Fin cfg1.N) (s : Vec Ideal S1x512 .f32) (l : Fin 512) (x : EReal) :
    k1_pay2 (F := Ideal) (grid1.coords t) (iblk1 V c 0 t) (iblk1 V c 1 t) (iblk1 V c 2 t) s (ix2 (0 : Fin 1) l) ≤ x
      ↔ s (ix2 (0 : Fin 1) l) ≤ x ∧ ∀ r : Fin 512, valK (Tp1 V c) (dv1 V c) (rowOf1 t r) (colOf1 t l) ≤ x := by
  refine (k1_pay2_le_iff (grid1.coords t) (iblk1 V c 0 t) (iblk1 V c 1 t) (iblk1 V c 2 t) s l x).trans (and_congr Iff.rfl (forall_congr' fun r => ?_))
  rw [tile1_eq_valK V c t r l]

/-- THE INVARIANT: the scratch's lane after point n, by its upper bounds. -/
theorem scratch1_le_iff (c : Dev nD) : ∀ (n : ℕ) (hn : n < cfg1.N) (l : Fin 512) (x : EReal),
    (outsAt1 V c n hn).2 (ix2 (0 : Fin 1) l) ≤ x
      ↔ (negBig ≤ x ∧ ∀ a : Fin 7168, a.val < (n % 14 + 1) * 512 → valK (Tp1 V c) (dv1 V c) a (colOf1 ⟨n, hn⟩ l) ≤ x) := by
  intro n
  induction n with
  | zero =>
    intro hn l x
    have hs := scratch1_A V c ⟨0, hn⟩ rfl
    rw [show (outsAt1 V c 0 hn).2 = (outsAt1 V c (⟨0, hn⟩ : Fin cfg1.N).val (⟨0, hn⟩ : Fin cfg1.N).isLt).2 from rfl, hs,
      update1_le_iff V c ⟨0, hn⟩ _ l x, k1_pay1_apply]
    refine and_congr Iff.rfl ?_
    rw [show (0 % 14 + 1) * 512 = (0 + 1) * 512 from rfl, rows_split1 _ 0 (by omega)]
    constructor
    · intro h; exact ⟨fun a ha => absurd ha (by omega), fun r => h r⟩
    · rintro ⟨-, h⟩ r; exact h r
  | succ n ih =>
    intro hn l x
    have hN : n + 1 < 196 := lt_of_lt_of_eq hn N_1
    by_cases h0 : (n + 1) % 14 = 0
    · have hs := scratch1_A V c ⟨n + 1, hn⟩ h0
      rw [show (outsAt1 V c (n + 1) hn).2 = (outsAt1 V c (⟨n + 1, hn⟩ : Fin cfg1.N).val (⟨n + 1, hn⟩ : Fin cfg1.N).isLt).2 from rfl, hs,
        update1_le_iff V c ⟨n + 1, hn⟩ _ l x, k1_pay1_apply]
      refine and_congr Iff.rfl ?_
      rw [h0, rows_split1 _ 0 (by omega)]
      constructor
      · intro h
        refine ⟨fun a ha => absurd ha (by omega), fun r => ?_⟩
        have := h r
        unfold rowOf1 at this
        simp only [h0] at this
        exact this
      · rintro ⟨-, h⟩ r
        have := h r
        unfold rowOf1
        simp only [h0]
        exact this
    · have hs := scratch1_BC V c ⟨n + 1, hn⟩ h0
      have hprev := ih (Nat.lt_of_succ_lt hn) l x
      rw [show (outsAt1 V c (n + 1) hn).2 = (outsAt1 V c (⟨n + 1, hn⟩ : Fin cfg1.N).val (⟨n + 1, hn⟩ : Fin cfg1.N).isLt).2 from rfl, hs,
        update1_le_iff V c ⟨n + 1, hn⟩ _ l x]
      have hcol : colOf1 ⟨n, Nat.lt_of_succ_lt hn⟩ l = colOf1 ⟨n + 1, hn⟩ l := by
        unfold colOf1; exact Fin.ext (by show n / 14 * 512 + l.val = (n + 1) / 14 * 512 + l.val; omega)
      have hk : n % 14 + 1 = (n + 1) % 14 := by omega
      rw [show (outsAt1 V c ((⟨n + 1, hn⟩ : Fin cfg1.N).val - 1) _).2 = (outsAt1 V c n (Nat.lt_of_succ_lt hn)).2 from rfl, hprev,
        hcol, hk, rows_split1 _ ((n + 1) % 14) (by omega)]
      constructor
      · rintro ⟨⟨hb, h1⟩, h2⟩
        exact ⟨hb, h1, fun r => h2 r⟩
      · rintro ⟨hb, h1, h2⟩
        exact ⟨⟨hb, h1⟩, fun r => h2 r⟩

end Ideal1

end Cert.KernelIdeal.Hand

end
-- ==== Proof.FrameKernelIdeal.Region1Value.lean ====
import proofs.«143417_j3152505995417_1_alg».proof.Proof.FrameKernelIdeal.Region1ValueFold
import proofs.«143417_j3152505995417_1_alg».proof.Proof.EdgeAlgebra

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal.Gen

/-! # Region 1 at the ideal values: the output array after the region, by its upper bounds

The output block of column tile j is written back once, after the point with inner coordinate 13, from the scratch;
so entry q of the array is bounded by x exactly when the large negative constant and every specification entry (a, q)
are. -/

section Ideal1
variable (V : (c : Dev nD) → (b : Ref sig .tc) → Buf (Elt Ideal) ((c : Thread nD τ).loc b))

/-- What a point that writes back writes: what the scratch holds after it. -/
theorem flushed1_3 (c : Dev nD) (t : Fin cfg1.N) (hf : (cfg1.win 3).flush t = true) :
    (dat1 V c).flushed 3 t = (outsAt1 V c t.val t.isLt).2 := by
  have h1 : t.val % 14 = 13 := (flush1_3 t).mp hf
  show (cfg1.win 3).cut (grid1.coords t) ((dat1 V c).after 3 t) = _
  rw [after1_3]
  exact out1_C V c t h1

/-- The output array after the region's write-backs, read at its literal shape [1, 7168]. -/
def outArr1 (c : Dev nD) : S1x7168.Idx → EReal := (dat1 (F := Ideal) V c).arrAt 3 cfg1.N

theorem outArr1_eq (c : Dev nD) : outArr1 V c = (dat1 (F := Ideal) V c).arrAt 3 cfg1.N := rfl

set_option maxHeartbeats 4000000 in
/-- THE VALUE of the region's output array: entry q is bounded by x exactly when the large negative constant is and
    every entry (a, q) of the masked product is — it is their maximum, said without naming an order of folding. -/
theorem final1_le_iff (c : Dev nD) (q : Fin 7168) (x : EReal) :
    outArr1 V c (ix2 (0 : Fin 1) q) ≤ x
      ↔ (negBig ≤ x ∧ ∀ a : Fin 7168, valK (Tp1 V c) (dv1 V c) a q ≤ x) := by
  have key := (dat1 V c).arrAt_forall_of_cover 3
    (fun (i : S1x7168.Idx) (v : EReal) => ∀ q' : Fin 7168, i = ix2 (0 : Fin 1) q' →
      ∀ x : EReal, (v ≤ x ↔ (negBig ≤ x ∧ ∀ a : Fin 7168, valK (Tp1 V c) (dv1 V c) a q' ≤ x)))
    (fun t hf (y : S1x512.Idx) q' hq x => by
      have h1 : t.val % 14 = 13 := (flush1_3 t).mp hf
      have hN : t.val < 196 := lt_of_lt_of_eq t.isLt N_1
      obtain ⟨-, -, -, -, -, -, h30, h31, -⟩ := idx_facts1 t
      obtain ⟨u, l, rfl⟩ : ∃ (u : Fin 1) (l : Fin 512), y = ix2 u l := ⟨y 0, y 1, eq_ix2 y⟩
      have hu : u = 0 := Subsingleton.elim _ _
      subst hu
      have hq' : q' = colOf1 t l := by
        have e := congrArg (fun j : S1x7168.Idx => (j 1).val) hq
        have e' : win1_3.index t 1 * 512 + 1 * l.val = q'.val := e
        unfold colOf1
        exact Fin.ext (by show q'.val = t.val / 14 * 512 + l.val; rw [← e', h31]; omega)
      subst hq'
      have hv : ∀ z : EReal, z = (outsAt1 V c t.val t.isLt).2 (ix2 (0 : Fin 1) l) →
          (z ≤ x ↔ (negBig ≤ x ∧ ∀ a : Fin 7168, valK (Tp1 V c) (dv1 V c) a (colOf1 t l) ≤ x)) := by
        intro z hz
        rw [hz, scratch1_le_iff V c t.val t.isLt l x, h1]
        refine and_congr Iff.rfl (forall_congr' fun a => ?_)
        exact ⟨fun h => h (by have := a.isLt; omega), fun h _ => h⟩
      refine hv _ ?_
      rw [flushed1_3 V c t hf]
      exact cast_eq _ _)
    (fun (i : S1x7168.Idx) => by
      have h0 : (i 0).val < 1 := (i 0).isLt
      have h1 : (i 1).val < 7168 := (i 1).isLt
      obtain ⟨T, hT⟩ : ∃ T : Fin cfg1.N, T.val = (i 1).val / 512 * 14 + 13 :=
        ⟨⟨(i 1).val / 512 * 14 + 13, by rw [show cfg1.N = 196 from N_1]; omega⟩, rfl⟩
      refine ⟨T, (flush1_3 T).mpr (by omega), ?_⟩
      obtain ⟨-, -, -, -, -, -, h30, h31, -⟩ := idx_facts1 T
      show i ∈ ((View.whole main_v51).slice (win1_3.rect T)).set
      rw [View.set_slice_whole, Rect.mem_set_unit]
      intro a
      match a with
      | ⟨0, _⟩ =>
        show win1_3.index T 0 * 1 ≤ (i 0).val ∧ (i 0).val < win1_3.index T 0 * 1 + 1
        rw [h30]; omega
      | ⟨1, _⟩ =>
        show win1_3.index T 1 * 512 ≤ (i 1).val ∧ (i 1).val < win1_3.index T 1 * 512 + 512
        rw [h31]; omega)
    (ix2 (0 : Fin 1) q)
  exact key q rfl x

/-- The same, over the shared algebra module's names for the masked product and the constant (they are the same
    functions: both unfold to one text). -/
theorem final1_le_iff_edge (c : Dev nD) (q : Fin 7168) (x : EReal) :
    outArr1 V c (ix2 (0 : Fin 1) q) ≤ x
      ↔ (Cert.EdgeAlgebra.negBig ≤ x ∧ ∀ a : Fin 7168, Cert.EdgeAlgebra.valK (Tp1 V c) (dv1 V c) a q ≤ x) :=
  final1_le_iff V c q x

end Ideal1

end Cert.KernelIdeal.Hand

end
-- ==== Proof.KernelValue2.lean ====
import proofs.«143417_j3152505995417_1_alg».proof.Proof.KernelValue1
import proofs.«143417_j3152505995417_1_alg».proof.Proof.KernelValueAbbrevs
import proofs.«143417_j3152505995417_1_alg».proof.Proof.FrameKernelIdeal.Kept
import proofs.«143417_j3152505995417_1_alg».proof.Proof.FrameKernelIdeal.KernelHostMid1
import proofs.«143417_j3152505995417_1_alg».proof.Proof.FrameKernelIdeal.KernelHostPad
import proofs.«143417_j3152505995417_1_alg».proof.Proof.FrameKernelIdeal.Region1Value
import proofs.«143417_j3152505995417_1_alg».proof.Proof.EdgeAlgebra
import proofs.«143417_j3152505995417_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

/-! # The idealized program's values, stage 2: from the first node convolution to the column maxima

Between the first node convolution and the column-maximum call the host rectifies the node features, projects them to
one number per node, pads the incidence matrix and the edge features, and pushes the padded edge features through the
edge weights. The column-maximum call then leaves, at each padded edge, the maximum of the masked product's column. -/

/-- An argument no item before region 1 writes is as launched when region 0 has run. -/
theorem U4_arg (r : Ref sig .tc) (h : r ≠ main_v44) (h0 : r ∉ hostOps0_W) (h1 : r ∉ hostOps0_1_W) (h2 : r ∉ hostOps0_2_W) :
    U4 m c r = m ((c : Thread nD τ).loc r) := (keep4 m c r h).trans (keep3 m c r h0 h1 h2)

/-- The rectified node features. -/
theorem v45_eq (n : Fin 116) (h : Fin 64) : U9 m c main_v45 (ix2 n h) = x1S m c n h := by
  rw [U9_def]
  refine (mid1_main_v45 (U4 m c) n h).trans ?_
  rw [v44_eq]
  rfl

/-- Their projection to one number per node. -/
theorem v48_eq (n : Fin 116) : U9 m c main_v48 (ix2 n (0 : Fin 1)) = Cert.Spec.dNode (x1S m c) (aPe m c) n := by
  have h : (∑ k : Fin 64, Cert.Spec.relu (U4 m c main_v44 (ix2 n k)) * U4 m c main_arg10 (ix2 (0 : Fin 1) k) : EReal)
      = Cert.Spec.dNode (x1S m c) (aPe m c) n := by
    unfold Cert.Spec.dNode
    refine Finset.sum_congr rfl fun k _ => ?_
    rw [v44_eq, U4_arg m c main_arg10 (by decide) (by decide) (by decide) (by decide)]
    rfl
  rw [U9_def]
  exact (mid1_main_v48 (U4 m c) n).trans h

/-- The padded incidence matrix is still what the first stretch built. -/
theorem v36_eq (n : Fin 116) (e : Fin 7168) : U9 m c main_v36 (ix2 n e) = Cert.EdgeAlgebra.pad (TK m c) n e := by
  have e9 : @Eq (S116x7168.Idx → EReal) (U9 m c main_v36) (U4 m c main_v36) := by
    rw [U9_def]; exact mid1_main_v36 (U4 m c)
  have e4 : @Eq (S116x7168.Idx → EReal) (U4 m c main_v36) (W3 m c main_v36) := keep4 m c main_v36 (by decide)
  refine (congrFun (e9.trans e4) (ix2 n e)).trans ?_
  rw [← W3_eq]
  refine (V3_main_v36 m c n e).trans ?_
  unfold TK
  rw [← W3_eq]

/-- The padded rectified edge features through the edge weights. -/
theorem v50_eq (b : Fin 7168) (k : Fin 5) :
    U9 m c main_v50 (ix2 b k) = ∑ j : Fin 5, Cert.EdgeAlgebra.padRows (e0S m c) b j * aWe m c j k := by
  have h : (∑ j : Fin 5, Cert.EdgeAlgebra.padRows (fun e j => Cert.Spec.relu (U4 m c main_arg1 (ix2 e j))) b j * U4 m c main_arg8 (ix2 j k) : EReal)
      = ∑ j : Fin 5, Cert.EdgeAlgebra.padRows (e0S m c) b j * aWe m c j k := by
    rw [U4_arg m c main_arg1 (by decide) (by decide) (by decide) (by decide),
      U4_arg m c main_arg8 (by decide) (by decide) (by decide) (by decide)]
  rw [U9_def]
  exact (mid1_main_v50 (U4 m c) b k).trans h

/-- The edge bias as a row. -/
theorem v39_eq (k : Fin 5) : U9 m c main_v39 (ix2 (0 : Fin 1) k) = aBe m c k := by
  have e9 : @Eq (S1x5.Idx → EReal) (U9 m c main_v39) (U4 m c main_v39) := by
    rw [U9_def]; exact mid1_main_v39 (U4 m c)
  have e4 : @Eq (S1x5.Idx → EReal) (U4 m c main_v39) (W3 m c main_v39) := keep4 m c main_v39 (by decide)
  refine (congrFun (e9.trans e4) (ix2 (0 : Fin 1) k)).trans ?_
  rw [← W3_eq]
  exact V3_main_v39 m c k

/-- The column maxima region 1 leaves, by padded edge. -/
def cmK : Fin 7168 → EReal := fun q => U10 m c main_v51 (ix2 (0 : Fin 1) q)

theorem cmK_def (q : Fin 7168) : cmK m c q = U10 m c main_v51 (ix2 (0 : Fin 1) q) := rfl

/-- The padded matrix region 1 is entered with is the padded incidence matrix, -/
theorem Tp1_eq : Tp1 (X1 m) c = Cert.EdgeAlgebra.pad (TK m c) := by
  funext n e
  unfold Tp1
  exact v36_eq m c n e

/-- and its scaling column is the projection of the rectified node features. -/
theorem dv1_eq : dv1 (X1 m) c = Cert.Spec.dNode (x1S m c) (aPe m c) := by
  funext n
  unfold dv1
  exact v48_eq m c n

/-- THE COLUMN MAXIMA: at padded edge q the call leaves a value bounded by x exactly when the large negative constant is
    and every entry of column q of the masked product of the padded incidence matrix scaled by the projection is. -/
theorem cm_iff (q : Fin 7168) (x : EReal) :
    cmK m c q ≤ x ↔ (Cert.EdgeAlgebra.negBig ≤ x ∧ ∀ a : Fin 7168,
      Cert.EdgeAlgebra.valK (Cert.EdgeAlgebra.pad (TK m c)) (Cert.Spec.dNode (x1S m c) (aPe m c)) a q ≤ x) := by
  have e : cmK m c q = outArr1 (X1 m) c (ix2 (0 : Fin 1) q) := by
    unfold cmK
    rw [U10_def, upd_eq]
    rfl
  rw [e, final1_le_iff_edge (X1 m) c q x, Tp1_eq, dv1_eq]

end Cert.KernelIdeal.Hand

end
-- ==== Proof.FrameKernelIdeal.Region2ValuePieces.lean ====
import proofs.«143417_j3152505995417_1_alg».proof.Proof.FrameKernelIdeal.Region2
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! # Region 2: the pieces the three cases write, as payloads of the blocks

Each case's run found one covering store for the scratch (case A: two, the reset first) and, in case C, one for the
output block. Read back, the scratch holds the accumulation payload of the point's blocks over what it held (over the
reset value in case A), and the output block the output payload of the new scratch and the bias block. -/

theorem hz2 : (![0, 0] : Fin 2 → Nat) = fun _ => 0 := funext fun a => by fin_cases a <;> rfl

/-- Case B leaves in the scratch the accumulation payload of the point's blocks over what the scratch held. -/
theorem sout_B_gen (c : Dev nD) (i : grid2.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S512x5 .f32) (harg6 : arg6.IsWhole) (arg7 : Memref sig .tc .vmem S1x5 .f32) (harg7 : arg7.IsWhole) (arg8 : Memref sig .tc .vmem S512x5 .f32) (harg8 : arg8.IsWhole) (arg9 : Memref sig .tc .vmem S512x5 .f32) (harg9 : arg9.IsWhole) (hc0 : ¬cond2_0 i) (hc1 : ¬cond2_1 i) (x0 : Vec F S116x512 .f32) (x1 : Vec F S116x512 .f32) (x2 : Vec F S116x1 .f32) (x3 : Vec F S1x512 .f32) (x4 : Vec F S512x5 .f32) (x5 : Vec F S1x5 .f32) (xs0 : Vec F S512x5 .f32) :
    VS2.read (Elt F) (VS2.writes (Elt F) VS2.junk (kernelRun2_B (F := F) c i arg2 harg2 arg3 harg3 arg4 harg4 arg5 harg5 arg6 harg6 arg7 harg7 arg8 harg8 arg9 harg9 hc0 hc1 x0 x1 x2 x3 x4 x5 xs0).2.1)
      = k2_pay1 (k2_pay4 x4) (k2_pay5 i x0 x1 x2 x3) xs0 := by
  rw [View.read_writes_eq_canon _ _ _ (scover2_B_gen c i arg2 harg2 arg3 harg3 arg4 harg4 arg5 harg5 arg6 harg6 arg7 harg7 arg8 harg8 arg9 harg9 hc0 hc1 x0 x1 x2 x3 x4 x5 xs0)]
  unfold kernelRun2_B
  dsimp only
  sl_unfold_words
  rw [View.canon_unit_zero hz2]
  simp only [View.readAt_eq_ld, harg2.read_unread, harg3.read_unread, harg4.read_unread, harg5.read_unread, harg6.read_unread, harg7.read_unread, harg9.read_unread, View.ld_unit_zero (S := S116x512) hz2, View.ld_unit_zero (S := S116x1) hz2, View.ld_unit_zero (S := S1x512) hz2, View.ld_unit_zero (S := S512x5) hz2, View.ld_unit_zero (S := S1x5) hz2]

/-- Case C leaves the same in the scratch, -/
theorem sout_C_gen (c : Dev nD) (i : grid2.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S512x5 .f32) (harg6 : arg6.IsWhole) (arg7 : Memref sig .tc .vmem S1x5 .f32) (harg7 : arg7.IsWhole) (arg8 : Memref sig .tc .vmem S512x5 .f32) (harg8 : arg8.IsWhole) (arg9 : Memref sig .tc .vmem S512x5 .f32) (harg9 : arg9.IsWhole) (hc0 : ¬cond2_0 i) (hc1 : cond2_1 i) (x0 : Vec F S116x512 .f32) (x1 : Vec F S116x512 .f32) (x2 : Vec F S116x1 .f32) (x3 : Vec F S1x512 .f32) (x4 : Vec F S512x5 .f32) (x5 : Vec F S1x5 .f32) (xs0 : Vec F S512x5 .f32) :
    VS2.read (Elt F) (VS2.writes (Elt F) VS2.junk (kernelRun2_C (F := F) c i arg2 harg2 arg3 harg3 arg4 harg4 arg5 harg5 arg6 harg6 arg7 harg7 arg8 harg8 arg9 harg9 hc0 hc1 x0 x1 x2 x3 x4 x5 xs0).2.1)
      = k2_pay1 (k2_pay4 x4) (k2_pay5 i x0 x1 x2 x3) xs0 := by
  rw [View.read_writes_eq_canon _ _ _ (scover2_C_gen c i arg2 harg2 arg3 harg3 arg4 harg4 arg5 harg5 arg6 harg6 arg7 harg7 arg8 harg8 arg9 harg9 hc0 hc1 x0 x1 x2 x3 x4 x5 xs0)]
  unfold kernelRun2_C
  dsimp only
  sl_unfold_words
  rw [View.canon_unit_zero hz2]
  simp only [View.readAt_eq_ld, harg2.read_unread, harg3.read_unread, harg4.read_unread, harg5.read_unread, harg6.read_unread, harg7.read_unread, harg9.read_unread, View.ld_unit_zero (S := S116x512) hz2, View.ld_unit_zero (S := S116x1) hz2, View.ld_unit_zero (S := S1x512) hz2, View.ld_unit_zero (S := S512x5) hz2, View.ld_unit_zero (S := S1x5) hz2]

/-- and in the output window's buffer the output payload of the new scratch and the bias block. -/
theorem out_C_gen (c : Dev nD) (i : grid2.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S512x5 .f32) (harg6 : arg6.IsWhole) (arg7 : Memref sig .tc .vmem S1x5 .f32) (harg7 : arg7.IsWhole) (arg8 : Memref sig .tc .vmem S512x5 .f32) (harg8 : arg8.IsWhole) (arg9 : Memref sig .tc .vmem S512x5 .f32) (harg9 : arg9.IsWhole) (hc0 : ¬cond2_0 i) (hc1 : cond2_1 i) (x0 : Vec F S116x512 .f32) (x1 : Vec F S116x512 .f32) (x2 : Vec F S116x1 .f32) (x3 : Vec F S1x512 .f32) (x4 : Vec F S512x5 .f32) (x5 : Vec F S1x5 .f32) (xs0 : Vec F S512x5 .f32) :
    VO2_6.read (Elt F) (VO2_6.writes (Elt F) VO2_6.junk (kernelRun2_C (F := F) c i arg2 harg2 arg3 harg3 arg4 harg4 arg5 harg5 arg6 harg6 arg7 harg7 arg8 harg8 arg9 harg9 hc0 hc1 x0 x1 x2 x3 x4 x5 xs0).1)
      = k2_pay2 (k2_pay1 (k2_pay4 x4) (k2_pay5 i x0 x1 x2 x3) xs0) x5 := by
  rw [View.read_writes_eq_canon _ _ _ (cover2_C_gen c i arg2 harg2 arg3 harg3 arg4 harg4 arg5 harg5 arg6 harg6 arg7 harg7 arg8 harg8 arg9 harg9 hc0 hc1 x0 x1 x2 x3 x4 x5 xs0)]
  unfold kernelRun2_C
  dsimp only
  sl_unfold_words
  rw [View.canon_unit_zero hz2, View.readCov_unit_zero (S := S512x5) _ hz2]
  simp only [View.readAt_eq_ld, harg2.read_unread, harg3.read_unread, harg4.read_unread, harg5.read_unread, harg6.read_unread, harg7.read_unread, harg9.read_unread, View.ld_unit_zero (S := S116x512) hz2, View.ld_unit_zero (S := S116x1) hz2, View.ld_unit_zero (S := S1x512) hz2, View.ld_unit_zero (S := S512x5) hz2, View.ld_unit_zero (S := S1x5) hz2]

/-- Case A leaves in the scratch the accumulation payload over the reset value. -/
theorem sout_A_gen (c : Dev nD) (i : grid2.Coords) (arg2 : Memref sig .tc .vmem S116x512 .f32) (harg2 : arg2.IsWhole) (arg3 : Memref sig .tc .vmem S116x512 .f32) (harg3 : arg3.IsWhole) (arg4 : Memref sig .tc .vmem S116x1 .f32) (harg4 : arg4.IsWhole) (arg5 : Memref sig .tc .vmem S1x512 .f32) (harg5 : arg5.IsWhole) (arg6 : Memref sig .tc .vmem S512x5 .f32) (harg6 : arg6.IsWhole) (arg7 : Memref sig .tc .vmem S1x5 .f32) (harg7 : arg7.IsWhole) (arg8 : Memref sig .tc .vmem S512x5 .f32) (harg8 : arg8.IsWhole) (arg9 : Memref sig .tc .vmem S512x5 .f32) (harg9 : arg9.IsWhole) (hc0 : cond2_0 i) (hc1 : ¬cond2_1 i) (x0 : Vec F S116x512 .f32) (x1 : Vec F S116x512 .f32) (x2 : Vec F S116x1 .f32) (x3 : Vec F S1x512 .f32) (x4 : Vec F S512x5 .f32) (x5 : Vec F S1x5 .f32) :
    VS2.read (Elt F) (VS2.writes (Elt F) VS2.junk (kernelRun2_A (F := F) c i arg2 harg2 arg3 harg3 arg4 harg4 arg5 harg5 arg6 harg6 arg7 harg7 arg8 harg8 arg9 harg9 hc0 hc1 x0 x1 x2 x3 x4 x5).2.1)
      = k2_pay1 (k2_pay4 x4) (k2_pay5 i x0 x1 x2 x3) (k2_pay3 (F := F)) := by
  rw [View.read_writes_eq_canon _ _ _ (scover2_A_gen c i arg2 harg2 arg3 harg3 arg4 harg4 arg5 harg5 arg6 harg6 arg7 harg7 arg8 harg8 arg9 harg9 hc0 hc1 x0 x1 x2 x3 x4 x5)]
  unfold kernelRun2_A
  dsimp only
  sl_unfold_words
  rw [View.canon_cons_unit_zero (S := S512x5) hz2, View.readCov_unit_zero (S := S512x5) _ hz2]
  simp only [View.readAt_eq_ld, harg2.read_unread, harg3.read_unread, harg4.read_unread, harg5.read_unread, harg6.read_unread, harg7.read_unread, harg9.read_unread, View.ld_unit_zero (S := S116x512) hz2, View.ld_unit_zero (S := S116x1) hz2, View.ld_unit_zero (S := S1x512) hz2, View.ld_unit_zero (S := S512x5) hz2, View.ld_unit_zero (S := S1x5) hz2]

section Region2

variable (V : (c : Dev nD) → (b : Ref sig .tc) → Buf (Elt F) ((c : Thread nD τ).loc b))

theorem sout2_A_eq (c : Dev nD) (t : Fin cfg2.N) (h0 : t.val % 14 = 0) (h1 : ¬t.val % 14 = 13) :
    sout2_A V c t h0 h1 = k2_pay1 (k2_pay4 (iblk2 V c 4 t)) (k2_pay5 (grid2.coords t) (iblk2 V c 0 t) (iblk2 V c 1 t) (iblk2 V c 2 t) (iblk2 V c 3 t)) (k2_pay3 (F := F)) := by
  unfold sout2_A run2_A
  exact sout_A_gen c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)

theorem sout2_B_eq (c : Dev nD) (t : Fin cfg2.N) (h0 : ¬t.val % 14 = 0) (h1 : ¬t.val % 14 = 13) (xs : Vec F S512x5 .f32) :
    sout2_B V c t h0 h1 xs = k2_pay1 (k2_pay4 (iblk2 V c 4 t)) (k2_pay5 (grid2.coords t) (iblk2 V c 0 t) (iblk2 V c 1 t) (iblk2 V c 2 t) (iblk2 V c 3 t)) xs := by
  unfold sout2_B run2_B
  exact sout_B_gen c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) xs

theorem sout2_C_eq (c : Dev nD) (t : Fin cfg2.N) (h0 : ¬t.val % 14 = 0) (h1 : t.val % 14 = 13) (xs : Vec F S512x5 .f32) :
    sout2_C V c t h0 h1 xs = k2_pay1 (k2_pay4 (iblk2 V c 4 t)) (k2_pay5 (grid2.coords t) (iblk2 V c 0 t) (iblk2 V c 1 t) (iblk2 V c 2 t) (iblk2 V c 3 t)) xs := by
  unfold sout2_C run2_C
  exact sout_C_gen c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) xs

theorem out2_C_eq (c : Dev nD) (t : Fin cfg2.N) (h0 : ¬t.val % 14 = 0) (h1 : t.val % 14 = 13) (xs : Vec F S512x5 .f32) :
    out2_C V c t h0 h1 xs = k2_pay2 (k2_pay1 (k2_pay4 (iblk2 V c 4 t)) (k2_pay5 (grid2.coords t) (iblk2 V c 0 t) (iblk2 V c 1 t) (iblk2 V c 2 t) (iblk2 V c 3 t)) xs) (iblk2 V c 5 t) := by
  unfold out2_C run2_C
  exact out_C_gen c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) xs

end Region2

end Cert.KernelIdeal.Hand

end
-- ==== Proof.FrameKernelIdeal.Region2ValueIdeal.lean ====
import proofs.«143417_j3152505995417_1_alg».proof.Proof.FrameKernelIdeal.Region2ValuePieces
import proofs.«143417_j3152505995417_1_alg».proof.Proof.LibPlainDot
import proofs.«143417_j3152505995417_1_alg».proof.Proof.LibColsDot
import Idealize.ShloMosaic.Lib.Pipeline.Value
import Idealize.ShloMosaic.Lib.ValueIdx
import Idealize.ShloMosaic.Lib.ValueLayout
import Idealize.ShloMosaic.Lib.Affine
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! # Region 2: the payloads read at an entry, at the ideal values -/

/-- The small constant added to the column maxima. -/
def epsK : EReal := Ideal.ofBits .f32 0x2EDBE6FF#32

/-- A column `[a, 1]` broadcast to `[a, b]` reads, at `(p, c)`, the operand's row `p`. -/
theorem r2_broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reset value is zero. -/
theorem k2_pay3_apply (j : S512x5.Idx) : k2_pay3 (F := Ideal) j = 0 := by
  unfold k2_pay3
  simp only [shapeCast_self]
  exact Ideal.ofBits_zero_f32

/-- The block of the right factor is passed on as it is. -/
theorem k2_pay4_eq (x : Vec Ideal S512x5 .f32) : k2_pay4 (F := Ideal) x = x := by
  unfold k2_pay4
  exact shapeCast_self _ _

/-- The stored output: the scratch plus the bias row. -/
theorem k2_pay2_apply (v48 : Vec Ideal S512x5 .f32) (v49 : Vec Ideal S1x5 .f32) (r : Fin 512) (k : Fin 5) :
    k2_pay2 (F := Ideal) v48 v49 (ix2 r k) = v48 (ix2 r k) + v49 (ix2 (0 : Fin 1) k) := by
  unfold k2_pay2
  simp only [shapeCast_self]
  exact congrArg (v48 (ix2 r k) + ·) (broadcastTo_1b_ab_apply v49 _ r k)

/-- The accumulation: what the scratch held plus the tile's product with the block of the right factor. -/
theorem k2_pay1_apply (v36 : FVec Ideal S512x5 .f32) (v37 : FVec Ideal S512x512 .bf16) (v40 : Vec Ideal S512x5 .f32) (r : Fin 512) (k : Fin 5) :
    k2_pay1 (F := Ideal) v36 v37 v40 (ix2 r k) = v40 (ix2 r k) + ∑ l : Fin 512, v37 (ix2 r l) * v36 (ix2 l k) := by
  unfold k2_pay1
  simp only [shapeCast_self]
  exact congrArg (v40 (ix2 r k) + ·) (Cert.PlainDot.matmul_zero_plain_apply none v37 (truncf .bf16 v36 bitsLt_bf16_f32) r k)

/-! ## The two masks, as facts about 32-bit words -/

open Idealize.ShloMosaic.Affine in
/-- A tile's global coordinate `g * 512 + x` as the body computes it is that integer. -/
theorem r2_coordWord (g x : ℕ) (hg : g < 14) (hx : x < 512) :
    IsInt (Scalar.addi (Scalar.muli (BitVec.ofNat 32 g) 512#32) (BitVec.ofNat 32 (0 * 512 + x))) ((g * 512 + x : ℕ) : Int) :=
  Affine.addi (Affine.muli (Affine.ofNat g ⟨rfl, by omega⟩) (Affine.ofNat 512 ⟨rfl, by omega⟩) ⟨rfl, by push_cast; omega, by push_cast; omega⟩)
    (Affine.ofNat (0 * 512 + x) ⟨rfl, by omega⟩) ⟨by push_cast; ring, by push_cast; omega, by push_cast; omega⟩

/-- The column word of entry `(r, l)` of the tile at column tile `g`. -/
theorem r2_colWord (g : ℕ) (hg : g < 14) (r l : Fin 512) :
    Affine.IsInt ((addi (broadcast S512x512 (Scalar.muli (BitVec.ofNat 32 g) 512#32)) (iota .tc S512x512 32 [1] iota_S512x512_d1_w32)) (ix2 r l))
      ((g * 512 + l.val : ℕ) : Int) := r2_coordWord g l.val hg l.isLt

/-- The row word of entry `(r, l)` of the tile at row tile `g`. -/
theorem r2_rowWord (g : ℕ) (hg : g < 14) (r l : Fin 512) :
    Affine.IsInt ((addi (broadcast S512x512 (Scalar.muli (BitVec.ofNat 32 g) 512#32)) (iota .tc S512x512 32 [0] iota_S512x512_d0_w32)) (ix2 r l))
      ((g * 512 + r.val : ℕ) : Int) := r2_coordWord g r.val hg r.isLt

/-- The column mask: the column is below 6670. -/
theorem r2_sltMask (g : ℕ) (hg : g < 14) (r l : Fin 512) :
    (cmpi .slt (addi (broadcast S512x512 (Scalar.muli (BitVec.ofNat 32 g) 512#32)) (iota .tc S512x512 32 [1] iota_S512x512_d1_w32))
        (broadcast S512x512 6670#32)) (ix2 r l) = if g * 512 + l.val < 6670 then 1#1 else 0#1 := by
  have hlim : Affine.IsInt (6670#32) 6670 := Affine.ofNat 6670 ⟨rfl, by omega⟩
  split
  · next h => exact Affine.slt_holds (r2_colWord g hg r l) hlim (by exact_mod_cast h)
  · next h => exact eq_zero_of_ne_one (Affine.slt_fails (r2_colWord g hg r l) hlim (by exact_mod_cast h))

/-- The diagonal mask: the row is the column. -/
theorem r2_eqMask (g0 g1 : ℕ) (hg0 : g0 < 14) (hg1 : g1 < 14) (r l : Fin 512) :
    (cmpi .eq (addi (broadcast S512x512 (Scalar.muli (BitVec.ofNat 32 g0) 512#32)) (iota .tc S512x512 32 [0] iota_S512x512_d0_w32))
        (addi (broadcast S512x512 (Scalar.muli (BitVec.ofNat 32 g1) 512#32)) (iota .tc S512x512 32 [1] iota_S512x512_d1_w32))) (ix2 r l)
      = if g0 * 512 + r.val = g1 * 512 + l.val then 1#1 else 0#1 := by
  split
  · next h => exact Affine.eq_holds (r2_rowWord g0 hg0 r l) (r2_colWord g1 hg1 r l) (by exact_mod_cast h)
  · next h => exact eq_zero_of_ne_one (Affine.eq_fails (r2_rowWord g0 hg0 r l) (r2_colWord g1 hg1 r l) (by exact_mod_cast h))

/-- The tile after the two masks, divided by the shifted column maxima: entry `(r, l)` of the tile at grid point `i`. -/
theorem k2_pay5_apply (i : grid2.Coords) (x0 x1 : Vec Ideal S116x512 .f32) (x2 : Vec Ideal S116x1 .f32) (x3 : Vec Ideal S1x512 .f32)
    (r l : Fin 512) :
    k2_pay5 (F := Ideal) i x0 x1 x2 x3 (ix2 r l)
      = Ideal.div (if (i 1).val * 512 + l.val < 6670 then
            (if (i 0).val * 512 + r.val = (i 1).val * 512 + l.val then 0
              else ∑ n : Fin 116, x0 (ix2 n r) * (x2 (ix2 n (0 : Fin 1)) * x1 (ix2 n l)))
          else 0) (x3 (ix2 (0 : Fin 1) l) + epsK) := by
  have hi0 : (i 0).val < 14 := (i 0).isLt
  have hi1 : (i 1).val < 14 := (i 1).isLt
  have hmat : matmul dot_S116x512_S116x512_S512x512_0_0_1_1_n_n none (truncf .bf16 x0 bitsLt_bf16_f32)
      (truncf .bf16 (mulf (broadcastTo S116x512 x2 broadcasts_S116x1_S116x512) x1) bitsLt_bf16_f32)
      (constant (F := Ideal) S512x512 .f32 0x00000000#32) (ix2 r l)
        = ∑ n : Fin 116, x0 (ix2 n r) * (x2 (ix2 n (0 : Fin 1)) * x1 (ix2 n l)) :=
    (Cert.Lib.ColsDot.matmul_zero_cols_apply dot_S116x512_S116x512_S512x512_0_0_1_1_n_n rfl rfl rfl rfl rfl rfl none
      (truncf .bf16 x0 bitsLt_bf16_f32) (truncf .bf16 (mulf (broadcastTo S116x512 x2 broadcasts_S116x1_S116x512) x1) bitsLt_bf16_f32) r l).trans
      (Finset.sum_congr rfl fun n _ => congrArg (x0 (ix2 n r) * ·)
        (congrArg (· * x1 (ix2 n l)) (r2_broadcastTo_a1_ab_apply x2 broadcasts_S116x1_S116x512 n l)))
  have hden : broadcastTo S512x512 (addf x3 (broadcast S1x512 (FloatOps.ofBits (F := Ideal) .f32 0x2EDBE6FF#32))) broadcasts_S1x512_S512x512 (ix2 r l)
      = x3 (ix2 (0 : Fin 1) l) + epsK :=
    broadcastTo_1b_ab_apply _ _ r l
  unfold k2_pay5
  simp only [shapeCast_self]
  refine congrArg₂ Ideal.div ?_ hden
  simp only [select_apply, broadcast_apply]
  rw [r2_sltMask (i 1).val hi1 r l, r2_eqMask (i 0).val (i 1).val hi0 hi1 r l, hmat]
  have hz0 : FloatOps.ofBits (F := Ideal) .f32 0x00000000#32 = (0 : EReal) := Ideal.ofBits_zero_f32
  rw [hz0]
  split_ifs <;> simp only [select_one, select_zero]

end Cert.KernelIdeal.Hand

end
-- ==== Proof.FrameKernelIdeal.Region2ValueBlocks.lean ====
import proofs.«143417_j3152505995417_1_alg».proof.Proof.FrameKernelIdeal.Region2ValuePieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! # Region 2: the windows' blocks as entries of their arrays -/

/-- The two grid coordinates of point `t`: the row tile `t / 14` and the column tile `t % 14`. -/
theorem coords2_0 : ∀ t : Fin cfg2.N, ((grid2.coords t) 0).val = t.val / 14 :=
  (by decide +kernel : ∀ t : Fin grid2.N, ((grid2.coords t) 0).val = t.val / 14)
theorem coords2_1 : ∀ t : Fin cfg2.N, ((grid2.coords t) 1).val = t.val % 14 :=
  (by decide +kernel : ∀ t : Fin grid2.N, ((grid2.coords t) 1).val = t.val % 14)

/-- The windows' block indices at point `t`. -/
theorem index2_0 : ∀ t : Fin cfg2.N, win2_0.index t 0 = 0 ∧ win2_0.index t 1 = t.val / 14 :=
  (by decide +kernel : ∀ t : Fin grid2.N, win2_0.index t 0 = 0 ∧ win2_0.index t 1 = t.val / 14)
theorem index2_1 : ∀ t : Fin cfg2.N, win2_1.index t 0 = 0 ∧ win2_1.index t 1 = t.val % 14 :=
  (by decide +kernel : ∀ t : Fin grid2.N, win2_1.index t 0 = 0 ∧ win2_1.index t 1 = t.val % 14)
theorem index2_2 : ∀ t : Fin cfg2.N, win2_2.index t 0 = 0 ∧ win2_2.index t 1 = 0 :=
  (by decide +kernel : ∀ t : Fin grid2.N, win2_2.index t 0 = 0 ∧ win2_2.index t 1 = 0)
theorem index2_3 : ∀ t : Fin cfg2.N, win2_3.index t 0 = 0 ∧ win2_3.index t 1 = t.val % 14 :=
  (by decide +kernel : ∀ t : Fin grid2.N, win2_3.index t 0 = 0 ∧ win2_3.index t 1 = t.val % 14)
theorem index2_4 : ∀ t : Fin cfg2.N, win2_4.index t 0 = t.val % 14 ∧ win2_4.index t 1 = 0 :=
  (by decide +kernel : ∀ t : Fin grid2.N, win2_4.index t 0 = t.val % 14 ∧ win2_4.index t 1 = 0)
theorem index2_5 : ∀ t : Fin cfg2.N, win2_5.index t 0 = 0 ∧ win2_5.index t 1 = 0 :=
  (by decide +kernel : ∀ t : Fin grid2.N, win2_5.index t 0 = 0 ∧ win2_5.index t 1 = 0)
theorem index2_6 : ∀ t : Fin cfg2.N, win2_6.index t 0 = t.val / 14 ∧ win2_6.index t 1 = 0 :=
  (by decide +kernel : ∀ t : Fin grid2.N, win2_6.index t 0 = t.val / 14 ∧ win2_6.index t 1 = 0)

theorem r2_tile_lt {g x : ℕ} (hg : g < 14) (hx : x < 512) : g * 512 + x < 7168 := by omega
theorem r2_div14_lt (t : Fin cfg2.N) : t.val / 14 < 14 := by
  have : t.val < 196 := lt_of_lt_of_eq t.isLt (show cfg2.N = 196 from N_2); omega
theorem r2_mod14_lt (t : Fin cfg2.N) : t.val % 14 < 14 := Nat.mod_lt _ (by decide)

/-- The global row of local row `r` at point `t` (the row tile is `t / 14`), -/
def r2_row (t : Fin cfg2.N) (r : Fin 512) : Fin 7168 := ⟨t.val / 14 * 512 + r.val, r2_tile_lt (r2_div14_lt t) r.isLt⟩
/-- and the global column of local column `l` (the column tile is `t % 14`). -/
def r2_col (t : Fin cfg2.N) (l : Fin 512) : Fin 7168 := ⟨t.val % 14 * 512 + l.val, r2_tile_lt (r2_mod14_lt t) l.isLt⟩

section Region2

variable (V : (c : Dev nD) → (b : Ref sig .tc) → Buf (Elt F) ((c : Thread nD τ).loc b))

theorem iblk2_0_apply (c : Dev nD) (t : Fin cfg2.N) (n : Fin 116) (r : Fin 512) :
    (iblk2 V c 0 t : Vec F S116x512 .f32) (ix2 n r) = V c (Pipeline.arrRef spec2 0) (ix2 n (r2_row t r)) := by
  unfold iblk2
  rw [View.read_apply]
  show V c (Pipeline.arrRef spec2 0) _ = V c (Pipeline.arrRef spec2 0) _
  congr 1
  funext a
  apply Fin.ext
  match a with
  | ⟨0, _⟩ => show win2_0.index t 0 * 116 + 1 * n.val = n.val; rw [(index2_0 t).1]; omega
  | ⟨1, _⟩ => show win2_0.index t 1 * 512 + 1 * r.val = t.val / 14 * 512 + r.val; rw [(index2_0 t).2]; omega

theorem iblk2_1_apply (c : Dev nD) (t : Fin cfg2.N) (n : Fin 116) (l : Fin 512) :
    (iblk2 V c 1 t : Vec F S116x512 .f32) (ix2 n l) = V c (Pipeline.arrRef spec2 0) (ix2 n (r2_col t l)) := by
  unfold iblk2
  rw [View.read_apply]
  show V c (Pipeline.arrRef spec2 0) _ = V c (Pipeline.arrRef spec2 0) _
  congr 1
  funext a
  apply Fin.ext
  match a with
  | ⟨0, _⟩ => show win2_1.index t 0 * 116 + 1 * n.val = n.val; rw [(index2_1 t).1]; omega
  | ⟨1, _⟩ => show win2_1.index t 1 * 512 + 1 * l.val = t.val % 14 * 512 + l.val; rw [(index2_1 t).2]; omega

theorem iblk2_2_apply (c : Dev nD) (t : Fin cfg2.N) (n : Fin 116) (z : Fin 1) :
    (iblk2 V c 2 t : Vec F S116x1 .f32) (ix2 n z) = V c (Pipeline.arrRef spec2 2) (ix2 n z) := by
  unfold iblk2
  rw [View.read_apply]
  show V c (Pipeline.arrRef spec2 2) _ = V c (Pipeline.arrRef spec2 2) _
  congr 1
  funext a
  apply Fin.ext
  match a with
  | ⟨0, _⟩ => show win2_2.index t 0 * 116 + 1 * n.val = n.val; rw [(index2_2 t).1]; omega
  | ⟨1, _⟩ => show win2_2.index t 1 * 1 + 1 * z.val = z.val; rw [(index2_2 t).2]; omega

theorem iblk2_3_apply (c : Dev nD) (t : Fin cfg2.N) (z : Fin 1) (l : Fin 512) :
    (iblk2 V c 3 t : Vec F S1x512 .f32) (ix2 z l) = V c (Pipeline.arrRef spec2 3) (ix2 z (r2_col t l)) := by
  unfold iblk2
  rw [View.read_apply]
  show V c (Pipeline.arrRef spec2 3) _ = V c (Pipeline.arrRef spec2 3) _
  congr 1
  funext a
  apply Fin.ext
  match a with
  | ⟨0, _⟩ => show win2_3.index t 0 * 1 + 1 * z.val = z.val; rw [(index2_3 t).1]; omega
  | ⟨1, _⟩ => show win2_3.index t 1 * 512 + 1 * l.val = t.val % 14 * 512 + l.val; rw [(index2_3 t).2]; omega

theorem iblk2_4_apply (c : Dev nD) (t : Fin cfg2.N) (l : Fin 512) (k : Fin 5) :
    (iblk2 V c 4 t : Vec F S512x5 .f32) (ix2 l k) = V c (Pipeline.arrRef spec2 4) (ix2 (r2_col t l) k) := by
  unfold iblk2
  rw [View.read_apply]
  show V c (Pipeline.arrRef spec2 4) _ = V c (Pipeline.arrRef spec2 4) _
  congr 1
  funext a
  apply Fin.ext
  match a with
  | ⟨0, _⟩ => show win2_4.index t 0 * 512 + 1 * l.val = t.val % 14 * 512 + l.val; rw [(index2_4 t).1]; omega
  | ⟨1, _⟩ => show win2_4.index t 1 * 5 + 1 * k.val = k.val; rw [(index2_4 t).2]; omega

theorem iblk2_5_apply (c : Dev nD) (t : Fin cfg2.N) (z : Fin 1) (k : Fin 5) :
    (iblk2 V c 5 t : Vec F S1x5 .f32) (ix2 z k) = V c (Pipeline.arrRef spec2 5) (ix2 z k) := by
  unfold iblk2
  rw [View.read_apply]
  show V c (Pipeline.arrRef spec2 5) _ = V c (Pipeline.arrRef spec2 5) _
  congr 1
  funext a
  apply Fin.ext
  match a with
  | ⟨0, _⟩ => show win2_5.index t 0 * 1 + 1 * z.val = z.val; rw [(index2_5 t).1]; omega
  | ⟨1, _⟩ => show win2_5.index t 1 * 5 + 1 * k.val = k.val; rw [(index2_5 t).2]; omega

/-- An entry of the output block at point `t` sits in the output array at the global row. -/
theorem blk2_6_emb (c : Dev nD) (t : Fin cfg2.N) (r : Fin 512) (k : Fin 5) :
    ((cfg2.win 6).blk t).view.emb (ix2 r k) = (ix2 (r2_row t r) k : S7168x5.Idx) := by
  funext a
  apply Fin.ext
  match a with
  | ⟨0, _⟩ => show win2_6.index t 0 * 512 + 1 * r.val = t.val / 14 * 512 + r.val; rw [(index2_6 t).1]; omega
  | ⟨1, _⟩ => show win2_6.index t 1 * 5 + 1 * k.val = k.val; rw [(index2_6 t).2]; omega

end Region2

end Cert.KernelIdeal.Hand

end
-- ==== Proof.LibTileAccum.lean ====
/-
  A running total kept along tiles of `L` points each.

  The points `0, 1, 2, …` are cut into consecutive rows of `L` points. A total `a` is reset to the point's term at
  the first point of a row, is added to at every later point of the row, and at the row's last point an extra
  term `b` is added as well. Then at the last point of a row the total is the sum of that row's `L` terms plus `b`.
-/
import Mathlib.Algebra.BigOperators.Group.Finset.Basic

open scoped BigOperators

namespace Cert.Lib.TileAccum

/-- The position inside a row of the next point: back to `0` after the last position, one more otherwise. -/
theorem succ_mod (L n : ℕ) (hL : 2 ≤ L) : (n + 1) % L = if n % L = L - 1 then 0 else n % L + 1 := by
  have hr : n % L < L := Nat.mod_lt _ (by omega)
  have h1 : 1 % L = 1 := Nat.mod_eq_of_lt (by omega)
  rw [Nat.add_mod_eq_ite, h1]
  split_ifs <;> omega

/-- Before a row's last point the total is the sum of the row's terms up to the point. -/
theorem partial_eq {M : Type*} [AddCommMonoid M] (L N : ℕ) (hL : 2 ≤ L) (P a : ℕ → M)
    (h0 : 0 < N → a 0 = P 0)
    (hfirst : ∀ n, n + 1 < N → (n + 1) % L = 0 → a (n + 1) = P (n + 1))
    (hmid : ∀ n, n + 1 < N → (n + 1) % L ≠ 0 → (n + 1) % L ≠ L - 1 → a (n + 1) = a n + P (n + 1)) :
    ∀ n, n < N → n % L ≠ L - 1 → a n = ∑ k ∈ Finset.range (n % L + 1), P (n - n % L + k) := by
  intro n
  induction n with
  | zero =>
    intro hN _
    rw [Nat.zero_mod, Finset.sum_range_one]
    exact h0 hN
  | succ n ih =>
    intro hN hne
    have hs := succ_mod L n hL
    by_cases hz : (n + 1) % L = 0
    · rw [hz, Finset.sum_range_one]
      exact hfirst n hN hz
    · have hr : n % L ≠ L - 1 := fun h => hz (by rw [hs, if_pos h])
      rw [if_neg hr] at hs
      have hle : n % L ≤ n := Nat.mod_le _ _
      have e1 : n + 1 - (n % L + 1) = n - n % L := by omega
      have e2 : n - n % L + (n % L + 1) = n + 1 := by omega
      rw [hs, Finset.sum_range_succ, e1, e2, ← ih (by omega) hr]
      exact hmid n hN hz hne

/-- At a row's last point the total is the sum of the row's `L` terms plus the extra term. -/
theorem last_eq {M : Type*} [AddCommMonoid M] (L N : ℕ) (hL : 2 ≤ L) (P b a : ℕ → M)
    (h0 : 0 < N → a 0 = P 0)
    (hfirst : ∀ n, n + 1 < N → (n + 1) % L = 0 → a (n + 1) = P (n + 1))
    (hmid : ∀ n, n + 1 < N → (n + 1) % L ≠ 0 → (n + 1) % L ≠ L - 1 → a (n + 1) = a n + P (n + 1))
    (hlast : ∀ n, n + 1 < N → (n + 1) % L = L - 1 → a (n + 1) = (a n + P (n + 1)) + b (n + 1)) :
    ∀ n, n < N → n % L = L - 1 → a n = (∑ k ∈ Finset.range L, P (n - (L - 1) + k)) + b n := by
  intro n hN hn
  obtain ⟨m, rfl⟩ : ∃ m, n = m + 1 := by
    refine ⟨n - 1, ?_⟩
    have : n ≠ 0 := fun h => by rw [h, Nat.zero_mod] at hn; omega
    omega
  have hs := succ_mod L m hL
  have hr : m % L ≠ L - 1 := fun h => by rw [hs, if_pos h] at hn; omega
  rw [if_neg hr] at hs
  have hm : m % L + 1 = L - 1 := by omega
  have hle : m % L ≤ m := Nat.mod_le _ _
  have ih := partial_eq L N hL P a h0 hfirst hmid m (by omega) hr
  have eR : Finset.range L = Finset.range (m % L + 1 + 1) := congrArg Finset.range (by omega)
  have e1 : m + 1 - (L - 1) = m - m % L := by omega
  have e2 : m - m % L + (m % L + 1) = m + 1 := by omega
  rw [hlast m hN hn, e1, ih, eR, Finset.sum_range_succ _ (m % L + 1), e2]

/-- The same with rows of 43 points. -/
theorem last_eq_43 {M : Type*} [AddCommMonoid M] (N : ℕ) (P b a : ℕ → M)
    (h0 : 0 < N → a 0 = P 0)
    (hfirst : ∀ n, n + 1 < N → (n + 1) % 43 = 0 → a (n + 1) = P (n + 1))
    (hmid : ∀ n, n + 1 < N → (n + 1) % 43 ≠ 0 → (n + 1) % 43 ≠ 42 → a (n + 1) = a n + P (n + 1))
    (hlast : ∀ n, n + 1 < N → (n + 1) % 43 = 42 → a (n + 1) = (a n + P (n + 1)) + b (n + 1)) :
    ∀ n, n < N → n % 43 = 42 → a n = (∑ k ∈ Finset.range 43, P (n - 42 + k)) + b n :=
  last_eq 43 N (by omega) P b a h0 hfirst hmid hlast

end Cert.Lib.TileAccum
-- ==== Proof.LibTiles.lean ====
/-
  A sum over a range of `n * b` consecutive indices, cut into `n` consecutive tiles of width `b`:
  the index `k * b + j` is the `j`-th element of the `k`-th tile.
-/
import Mathlib.Algebra.BigOperators.Fin
import Mathlib.Logic.Equiv.Fin.Basic
import Mathlib.Data.EReal.Basic

open scoped BigOperators

namespace Cert.Lib.Tiles

/-- The `j`-th element of the `k`-th tile of width `b` lies below `n * b`. -/
theorem tile_lt {n b : ℕ} (k : Fin n) (j : Fin b) : k.val * b + j.val < n * b :=
  calc k.val * b + j.val < k.val * b + b := Nat.add_lt_add_left j.isLt _
    _ = (k.val + 1) * b := (Nat.succ_mul _ _).symm
    _ ≤ n * b := Nat.mul_le_mul_right b k.isLt

/-- A sum over `Fin (n * b)` is the sum over the `n` tiles of the sums over each tile's `b` elements. -/
theorem sum_tiles {M : Type*} [AddCommMonoid M] (n b : ℕ) (f : Fin (n * b) → M) :
    ∑ i : Fin (n * b), f i = ∑ k : Fin n, ∑ j : Fin b, f ⟨k.val * b + j.val, tile_lt k j⟩ := by
  rw [← Equiv.sum_comp finProdFinEquiv f, Fintype.sum_prod_type]
  refine Finset.sum_congr rfl fun k _ => Finset.sum_congr rfl fun j _ => ?_
  refine congrArg f (Fin.ext ?_)
  show j.val + b * k.val = k.val * b + j.val
  rw [Nat.mul_comm, Nat.add_comm]

/-- The inner width 11008 as 43 tiles of width 256. -/
theorem sum_11008 (f : Fin 11008 → EReal) :
    ∑ i : Fin 11008, f i = ∑ k : Fin 43, ∑ j : Fin 256, f ⟨k.val * 256 + j.val, by omega⟩ :=
  sum_tiles 43 256 f

end Cert.Lib.Tiles
-- ==== Proof.FrameKernelIdeal.Region2Value.lean ====
import proofs.«143417_j3152505995417_1_alg».proof.Proof.FrameKernelIdeal.Region2ValueIdeal
import proofs.«143417_j3152505995417_1_alg».proof.Proof.FrameKernelIdeal.Region2ValueBlocks
import proofs.«143417_j3152505995417_1_alg».proof.Proof.EdgeAlgebra
import proofs.«143417_j3152505995417_1_alg».proof.Proof.LibTileAccum
import proofs.«143417_j3152505995417_1_alg».proof.Proof.LibTiles

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! # Region 2: the value of the output array, at the ideal values -/

/-- A sum over the 7168 columns, cut into the 14 column tiles of width 512. -/
theorem r2_sum_7168 (f : Fin 7168 → EReal) :
    ∑ i : Fin 7168, f i = ∑ j : Fin 14, ∑ l : Fin 512, f ⟨j.val * 512 + l.val, by omega⟩ :=
  Cert.Lib.Tiles.sum_tiles 14 512 f

/-- The output window's blocks are whole. -/
theorem xsize2_6 : ∀ t : Fin cfg2.N, win2_6.xsize (grid2.coords t) 0 = 512 ∧ win2_6.xsize (grid2.coords t) 1 = 5 :=
  (by decide +kernel : ∀ t : Fin grid2.N, win2_6.xsize (grid2.coords t) 0 = 512 ∧ win2_6.xsize (grid2.coords t) 1 = 5)

/-- The tile entry from its four blocks, once the blocks are entries of the arrays at the global row `a` and column `b`. -/
theorem r2_tile_entry_of (i : grid2.Coords) (x0 x1 : Vec Ideal S116x512 .f32) (x2 : Vec Ideal S116x1 .f32) (x3 : Vec Ideal S1x512 .f32)
    (Tp : Fin 116 → Fin 7168 → EReal) (dv : Fin 116 → EReal) (cm : Fin 7168 → EReal) (a b : Fin 7168) (r l : Fin 512)
    (ha : a.val = (i 0).val * 512 + r.val) (hb : b.val = (i 1).val * 512 + l.val)
    (h0 : ∀ n : Fin 116, x0 (ix2 n r) = Tp n a) (h1 : ∀ n : Fin 116, x1 (ix2 n l) = Tp n b)
    (h2 : ∀ n : Fin 116, x2 (ix2 n (0 : Fin 1)) = dv n) (h3 : x3 (ix2 (0 : Fin 1) l) = cm b) :
    k2_pay5 (F := Ideal) i x0 x1 x2 x3 (ix2 r l) = Ideal.div (Cert.EdgeAlgebra.rvK Tp dv a b) (cm b + Cert.EdgeAlgebra.epsK) := by
  refine (k2_pay5_apply i x0 x1 x2 x3 r l).trans ?_
  have e1 : (i 1).val * 512 + l.val < 6670 ↔ b.val < 6670 := by rw [hb]
  have e2 : (i 0).val * 512 + r.val = (i 1).val * 512 + l.val ↔ a = b := by rw [Fin.ext_iff, ha, hb]
  have hS : (∑ n : Fin 116, x0 (ix2 n r) * (x2 (ix2 n (0 : Fin 1)) * x1 (ix2 n l))) = Cert.EdgeAlgebra.rawK Tp dv a b :=
    Finset.sum_congr rfl fun n _ => by rw [h0, h1, h2]
  have hD : x3 (ix2 (0 : Fin 1) l) + epsK = cm b + Cert.EdgeAlgebra.epsK := by rw [h3]; rfl
  unfold Cert.EdgeAlgebra.rvK
  exact congrArg₂ Ideal.div (if_congr e1 (if_congr e2 rfl hS) rfl) hD

section Region2

variable (V : (c : Dev nD) → (b : Ref sig .tc) → Buf (Elt Ideal) ((c : Thread nD τ).loc b))

/-- The arrays as the region finds them, by coordinates. -/
def Tp2 (c : Dev nD) : Fin 116 → Fin 7168 → EReal := fun n e => (V c (Pipeline.arrRef spec2 0) : S116x7168.Idx → EReal) (ix2 n e)
def dv2 (c : Dev nD) : Fin 116 → EReal := fun n => (V c (Pipeline.arrRef spec2 2) : S116x1.Idx → EReal) (ix2 n (0 : Fin 1))
def cm2 (c : Dev nD) : Fin 7168 → EReal := fun b => (V c (Pipeline.arrRef spec2 3) : S1x7168.Idx → EReal) (ix2 (0 : Fin 1) b)
def HeW2 (c : Dev nD) : Fin 7168 → Fin 5 → EReal := fun b k => (V c (Pipeline.arrRef spec2 4) : S7168x5.Idx → EReal) (ix2 b k)
def be2 (c : Dev nD) : Fin 5 → EReal := fun k => (V c (Pipeline.arrRef spec2 5) : S1x5.Idx → EReal) (ix2 (0 : Fin 1) k)

/-- Column `b`'s term of output entry `(a, k)`. -/
def term2 (c : Dev nD) (a : Fin 7168) (k : Fin 5) (b : Fin 7168) : EReal :=
  Ideal.div (Cert.EdgeAlgebra.rvK (Tp2 V c) (dv2 V c) a b) (cm2 V c b + Cert.EdgeAlgebra.epsK) * HeW2 V c b k

/-- What point `t` adds to local row `r`: the terms of its column tile. -/
def P2 (c : Dev nD) (t : Fin cfg2.N) (r : Fin 512) (k : Fin 5) : EReal := ∑ l : Fin 512, term2 V c (r2_row t r) k (r2_col t l)

/-- The tile at point `t`, entry `(r, l)`. -/
theorem tile2_entry (c : Dev nD) (t : Fin cfg2.N) (r l : Fin 512) :
    k2_pay5 (F := Ideal) (grid2.coords t) (iblk2 V c 0 t) (iblk2 V c 1 t) (iblk2 V c 2 t) (iblk2 V c 3 t) (ix2 r l)
      = Ideal.div (Cert.EdgeAlgebra.rvK (Tp2 V c) (dv2 V c) (r2_row t r) (r2_col t l)) (cm2 V c (r2_col t l) + Cert.EdgeAlgebra.epsK) :=
  r2_tile_entry_of (grid2.coords t) (iblk2 V c 0 t) (iblk2 V c 1 t) (iblk2 V c 2 t) (iblk2 V c 3 t)
    (Tp2 V c) (dv2 V c) (cm2 V c) (r2_row t r) (r2_col t l) r l
    (by show t.val / 14 * 512 + r.val = ((grid2.coords t) 0).val * 512 + r.val; rw [coords2_0 t])
    (by show t.val % 14 * 512 + l.val = ((grid2.coords t) 1).val * 512 + l.val; rw [coords2_1 t])
    (fun n => iblk2_0_apply V c t n r) (fun n => iblk2_1_apply V c t n l) (fun n => iblk2_2_apply V c t n (0 : Fin 1))
    (iblk2_3_apply V c t (0 : Fin 1) l)

/-- One point's accumulation: what the scratch held plus the point's terms. -/
theorem acc_step2 (c : Dev nD) (t : Fin cfg2.N) (r : Fin 512) (k : Fin 5) (xs : Vec Ideal S512x5 .f32) :
    k2_pay1 (F := Ideal) (k2_pay4 (iblk2 V c 4 t)) (k2_pay5 (grid2.coords t) (iblk2 V c 0 t) (iblk2 V c 1 t) (iblk2 V c 2 t) (iblk2 V c 3 t)) xs (ix2 r k)
      = xs (ix2 r k) + P2 V c t r k := by
  refine (k2_pay1_apply _ _ xs r k).trans (congrArg (xs (ix2 r k) + ·) (Finset.sum_congr rfl fun l _ => ?_))
  rw [tile2_entry V c t r l, k2_pay4_eq, iblk2_4_apply]
  rfl

/-! ## The running total over the points -/

/-- After point `n`, entry `(r, k)`: of the output block at the storing points, of the scratch elsewhere. -/
def acc2 (c : Dev nD) (r : Fin 512) (k : Fin 5) (n : ℕ) : EReal :=
  if h : n < cfg2.N then (if n % 14 = 13 then (outsAt2 V c n h).1 (ix2 r k) else (outsAt2 V c n h).2 (ix2 r k)) else 0
/-- What point `n` adds. -/
def Pn2 (c : Dev nD) (r : Fin 512) (k : Fin 5) (n : ℕ) : EReal := if h : n < cfg2.N then P2 V c ⟨n, h⟩ r k else 0

theorem acc2_first (c : Dev nD) (r : Fin 512) (k : Fin 5) (n : ℕ) (hn : n < cfg2.N) (h0 : n % 14 = 0) :
    acc2 V c r k n = Pn2 V c r k n := by
  have h1 : ¬n % 14 = 13 := by omega
  unfold acc2 Pn2
  rw [dif_pos hn, if_neg h1, dif_pos hn, outsAt2_A V c ⟨n, hn⟩ h0 h1]
  show sout2_A V c ⟨n, hn⟩ h0 h1 (ix2 r k) = _
  rw [sout2_A_eq, acc_step2, k2_pay3_apply, zero_add]

theorem acc2_mid (c : Dev nD) (r : Fin 512) (k : Fin 5) (n : ℕ) (hn : n + 1 < cfg2.N) (h0 : (n + 1) % 14 ≠ 0) (h1 : (n + 1) % 14 ≠ 13) :
    acc2 V c r k (n + 1) = acc2 V c r k n + Pn2 V c r k (n + 1) := by
  have hn' : n < cfg2.N := Nat.lt_of_succ_lt hn
  have hp : ¬n % 14 = 13 := by omega
  unfold acc2 Pn2
  rw [dif_pos hn, if_neg h1, dif_pos hn', if_neg hp, dif_pos hn, outsAt2_B V c ⟨n + 1, hn⟩ h0 h1]
  show sout2_B V c ⟨n + 1, hn⟩ h0 h1 (outsAt2 V c n hn').2 (ix2 r k) = _
  rw [sout2_B_eq, acc_step2]

theorem acc2_last (c : Dev nD) (r : Fin 512) (k : Fin 5) (n : ℕ) (hn : n + 1 < cfg2.N) (h1 : (n + 1) % 14 = 13) :
    acc2 V c r k (n + 1) = (acc2 V c r k n + Pn2 V c r k (n + 1)) + be2 V c k := by
  have hn' : n < cfg2.N := Nat.lt_of_succ_lt hn
  have h0 : ¬(n + 1) % 14 = 0 := by omega
  have hp : ¬n % 14 = 13 := by omega
  unfold acc2 Pn2
  rw [dif_pos hn, if_pos h1, dif_pos hn', if_neg hp, dif_pos hn, outsAt2_C V c ⟨n + 1, hn⟩ h0 h1]
  show out2_C V c ⟨n + 1, hn⟩ h0 h1 (outsAt2 V c n hn').2 (ix2 r k) = _
  rw [out2_C_eq, k2_pay2_apply, acc_step2, iblk2_5_apply]
  rfl

/-- At a storing point the output block holds the sum of the row tile's 14 points' terms plus the bias. -/
theorem acc2_row_end (c : Dev nD) (r : Fin 512) (k : Fin 5) (n : ℕ) (hn : n < cfg2.N) (h13 : n % 14 = 13) :
    acc2 V c r k n = (∑ j ∈ Finset.range 14, Pn2 V c r k (n - 13 + j)) + be2 V c k :=
  Cert.Lib.TileAccum.last_eq 14 cfg2.N (by omega) (Pn2 V c r k) (fun _ => be2 V c k) (acc2 V c r k)
    (fun h => acc2_first V c r k 0 h (Nat.zero_mod _))
    (fun n hn h0 => acc2_first V c r k (n + 1) hn h0)
    (fun n hn h0 h1 => acc2_mid V c r k n hn h0 h1)
    (fun n hn h1 => acc2_last V c r k n hn h1) n hn h13

/-- So at a storing point, entry `(r, k)` of the output block is the whole sum over the 7168 columns plus the bias. -/
theorem out_at_store2 (c : Dev nD) (t : Fin cfg2.N) (h13 : t.val % 14 = 13) (r : Fin 512) (k : Fin 5) :
    (outsAt2 V c t.val t.isLt).1 (ix2 r k) = (∑ b : Fin 7168, term2 V c (r2_row t r) k b) + be2 V c k := by
  have hN : cfg2.N = 196 := N_2
  have ht : t.val < 196 := lt_of_lt_of_eq t.isLt hN
  have h := acc2_row_end V c r k t.val t.isLt h13
  unfold acc2 at h
  rw [dif_pos t.isLt, if_pos h13] at h
  rw [h, r2_sum_7168, Finset.sum_range]
  refine congrArg (· + be2 V c k) (Finset.sum_congr rfl fun j _ => ?_)
  have hj : t.val - 13 + j.val < cfg2.N := lt_of_lt_of_eq (by have := j.isLt; omega : t.val - 13 + j.val < 196) hN.symm
  unfold Pn2
  rw [dif_pos hj]
  unfold P2
  refine Finset.sum_congr rfl fun l _ => ?_
  have eA : r2_row ⟨t.val - 13 + j.val, hj⟩ r = r2_row t r := Fin.ext (by
    show (t.val - 13 + j.val) / 14 * 512 + r.val = t.val / 14 * 512 + r.val
    have := j.isLt; omega)
  have eB : r2_col ⟨t.val - 13 + j.val, hj⟩ l = (⟨j.val * 512 + l.val, by have := j.isLt; have := l.isLt; omega⟩ : Fin 7168) := Fin.ext (by
    show (t.val - 13 + j.val) % 14 * 512 + l.val = j.val * 512 + l.val
    have := j.isLt; omega)
  rw [eA, eB]

/-! ## The output array -/

/-- The output array the write-backs leave. -/
def G2 (c : Dev nD) : S7168x5.Idx → EReal := fun i => (∑ b : Fin 7168, term2 V c (i 0) (i 1) b) + be2 V c (i 1)

/-- Each write-back writes its block of it. -/
theorem flushed2_eq (c : Dev nD) (t : Fin cfg2.N) (hf : (cfg2.win 6).flush t = true) :
    (dat2 V c).flushed 6 t = ((cfg2.win 6).blk t).view.read (Elt Ideal) (G2 V c) := by
  have h13 : t.val % 14 = 13 := (flush2_6 t).mp hf
  show (cfg2.win 6).cut (grid2.coords t) ((dat2 V c).after 6 t) = _
  rw [after2_6]
  funext y
  obtain ⟨r, k, rfl⟩ : ∃ (r : Fin 512) (k : Fin 5), y = ix2 r k := ⟨y 0, y 1, eq_ix2 y⟩
  rw [View.read_apply]
  show (outsAt2 V c t.val t.isLt).1 (ix2 r k) = G2 V c (((cfg2.win 6).blk t).view.emb (ix2 r k))
  rw [blk2_6_emb c t r k, out_at_store2 V c t h13 r k]
  rfl

/-- The storing points' blocks cover the output array. -/
theorem cover2 (c : Dev nD) (i : ((cfg2.win 6).arr.view.loc (c.tc : Thread nD τ)).2.ty.Idx) :
    ∃ t : Fin cfg2.N, (cfg2.win 6).flush t = true ∧ i ∈ ((cfg2.win 6).blk t).view.set := by
  have h0 : (i 0 : Nat) < 7168 := (i 0).isLt
  have h1 : (i 1 : Nat) < 5 := (i 1).isLt
  have hN : cfg2.N = 196 := N_2
  have hlt : (i 0 : Nat) / 512 * 14 + 13 < cfg2.N := by rw [hN]; omega
  refine ⟨⟨(i 0 : Nat) / 512 * 14 + 13, hlt⟩, (flush2_6 _).mpr (by show ((i 0 : Nat) / 512 * 14 + 13) % 14 = 13; omega), ?_⟩
  show i ∈ ((View.whole main_v52).slice (win2_6.rect ⟨(i 0 : Nat) / 512 * 14 + 13, hlt⟩)).set
  rw [View.set_slice_whole, Rect.mem_set_unit]
  intro a
  match a with
  | ⟨0, _⟩ =>
    show win2_6.index ⟨(i 0 : Nat) / 512 * 14 + 13, hlt⟩ 0 * win2_6.size 0 ≤ (i 0 : Nat)
      ∧ (i 0 : Nat) < win2_6.index ⟨(i 0 : Nat) / 512 * 14 + 13, hlt⟩ 0 * win2_6.size 0 + win2_6.xsize (grid2.coords ⟨(i 0 : Nat) / 512 * 14 + 13, hlt⟩) 0
    rw [(index2_6 ⟨(i 0 : Nat) / 512 * 14 + 13, hlt⟩).1, (xsize2_6 ⟨(i 0 : Nat) / 512 * 14 + 13, hlt⟩).1]
    show ((i 0 : Nat) / 512 * 14 + 13) / 14 * 512 ≤ (i 0 : Nat) ∧ (i 0 : Nat) < ((i 0 : Nat) / 512 * 14 + 13) / 14 * 512 + 512
    omega
  | ⟨1, _⟩ =>
    show win2_6.index ⟨(i 0 : Nat) / 512 * 14 + 13, hlt⟩ 1 * win2_6.size 1 ≤ (i 1 : Nat)
      ∧ (i 1 : Nat) < win2_6.index ⟨(i 0 : Nat) / 512 * 14 + 13, hlt⟩ 1 * win2_6.size 1 + win2_6.xsize (grid2.coords ⟨(i 0 : Nat) / 512 * 14 + 13, hlt⟩) 1
    rw [(index2_6 ⟨(i 0 : Nat) / 512 * 14 + 13, hlt⟩).2, (xsize2_6 ⟨(i 0 : Nat) / 512 * 14 + 13, hlt⟩).2]
    show 0 * 5 ≤ (i 1 : Nat) ∧ (i 1 : Nat) < 0 * 5 + 5
    omega

/-- THE VALUE of the region's output array: entry `(a, k)` is the sum over all 7168 columns `b` of the masked product
    entry divided by the shifted column maximum, times the right factor's entry, plus the bias. -/
theorem final2 (c : Dev nD) (a : Fin 7168) (k : Fin 5) :
    (dat2 (F := Ideal) V c).arrAt 6 cfg2.N (ix2 a k)
      = (∑ b : Fin 7168, Ideal.div (Cert.EdgeAlgebra.rvK (Tp2 V c) (dv2 V c) a b) (cm2 V c b + Cert.EdgeAlgebra.epsK) * HeW2 V c b k) + be2 V c k := by
  have hfin : (dat2 V c).arrAt 6 cfg2.N = G2 V c :=
    (dat2 V c).arrAt_eq_of_cover 6 (G2 V c) (flushed2_eq V c) (cover2 c)
  rw [hfin]
  rfl

end Region2

end Cert.KernelIdeal.Hand

end
-- ==== Proof.FrameKernelIdeal.KernelHostMid2.lean ====
/-
  The host operations between the edge convolution's regions and the second node convolution region, read at an
  entry at the ideal values, over any contents the stretches start from: the true edges' rows of the padded edge
  convolution, rectified, and the rectified node features once more.
-/
import proofs.«143417_j3152505995417_1_alg».proof.Proof.Gen.KernelIdeal.Regions
import proofs.«143417_j3152505995417_1_alg».proof.Proof.Spec
import proofs.«143417_j3152505995417_1_alg».proof.Proof.EdgeAlgebra
import proofs.«143417_j3152505995417_1_alg».proof.Proof.FrameKernelIdeal.HostReads

noncomputable section

namespace Cert.KernelIdeal.Hand

open Cert.KernelIdeal Cert.KernelIdeal.Gen
open Idealize.ShloMosaic Idealize.ShloMosaic.TcCoe Idealize.ShloMosaic.ValueIdx
open scoped BigOperators

/-! ## What a stretch does not write it leaves -/

theorem mid2_keep3 (X : Valuation τ sig (Elt Ideal)) (r : Ref sig .tc) (h : r ∉ hostOps3_W) :
    StableHlo.after (hostOps3 (F := Ideal)) X r = X r :=
  StableHlo.after_of_writes_sub hostOps3 X hostOps3_writes h
theorem mid2_keep3_1 (X : Valuation τ sig (Elt Ideal)) (r : Ref sig .tc) (h : r ∉ hostOps3_1_W) :
    StableHlo.after (hostOps3_1 (F := Ideal)) X r = X r :=
  StableHlo.after_of_writes_sub hostOps3_1 X hostOps3_1_writes h
theorem mid2_keep3_2 (X : Valuation τ sig (Elt Ideal)) (r : Ref sig .tc) (h : r ∉ hostOps3_2_W) :
    StableHlo.after (hostOps3_2 (F := Ideal)) X r = X r :=
  StableHlo.after_of_writes_sub hostOps3_2 X hostOps3_2_writes h

/-! ## Each stretch over any contents `X` it starts from -/

section Stretches
variable (X : Valuation τ sig (Elt Ideal))

/-- The rows of the true edges. -/
theorem slice_after (e' : Fin 6670) (k : Fin 5) :
    StableHlo.after (hostOps3 (F := Ideal)) X main_v53 (ix2 e' k) = X main_v52 (ix2 (Cert.EdgeAlgebra.up e') k) := by
  have e : @Eq (S6670x5.Idx → EReal) (StableHlo.after (hostOps3 (F := Ideal)) X main_v53)
      (extractStridedSlice S6670x5 ![0, 0] (X main_v52) slices_S7168x5_S6670x5_0_0) := by
    dsimp only [hostOps3]; after_results <;> rfl
  exact (congrFun e (ix2 e' k)).trans (sliceRows_apply (X main_v52) slices_S7168x5_S6670x5_0_0 e' k)

/-- The rectified edge features. -/
theorem relu3_after (e' : Fin 6670) (k : Fin 5) :
    StableHlo.after (hostOps3_1 (F := Ideal)) X main_v54 (ix2 e' k) = Cert.Spec.relu (X main_v53 (ix2 e' k)) := by
  have e : @Eq (S6670x5.Idx → EReal) (StableHlo.after (hostOps3_1 (F := Ideal)) X main_v54)
      (maximumf (F := Ideal) (X main_v53) (broadcastInDim S6670x5 ![] bcast_S_S6670x5 (constant (F := Ideal) S_ .f32 0x00000000#32))) := by
    dsimp only [hostOps3_1]; after_results <;> rfl
  exact (congrFun e (ix2 e' k)).trans (relu_apply bcast_S_S6670x5 (X main_v53) (ix2 e' k))

/-- The rectified node features. -/
theorem relu4_after (n : Fin 116) (h : Fin 64) :
    StableHlo.after (hostOps3_2 (F := Ideal)) X main_v55 (ix2 n h) = Cert.Spec.relu (X main_v45 (ix2 n h)) := by
  have e : @Eq (S116x64.Idx → EReal) (StableHlo.after (hostOps3_2 (F := Ideal)) X main_v55)
      (maximumf (F := Ideal) (X main_v45) (broadcastInDim S116x64 ![] bcast_S_S116x64 (constant (F := Ideal) S_ .f32 0x00000000#32))) := by
    dsimp only [hostOps3_2]; after_results <;> rfl
  exact (congrFun e (ix2 n h)).trans (relu_apply bcast_S_S116x64 (X main_v45) (ix2 n h))

end Stretches

/-! ## The three stretches in a row, over the contents `U` the edge convolution's regions leave -/

section Composite
variable (U : Valuation τ sig (Elt Ideal))

/-- What none of the three stretches writes is as the regions left it. -/
theorem mid2_main_v35 : StableHlo.after (hostOps3_2 (F := Ideal)) (StableHlo.after (hostOps3_1 (F := Ideal)) (StableHlo.after (hostOps3 (F := Ideal)) (U))) main_v35 = U main_v35 :=
  (mid2_keep3_2 (StableHlo.after (hostOps3_1 (F := Ideal)) (StableHlo.after (hostOps3 (F := Ideal)) (U))) main_v35 (by decide)).trans <| (mid2_keep3_1 (StableHlo.after (hostOps3 (F := Ideal)) (U)) main_v35 (by decide)).trans <| mid2_keep3 U main_v35 (by decide)
theorem mid2_main_v38 : StableHlo.after (hostOps3_2 (F := Ideal)) (StableHlo.after (hostOps3_1 (F := Ideal)) (StableHlo.after (hostOps3 (F := Ideal)) (U))) main_v38 = U main_v38 :=
  (mid2_keep3_2 (StableHlo.after (hostOps3_1 (F := Ideal)) (StableHlo.after (hostOps3 (F := Ideal)) (U))) main_v38 (by decide)).trans <| (mid2_keep3_1 (StableHlo.after (hostOps3 (F := Ideal)) (U)) main_v38 (by decide)).trans <| mid2_keep3 U main_v38 (by decide)
theorem mid2_main_v45 : StableHlo.after (hostOps3_2 (F := Ideal)) (StableHlo.after (hostOps3_1 (F := Ideal)) (StableHlo.after (hostOps3 (F := Ideal)) (U))) main_v45 = U main_v45 :=
  (mid2_keep3_2 (StableHlo.after (hostOps3_1 (F := Ideal)) (StableHlo.after (hostOps3 (F := Ideal)) (U))) main_v45 (by decide)).trans <| (mid2_keep3_1 (StableHlo.after (hostOps3 (F := Ideal)) (U)) main_v45 (by decide)).trans <| mid2_keep3 U main_v45 (by decide)
theorem mid2_main_arg13 : StableHlo.after (hostOps3_2 (F := Ideal)) (StableHlo.after (hostOps3_1 (F := Ideal)) (StableHlo.after (hostOps3 (F := Ideal)) (U))) main_arg13 = U main_arg13 :=
  (mid2_keep3_2 (StableHlo.after (hostOps3_1 (F := Ideal)) (StableHlo.after (hostOps3 (F := Ideal)) (U))) main_arg13 (by decide)).trans <| (mid2_keep3_1 (StableHlo.after (hostOps3 (F := Ideal)) (U)) main_arg13 (by decide)).trans <| mid2_keep3 U main_arg13 (by decide)
theorem mid2_main_arg11 : StableHlo.after (hostOps3_2 (F := Ideal)) (StableHlo.after (hostOps3_1 (F := Ideal)) (StableHlo.after (hostOps3 (F := Ideal)) (U))) main_arg11 = U main_arg11 :=
  (mid2_keep3_2 (StableHlo.after (hostOps3_1 (F := Ideal)) (StableHlo.after (hostOps3 (F := Ideal)) (U))) main_arg11 (by decide)).trans <| (mid2_keep3_1 (StableHlo.after (hostOps3 (F := Ideal)) (U)) main_arg11 (by decide)).trans <| mid2_keep3 U main_arg11 (by decide)
theorem mid2_main_arg14 : StableHlo.after (hostOps3_2 (F := Ideal)) (StableHlo.after (hostOps3_1 (F := Ideal)) (StableHlo.after (hostOps3 (F := Ideal)) (U))) main_arg14 = U main_arg14 :=
  (mid2_keep3_2 (StableHlo.after (hostOps3_1 (F := Ideal)) (StableHlo.after (hostOps3 (F := Ideal)) (U))) main_arg14 (by decide)).trans <| (mid2_keep3_1 (StableHlo.after (hostOps3 (F := Ideal)) (U)) main_arg14 (by decide)).trans <| mid2_keep3 U main_arg14 (by decide)
theorem mid2_main_arg15 : StableHlo.after (hostOps3_2 (F := Ideal)) (StableHlo.after (hostOps3_1 (F := Ideal)) (StableHlo.after (hostOps3 (F := Ideal)) (U))) main_arg15 = U main_arg15 :=
  (mid2_keep3_2 (StableHlo.after (hostOps3_1 (F := Ideal)) (StableHlo.after (hostOps3 (F := Ideal)) (U))) main_arg15 (by decide)).trans <| (mid2_keep3_1 (StableHlo.after (hostOps3 (F := Ideal)) (U)) main_arg15 (by decide)).trans <| mid2_keep3 U main_arg15 (by decide)

/-- The rectified edge convolution on the true edges. -/
theorem mid2_main_v54 (e' : Fin 6670) (k : Fin 5) :
    StableHlo.after (hostOps3_2 (F := Ideal)) (StableHlo.after (hostOps3_1 (F := Ideal)) (StableHlo.after (hostOps3 (F := Ideal)) (U))) main_v54 (ix2 e' k) = Cert.Spec.relu (U main_v52 (ix2 (Cert.EdgeAlgebra.up e') k)) := by
  have e : @Eq (S6670x5.Idx → EReal) (StableHlo.after (hostOps3_2 (F := Ideal)) (StableHlo.after (hostOps3_1 (F := Ideal)) (StableHlo.after (hostOps3 (F := Ideal)) (U))) main_v54) (StableHlo.after (hostOps3_1 (F := Ideal)) (StableHlo.after (hostOps3 (F := Ideal)) (U)) main_v54) :=
    mid2_keep3_2 (StableHlo.after (hostOps3_1 (F := Ideal)) (StableHlo.after (hostOps3 (F := Ideal)) (U))) main_v54 (by decide)
  refine (congrFun e (ix2 e' k)).trans ?_
  refine (relu3_after (StableHlo.after (hostOps3 (F := Ideal)) (U)) e' k).trans ?_
  exact congrArg Cert.Spec.relu (slice_after U e' k)

/-- The rectified node features, once more. -/
theorem mid2_main_v55 (n : Fin 116) (h : Fin 64) :
    StableHlo.after (hostOps3_2 (F := Ideal)) (StableHlo.after (hostOps3_1 (F := Ideal)) (StableHlo.after (hostOps3 (F := Ideal)) (U))) main_v55 (ix2 n h) = Cert.Spec.relu (U main_v45 (ix2 n h)) := by
  refine (relu4_after (StableHlo.after (hostOps3_1 (F := Ideal)) (StableHlo.after (hostOps3 (F := Ideal)) (U))) n h).trans ?_
  have e45 : @Eq (S116x64.Idx → EReal) (StableHlo.after (hostOps3_1 (F := Ideal)) (StableHlo.after (hostOps3 (F := Ideal)) (U)) main_v45) (U main_v45) :=
    (mid2_keep3_1 (StableHlo.after (hostOps3 (F := Ideal)) (U)) main_v45 (by decide)).trans <| mid2_keep3 U main_v45 (by decide)
  exact congrArg Cert.Spec.relu (congrFun e45 (ix2 n h))

end Composite

end Cert.KernelIdeal.Hand

end
-- ==== Proof.KernelValue3.lean ====
import proofs.«143417_j3152505995417_1_alg».proof.Proof.KernelValue2
import proofs.«143417_j3152505995417_1_alg».proof.Proof.FrameKernelIdeal.Region2Value
import proofs.«143417_j3152505995417_1_alg».proof.Proof.FrameKernelIdeal.KernelHostMid2

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

/-! # The idealized program's values, stage 3: the edge convolution and the two rectifiers after it

The weighted-sum call is entered with the padded incidence matrix, the projection of the rectified node features, the
column maxima the previous call left, the padded rectified edge features through the edge weights, and the edge bias.
It leaves, at each padded edge a, the sum over all 7168 padded edges b of the masked product entry divided by the
shifted column maximum, times row b of the right factor, plus the bias.  On a true edge that is the specification's
edge convolution: the padding columns contribute nothing, and on a true column the kernel's maximum, taken from a large
negative number over rows whose padding is that number, is the plain column maximum because the column contains its
own diagonal zero.  The host then keeps the true edges' rows and rectifies them, and rectifies the node features once
more. -/

/-- The five arrays the weighted-sum call is entered with, as the stage before left them. -/
theorem Tp2_eq : Tp2 (X2 m) c = Cert.EdgeAlgebra.pad (TK m c) := by
  funext n e
  have e10 : @Eq (S116x7168.Idx → EReal) (U10 m c main_v36) (U9 m c main_v36) := keep10 m c main_v36 (by decide)
  unfold Tp2
  exact (congrFun e10 (ix2 n e)).trans (v36_eq m c n e)

theorem dv2_eq : dv2 (X2 m) c = Cert.Spec.dNode (x1S m c) (aPe m c) := by
  funext n
  have e10 : @Eq (S116x1.Idx → EReal) (U10 m c main_v48) (U9 m c main_v48) := keep10 m c main_v48 (by decide)
  unfold dv2
  exact (congrFun e10 (ix2 n (0 : Fin 1))).trans (v48_eq m c n)

theorem cm2_eq : cm2 (X2 m) c = cmK m c := by
  funext b
  unfold cm2 cmK
  rfl

theorem HeW2_eq : HeW2 (X2 m) c = fun b k => ∑ j : Fin 5, Cert.EdgeAlgebra.padRows (e0S m c) b j * aWe m c j k := by
  funext b k
  have e10 : @Eq (S7168x5.Idx → EReal) (U10 m c main_v50) (U9 m c main_v50) := keep10 m c main_v50 (by decide)
  unfold HeW2
  exact (congrFun e10 (ix2 b k)).trans (v50_eq m c b k)

theorem be2_eq : be2 (X2 m) c = aBe m c := by
  funext k
  have e10 : @Eq (S1x5.Idx → EReal) (U10 m c main_v39) (U9 m c main_v39) := keep10 m c main_v39 (by decide)
  unfold be2
  exact (congrFun e10 (ix2 (0 : Fin 1) k)).trans (v39_eq m c k)

/-- The weighted-sum call leaves the specification's edge convolution in the true edges' rows of \`main_v52\`. -/
theorem v52_eq (a : Fin 6670) (k : Fin 5) :
    U11 m c main_v52 (ix2 (Cert.EdgeAlgebra.up a) k)
      = Cert.Spec.edgeConv (TK m c) (x1S m c) (e0S m c) (aWe m c) (aBe m c) (aPe m c) a k := by
  rw [U11_def, upd_eq, final2 (X2 m) c (Cert.EdgeAlgebra.up a) k, Tp2_eq, dv2_eq, cm2_eq, HeW2_eq, be2_eq]
  exact (Cert.EdgeAlgebra.edge_out_eq (TK m c) (Cert.Spec.dNode (x1S m c) (aPe m c)) (e0S m c) (aWe m c) (aBe m c)
    (cmK m c) (cm_iff m c) a k).trans rfl

/-- The rectified edge convolution on the true edges: the edge features the second node convolution is entered with. -/
theorem v54_eq (e : Fin 6670) (k : Fin 5) : U14 m c main_v54 (ix2 e k) = e1S m c e k := by
  rw [U14_def]
  refine (mid2_main_v54 (U11 m c) e k).trans ?_
  rw [v52_eq]
  rfl

/-- The node features rectified once more: the node features the second node convolution is entered with. -/
theorem v55_eq (n : Fin 116) (h : Fin 64) : U14 m c main_v55 (ix2 n h) = Cert.Spec.relu (x1S m c n h) := by
  have e11 : @Eq (S116x64.Idx → EReal) (U11 m c main_v45) (U10 m c main_v45) := keep11 m c main_v45 (by decide)
  have e10 : @Eq (S116x64.Idx → EReal) (U10 m c main_v45) (U9 m c main_v45) := keep10 m c main_v45 (by decide)
  rw [U14_def]
  refine (mid2_main_v55 (U11 m c) n h).trans ?_
  exact congrArg Cert.Spec.relu ((congrFun (e11.trans e10) (ix2 n h)).trans (v45_eq m c n h))

end Cert.KernelIdeal.Hand

end
-- ==== Proof.RefValue.Encode.lean ====
/-
  The encoding stage of the reference, entry by entry: a product of the raw node features with the encoding weights,
  plus the bias broadcast along the nodes, is the specification's encode.
-/
import proofs.«143417_j3152505995417_1_alg».proof.Proof.Gen.ReferenceIdeal.Read
import proofs.«143417_j3152505995417_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open scoped BigOperators

/-- The encoded node features at (n, h): the sum over the 122 raw features, plus the bias at h. -/
theorem encode_eq (a0 : (⟨S116x122, .f32⟩ : BufTy).Contents (Elt Ideal)) (a3 : (⟨S122x64, .f32⟩ : BufTy).Contents (Elt Ideal)) (a4 : (⟨S64, .f32⟩ : BufTy).Contents (Elt Ideal)) (n : Fin 116) (h : Fin 64) :
    val_main_v55 (F := Ideal) a0 a3 a4 (ix2 n h)
      = Cert.Spec.encode (fun n k => a0 (ix2 n k)) (fun k h => a3 (ix2 k h)) (fun h => a4 (ix1 h)) n h := by
  rw [val_main_v55_apply, val_main_v52_apply, val_main_v54_apply, val_main_v53_apply]
  have e1 : ∀ k : Fin 122, lidx_main_v52 (ix2 n h) k = ix2 n k := fun k =>
    funext fun a => Fin.ext (by match a with | ⟨0, _⟩ => rfl | ⟨1, _⟩ => rfl)
  have e2 : ∀ k : Fin 122, ridx_main_v52 (ix2 n h) k = ix2 k h := fun k =>
    funext fun a => Fin.ext (by match a with | ⟨0, _⟩ => rfl | ⟨1, _⟩ => rfl)
  have e3 : idx_main_v53 (idx_main_v54 (ix2 n h)) = ix1 h :=
    funext fun a => Fin.ext (by match a with | ⟨0, _⟩ => rfl)
  simp -implicitDefEqProofs only [e1, e2, e3, Ideal.addf_def]
  rfl

end Cert.ReferenceIdeal.RefValue

end
-- ==== Proof.RefValue.Masks.lean ====
/-
  The two masks of the reference, 1 − eye over the nodes and 1 − eye over the edges, entry by entry.

  The reference builds eye by comparing a row counter with a column counter, both 32-bit words, and converting the one-bit
  answer to a float; both counters stay below 2^32, so the words are equal exactly when the coordinates are. On the
  extended reals 1 − 1 = 0 and 1 − 0 = 1, so an entry of the mask is zero on the diagonal and one off it: the
  specification's offDiag.
-/
import proofs.«143417_j3152505995417_1_alg».proof.Proof.Gen.ReferenceIdeal.Read
import proofs.«143417_j3152505995417_1_alg».proof.Proof.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx
open scoped BigOperators

/-- Two coordinates below 2^32 compared as 32-bit words (the row counter after adding the zero word), the answer read as
    an unsigned number: one when the coordinates are equal, zero otherwise. -/
theorem eq_word (a b : ℕ) (ha : a < 2 ^ 32) (hb : b < 2 ^ 32) :
    (((IntOp.cmpi .eq (IntOp.addi (BitVec.ofNat 32 a) 0#32) (BitVec.ofNat 32 b)).toNat : ℝ) : EReal)
      = if a = b then 1 else 0 := by
  by_cases h : a = b
  · subst h
    simp [IntOp.cmpi, IntOp.addi]
  · have hne : ¬ (BitVec.ofNat 32 a = BitVec.ofNat 32 b) := by
      intro e
      have := congrArg BitVec.toNat e
      simp only [BitVec.toNat_ofNat] at this
      rw [Nat.mod_eq_of_lt ha, Nat.mod_eq_of_lt hb] at this
      exact h this
    simp [IntOp.cmpi, IntOp.addi, hne, h]

/-- One minus the indicator of the diagonal is the indicator of its complement. -/
theorem one_sub_eq (n : ℕ) (a b : Fin n) : (1 : EReal) - (if a.val = b.val then 1 else 0) = Cert.Spec.offDiag a b := by
  unfold Cert.Spec.offDiag
  by_cases h : a = b
  · subst h
    rw [if_pos rfl, if_pos rfl]
    show ((1 : ℝ) : EReal) - ((1 : ℝ) : EReal) = 0
    rw [← EReal.coe_sub]; simp
  · rw [if_neg h, if_neg (fun e => h (Fin.ext e))]
    exact sub_zero _

/-- The node mask at (n, n'). -/
theorem nodeMask_eq (n n' : Fin 116) : val_main_v13 (F := Ideal) (ix2 n n') = Cert.Spec.offDiag n n' := by
  rw [val_main_v13_apply, val_main_v12_apply, val_main_cst_apply, val_main_v5_apply, val_main_v4_apply, val_main_v3_apply,
    val_main_v0_apply, val_main_v1_apply, val_main_v2_apply, val_main_c_apply]
  show Ideal.ofBits .f32 0x3F800000#32
      - (((IntOp.cmpi .eq (IntOp.addi (BitVec.ofNat 32 n.val) 0#32) (BitVec.ofNat 32 n'.val)).toNat : ℝ) : EReal) = _
  rw [Ideal.ofBits_one_f32, eq_word _ _ (by omega) (by omega)]
  exact one_sub_eq 116 n n'

/-- The edge mask at (a, b). -/
theorem edgeMask_eq (a b : Fin 6670) : val_main_v15 (F := Ideal) (ix2 a b) = Cert.Spec.offDiag a b := by
  rw [val_main_v15_apply, val_main_v14_apply, val_main_cst_1_apply, val_main_v11_apply, val_main_v10_apply, val_main_v9_apply,
    val_main_v6_apply, val_main_v7_apply, val_main_v8_apply, val_main_c_0_apply]
  show Ideal.ofBits .f32 0x3F800000#32
      - (((IntOp.cmpi .eq (IntOp.addi (BitVec.ofNat 32 a.val) 0#32) (BitVec.ofNat 32 b.val)).toNat : ℝ) : EReal) = _
  rw [Ideal.ofBits_one_f32, eq_word _ _ (by omega) (by omega)]
  exact one_sub_eq 6670 a b

end Cert.ReferenceIdeal.RefValue

end
-- ==== Proof.RefValue.NodeConv1.lean ====
/-
  The first node convolution of the reference, entry by entry.

  The reference forms d[e] = ∑k He[e,k]·p[0,k] as a one-column product, lays it along the rows of T, multiplies, and
  contracts with Tᵀ: entry (n, n') is ∑e (T[n,e]·d[e])·T[n',e]. It is multiplied by the node mask, contracted with the
  node features through W, and the bias is added along the nodes: the specification's nodeConv of whatever the node
  features are. Then the rectifier against the zero word.
-/
import proofs.«143417_j3152505995417_1_alg».proof.Proof.Gen.ReferenceIdeal.Read
import proofs.«143417_j3152505995417_1_alg».proof.Proof.Spec
import proofs.«143417_j3152505995417_1_alg».proof.Proof.RefValue.Masks

noncomputable section

namespace Cert.ReferenceIdeal.RefValue

open Cert.ReferenceIdeal Cert.ReferenceIdeal.Gen Cert.ReferenceIdeal.Read Idealize.ShloMosaic Idealize.ShloMosaic.ValueIdx
open scoped BigOperators

/-- The first node convolution at (n, h), over any node features Hv the encoded stage is known to equal. -/
theorem nodeConv1_eq (a0 : (⟨S116x122, .f32⟩ : BufTy).Contents (Elt Ideal)) (a1 : (⟨S6670x5, .f32⟩ : BufTy).Contents (Elt Ideal)) (a2 : (⟨S2x6670, .i32⟩ : BufTy).Contents (Elt Ideal)) (a3 : (⟨S122x64, .f32⟩ : BufTy).Contents (Elt Ideal)) (a4 : (⟨S64, .f32⟩ : BufTy).Contents (Elt Ideal)) (a5 : (⟨S64x64, .f32⟩ : BufTy).Contents (Elt Ideal)) (a6 : (⟨S64, .f32⟩ : BufTy).Contents (Elt Ideal)) (a7 : (⟨S1x5, .f32⟩ : BufTy).Contents (Elt Ideal)) (Hv : Fin 116 → Fin 64 → EReal)
    (hHv : ∀ n k, val_main_v55 (F := Ideal) a0 a3 a4 (ix2 n k) = Hv n k) (n : Fin 116) (h : Fin 64) :
    val_main_v69 (F := Ideal) a0 a1 a2 a3 a4 a5 a6 a7 (ix2 n h)
      = Cert.Spec.nodeConv (fun n e => val_main_v51 (F := Ideal) a2 (ix2 n e)) Hv (fun e k => a1 (ix2 e k))
          (fun k h => a5 (ix2 k h)) (fun h => a6 (ix1 h)) (fun k => a7 (ix2 0 k)) n h := by
  have i68 : idx_main_v67 (idx_main_v68 (ix2 n h)) = ix1 h := funext fun a => Fin.ext (by match a with | ⟨0, _⟩ => rfl)
  have l66 : ∀ k : Fin 116, lidx_main_v66 (ix2 n h) k = ix2 n k := fun k => funext fun a => Fin.ext (by match a with | ⟨0, _⟩ => rfl | ⟨1, _⟩ => rfl)
  have r66 : ∀ k : Fin 116, ridx_main_v66 (ix2 n h) k = ix2 k h := fun k => funext fun a => Fin.ext (by match a with | ⟨0, _⟩ => rfl | ⟨1, _⟩ => rfl)
  have l65 : ∀ (m : Fin 116) (k : Fin 64), lidx_main_v65 (ix2 m h) k = ix2 m k := fun m k => funext fun a => Fin.ext (by match a with | ⟨0, _⟩ => rfl | ⟨1, _⟩ => rfl)
  have r65 : ∀ (m : Fin 116) (k : Fin 64), ridx_main_v65 (ix2 m h) k = ix2 k h := fun m k => funext fun a => Fin.ext (by match a with | ⟨0, _⟩ => rfl | ⟨1, _⟩ => rfl)
  have l63 : ∀ (m : Fin 116) (e : Fin 6670), lidx_main_v63 (ix2 n m) e = ix2 n e := fun m e => funext fun a => Fin.ext (by match a with | ⟨0, _⟩ => rfl | ⟨1, _⟩ => rfl)
  have r63 : ∀ (m : Fin 116) (e : Fin 6670), idx_main_v62 (ridx_main_v63 (ix2 n m) e) = ix2 m e := fun m e => funext fun a => Fin.ext (by match a with | ⟨0, _⟩ => rfl | ⟨1, _⟩ => rfl)
  have i60 : ∀ e : Fin 6670, idx_main_v58 (idx_main_v59 (idx_main_v60 (ix2 n e))) = ix2 e (0 : Fin 1) := fun e =>
    funext fun a => Fin.ext (by match a with | ⟨0, _⟩ => exact Nat.div_one _ | ⟨1, _⟩ => rfl)
  have l57 : ∀ (e : Fin 6670) (k : Fin 5), lidx_main_v57 (ix2 e (0 : Fin 1)) k = ix2 e k := fun e k => funext fun a => Fin.ext (by match a with | ⟨0, _⟩ => rfl | ⟨1, _⟩ => rfl)
  have r57 : ∀ (e : Fin 6670) (k : Fin 5), idx_main_v56 (ridx_main_v57 (ix2 e (0 : Fin 1)) k) = ix2 (0 : Fin 1) k :=
    fun e k => funext fun a => Fin.ext (by match a with | ⟨0, _⟩ => rfl | ⟨1, _⟩ => rfl)
  simp -implicitDefEqProofs only [val_main_v69_apply, val_main_v66_apply, val_main_v68_apply, val_main_v67_apply, i68, l66, r66,
    val_main_v65_apply, l65, r65, hHv, val_main_v64_apply, nodeMask_eq, val_main_v63_apply, l63,
    val_main_v62_apply, r63, val_main_v61_apply, val_main_v60_apply, val_main_v59_apply, val_main_v58_apply, i60,
    val_main_v57_apply, l57, val_main_v56_apply, r57, Ideal.addf_def, Ideal.mulf_def]
  generalize val_main_v51 (F := Ideal) a2 = T
  rfl

/-- The rectifier after the first node convolution at (n, h). -/
theorem relu1_eq (a0 : (⟨S116x122, .f32⟩ : BufTy).Contents (Elt Ideal)) (a1 : (⟨S6670x5, .f32⟩ : BufTy).Contents (Elt Ideal)) (a2 : (⟨S2x6670, .i32⟩ : BufTy).Contents (Elt Ideal)) (a3 : (⟨S122x64, .f32⟩ : BufTy).Contents (Elt Ideal)) (a4 : (⟨S64, .f32⟩ : BufTy).Contents (Elt Ideal)) (a5 : (⟨S64x64, .f32⟩ : BufTy).Contents (Elt Ideal)) (a6 : (⟨S64, .f32⟩ : BufTy).Contents (Elt Ideal)) (a7 : (⟨S1x5, .f32⟩ : BufTy).Contents (Elt Ideal)) (n : Fin 116) (h : Fin 64) :
    val_main_v70 (F := Ideal) a0 a1 a2 a3 a4 a5 a6 a7 (ix2 n h)
      = Cert.Spec.relu (val_main_v69 (F := Ideal) a0 a1 a2 a3 a4 a5 a6 a7 (ix2 n h)) := by
  rw [val_main_v70_apply, val_main_call0_v0_apply, val_main_call0_cst_apply]
  generalize val_main_v69 (F := Ideal) a0 a1 a2 a3 a4 a5 a6 a7 (ix2 n h) = x
  simp -implicitDefEqProofs only [Ideal.maximumf_def, Ideal.ofBits_def, Ideal.ofBits_zero_f32]
  rfl

end Cert.ReferenceIdeal.RefValue

end
-- ==== Proof.RefValue.EdgeAdj.lean ====
/-
  The edge adjacency of the reference and its column maxima, entry by entry.

  dv[n] = ∑k x[n,k]·pe[0,k] is formed as a one-column product and laid along the columns of T; entry (a, b) of
  Tᵀ diag(dv) T is ∑n T[n,a]·(dv[n]·T[n,b]), and the edge mask removes the diagonal: the specification's edgeAdj. The
  reference then reduces each column with the maximum from the −∞ word. That reduction and the specification's fold have
  the same upper bounds (a value is above the maximum exactly when it is above every entry of the column), so they are
  equal. Also here: the rectifier of the raw edge features.
-/
import proofs.«143417_j3152505995417_1_alg».proof.Proof.Gen.ReferenceIdeal.Read
import proofs.«143417_j3152505995417_1_alg».proof.Proof.Spec
import proofs.«143417_j3152505995417_1_alg».proof.Proof.RefValue.Masks
import proofs.«143417_j3152505995417_1_alg».proof.Proof.LibColumnExtrema

noncomputable section

namespace Cert.ReferenceIdeal.RefValue

open Cert.ReferenceIdeal Cert.ReferenceIdeal.Gen Cert.ReferenceIdeal.Read Idealize.ShloMosaic Idealize.ShloMosaic.ValueIdx
open scoped BigOperators

/-- The rectified raw edge features at (b, j). -/
theorem reluEdge0_eq (a1 : (⟨S6670x5, .f32⟩ : BufTy).Contents (Elt Ideal)) (b : Fin 6670) (j : Fin 5) :
    val_main_v71 (F := Ideal) a1 (ix2 b j) = Cert.Spec.relu (a1 (ix2 b j)) := by
  rw [val_main_v71_apply, val_main_call1_v0_apply, val_main_call1_cst_apply]
  simp -implicitDefEqProofs only [Ideal.maximumf_def, Ideal.ofBits_def, Ideal.ofBits_zero_f32]
  rfl

/-- The masked edge adjacency at (a, b), over any node features xs the rectified first convolution is known to equal. -/
theorem edgeAdj_eq (a0 : (⟨S116x122, .f32⟩ : BufTy).Contents (Elt Ideal)) (a1 : (⟨S6670x5, .f32⟩ : BufTy).Contents (Elt Ideal)) (a2 : (⟨S2x6670, .i32⟩ : BufTy).Contents (Elt Ideal)) (a3 : (⟨S122x64, .f32⟩ : BufTy).Contents (Elt Ideal)) (a4 : (⟨S64, .f32⟩ : BufTy).Contents (Elt Ideal)) (a5 : (⟨S64x64, .f32⟩ : BufTy).Contents (Elt Ideal)) (a6 : (⟨S64, .f32⟩ : BufTy).Contents (Elt Ideal)) (a7 : (⟨S1x5, .f32⟩ : BufTy).Contents (Elt Ideal)) (a10 : (⟨S1x64, .f32⟩ : BufTy).Contents (Elt Ideal)) (xs : Fin 116 → Fin 64 → EReal)
    (hx : ∀ n k, val_main_v70 (F := Ideal) a0 a1 a2 a3 a4 a5 a6 a7 (ix2 n k) = xs n k) (a b : Fin 6670) :
    val_main_v80 (F := Ideal) a0 a1 a2 a3 a4 a5 a6 a7 a10 (ix2 a b)
      = Cert.Spec.edgeAdj (fun n e => val_main_v51 (F := Ideal) a2 (ix2 n e))
          (Cert.Spec.dNode xs (fun k => a10 (ix2 0 k))) a b := by
  have l79 : ∀ n : Fin 116, idx_main_v75 (lidx_main_v79 (ix2 a b) n) = ix2 n a := fun n => funext fun a => Fin.ext (by match a with | ⟨0, _⟩ => rfl | ⟨1, _⟩ => rfl)
  have r79 : ∀ n : Fin 116, ridx_main_v79 (ix2 a b) n = ix2 n b := fun n => funext fun a => Fin.ext (by match a with | ⟨0, _⟩ => rfl | ⟨1, _⟩ => rfl)
  have i77 : ∀ (n : Fin 116) (e : Fin 6670), idx_main_v74 (idx_main_v76 (idx_main_v77 (ix2 n e))) = ix2 n (0 : Fin 1) :=
    fun n e => funext fun a => Fin.ext (by match a with | ⟨0, _⟩ => exact Nat.div_one _ | ⟨1, _⟩ => rfl)
  have l73 : ∀ (n : Fin 116) (k : Fin 64), lidx_main_v73 (ix2 n (0 : Fin 1)) k = ix2 n k := fun n k => funext fun a => Fin.ext (by match a with | ⟨0, _⟩ => rfl | ⟨1, _⟩ => rfl)
  have r73 : ∀ (n : Fin 116) (k : Fin 64), idx_main_v72 (ridx_main_v73 (ix2 n (0 : Fin 1)) k) = ix2 (0 : Fin 1) k :=
    fun n k => funext fun a => Fin.ext (by match a with | ⟨0, _⟩ => rfl | ⟨1, _⟩ => rfl)
  simp -implicitDefEqProofs only [val_main_v80_apply, edgeMask_eq, val_main_v79_apply, val_main_v75_apply, l79, r79, val_main_v78_apply,
    val_main_v77_apply, val_main_v76_apply, val_main_v74_apply, i77, val_main_v73_apply, l73, val_main_v72_apply, r73,
    Ideal.mulf_def, hx]
  generalize val_main_v51 (F := Ideal) a2 = T
  rfl

/-- The column maxima of the reference at b, over any matrix M its masked edge adjacency is known to equal. -/
theorem colMax_eq (a0 : (⟨S116x122, .f32⟩ : BufTy).Contents (Elt Ideal)) (a1 : (⟨S6670x5, .f32⟩ : BufTy).Contents (Elt Ideal)) (a2 : (⟨S2x6670, .i32⟩ : BufTy).Contents (Elt Ideal)) (a3 : (⟨S122x64, .f32⟩ : BufTy).Contents (Elt Ideal)) (a4 : (⟨S64, .f32⟩ : BufTy).Contents (Elt Ideal)) (a5 : (⟨S64x64, .f32⟩ : BufTy).Contents (Elt Ideal)) (a6 : (⟨S64, .f32⟩ : BufTy).Contents (Elt Ideal)) (a7 : (⟨S1x5, .f32⟩ : BufTy).Contents (Elt Ideal)) (a10 : (⟨S1x64, .f32⟩ : BufTy).Contents (Elt Ideal)) (M : Fin 6670 → Fin 6670 → EReal)
    (hM : ∀ a b, val_main_v80 (F := Ideal) a0 a1 a2 a3 a4 a5 a6 a7 a10 (ix2 a b) = M a b) (b : Fin 6670) :
    val_main_v81 (F := Ideal) a0 a1 a2 a3 a4 a5 a6 a7 a10 (ix1 b) = Cert.Spec.colMax M b := by
  unfold val_main_v81
  generalize val_main_v80 (F := Ideal) a0 a1 a2 a3 a4 a5 a6 a7 a10 = v at hM ⊢
  refine eq_of_forall_ge_iff fun c => ?_
  rw [Cert.Spec.colMax_le_iff]
  refine (Cert.Hand.Spec.hostColMax_le_iff v reducesTo_S6670x6670_S6670_d0
    ⟨reducesTo_S6670x6670_S6670_d0.1, Nat.one_pos, reducesTo_S6670x6670_S6670_d0.2⟩ h_S_ b c).trans ?_
  exact forall_congr' fun a => by rw [hM]

end Cert.ReferenceIdeal.RefValue

end
-- ==== Proof.RefValue.EdgeConv.lean ====
/-
  The edge convolution of the reference, entry by entry.

  Each entry M[a,b] of the masked edge adjacency is divided by its column's maximum plus ε (the maximum laid along the
  rows, ε the word of 1e-10), the quotients are contracted with the rectified edge features through W, and the bias is
  added along the edges: the specification's edgeConv. Then the two rectifiers that follow it in the program.
-/
import proofs.«143417_j3152505995417_1_alg».proof.Proof.Gen.ReferenceIdeal.Read
import proofs.«143417_j3152505995417_1_alg».proof.Proof.Spec
import proofs.«143417_j3152505995417_1_alg».proof.Proof.RefValue.EdgeAdj

noncomputable section

namespace Cert.ReferenceIdeal.RefValue

open Cert.ReferenceIdeal Cert.ReferenceIdeal.Gen Cert.ReferenceIdeal.Read Idealize.ShloMosaic Idealize.ShloMosaic.ValueIdx
open scoped BigOperators

/-- The edge convolution at (a, k), over any node features xs and edge features es the two upstream stages are known
    to equal. -/
theorem edgeConv_eq (a0 : (⟨S116x122, .f32⟩ : BufTy).Contents (Elt Ideal)) (a1 : (⟨S6670x5, .f32⟩ : BufTy).Contents (Elt Ideal)) (a2 : (⟨S2x6670, .i32⟩ : BufTy).Contents (Elt Ideal)) (a3 : (⟨S122x64, .f32⟩ : BufTy).Contents (Elt Ideal)) (a4 : (⟨S64, .f32⟩ : BufTy).Contents (Elt Ideal)) (a5 : (⟨S64x64, .f32⟩ : BufTy).Contents (Elt Ideal)) (a6 : (⟨S64, .f32⟩ : BufTy).Contents (Elt Ideal)) (a7 : (⟨S1x5, .f32⟩ : BufTy).Contents (Elt Ideal)) (a8 : (⟨S5x5, .f32⟩ : BufTy).Contents (Elt Ideal)) (a9 : (⟨S5, .f32⟩ : BufTy).Contents (Elt Ideal)) (a10 : (⟨S1x64, .f32⟩ : BufTy).Contents (Elt Ideal)) (xs : Fin 116 → Fin 64 → EReal)
    (hx : ∀ n k, val_main_v70 (F := Ideal) a0 a1 a2 a3 a4 a5 a6 a7 (ix2 n k) = xs n k)
    (es : Fin 6670 → Fin 5 → EReal) (he : ∀ b j, val_main_v71 (F := Ideal) a1 (ix2 b j) = es b j)
    (a : Fin 6670) (k : Fin 5) :
    val_main_v91 (F := Ideal) a0 a1 a2 a3 a4 a5 a6 a7 a8 a9 a10 (ix2 a k)
      = Cert.Spec.edgeConv (fun n e => val_main_v51 (F := Ideal) a2 (ix2 n e)) xs es
          (fun j k => a8 (ix2 j k)) (fun k => a9 (ix1 k)) (fun k => a10 (ix2 0 k)) a k := by
  have i90 : idx_main_v89 (idx_main_v90 (ix2 a k)) = ix1 k := funext fun a => Fin.ext (by match a with | ⟨0, _⟩ => rfl)
  have l88 : ∀ b : Fin 6670, lidx_main_v88 (ix2 a k) b = ix2 a b := fun b => funext fun a => Fin.ext (by match a with | ⟨0, _⟩ => rfl | ⟨1, _⟩ => rfl)
  have r88 : ∀ b : Fin 6670, ridx_main_v88 (ix2 a k) b = ix2 b k := fun b => funext fun a => Fin.ext (by match a with | ⟨0, _⟩ => rfl | ⟨1, _⟩ => rfl)
  have l87 : ∀ (b : Fin 6670) (j : Fin 5), lidx_main_v87 (ix2 b k) j = ix2 b j := fun b j => funext fun a => Fin.ext (by match a with | ⟨0, _⟩ => rfl | ⟨1, _⟩ => rfl)
  have r87 : ∀ (b : Fin 6670) (j : Fin 5), ridx_main_v87 (ix2 b k) j = ix2 j k := fun b j => funext fun a => Fin.ext (by match a with | ⟨0, _⟩ => rfl | ⟨1, _⟩ => rfl)
  have i85 : ∀ b : Fin 6670, idx_main_v82 (idx_main_v85 (ix2 a b)) = ix1 b := fun b => funext fun a => Fin.ext (by match a with | ⟨0, _⟩ => rfl)
  have hM := edgeAdj_eq a0 a1 a2 a3 a4 a5 a6 a7 a10 xs hx
  have hC := colMax_eq a0 a1 a2 a3 a4 a5 a6 a7 a10 _ hM
  simp -implicitDefEqProofs only [val_main_v91_apply, val_main_v90_apply, val_main_v89_apply, i90, val_main_v88_apply, l88, r88,
    val_main_v87_apply, l87, r87, val_main_v86_apply, val_main_v85_apply, val_main_v84_apply, val_main_v82_apply, i85,
    val_main_v83_apply, val_main_cst_14_apply, hC, hM, he, Ideal.addf_def, Ideal.hostDivf_def, Ideal.ofBits_def]
  generalize val_main_v51 (F := Ideal) a2 = T
  rfl

/-- The rectifier after the edge convolution at (a, k). -/
theorem relu2_eq (a0 : (⟨S116x122, .f32⟩ : BufTy).Contents (Elt Ideal)) (a1 : (⟨S6670x5, .f32⟩ : BufTy).Contents (Elt Ideal)) (a2 : (⟨S2x6670, .i32⟩ : BufTy).Contents (Elt Ideal)) (a3 : (⟨S122x64, .f32⟩ : BufTy).Contents (Elt Ideal)) (a4 : (⟨S64, .f32⟩ : BufTy).Contents (Elt Ideal)) (a5 : (⟨S64x64, .f32⟩ : BufTy).Contents (Elt Ideal)) (a6 : (⟨S64, .f32⟩ : BufTy).Contents (Elt Ideal)) (a7 : (⟨S1x5, .f32⟩ : BufTy).Contents (Elt Ideal)) (a8 : (⟨S5x5, .f32⟩ : BufTy).Contents (Elt Ideal)) (a9 : (⟨S5, .f32⟩ : BufTy).Contents (Elt Ideal)) (a10 : (⟨S1x64, .f32⟩ : BufTy).Contents (Elt Ideal)) (a : Fin 6670) (k : Fin 5) :
    val_main_v92 (F := Ideal) a0 a1 a2 a3 a4 a5 a6 a7 a8 a9 a10 (ix2 a k)
      = Cert.Spec.relu (val_main_v91 (F := Ideal) a0 a1 a2 a3 a4 a5 a6 a7 a8 a9 a10 (ix2 a k)) := by
  rw [val_main_v92_apply, val_main_call2_v0_apply, val_main_call2_cst_apply]
  generalize val_main_v91 (F := Ideal) a0 a1 a2 a3 a4 a5 a6 a7 a8 a9 a10 (ix2 a k) = x
  simp only [Ideal.maximumf_def, Ideal.ofBits_def, Ideal.ofBits_zero_f32]
  rfl

/-- The second rectifier of the node features at (n, h). -/
theorem relu3_eq (a0 : (⟨S116x122, .f32⟩ : BufTy).Contents (Elt Ideal)) (a1 : (⟨S6670x5, .f32⟩ : BufTy).Contents (Elt Ideal)) (a2 : (⟨S2x6670, .i32⟩ : BufTy).Contents (Elt Ideal)) (a3 : (⟨S122x64, .f32⟩ : BufTy).Contents (Elt Ideal)) (a4 : (⟨S64, .f32⟩ : BufTy).Contents (Elt Ideal)) (a5 : (⟨S64x64, .f32⟩ : BufTy).Contents (Elt Ideal)) (a6 : (⟨S64, .f32⟩ : BufTy).Contents (Elt Ideal)) (a7 : (⟨S1x5, .f32⟩ : BufTy).Contents (Elt Ideal)) (n : Fin 116) (h : Fin 64) :
    val_main_v93 (F := Ideal) a0 a1 a2 a3 a4 a5 a6 a7 (ix2 n h)
      = Cert.Spec.relu (val_main_v70 (F := Ideal) a0 a1 a2 a3 a4 a5 a6 a7 (ix2 n h)) := by
  rw [val_main_v93_apply, val_main_call3_v0_apply, val_main_call3_cst_apply]
  generalize val_main_v70 (F := Ideal) a0 a1 a2 a3 a4 a5 a6 a7 (ix2 n h) = x
  simp only [Ideal.maximumf_def, Ideal.ofBits_def, Ideal.ofBits_zero_f32]
  rfl

end Cert.ReferenceIdeal.RefValue

end
-- ==== Proof.RefValue.NodeConv2.lean ====
/-
  The second node convolution of the reference, entry by entry: the same arrangement as the first, on the rectified
  node features and the edge features the edge convolution produced, with the second set of weights.
-/
import proofs.«143417_j3152505995417_1_alg».proof.Proof.Gen.ReferenceIdeal.Read
import proofs.«143417_j3152505995417_1_alg».proof.Proof.Spec
import proofs.«143417_j3152505995417_1_alg».proof.Proof.RefValue.Masks

noncomputable section

namespace Cert.ReferenceIdeal.RefValue

open Cert.ReferenceIdeal Cert.ReferenceIdeal.Gen Cert.ReferenceIdeal.Read Idealize.ShloMosaic Idealize.ShloMosaic.ValueIdx
open scoped BigOperators

/-- The second node convolution at (n, h), over any node features Hv and edge features He the two upstream stages are
    known to equal. -/
theorem nodeConv2_eq (a0 : (⟨S116x122, .f32⟩ : BufTy).Contents (Elt Ideal)) (a1 : (⟨S6670x5, .f32⟩ : BufTy).Contents (Elt Ideal)) (a2 : (⟨S2x6670, .i32⟩ : BufTy).Contents (Elt Ideal)) (a3 : (⟨S122x64, .f32⟩ : BufTy).Contents (Elt Ideal)) (a4 : (⟨S64, .f32⟩ : BufTy).Contents (Elt Ideal)) (a5 : (⟨S64x64, .f32⟩ : BufTy).Contents (Elt Ideal)) (a6 : (⟨S64, .f32⟩ : BufTy).Contents (Elt Ideal)) (a7 : (⟨S1x5, .f32⟩ : BufTy).Contents (Elt Ideal)) (a8 : (⟨S5x5, .f32⟩ : BufTy).Contents (Elt Ideal)) (a9 : (⟨S5, .f32⟩ : BufTy).Contents (Elt Ideal)) (a10 : (⟨S1x64, .f32⟩ : BufTy).Contents (Elt Ideal)) (a11 : (⟨S64x64, .f32⟩ : BufTy).Contents (Elt Ideal)) (a12 : (⟨S64, .f32⟩ : BufTy).Contents (Elt Ideal)) (a13 : (⟨S1x5, .f32⟩ : BufTy).Contents (Elt Ideal)) (Hv : Fin 116 → Fin 64 → EReal)
    (hHv : ∀ n k, val_main_v93 (F := Ideal) a0 a1 a2 a3 a4 a5 a6 a7 (ix2 n k) = Hv n k)
    (He : Fin 6670 → Fin 5 → EReal)
    (hHe : ∀ e k, val_main_v92 (F := Ideal) a0 a1 a2 a3 a4 a5 a6 a7 a8 a9 a10 (ix2 e k) = He e k) (n : Fin 116) (h : Fin 64) :
    val_main_v107 (F := Ideal) a0 a1 a2 a3 a4 a5 a6 a7 a8 a9 a10 a11 a12 a13 (ix2 n h)
      = Cert.Spec.nodeConv (fun n e => val_main_v51 (F := Ideal) a2 (ix2 n e)) Hv He
          (fun k h => a11 (ix2 k h)) (fun h => a12 (ix1 h)) (fun k => a13 (ix2 0 k)) n h := by
  have i106 : idx_main_v105 (idx_main_v106 (ix2 n h)) = ix1 h := funext fun a => Fin.ext (by match a with | ⟨0, _⟩ => rfl)
  have l104 : ∀ k : Fin 116, lidx_main_v104 (ix2 n h) k = ix2 n k := fun k => funext fun a => Fin.ext (by match a with | ⟨0, _⟩ => rfl | ⟨1, _⟩ => rfl)
  have r104 : ∀ k : Fin 116, ridx_main_v104 (ix2 n h) k = ix2 k h := fun k => funext fun a => Fin.ext (by match a with | ⟨0, _⟩ => rfl | ⟨1, _⟩ => rfl)
  have l103 : ∀ (m : Fin 116) (k : Fin 64), lidx_main_v103 (ix2 m h) k = ix2 m k := fun m k => funext fun a => Fin.ext (by match a with | ⟨0, _⟩ => rfl | ⟨1, _⟩ => rfl)
  have r103 : ∀ (m : Fin 116) (k : Fin 64), ridx_main_v103 (ix2 m h) k = ix2 k h := fun m k => funext fun a => Fin.ext (by match a with | ⟨0, _⟩ => rfl | ⟨1, _⟩ => rfl)
  have l101 : ∀ (m : Fin 116) (e : Fin 6670), lidx_main_v101 (ix2 n m) e = ix2 n e := fun m e => funext fun a => Fin.ext (by match a with | ⟨0, _⟩ => rfl | ⟨1, _⟩ => rfl)
  have r101 : ∀ (m : Fin 116) (e : Fin 6670), idx_main_v100 (ridx_main_v101 (ix2 n m) e) = ix2 m e := fun m e => funext fun a => Fin.ext (by match a with | ⟨0, _⟩ => rfl | ⟨1, _⟩ => rfl)
  have i98 : ∀ e : Fin 6670, idx_main_v96 (idx_main_v97 (idx_main_v98 (ix2 n e))) = ix2 e (0 : Fin 1) := fun e =>
    funext fun a => Fin.ext (by match a with | ⟨0, _⟩ => exact Nat.div_one _ | ⟨1, _⟩ => rfl)
  have l95 : ∀ (e : Fin 6670) (k : Fin 5), lidx_main_v95 (ix2 e (0 : Fin 1)) k = ix2 e k := fun e k => funext fun a => Fin.ext (by match a with | ⟨0, _⟩ => rfl | ⟨1, _⟩ => rfl)
  have r95 : ∀ (e : Fin 6670) (k : Fin 5), idx_main_v94 (ridx_main_v95 (ix2 e (0 : Fin 1)) k) = ix2 (0 : Fin 1) k :=
    fun e k => funext fun a => Fin.ext (by match a with | ⟨0, _⟩ => rfl | ⟨1, _⟩ => rfl)
  simp -implicitDefEqProofs only [val_main_v107_apply, val_main_v104_apply, val_main_v106_apply, val_main_v105_apply, i106, l104, r104,
    val_main_v103_apply, l103, r103, hHv, val_main_v102_apply, nodeMask_eq, val_main_v101_apply, l101,
    val_main_v100_apply, r101, val_main_v99_apply, val_main_v98_apply, val_main_v97_apply, val_main_v96_apply, i98,
    val_main_v95_apply, l95, hHe, val_main_v94_apply, r95, Ideal.addf_def, Ideal.mulf_def]
  generalize val_main_v51 (F := Ideal) a2 = T
  rfl

end Cert.ReferenceIdeal.RefValue

end
-- ==== Proof.RefValue.Head.lean ====
/-
  The end of the reference, entry by entry: the sum of each feature over the 116 nodes from the zero word, divided by
  the word of 116, through the classifier weights, plus the classifier bias: the specification's head of pooled.
-/
import proofs.«143417_j3152505995417_1_alg».proof.Proof.Gen.ReferenceIdeal.Read
import proofs.«143417_j3152505995417_1_alg».proof.Proof.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx
open scoped BigOperators

/-- The result at (0, o), over any node features y the second node convolution is known to equal. -/
theorem head_eq (a0 : (⟨S116x122, .f32⟩ : BufTy).Contents (Elt Ideal)) (a1 : (⟨S6670x5, .f32⟩ : BufTy).Contents (Elt Ideal)) (a2 : (⟨S2x6670, .i32⟩ : BufTy).Contents (Elt Ideal)) (a3 : (⟨S122x64, .f32⟩ : BufTy).Contents (Elt Ideal)) (a4 : (⟨S64, .f32⟩ : BufTy).Contents (Elt Ideal)) (a5 : (⟨S64x64, .f32⟩ : BufTy).Contents (Elt Ideal)) (a6 : (⟨S64, .f32⟩ : BufTy).Contents (Elt Ideal)) (a7 : (⟨S1x5, .f32⟩ : BufTy).Contents (Elt Ideal)) (a8 : (⟨S5x5, .f32⟩ : BufTy).Contents (Elt Ideal)) (a9 : (⟨S5, .f32⟩ : BufTy).Contents (Elt Ideal)) (a10 : (⟨S1x64, .f32⟩ : BufTy).Contents (Elt Ideal)) (a11 : (⟨S64x64, .f32⟩ : BufTy).Contents (Elt Ideal)) (a12 : (⟨S64, .f32⟩ : BufTy).Contents (Elt Ideal)) (a13 : (⟨S1x5, .f32⟩ : BufTy).Contents (Elt Ideal)) (a14 : (⟨S64x4, .f32⟩ : BufTy).Contents (Elt Ideal)) (a15 : (⟨S4, .f32⟩ : BufTy).Contents (Elt Ideal)) (y : Fin 116 → Fin 64 → EReal)
    (hy : ∀ n h, val_main_v107 (F := Ideal) a0 a1 a2 a3 a4 a5 a6 a7 a8 a9 a10 a11 a12 a13 (ix2 n h) = y n h) (o : Fin 4) :
    val_main_v114 (F := Ideal) a0 a1 a2 a3 a4 a5 a6 a7 a8 a9 a10 a11 a12 a13 a14 a15 (ix2 (0 : Fin 1) o)
      = Cert.Spec.head (Cert.Spec.pooled y) (fun h o => a14 (ix2 h o)) (fun o => a15 (ix1 o)) o := by
  have i113 : idx_main_v113 (ix2 (0 : Fin 1) o) = ix1 o := funext fun a => Fin.ext (by match a with | ⟨0, _⟩ => rfl)
  have l112 : ∀ h : Fin 64, lidx_main_v112 (ix2 (0 : Fin 1) o) h = ix2 (0 : Fin 1) h := fun h => funext fun a => Fin.ext (by match a with | ⟨0, _⟩ => rfl | ⟨1, _⟩ => rfl)
  have r112 : ∀ h : Fin 64, ridx_main_v112 (ix2 (0 : Fin 1) o) h = ix2 h o := fun h => funext fun a => Fin.ext (by match a with | ⟨0, _⟩ => rfl | ⟨1, _⟩ => rfl)
  have i109 : ∀ h : Fin 64, idx_main_v109 (ix2 (0 : Fin 1) h) = ix1 h := fun h => funext fun a => Fin.ext (by match a with | ⟨0, _⟩ => rfl)
  have i108 : ∀ (h : Fin 64) (n : Fin 116), idx_main_v108 (ix1 h) n = ix2 n h := fun h n => funext fun a => Fin.ext (by match a with | ⟨0, _⟩ => rfl | ⟨1, _⟩ => rfl)
  simp -implicitDefEqProofs only [val_main_v114_apply, val_main_v113_apply, i113, val_main_v112_apply, l112, r112, val_main_v111_apply,
    val_main_v110_apply, val_main_cst_16_apply, val_main_v109_apply, i109, val_main_v108_apply, i108, hy,
    val_main_cst_15_apply, Ideal.addf_def, Ideal.hostDivf_def, Ideal.ofBits_def, Ideal.ofBits_zero_f32, zero_add]
  rfl

end Cert.ReferenceIdeal.RefValue

end
-- ==== Proof.RefValue.lean ====
/-
  The reference computes the network of the specification.

  Stage by stage the reference's arrays are the specification's functions of the arrays before them: the encoding, the
  first node convolution and its rectifier, the rectified edge features, the edge convolution (masked adjacency, column
  maxima, quotients) and its rectifier, the second rectifier of the node features, the second node convolution, the mean
  over the nodes and the classifier head. Chained, the result at (0, o) is net at o, as a function of the incidence
  matrix the program builds from the edge list (kept as one array, never opened) and of the fifteen float arguments.
-/
import proofs.«143417_j3152505995417_1_alg».proof.Proof.RefValue.Encode
import proofs.«143417_j3152505995417_1_alg».proof.Proof.RefValue.NodeConv1
import proofs.«143417_j3152505995417_1_alg».proof.Proof.RefValue.EdgeConv
import proofs.«143417_j3152505995417_1_alg».proof.Proof.RefValue.NodeConv2
import proofs.«143417_j3152505995417_1_alg».proof.Proof.RefValue.Head

noncomputable section

namespace Cert.ReferenceIdeal.RefValue

open Cert.ReferenceIdeal Cert.ReferenceIdeal.Gen Cert.ReferenceIdeal.Read Idealize.ShloMosaic Idealize.ShloMosaic.ValueIdx
open scoped BigOperators

/-- The reference's result at (0, o) is the specification's network at o, of the incidence matrix and the arguments read
    entry by entry. -/
theorem result_eq (a0 : (⟨S116x122, .f32⟩ : BufTy).Contents (Elt Ideal)) (a1 : (⟨S6670x5, .f32⟩ : BufTy).Contents (Elt Ideal)) (a2 : (⟨S2x6670, .i32⟩ : BufTy).Contents (Elt Ideal)) (a3 : (⟨S122x64, .f32⟩ : BufTy).Contents (Elt Ideal)) (a4 : (⟨S64, .f32⟩ : BufTy).Contents (Elt Ideal)) (a5 : (⟨S64x64, .f32⟩ : BufTy).Contents (Elt Ideal)) (a6 : (⟨S64, .f32⟩ : BufTy).Contents (Elt Ideal)) (a7 : (⟨S1x5, .f32⟩ : BufTy).Contents (Elt Ideal)) (a8 : (⟨S5x5, .f32⟩ : BufTy).Contents (Elt Ideal)) (a9 : (⟨S5, .f32⟩ : BufTy).Contents (Elt Ideal)) (a10 : (⟨S1x64, .f32⟩ : BufTy).Contents (Elt Ideal)) (a11 : (⟨S64x64, .f32⟩ : BufTy).Contents (Elt Ideal)) (a12 : (⟨S64, .f32⟩ : BufTy).Contents (Elt Ideal)) (a13 : (⟨S1x5, .f32⟩ : BufTy).Contents (Elt Ideal)) (a14 : (⟨S64x4, .f32⟩ : BufTy).Contents (Elt Ideal)) (a15 : (⟨S4, .f32⟩ : BufTy).Contents (Elt Ideal)) (o : Fin 4) :
    val_main_v114 (F := Ideal) a0 a1 a2 a3 a4 a5 a6 a7 a8 a9 a10 a11 a12 a13 a14 a15 (ix2 (0 : Fin 1) o)
      = Cert.Spec.net (fun n e => val_main_v51 (F := Ideal) a2 (ix2 n e))
          (fun n k => a0 (ix2 n k)) (fun k h => a3 (ix2 k h)) (fun h => a4 (ix1 h))
          (fun k h => a5 (ix2 k h)) (fun h => a6 (ix1 h)) (fun k => a7 (ix2 0 k))
          (fun j k => a8 (ix2 j k)) (fun k => a9 (ix1 k)) (fun k => a10 (ix2 0 k))
          (fun k h => a11 (ix2 k h)) (fun h => a12 (ix1 h)) (fun k => a13 (ix2 0 k))
          (fun h o => a14 (ix2 h o)) (fun o => a15 (ix1 o)) (fun e k => a1 (ix2 e k)) o := by
  have hx1 : ∀ n h, val_main_v70 (F := Ideal) a0 a1 a2 a3 a4 a5 a6 a7 (ix2 n h) = (Cert.Spec.x1 (fun n e => val_main_v51 (F := Ideal) a2 (ix2 n e)) (fun n k => a0 (ix2 n k)) (fun k h => a3 (ix2 k h)) (fun h => a4 (ix1 h)) (fun k h => a5 (ix2 k h)) (fun h => a6 (ix1 h)) (fun k => a7 (ix2 0 k)) (fun e k => a1 (ix2 e k))) n h := fun n h =>
    (relu1_eq a0 a1 a2 a3 a4 a5 a6 a7 n h).trans (congrArg Cert.Spec.relu
      (nodeConv1_eq a0 a1 a2 a3 a4 a5 a6 a7 (Cert.Spec.encode (fun n k => a0 (ix2 n k)) (fun k h => a3 (ix2 k h)) (fun h => a4 (ix1 h))) (encode_eq a0 a3 a4) n h))
  have he0 : ∀ b j, val_main_v71 (F := Ideal) a1 (ix2 b j) = (fun b j => Cert.Spec.relu ((fun e k => a1 (ix2 e k)) b j)) b j :=
    reluEdge0_eq a1
  have he1 : ∀ a k, val_main_v92 (F := Ideal) a0 a1 a2 a3 a4 a5 a6 a7 a8 a9 a10 (ix2 a k)
      = Cert.Spec.e1 (fun n e => val_main_v51 (F := Ideal) a2 (ix2 n e)) (Cert.Spec.x1 (fun n e => val_main_v51 (F := Ideal) a2 (ix2 n e)) (fun n k => a0 (ix2 n k)) (fun k h => a3 (ix2 k h)) (fun h => a4 (ix1 h)) (fun k h => a5 (ix2 k h)) (fun h => a6 (ix1 h)) (fun k => a7 (ix2 0 k)) (fun e k => a1 (ix2 e k))) (fun j k => a8 (ix2 j k)) (fun k => a9 (ix1 k)) (fun k => a10 (ix2 0 k)) (fun e k => a1 (ix2 e k)) a k := fun a k =>
    (relu2_eq a0 a1 a2 a3 a4 a5 a6 a7 a8 a9 a10 a k).trans (congrArg Cert.Spec.relu
      (edgeConv_eq a0 a1 a2 a3 a4 a5 a6 a7 a8 a9 a10 (Cert.Spec.x1 (fun n e => val_main_v51 (F := Ideal) a2 (ix2 n e)) (fun n k => a0 (ix2 n k)) (fun k h => a3 (ix2 k h)) (fun h => a4 (ix1 h)) (fun k h => a5 (ix2 k h)) (fun h => a6 (ix1 h)) (fun k => a7 (ix2 0 k)) (fun e k => a1 (ix2 e k))) hx1 (fun b j => Cert.Spec.relu ((fun e k => a1 (ix2 e k)) b j)) he0 a k))
  have hx2 : ∀ n h, val_main_v93 (F := Ideal) a0 a1 a2 a3 a4 a5 a6 a7 (ix2 n h) = (fun n h => Cert.Spec.relu ((Cert.Spec.x1 (fun n e => val_main_v51 (F := Ideal) a2 (ix2 n e)) (fun n k => a0 (ix2 n k)) (fun k h => a3 (ix2 k h)) (fun h => a4 (ix1 h)) (fun k h => a5 (ix2 k h)) (fun h => a6 (ix1 h)) (fun k => a7 (ix2 0 k)) (fun e k => a1 (ix2 e k))) n h)) n h :=
    fun n h => (relu3_eq a0 a1 a2 a3 a4 a5 a6 a7 n h).trans (congrArg Cert.Spec.relu (hx1 n h))
  have hy := nodeConv2_eq a0 a1 a2 a3 a4 a5 a6 a7 a8 a9 a10 a11 a12 a13 _ hx2 _ he1
  exact head_eq a0 a1 a2 a3 a4 a5 a6 a7 a8 a9 a10 a11 a12 a13 a14 a15 _ hy o

/-- The same as a whole array: every entry of the 1 × 4 result is the network at its column. -/
theorem result_fun (a0 : (⟨S116x122, .f32⟩ : BufTy).Contents (Elt Ideal)) (a1 : (⟨S6670x5, .f32⟩ : BufTy).Contents (Elt Ideal)) (a2 : (⟨S2x6670, .i32⟩ : BufTy).Contents (Elt Ideal)) (a3 : (⟨S122x64, .f32⟩ : BufTy).Contents (Elt Ideal)) (a4 : (⟨S64, .f32⟩ : BufTy).Contents (Elt Ideal)) (a5 : (⟨S64x64, .f32⟩ : BufTy).Contents (Elt Ideal)) (a6 : (⟨S64, .f32⟩ : BufTy).Contents (Elt Ideal)) (a7 : (⟨S1x5, .f32⟩ : BufTy).Contents (Elt Ideal)) (a8 : (⟨S5x5, .f32⟩ : BufTy).Contents (Elt Ideal)) (a9 : (⟨S5, .f32⟩ : BufTy).Contents (Elt Ideal)) (a10 : (⟨S1x64, .f32⟩ : BufTy).Contents (Elt Ideal)) (a11 : (⟨S64x64, .f32⟩ : BufTy).Contents (Elt Ideal)) (a12 : (⟨S64, .f32⟩ : BufTy).Contents (Elt Ideal)) (a13 : (⟨S1x5, .f32⟩ : BufTy).Contents (Elt Ideal)) (a14 : (⟨S64x4, .f32⟩ : BufTy).Contents (Elt Ideal)) (a15 : (⟨S4, .f32⟩ : BufTy).Contents (Elt Ideal)) :
    val_main_v114 (F := Ideal) a0 a1 a2 a3 a4 a5 a6 a7 a8 a9 a10 a11 a12 a13 a14 a15
      = fun i : S1x4.Idx => Cert.Spec.net (fun n e => val_main_v51 (F := Ideal) a2 (ix2 n e))
          (fun n k => a0 (ix2 n k)) (fun k h => a3 (ix2 k h)) (fun h => a4 (ix1 h))
          (fun k h => a5 (ix2 k h)) (fun h => a6 (ix1 h)) (fun k => a7 (ix2 0 k))
          (fun j k => a8 (ix2 j k)) (fun k => a9 (ix1 k)) (fun k => a10 (ix2 0 k))
          (fun k h => a11 (ix2 k h)) (fun h => a12 (ix1 h)) (fun k => a13 (ix2 0 k))
          (fun h o => a14 (ix2 h o)) (fun o => a15 (ix1 o)) (fun e k => a1 (ix2 e k)) (i 1) := by
  funext i
  obtain ⟨p, q, rfl⟩ : ∃ (p : Fin 1) (q : Fin 4), i = ix2 p q := ⟨i 0, i 1, eq_ix2 i⟩
  obtain rfl : p = 0 := Subsingleton.elim p 0
  exact result_eq a0 a1 a2 a3 a4 a5 a6 a7 a8 a9 a10 a11 a12 a13 a14 a15 q

end Cert.ReferenceIdeal.RefValue

end
-- ==== Proof.lean ====
/-
  A graph network of two node convolutions around one edge convolution, as four fused kernels inside host code, against
  its plain array program.

  Both programs build the incidence matrix T of the graph from the edge list by the same two scatters.  A node
  convolution is A·(Hv·W) + b with A = (T·diag(d)·Tᵀ) off the diagonal and d = He·pᵀ; the edge convolution is
  (M / (colmax M + ε))·(He·W) + b with M = (Tᵀ·diag(dv)·T) off the diagonal and dv = Hv·pᵀ.  The kernel program runs the
  node convolutions as one grid point each and the edge convolution as two passes over 14 × 14 tiles of 512 edges,
  never forming the 6670 × 6670 matrix: a first pass folds the column maxima tile by tile into a scratch row, a second
  pass accumulates the normalised tile times the [512, 5] block of He·W into a scratch block.  The edges are padded
  from 6670 to 7168 with zero columns of T and zero rows of He.

  At the ideal instance every operation is exact on the extended reals, a change of float format is the identity, and
  the two programs compute the same function: sums are regrouped (associativity and commutativity of + alone), the
  off-diagonal mask is spelt as a product with 0/1 on one side and as a selection on the other, a padding column
  contributes a product with a zero row of He·W, and the large negative number the kernel starts its column maximum
  from and fills padding rows with never wins, because every true column contains its own diagonal entry 0.

  The frames: each region's proof data is stated at the buffer contents the region is entered from; the two passes of
  the edge convolution hand the padded matrix to two windows, each holding half of its buffer.
-/
import proofs.«143417_j3152505995417_1_alg».proof.Defs
import proofs.«143417_j3152505995417_1_alg».proof.Proof.Gen.Kernel
import proofs.«143417_j3152505995417_1_alg».proof.Proof.Gen.KernelIdeal
import proofs.«143417_j3152505995417_1_alg».proof.Proof.Gen.ReferenceIdeal
import proofs.«143417_j3152505995417_1_alg».proof.Proof.Gen.Pre_finite_inputs
import proofs.«143417_j3152505995417_1_alg».proof.Proof.Gen.ReferenceIdeal.Run
import proofs.«143417_j3152505995417_1_alg».proof.Proof.Gen.ReferenceIdeal.Read
import proofs.«143417_j3152505995417_1_alg».proof.Proof.FrameKernel.Segs
import proofs.«143417_j3152505995417_1_alg».proof.Proof.FrameKernelIdeal.Segs
import proofs.«143417_j3152505995417_1_alg».proof.Proof.KernelT
import proofs.«143417_j3152505995417_1_alg».proof.Proof.KernelValue4
import proofs.«143417_j3152505995417_1_alg».proof.Proof.KernelValue3
import proofs.«143417_j3152505995417_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : Cert.frame_Kernel := fun m ρ _ => Cert.Kernel.Hand.frame m ρ
/-- So does the idealized program. -/
theorem frame_ki : Cert.frame_KernelIdeal := fun m ρ _ => Cert.KernelIdeal.Hand.frame m ρ
/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)
/-- The idealization rewrote nothing. -/
theorem preserves : Cert.preserves_Kernel_KernelIdeal := trivial

open Cert.KernelIdeal.Hand in
/-- At the ideal instance both programs end with the specification's network of the arguments: the kernel program
    through its four regions and the host operations between them, the reference through its operations one by one;
    the two incidence matrices are one array, built by the same two scatters from the one edge list. -/
theorem algebraic : Cert.algebraic_KernelIdeal_ReferenceIdeal := by
  intro m ρ m' ρ' _ hagree
  refine ⟨fun c => Cert.KernelIdeal.Gen.V16 m (Cert.KernelIdeal.Hand.outs m) c Cert.KernelIdeal.main_v63,
    Cert.KernelIdeal.Hand.run_main m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  rw [Cert.ReferenceIdeal.Read.val_main_v114_eq, Cert.ReferenceIdeal.RefValue.result_fun,
    h0, h1, h2, h3, h4, h5, h6, h7, h8, h9, h10, h11, h12, h13, h14, h15]
  funext i
  obtain ⟨z, o, rfl⟩ : ∃ (z : Fin 1) (o : Fin 4), i = ValueIdx.ix2 z o := ⟨i 0, i 1, ValueIdx.eq_ix2 i⟩
  obtain rfl : z = 0 := Subsingleton.elim _ _
  show _ = Cert.KernelIdeal.Gen.V16 m (Cert.KernelIdeal.Hand.outs m) c Cert.KernelIdeal.main_v63 (ValueIdx.ix2 (0 : Fin 1) o)
  rw [Cert.KernelIdeal.Hand.kernel_result m c (Cert.KernelIdeal.Hand.v54_eq m c) (Cert.KernelIdeal.Hand.v55_eq m c) o]
  have hT : (fun n e => Cert.ReferenceIdeal.Read.val_main_v51 (F := Ideal) (m ((c.tc : Thread Cert.KernelIdeal.nD Cert.KernelIdeal.τ).loc Cert.KernelIdeal.main_arg2)) (ValueIdx.ix2 n e))
      = Cert.KernelIdeal.Hand.TK m c := by
    funext n e
    unfold Cert.KernelIdeal.Hand.TK
    rw [← Cert.KernelIdeal.Hand.W3_eq, Cert.KernelIdeal.HandValue.T_eq m c]
  rw [hT]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
